-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S2048x2048 : Shape := ⟨2, ![2048, 2048]⟩
abbrev S2x262144 : Shape := ⟨2, ![2, 262144]⟩
abbrev S256x261 : Shape := ⟨2, ![256, 261]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S256x261 : S_.BroadcastsInDim S256x261 (![] : Fin 0 → Fin S256x261.rank)
  reducesTo_S256x261_S_d0_1 : S256x261.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg1 : FVec F S2048x2048 .f32) (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_cst_14 : FVec F S_ .f32 := constant S_ .f32 0x00000000#32
  let main_v39 : FVec F S2048x2048 .f32 := broadcastInDim S2048x2048 ![] bcast_S_S2048x2048 main_cst_14
  let main_v40 : IVec S2048x2048 1 := cmpf .oeq main_arg1 main_v39
  let main_cst_15 : FVec F S_ .f32 := constant S_ .f32 0x3F800000#32
  let main_v41 : FVec F S2048x2048 .f32 := broadcastInDim S2048x2048 ![] bcast_S_S2048x2048 main_cst_15
  let main_v42 : IVec S2048x2048 1 := cmpf .oeq main_arg1 main_v41
  let main_v43 : IVec S2048x2048 1 := ori main_v40 main_v42
  let main_c_16 : IVec S_ 1 := constantI S_ 1 1#1
  let main_v44 : IVec S_ 1 := (fun x v => Host.reduce IntOp.andi x v reducesTo_S2048x2048_S_d0_1 h_S_) main_v43 main_c_16
  let main_v45 : IVec S_ 1 := andi main_v38 main_v44
  main_v45

def fn_part1 {F : FTy → Type} [FloatOps F] (main_arg1 : FVec F S2048x2048 .f32) (main_arg5 : FVec F S256x256 .f32) (main_arg6 : FVec F S256 .f32) (main_arg7 : FVec F S1x256 .f32) (main_arg8 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1x256 .f32 := Host.absf main_arg7
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg1 main_arg8 main_v33

def fn {F : FTy → Type} [FloatOps F] (main_arg0 : FVec F S2048x256 .f32) (main_arg1 : FVec F S2048x2048 .f32) (main_arg2 : IVec S2x262144 32) (main_arg3 : FVec F S256x261 .f32) (main_arg4 : FVec F S256 .f32) (main_arg5 : FVec F S256x256 .f32) (main_arg6 : FVec F S256 .f32) (main_arg7 : FVec F S1x256 .f32) (main_arg8 : FVec F S1 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S256x261 .f32 := Host.absf main_arg3
  let main_cst_2 : FVec F S_ .f32 := constant S_ .f32 0x7F800000#32
  let main_v10 : FVec F S256x261 .f32 := broadcastInDim S256x261 ![] bcast_S_S256x261 main_cst_2
  let main_v11 : IVec S256x261 1 := cmpf .olt main_v9 main_v10
  let main_c_3 : IVec S_ 1 := constantI S_ 1 1#1
  let main_v12 : IVec S_ 1 := (fun x v => Host.reduce IntOp.andi x v reducesTo_S256x261_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_v13 main_v16
-- ==== Kernel.lean ====
abbrev S2048x256 : Shape := ⟨2, ![2048, 256]⟩
abbrev S2048x2048 : Shape := ⟨2, ![2048, 2048]⟩
abbrev S2x262144 : Shape := ⟨2, ![2, 262144]⟩
abbrev S256x261 : Shape := ⟨2, ![256, 261]⟩
abbrev S256 : Shape := ⟨1, ![256]⟩
abbrev S256x256 : Shape := ⟨2, ![256, 256]⟩
abbrev S1x256 : Shape := ⟨2, ![1, 256]⟩
abbrev S1 : Shape := ⟨1, ![1]⟩
abbrev S512x2048 : Shape := ⟨2, ![512, 2048]⟩
abbrev S2048x512 : Shape := ⟨2, ![2048, 512]⟩
abbrev S512x512 : Shape := ⟨2, ![512, 512]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x2 : Shape := ⟨2, ![262144, 2]⟩
abbrev S262144x5 : Shape := ⟨2, ![262144, 5]⟩
abbrev S262144x8 : Shape := ⟨2, ![262144, 8]⟩
abbrev S262144x256 : Shape := ⟨2, ![262144, 256]⟩
abbrev S256x5 : Shape := ⟨2, ![256, 5]⟩
abbrev S5x256 : Shape := ⟨2, ![5, 256]⟩
abbrev S8x256 : Shape := ⟨2, ![8, 256]⟩
abbrev S256x1 : Shape := ⟨2, ![256, 1]⟩
abbrev S256x128 : Shape := ⟨2, ![256, 128]⟩
abbrev S128 : Shape := ⟨1, ![128]⟩
abbrev S262144x128 : Shape := ⟨2, ![262144, 128]⟩
abbrev S4096x256 : Shape := ⟨2, ![4096, 256]⟩
abbrev S4096x8 : Shape := ⟨2, ![4096, 8]⟩
abbrev S4096x128 : Shape := ⟨2, ![4096, 128]⟩
abbrev S1x128 : Shape := ⟨2, ![1, 128]⟩

abbrev nBuf : Space → Nat
  | .hbm => 157
  | .vmem => 33
  | .smem => 0
  | _ => 0

abbrev hbmTy0_0 (i : Nat) : BufTy := match i % 128 with
  | 0 => ⟨S2048x256, .f32⟩
  | 1 => ⟨S2048x2048, .f32⟩
  | 2 => ⟨S2x262144, .i32⟩
  | 3 => ⟨S256x261, .f32⟩
  | 4 => ⟨S256, .f32⟩
  | 5 => ⟨S256x256, .f32⟩
  | 6 => ⟨S256, .f32⟩
  | 7 => ⟨S1x256, .f32⟩
  | 8 => ⟨S1, .f32⟩
  | 9 => ⟨S2048x2048, .bf16⟩
  | 10 => ⟨S2048x2048, .f32⟩
  | 11 => ⟨S2048x2048, .bf16⟩
  | 12 => ⟨S2048x2048, .f32⟩
  | 13 => ⟨S2048x2048, .f32⟩
  | 14 => ⟨S1x262144, .i32⟩
  | 15 => ⟨S262144, .i32⟩
  | 16 => ⟨S1x262144, .i32⟩
  | 17 => ⟨S262144, .i32⟩
  | 18 => ⟨S_, .i32⟩
  | 19 => ⟨S262144, .i32⟩
  | 20 => ⟨S262144, .i1⟩
  | 21 => ⟨S_, .i32⟩
  | 22 => ⟨S262144, .i32⟩
  | 23 => ⟨S262144, .i32⟩
  | 24 => ⟨S262144, .i32⟩
  | 25 => ⟨S_, .i32⟩
  | 26 => ⟨S262144, .i32⟩
  | 27 => ⟨S262144, .i1⟩
  | 28 => ⟨S_, .i32⟩
  | 29 => ⟨S262144, .i32⟩
  | 30 => ⟨S262144, .i32⟩
  | 31 => ⟨S262144, .i32⟩
  | 32 => ⟨S262144x1, .i32⟩
  | 33 => ⟨S262144x1, .i32⟩
  | 34 => ⟨S262144x2, .i32⟩
  | 35 => ⟨S262144, .f32⟩
  | 36 => ⟨S_, .i32⟩
  | 37 => ⟨S262144, .i32⟩
  | 38 => ⟨S262144, .i1⟩
  | 39 => ⟨S_, .i32⟩
  | 40 => ⟨S262144, .i32⟩
  | 41 => ⟨S262144, .i32⟩
  | 42 => ⟨S262144, .i32⟩
  | 43 => ⟨S_, .i32⟩
  | 44 => ⟨S262144, .i32⟩
  | 45 => ⟨S262144, .i1⟩
  | 46 => ⟨S_, .i32⟩
  | 47 => ⟨S262144, .i32⟩
  | 48 => ⟨S262144, .i32⟩
  | 49 => ⟨S262144, .i32⟩
  | 50 => ⟨S262144x1, .i32⟩
  | 51 => ⟨S262144x1, .i32⟩
  | 52 => ⟨S262144x2, .i32⟩
  | 53 => ⟨S262144, .f32⟩
  | 54 => ⟨S_, .i32⟩
  | 55 => ⟨S262144, .i32⟩
  | 56 => ⟨S262144, .i1⟩
  | 57 => ⟨S_, .i32⟩
  | 58 => ⟨S262144, .i32⟩
  | 59 => ⟨S262144, .i32⟩
  | 60 => ⟨S262144, .i32⟩
  | 61 => ⟨S_, .i32⟩
  | 62 => ⟨S262144, .i32⟩
  | 63 => ⟨S262144, .i1⟩
  | 64 => ⟨S_, .i32⟩
  | 65 => ⟨S262144, .i32⟩
  | 66 => ⟨S262144, .i32⟩
  | 67 => ⟨S262144, .i32⟩
  | 68 => ⟨S262144x1, .i32⟩
  | 69 => ⟨S262144x1, .i32⟩
  | 70 => ⟨S262144x2, .i32⟩
  | 71 => ⟨S262144, .f32⟩
  | 72 => ⟨S_, .i32⟩
  | 73 => ⟨S262144, .i32⟩
  | 74 => ⟨S262144, .i1⟩
  | 75 => ⟨S_, .i32⟩
  | 76 => ⟨S262144, .i32⟩
  | 77 => ⟨S262144, .i32⟩
  | 78 => ⟨S262144, .i32⟩
  | 79 => ⟨S_, .i32⟩
  | 80 => ⟨S262144, .i32⟩
  | 81 => ⟨S262144, .i1⟩
  | 82 => ⟨S_, .i32⟩
  | 83 => ⟨S262144, .i32⟩
  | 84 => ⟨S262144, .i32⟩
  | 85 => ⟨S262144, .i32⟩
  | 86 => ⟨S262144x1, .i32⟩
  | 87 => ⟨S262144x1, .i32⟩
  | 88 => ⟨S262144x2, .i32⟩
  | 89 => ⟨S262144, .f32⟩
  | 90 => ⟨S_, .i32⟩
  | 91 => ⟨S262144, .i32⟩
  | 92 => ⟨S262144, .i1⟩
  | 93 => ⟨S_, .i32⟩
  | 94 => ⟨S262144, .i32⟩
  | 95 => ⟨S262144, .i32⟩
  | 96 => ⟨S262144, .i32⟩
  | 97 => ⟨S_, .i32⟩
  | 98 => ⟨S262144, .i32⟩
  | 99 => ⟨S262144, .i1⟩
  | 100 => ⟨S_, .i32⟩
  | 101 => ⟨S262144, .i32⟩
  | 102 => ⟨S262144, .i32⟩
  | 103 => ⟨S262144, .i32⟩
  | 104 => ⟨S262144x1, .i32⟩
  | 105 => ⟨S262144x1, .i32⟩
  | 106 => ⟨S262144x2, .i32⟩
  | 107 => ⟨S262144, .f32⟩
  | 108 => ⟨S262144x1, .f32⟩
  | 109 => ⟨S262144x1, .f32⟩
  | 110 => ⟨S262144x1, .f32⟩
  | 111 => ⟨S262144x1, .f32⟩
  | 112 => ⟨S262144x1, .f32⟩
  | 113 => ⟨S262144x5, .f32⟩
  | 114 => ⟨S_, .i32⟩
  | 115 => ⟨S_, .f32⟩
  | 116 => ⟨S262144x8, .f32⟩
  | 117 => ⟨S_, .i32⟩
  | 118 => ⟨S262144, .i32⟩
  | 119 => ⟨S262144, .i1⟩
  | 120 => ⟨S_, .i32⟩
  | 121 => ⟨S262144, .i32⟩
  | 122 => ⟨S262144, .i32⟩
  | 123 => ⟨S262144, .i32⟩
  | 124 => ⟨S262144x1, .i32⟩
  | 125 => ⟨S262144x256, .f32⟩
  | 126 => ⟨S_, .i32⟩
  | 127 => ⟨S262144, .i32⟩
  | _ => ⟨S2048x256, .f32⟩

abbrev hbmTy0_1 (i : Nat) : BufTy := match i % 128 with
  | 0 => ⟨S262144, .i1⟩
  | 1 => ⟨S_, .i32⟩
  | 2 => ⟨S262144, .i32⟩
  | 3 => ⟨S262144, .i32⟩
  | 4 => ⟨S262144, .i32⟩
  | 5 => ⟨S262144x1, .i32⟩
  | 6 => ⟨S262144x256, .f32⟩
  | 7 => ⟨S262144x256, .f32⟩
  | 8 => ⟨S262144x256, .bf16⟩
  | 9 => ⟨S256x256, .f32⟩
  | 10 => ⟨S256x256, .f32⟩
  | 11 => ⟨S256x256, .bf16⟩
  | 12 => ⟨S256x5, .f32⟩
  | 13 => ⟨S5x256, .f32⟩
  | 14 => ⟨S_, .i32⟩
  | 15 => ⟨S_, .f32⟩
  | 16 => ⟨S8x256, .f32⟩
  | 17 => ⟨S256x256, .f32⟩
  | 18 => ⟨S256x256, .bf16⟩
  | 19 => ⟨S256x1, .f32⟩
  | 20 => ⟨S_, .i32⟩
  | 21 => ⟨S_, .f32⟩
  | 22 => ⟨S256x128, .f32⟩
  | 23 => ⟨S256x128, .bf16⟩
  | 24 => ⟨S_, .i32⟩
  | 25 => ⟨S_, .f32⟩
  | 26 => ⟨S128, .f32⟩
  | 27 => ⟨S262144x128, .f32⟩
  | 28 => ⟨S262144x1, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S2048x512, .bf16⟩
  | .local _ .vmem, ⟨15, _⟩ => ⟨S2048x512, .bf16⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S4096x256, .bf16⟩
  | .local _ .vmem, ⟨21, _⟩ => ⟨S4096x256, .bf16⟩
  | .local _ .vmem, ⟨22, _⟩ => ⟨S4096x8, .f32⟩
  | .local _ .vmem, ⟨23, _⟩ => ⟨S4096x8, .f32⟩
  | .local _ .vmem, ⟨24, _⟩ => ⟨S256x256, .bf16⟩
  | .local _ .vmem, ⟨25, _⟩ => ⟨S8x256, .f32⟩
  | .local _ .vmem, ⟨26, _⟩ => ⟨S256, .f32⟩
  | .local _ .vmem, ⟨27, _⟩ => ⟨S256x256, .bf16⟩
  | .local _ .vmem, ⟨28, _⟩ => ⟨S256, .f32⟩
  | .local _ .vmem, ⟨29, _⟩ => ⟨S256x128, .bf16⟩
  | .local _ .vmem, ⟨30, _⟩ => ⟨S128, .f32⟩
  | .local _ .vmem, ⟨31, _⟩ => ⟨S4096x128, .f32⟩
  | .local _ .vmem, ⟨32, _⟩ => ⟨S4096x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_c_12 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_13 : Ref sig .tc := ⟨.hbm, 79, rfl⟩
abbrev main_v54 : Ref sig .tc := ⟨.hbm, 80, rfl⟩
abbrev main_v55 : Ref sig .tc := ⟨.hbm, 81, rfl⟩
abbrev main_c_14 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_15 : Ref sig .tc := ⟨.hbm, 90, rfl⟩
abbrev main_v63 : Ref sig .tc := ⟨.hbm, 91, rfl⟩
abbrev main_v64 : Ref sig .tc := ⟨.hbm, 92, rfl⟩
abbrev main_c_16 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_17 : Ref sig .tc := ⟨.hbm, 97, rfl⟩
abbrev main_v68 : Ref sig .tc := ⟨.hbm, 98, rfl⟩
abbrev main_v69 : Ref sig .tc := ⟨.hbm, 99, rfl⟩
abbrev main_c_18 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_19 : Ref sig .tc := ⟨.hbm, 114, rfl⟩
abbrev main_call0_v0 : Ref sig .tc := ⟨.hbm, 115, rfl⟩
abbrev main_v83 : Ref sig .tc := ⟨.hbm, 116, rfl⟩
abbrev main_c_20 : Ref sig .tc := ⟨.hbm, 117, rfl⟩
abbrev main_v84 : Ref sig .tc := ⟨.hbm, 118, rfl⟩
abbrev main_v85 : Ref sig .tc := ⟨.hbm, 119, rfl⟩
abbrev main_c_21 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_22 : Ref sig .tc := ⟨.hbm, 126, rfl⟩
abbrev main_v91 : Ref sig .tc := ⟨.hbm, 127, rfl⟩
abbrev main_v92 : Ref sig .tc := ⟨.hbm, 128, rfl⟩
abbrev main_c_23 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_c_24 : Ref sig .tc := ⟨.hbm, 142, rfl⟩
abbrev main_call1_v0 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_25 : Ref sig .tc := ⟨.hbm, 148, rfl⟩
abbrev main_call2_v0 : Ref sig .tc := ⟨.hbm, 149, rfl⟩
abbrev main_v109 : Ref sig .tc := ⟨.hbm, 150, rfl⟩
abbrev main_v110 : Ref sig .tc := ⟨.hbm, 151, rfl⟩
abbrev main_c_26 : Ref sig .tc := ⟨.hbm, 152, rfl⟩
abbrev main_call3_v0 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg9_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem9_1 : DmaSem sig := 32

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x128 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4096x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  iota_S512x512_d0_w32 : S512x512.Iotas .tc 32 [0]
  iota_S512x512_d1_w32 : S512x512.Iotas .tc 32 [1]
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  concatenates_S262144x1_S262144x1_S262144x1_S262144x1_S262144x1_S262144x5_d1 : Shape.Concatenates [S262144x1, S262144x1, S262144x1, S262144x1, S262144x1] S262144x5 1
  pads_S262144x5_S262144x8_000_030 : S262144x5.Pads (![0, 0] : Fin 2 → Nat) ![0, 3] ![0, 0] S262144x8
  h_S_ : 0 < S_.numel
  slices_S256x261_S256x256_0_0 : S256x261.Slices ![0, 0] S256x256
  transposes_S256x256_S256x256_1_0 : S256x256.Transposes [1, 0] S256x256
  slices_S256x261_S256x5_0_256 : S256x261.Slices ![0, 256] S256x5
  transposes_S256x5_S5x256_1_0 : S256x5.Transposes [1, 0] S5x256
  pads_S5x256_S8x256_030_000 : S5x256.Pads (![0, 0] : Fin 2 → Nat) ![3, 0] ![0, 0] S8x256
  transposes_S1x256_S256x1_1_0 : S1x256.Transposes [1, 0] S256x1
  pads_S256x1_S256x128_000_01270 : S256x1.Pads (![0, 0] : Fin 2 → Nat) ![0, 127] ![0, 0] S256x128
  pads_S1_S128_01270 : S1.Pads (![0] : Fin 1 → Nat) ![127] ![0] S128
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  slices_S262144x128_S262144x1_0_0 : S262144x128.Slices ![0, 0] S262144x1
  dot_S512x2048_S2048x512_S512x512_1_0_0_1_n_n_wf : DotDims.WF S512x2048 S2048x512 S512x512 [1] [0] [0] [1] [] []
  gather_S2048x2048_S262144x2_S262144_n_01_n_n_01_1_11_wf : GatherDims.WF S2048x2048 S262144x2 S262144 [] [0, 1] [] [0, 1] [] 1 ![1, 1]
  gather_S2048x256_S262144x1_S262144x256_1_0_n_n_0_1_1256_wf : GatherDims.WF S2048x256 S262144x1 S262144x256 [1] [0] [] [0] [] 1 ![1, 256]
  dot_S4096x256_S256x256_S4096x256_1_0_0_1_n_n_wf : DotDims.WF S4096x256 S256x256 S4096x256 [1] [0] [0] [1] [] []
  dot_S4096x8_S8x256_S4096x256_1_0_0_1_n_n_wf : DotDims.WF S4096x8 S8x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .bf16 = 32 ∨ (Rect.block (s := S2048x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .bf16 = 32 ∨ (Rect.block (s := S2048x2048) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .f32 = 32 ∨ (Rect.block (s := S2048x2048) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x2048.size a
  hwx0_3 : ∀ i : grid0.Coords, EltTy.bits .f32 = 32 ∨ (Rect.block (s := S2048x2048) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S2048x2048.size a
  hwx0_4 : ∀ i : grid0.Coords, EltTy.bits .bf16 = 32 ∨ (Rect.block (s := S2048x2048) S512x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S2048x2048.size a
  hwx1_0 : ∀ i : grid1.Coords, EltTy.bits .bf16 = 32 ∨ (Rect.block (s := S2048x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S2048x2048.size a
  hwx1_1 : ∀ i : grid1.Coords, EltTy.bits .bf16 = 32 ∨ (Rect.block (s := S2048x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S2048x2048.size a
  hwx1_2 : ∀ i : grid1.Coords, EltTy.bits .bf16 = 32 ∨ (Rect.block (s := S2048x2048) S2048x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S2048x2048.size a
  hwx1_3 : ∀ i : grid1.Coords, EltTy.bits .f32 = 32 ∨ (Rect.block (s := S2048x2048) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S2048x2048.size a
  hwx1_4 : ∀ i : grid1.Coords, EltTy.bits .f32 = 32 ∨ (Rect.block (s := S2048x2048) S512x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S262144x256.size a
  hwx2_0 : ∀ i : grid2.Coords, EltTy.bits .bf16 = 32 ∨ (Rect.block (s := S262144x256) S4096x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x8.size a ≤ S262144x8.size a
  hwx2_1 : ∀ i : grid2.Coords, EltTy.bits .f32 = 32 ∨ (Rect.block (s := S262144x8) S4096x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8x256.size a ≤ S8x256.size a
  hwx2_3 : ∀ i : grid2.Coords, EltTy.bits .f32 = 32 ∨ (Rect.block (s := S8x256) S8x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256.size a ≤ S256.size a
  hwx2_6 : ∀ i : grid2.Coords, EltTy.bits .f32 = 32 ∨ (Rect.block (s := S256) S256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x128.size a ≤ S256x128.size a
  hwx2_7 : ∀ i : grid2.Coords, EltTy.bits .bf16 = 32 ∨ (Rect.block (s := S256x128) S256x128.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4096x128.size a ≤ S262144x128.size a
  hwx2_9 : ∀ i : grid2.Coords, EltTy.bits .f32 = 32 ∨ (Rect.block (s := S262144x128) S4096x128.size (cc2_transform_9 i) (hinb2_9 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def gather_S2048x2048_S262144x2_S262144_n_01_n_n_01_1_11 : GatherDims S2048x2048 S262144x2 S262144 where
  offsetDims := []
  collapsedSliceDims := [0, 1]
  operandBatchingDims := []
  startIndicesBatchingDims := []
  startIndexMap := [0, 1]
  indexVectorDim := 1
  sliceSizes := ![1, 1]
  wf := gather_S2048x2048_S262144x2_S262144_n_01_n_n_01_1_11_wf
def gather_S2048x256_S262144x1_S262144x256_1_0_n_n_0_1_1256 : GatherDims S2048x256 S262144x1 S262144x256 where
  offsetDims := [1]
  collapsedSliceDims := [0]
  operandBatchingDims := []
  startIndicesBatchingDims := []
  startIndexMap := [0]
  indexVectorDim := 1
  sliceSizes := ![1, 256]
  wf := gather_S2048x256_S262144x1_S262144x256_1_0_n_n_0_1_1256_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x8_S8x256_S4096x256_1_0_0_1_n_n : DotDims S4096x8 S8x256 S4096x256 where
  lhsContracting := [1]
  rhsContracting := [0]
  lhsNonContracting := [0]
  rhsNonContracting := [1]
  lhsBatch := []
  rhsBatch := []
  wf := dot_S4096x8_S8x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S2048x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S512x512.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_1) S512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v99) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S4096x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v102) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v105) S8x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v107) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg6) S256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v110) S256x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v111) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v112) S4096x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S2048x256 : Shape := ⟨2, ![2048, 256]⟩
abbrev S2048x2048 : Shape := ⟨2, ![2048, 2048]⟩
abbrev S2x262144 : Shape := ⟨2, ![2, 262144]⟩
abbrev S256x261 : Shape := ⟨2, ![256, 261]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x2 : Shape := ⟨2, ![262144, 2]⟩
abbrev S262144x5 : Shape := ⟨2, ![262144, 5]⟩
abbrev S262144x256 : Shape := ⟨2, ![262144, 256]⟩
abbrev S262144x261 : Shape := ⟨2, ![262144, 261]⟩
abbrev S261x256 : Shape := ⟨2, ![261, 256]⟩
abbrev S256x1 : Shape := ⟨2, ![256, 1]⟩
abbrev S1x1 : Shape := ⟨2, ![1, 1]⟩

abbrev nBuf : Space → Nat
  | .hbm => 181
  | .vmem => 0
  | .smem => 0
  | _ => 0

abbrev hbmTy0_0 (i : Nat) : BufTy := match i % 128 with
  | 0 => ⟨S2048x256, .f32⟩
  | 1 => ⟨S2048x2048, .f32⟩
  | 2 => ⟨S2x262144, .i32⟩
  | 3 => ⟨S256x261, .f32⟩
  | 4 => ⟨S256, .f32⟩
  | 5 => ⟨S256x256, .f32⟩
  | 6 => ⟨S256, .f32⟩
  | 7 => ⟨S1x256, .f32⟩
  | 8 => ⟨S1, .f32⟩
  | 9 => ⟨S1x262144, .i32⟩
  | 10 => ⟨S262144, .i32⟩
  | 11 => ⟨S1x262144, .i32⟩
  | 12 => ⟨S262144, .i32⟩
  | 13 => ⟨S2048x2048, .f32⟩
  | 14 => ⟨S2048x2048, .i32⟩
  | 15 => ⟨S2048x2048, .i32⟩
  | 16 => ⟨S_, .i32⟩
  | 17 => ⟨S2048x2048, .i32⟩
  | 18 => ⟨S2048x2048, .i32⟩
  | 19 => ⟨S2048x2048, .i1⟩
  | 20 => ⟨S2048x2048, .f32⟩
  | 21 => ⟨S_, .f32⟩
  | 22 => ⟨S2048x2048, .f32⟩
  | 23 => ⟨S2048x2048, .i1⟩
  | 24 => ⟨S_, .f32⟩
  | 25 => ⟨S2048x2048, .f32⟩
  | 26 => ⟨S2048x2048, .i1⟩
  | 27 => ⟨S2048x2048, .i1⟩
  | 28 => ⟨S_, .f32⟩
  | 29 => ⟨S2048x2048, .f32⟩
  | 30 => ⟨S2048x2048, .i1⟩
  | 31 => ⟨S2048x2048, .i1⟩
  | 32 => ⟨S_, .f32⟩
  | 33 => ⟨S_, .f32⟩
  | 34 => ⟨S2048x2048, .f32⟩
  | 35 => ⟨S2048x2048, .f32⟩
  | 36 => ⟨S2048x2048, .f32⟩
  | 37 => ⟨S2048x2048, .f32⟩
  | 38 => ⟨S2048x2048, .f32⟩
  | 39 => ⟨S2048x2048, .f32⟩
  | 40 => ⟨S_, .i32⟩
  | 41 => ⟨S262144, .i32⟩
  | 42 => ⟨S262144, .i1⟩
  | 43 => ⟨S_, .i32⟩
  | 44 => ⟨S262144, .i32⟩
  | 45 => ⟨S262144, .i32⟩
  | 46 => ⟨S262144, .i32⟩
  | 47 => ⟨S_, .i32⟩
  | 48 => ⟨S262144, .i32⟩
  | 49 => ⟨S262144, .i1⟩
  | 50 => ⟨S_, .i32⟩
  | 51 => ⟨S262144, .i32⟩
  | 52 => ⟨S262144, .i32⟩
  | 53 => ⟨S262144, .i32⟩
  | 54 => ⟨S262144x1, .i32⟩
  | 55 => ⟨S262144x1, .i32⟩
  | 56 => ⟨S262144x2, .i32⟩
  | 57 => ⟨S262144, .f32⟩
  | 58 => ⟨S_, .i32⟩
  | 59 => ⟨S262144, .i32⟩
  | 60 => ⟨S262144, .i1⟩
  | 61 => ⟨S_, .i32⟩
  | 62 => ⟨S262144, .i32⟩
  | 63 => ⟨S262144, .i32⟩
  | 64 => ⟨S262144, .i32⟩
  | 65 => ⟨S_, .i32⟩
  | 66 => ⟨S262144, .i32⟩
  | 67 => ⟨S262144, .i1⟩
  | 68 => ⟨S_, .i32⟩
  | 69 => ⟨S262144, .i32⟩
  | 70 => ⟨S262144, .i32⟩
  | 71 => ⟨S262144, .i32⟩
  | 72 => ⟨S262144x1, .i32⟩
  | 73 => ⟨S262144x1, .i32⟩
  | 74 => ⟨S262144x2, .i32⟩
  | 75 => ⟨S262144, .f32⟩
  | 76 => ⟨S_, .i32⟩
  | 77 => ⟨S262144, .i32⟩
  | 78 => ⟨S262144, .i1⟩
  | 79 => ⟨S_, .i32⟩
  | 80 => ⟨S262144, .i32⟩
  | 81 => ⟨S262144, .i32⟩
  | 82 => ⟨S262144, .i32⟩
  | 83 => ⟨S_, .i32⟩
  | 84 => ⟨S262144, .i32⟩
  | 85 => ⟨S262144, .i1⟩
  | 86 => ⟨S_, .i32⟩
  | 87 => ⟨S262144, .i32⟩
  | 88 => ⟨S262144, .i32⟩
  | 89 => ⟨S262144, .i32⟩
  | 90 => ⟨S262144x1, .i32⟩
  | 91 => ⟨S262144x1, .i32⟩
  | 92 => ⟨S262144x2, .i32⟩
  | 93 => ⟨S262144, .f32⟩
  | 94 => ⟨S_, .i32⟩
  | 95 => ⟨S262144, .i32⟩
  | 96 => ⟨S262144, .i1⟩
  | 97 => ⟨S_, .i32⟩
  | 98 => ⟨S262144, .i32⟩
  | 99 => ⟨S262144, .i32⟩
  | 100 => ⟨S262144, .i32⟩
  | 101 => ⟨S_, .i32⟩
  | 102 => ⟨S262144, .i32⟩
  | 103 => ⟨S262144, .i1⟩
  | 104 => ⟨S_, .i32⟩
  | 105 => ⟨S262144, .i32⟩
  | 106 => ⟨S262144, .i32⟩
  | 107 => ⟨S262144, .i32⟩
  | 108 => ⟨S262144x1, .i32⟩
  | 109 => ⟨S262144x1, .i32⟩
  | 110 => ⟨S262144x2, .i32⟩
  | 111 => ⟨S262144, .f32⟩
  | 112 => ⟨S_, .i32⟩
  | 113 => ⟨S262144, .i32⟩
  | 114 => ⟨S262144, .i1⟩
  | 115 => ⟨S_, .i32⟩
  | 116 => ⟨S262144, .i32⟩
  | 117 => ⟨S262144, .i32⟩
  | 118 => ⟨S262144, .i32⟩
  | 119 => ⟨S_, .i32⟩
  | 120 => ⟨S262144, .i32⟩
  | 121 => ⟨S262144, .i1⟩
  | 122 => ⟨S_, .i32⟩
  | 123 => ⟨S262144, .i32⟩
  | 124 => ⟨S262144, .i32⟩
  | 125 => ⟨S262144, .i32⟩
  | 126 => ⟨S262144x1, .i32⟩
  | 127 => ⟨S262144x1, .i32⟩
  | _ => ⟨S2048x256, .f32⟩

abbrev hbmTy0_1 (i : Nat) : BufTy := match i % 128 with
  | 0 => ⟨S262144x2, .i32⟩
  | 1 => ⟨S262144, .f32⟩
  | 2 => ⟨S262144x1, .f32⟩
  | 3 => ⟨S262144x1, .f32⟩
  | 4 => ⟨S262144x1, .f32⟩
  | 5 => ⟨S262144x1, .f32⟩
  | 6 => ⟨S262144x1, .f32⟩
  | 7 => ⟨S262144x5, .f32⟩
  | 8 => ⟨S1x262144, .i32⟩
  | 9 => ⟨S262144, .i32⟩
  | 10 => ⟨S1x262144, .i32⟩
  | 11 => ⟨S262144, .i32⟩
  | 12 => ⟨S_, .i32⟩
  | 13 => ⟨S262144, .i32⟩
  | 14 => ⟨S262144, .i1⟩
  | 15 => ⟨S_, .i32⟩
  | 16 => ⟨S262144, .i32⟩
  | 17 => ⟨S262144, .i32⟩
  | 18 => ⟨S262144, .i32⟩
  | 19 => ⟨S262144x1, .i32⟩
  | 20 => ⟨S262144x256, .f32⟩
  | 21 => ⟨S_, .i32⟩
  | 22 => ⟨S262144, .i32⟩
  | 23 => ⟨S262144, .i1⟩
  | 24 => ⟨S_, .i32⟩
  | 25 => ⟨S262144, .i32⟩
  | 26 => ⟨S262144, .i32⟩
  | 27 => ⟨S262144, .i32⟩
  | 28 => ⟨S262144x1, .i32⟩
  | 29 => ⟨S262144x256, .f32⟩
  | 30 => ⟨S262144x256, .f32⟩
  | 31 => ⟨S262144x261, .f32⟩
  | 32 => ⟨S261x256, .f32⟩
  | 33 => ⟨S262144x256, .f32⟩
  | 34 => ⟨S1x256, .f32⟩
  | 35 => ⟨S262144x256, .f32⟩
  | 36 => ⟨S262144x256, .f32⟩
  | 37 => ⟨S_, .f32⟩
  | 38 => ⟨S262144x256, .f32⟩
  | 39 => ⟨S262144x256, .f32⟩
  | 40 => ⟨S256x256, .f32⟩
  | 41 => ⟨S262144x256, .f32⟩
  | 42 => ⟨S1x256, .f32⟩
  | 43 => ⟨S262144x256, .f32⟩
  | 44 => ⟨S262144x256, .f32⟩
  | 45 => ⟨S_, .f32⟩
  | 46 => ⟨S262144x256, .f32⟩
  | 47 => ⟨S262144x256, .f32⟩
  | 48 => ⟨S256x1, .f32⟩
  | 49 => ⟨S262144x1, .f32⟩
  | 50 => ⟨S1x1, .f32⟩
  | 51 => ⟨S262144x1, .f32⟩
  | 52 => ⟨S262144x1, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_c_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_12 : Ref sig .tc := ⟨.hbm, 76, rfl⟩
abbrev main_v51 : Ref sig .tc := ⟨.hbm, 77, rfl⟩
abbrev main_v52 : Ref sig .tc := ⟨.hbm, 78, rfl⟩
abbrev main_c_13 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_14 : Ref sig .tc := ⟨.hbm, 83, rfl⟩
abbrev main_v56 : Ref sig .tc := ⟨.hbm, 84, rfl⟩
abbrev main_v57 : Ref sig .tc := ⟨.hbm, 85, rfl⟩
abbrev main_c_15 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_16 : Ref sig .tc := ⟨.hbm, 94, rfl⟩
abbrev main_v65 : Ref sig .tc := ⟨.hbm, 95, rfl⟩
abbrev main_v66 : Ref sig .tc := ⟨.hbm, 96, rfl⟩
abbrev main_c_17 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_18 : Ref sig .tc := ⟨.hbm, 101, rfl⟩
abbrev main_v70 : Ref sig .tc := ⟨.hbm, 102, rfl⟩
abbrev main_v71 : Ref sig .tc := ⟨.hbm, 103, rfl⟩
abbrev main_c_19 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_20 : Ref sig .tc := ⟨.hbm, 112, rfl⟩
abbrev main_v79 : Ref sig .tc := ⟨.hbm, 113, rfl⟩
abbrev main_v80 : Ref sig .tc := ⟨.hbm, 114, rfl⟩
abbrev main_c_21 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_22 : Ref sig .tc := ⟨.hbm, 119, rfl⟩
abbrev main_v84 : Ref sig .tc := ⟨.hbm, 120, rfl⟩
abbrev main_v85 : Ref sig .tc := ⟨.hbm, 121, rfl⟩
abbrev main_c_23 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_c_24 : Ref sig .tc := ⟨.hbm, 140, rfl⟩
abbrev main_v103 : Ref sig .tc := ⟨.hbm, 141, rfl⟩
abbrev main_v104 : Ref sig .tc := ⟨.hbm, 142, rfl⟩
abbrev main_c_25 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_26 : Ref sig .tc := ⟨.hbm, 149, rfl⟩
abbrev main_v110 : Ref sig .tc := ⟨.hbm, 150, rfl⟩
abbrev main_v111 : Ref sig .tc := ⟨.hbm, 151, rfl⟩
abbrev main_c_27 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_call1_cst : Ref sig .tc := ⟨.hbm, 165, rfl⟩
abbrev main_call1_v0 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_call2_cst : Ref sig .tc := ⟨.hbm, 173, rfl⟩
abbrev main_call2_v0 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S2048x2048 : S_.BroadcastsInDim S2048x2048 (![] : Fin 0 → Fin S2048x2048.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  concatenates_S262144x1_S262144x1_S262144x1_S262144x1_S262144x1_S262144x5_d1 : Shape.Concatenates [S262144x1, S262144x1, S262144x1, S262144x1, S262144x1] S262144x5 1
  concatenates_S262144x256_S262144x5_S262144x261_d1 : Shape.Concatenates [S262144x256, S262144x5] S262144x261 1
  transposes_S256x261_S261x256_1_0 : S256x261.Transposes [1, 0] S261x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  transposes_S256x256_S256x256_1_0 : S256x256.Transposes [1, 0] S256x256
  transposes_S1x256_S256x1_1_0 : S1x256.Transposes [1, 0] S256x1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  dot_S2048x2048_S2048x2048_S2048x2048_1_0_0_1_n_n_wf : DotDims.WF S2048x2048 S2048x2048 S2048x2048 [1] [0] [0] [1] [] []
  gather_S2048x2048_S262144x2_S262144_n_01_n_n_01_1_11_wf : GatherDims.WF S2048x2048 S262144x2 S262144 [] [0, 1] [] [0, 1] [] 1 ![1, 1]
  gather_S2048x256_S262144x1_S262144x256_1_0_n_n_0_1_1256_wf : GatherDims.WF S2048x256 S262144x1 S262144x256 [1] [0] [] [0] [] 1 ![1, 256]
  dot_S262144x261_S261x256_S262144x256_1_0_0_1_n_n_wf : DotDims.WF S262144x261 S261x256 S262144x256 [1] [0] [0] [1] [] []
  dot_S262144x256_S256x256_S262144x256_1_0_0_1_n_n_wf : DotDims.WF S262144x256 S256x256 S262144x256 [1] [0] [0] [1] [] []
  dot_S262144x256_S256x1_S262144x1_1_0_0_1_n_n_wf : DotDims.WF S262144x256 S256x1 S262144x1 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def gather_S2048x2048_S262144x2_S262144_n_01_n_n_01_1_11 : GatherDims S2048x2048 S262144x2 S262144 where
  offsetDims := []
  collapsedSliceDims := [0, 1]
  operandBatchingDims := []
  startIndicesBatchingDims := []
  startIndexMap := [0, 1]
  indexVectorDim := 1
  sliceSizes := ![1, 1]
  wf := gather_S2048x2048_S262144x2_S262144_n_01_n_n_01_1_11_wf
def gather_S2048x256_S262144x1_S262144x256_1_0_n_n_0_1_1256 : GatherDims S2048x256 S262144x1 S262144x256 where
  offsetDims := [1]
  collapsedSliceDims := [0]
  operandBatchingDims := []
  startIndicesBatchingDims := []
  startIndexMap := [0]
  indexVectorDim := 1
  sliceSizes := ![1, 256]
  wf := gather_S2048x256_S262144x1_S262144x256_1_0_n_n_0_1_1256_wf
def dot_S262144x261_S261x256_S262144x256_1_0_0_1_n_n : DotDims S262144x261 S261x256 S262144x256 where
  lhsContracting := [1]
  rhsContracting := [0]
  lhsNonContracting := [0]
  rhsNonContracting := [1]
  lhsBatch := []
  rhsBatch := []
  wf := dot_S262144x261_S261x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x1_S262144x1_1_0_0_1_n_n : DotDims S262144x256 S256x1 S262144x1 where
  lhsContracting := [1]
  rhsContracting := [0]
  lhsNonContracting := [0]
  rhsNonContracting := [1]
  lhsBatch := []
  rhsBatch := []
  wf := dot_S262144x256_S256x1_S262144x1_1_0_0_1_n_n_wf

class Facts : Prop extends Facts₀ where

variable [Facts]
-- ==== Proof.KRegion0Defs.lean ====
/-
  Region 0 (the product of the adjacency matrix with itself, with the two-hop mask computed beside it): what each
  window's staging buffer holds at a grid point, as functions of the arrays the region finds.

  The region reads a 512-row band of the matrix (window 0), a 512-column band of the same matrix (window 1) and the
  matching 512x512 tile of the float adjacency (window 2); it writes the tile of the product (window 3) and the tile of
  the mask (window 4).  Windows 0 and 1 are on one array, so each holds half of that array's share.
-/
import proofs.«121678_j3599182594335_2_alg».proof.Proof.Gen.Kernel.Launch
import proofs.«121678_j3599182594335_2_alg».proof.Proof.Gen.Kernel.Skeleton
import proofs.«121678_j3599182594335_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S512x2048 := Rect.unit (s := S512x2048) ![0, 0] S512x2048.size inb_S512x2048_S512x2048_0_0
abbrev rB0 : Rect S2048x512 := Rect.unit (s := S2048x512) ![0, 0] S2048x512.size inb_S2048x512_S2048x512_0_0
abbrev rT0 : Rect S512x512 := Rect.unit (s := S512x512) ![0, 0] S512x512.size inb_S512x512_S512x512_0_0

/-- The product tile the body leaves in window 3's buffer: one store of the whole tile. -/
def out0_3 (x0 : Vec F S512x2048 .bf16) (x1 : Vec F S2048x512 .bf16) : Vec F S512x512 .f32 :=
  View.canon [⟨rT0, k0_pay1 (View.ld x0 rA0) (View.ld x1 rB0)⟩]

/-- The mask tile the body leaves in window 4's buffer: one store of the whole tile; it depends on the point through
    the tile's row and column offsets. -/
def out0_4 (i : grid0.Coords) (x0 : Vec F S512x2048 .bf16) (x1 : Vec F S2048x512 .bf16) (x2 : Vec F S512x512 .f32) : Vec F S512x512 .bf16 :=
  View.canon [⟨rT0, k0_pay2 i (View.ld x0 rA0) (View.ld x1 rB0) (View.ld x2 rT0)⟩]

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (grid0.coords t) (iblk0 V c 0 t) (iblk0 V c 1 t) (iblk0 V c 2 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) :
    (dat0 V c).after 4 t = out0_4 (grid0.coords t) (iblk0 V c 0 t) (iblk0 V c 1 t) (iblk0 V c 2 t) := by dsimp only [dat0]

end

end Cert.Kernel.Fr

end
-- ==== Proof.KRegion1Defs.lean ====
/-
  Region 1 (two products sharing their right factor): what each window's staging buffer holds at a grid point, as
  functions of the arrays the region finds.

  The region reads a 512-row band of the adjacency matrix (window 0), a 512-row band of the two-hop mask (window 1) and a
  512-column band of the same mask (window 2); it writes the tile of adjacency times mask (window 3) and the tile of
  mask times mask (window 4).  Windows 1 and 2 are on one array, so each holds half of that array's share.
-/
import proofs.«121678_j3599182594335_2_alg».proof.Proof.Gen.Kernel.Launch
import proofs.«121678_j3599182594335_2_alg».proof.Proof.Gen.Kernel.Skeleton
import proofs.«121678_j3599182594335_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S512x2048 := Rect.unit (s := S512x2048) ![0, 0] S512x2048.size inb_S512x2048_S512x2048_0_0
abbrev rB1 : Rect S2048x512 := Rect.unit (s := S2048x512) ![0, 0] S2048x512.size inb_S2048x512_S2048x512_0_0
abbrev rT1 : Rect S512x512 := Rect.unit (s := S512x512) ![0, 0] S512x512.size inb_S512x512_S512x512_0_0

/-- The tile of (adjacency band) x (mask band) the body leaves in window 3's buffer. -/
def out1_3 (x0 : Vec F S512x2048 .bf16) (x2 : Vec F S2048x512 .bf16) : Vec F S512x512 .f32 :=
  View.canon [⟨rT1, k1_pay1 (View.ld x0 rA1) (View.ld x2 rB1)⟩]

/-- The tile of (mask band) x (mask band) the body leaves in window 4's buffer. -/
def out1_4 (x1 : Vec F S512x2048 .bf16) (x2 : Vec F S2048x512 .bf16) : Vec F S512x512 .f32 :=
  View.canon [⟨rT1, k1_pay2 (View.ld x1 rA1) (View.ld x2 rB1)⟩]

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 2 t)
    | ⟨4, _⟩ => out1_4 (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 2 t) := by dsimp only [dat1]
theorem after1_4 (c : Dev nD) (t : Fin cfg1.N) : (dat1 V c).after 4 t = out1_4 (iblk1 V c 1 t) (iblk1 V c 2 t) := by dsimp only [dat1]

end

end Cert.Kernel.Fr

end
-- ==== Proof.KRegion2Defs.lean ====
/-
  Region 2 (the three-layer perceptron over tiles of 4096 edges): what each window's staging buffer holds at a grid
  point, as functions of the arrays the region finds.

  Windows 0 and 1 are the tile of the products of the gathered node features and the tile of the structural features;
  windows 2 to 8 are the weights and biases, whole; window 9 is the tile of the padded result.  The arrays are distinct.
-/
import proofs.«121678_j3599182594335_2_alg».proof.Proof.Gen.Kernel.Launch
import proofs.«121678_j3599182594335_2_alg».proof.Proof.Gen.Kernel.Skeleton
import proofs.«121678_j3599182594335_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4096x256 := Rect.unit (s := S4096x256) ![0, 0] S4096x256.size inb_S4096x256_S4096x256_0_0
abbrev r2_1 : Rect S4096x8 := Rect.unit (s := S4096x8) ![0, 0] S4096x8.size inb_S4096x8_S4096x8_0_0
abbrev r2_2 : Rect S256x256 := Rect.unit (s := S256x256) ![0, 0] S256x256.size inb_S256x256_S256x256_0_0
abbrev r2_3 : Rect S8x256 := Rect.unit (s := S8x256) ![0, 0] S8x256.size inb_S8x256_S8x256_0_0
abbrev r2_4 : Rect S256 := Rect.unit (s := S256) ![0] S256.size inb_S256_S256_0
abbrev r2_7 : Rect S256x128 := Rect.unit (s := S256x128) ![0, 0] S256x128.size inb_S256x128_S256x128_0_0
abbrev r2_8 : Rect S128 := Rect.unit (s := S128) ![0] S128.size inb_S128_S128_0
abbrev r2_9 : Rect S4096x128 := Rect.unit (s := S4096x128) ![0, 0] S4096x128.size inb_S4096x128_S4096x128_0_0

/-- The result tile the body leaves in window 9's buffer: one store of the whole tile. -/
def out2_9 (x0 : Vec F S4096x256 .bf16) (x1 : Vec F S4096x8 .f32) (x2 : Vec F S256x256 .bf16) (x3 : Vec F S8x256 .f32)
    (x4 : Vec F S256 .f32) (x5 : Vec F S256x256 .bf16) (x6 : Vec F S256 .f32) (x7 : Vec F S256x128 .bf16) (x8 : Vec F S128 .f32) :
    Vec F S4096x128 .f32 :=
  View.canon [⟨r2_9, k2_pay1 (View.ld x0 r2_0) (View.ld x2 r2_2) (View.ld x1 r2_1) (View.ld x3 r2_3) (View.ld x4 r2_4)
    (View.ld x5 r2_2) (View.ld x6 r2_4) (View.ld x7 r2_7) (View.ld x8 r2_8)⟩]

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t)
        (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) :
    (dat2 V c).after 9 t = out2_9 (iblk2 V c 0 t) (iblk2 V c 1 t) (iblk2 V c 2 t) (iblk2 V c 3 t) (iblk2 V c 4 t) (iblk2 V c 5 t)
        (iblk2 V c 6 t) (iblk2 V c 7 t) (iblk2 V c 8 t) := by dsimp only [dat2]

end

end Cert.Kernel.Fr

end
-- ==== Proof.KRunFold.lean ====
/-
  The contents of the TensorCore's buffers at every boundary of the program: a fold from the launch memory through the
  host stretches and the three regions.

  A host stretch replaces the contents by what its operations compute.  A region replaces the contents of its output
  arrays by what its write-backs leave and keeps every other buffer: region 0 writes the product and the mask, region
  1 the two further products, region 2 the padded result.
-/
import proofs.«121678_j3599182594335_2_alg».proof.Proof.Gen.Kernel.Launch
import proofs.«121678_j3599182594335_2_alg».proof.Proof.Gen.Kernel.Skeleton
import proofs.«121678_j3599182594335_2_alg».proof.Proof.Gen.Kernel.Points
import proofs.«121678_j3599182594335_2_alg».proof.Proof.KRegion0Defs
import proofs.«121678_j3599182594335_2_alg».proof.Proof.KRegion1Defs
import proofs.«121678_j3599182594335_2_alg».proof.Proof.KRegion2Defs
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation with one TensorCore buffer replaced. -/
def upd (W : Valuation τ sig (Elt F)) (b : Ref sig .tc) (x : (Proc.devRef (τ := τ) .tc b).ty.Contents (Elt F)) : Valuation τ sig (Elt F) :=
  Function.update W (Proc.devRef .tc b) x

theorem upd_same (W : Valuation τ sig (Elt F)) (b : Ref sig .tc) (x) : upd W b x (Proc.devRef .tc b) = x := by
  unfold upd; exact Function.update_self ..

theorem upd_of_ne (W : Valuation τ sig (Elt F)) (b b' : Ref sig .tc) (x) (h : b' ≠ b) :
    upd W b x (Proc.devRef .tc b') = W (Proc.devRef .tc b') := by
  unfold upd; exact Function.update_of_ne (fun e => h (Proc.devRef_injective _ e)) ..

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit (region 1's entry): the product and the mask written. -/
def W2 (c : Dev nD) : Valuation τ sig (Elt F) :=
  upd (upd (W1 m ρ c) main_v1_0 ((dat0 (V1 m ρ) c).arrAt 3 cfg0.N)) main_v1_1 ((dat0 (V1 m ρ) c).arrAt 4 cfg0.N)
abbrev V2 : (c : Dev nD) → (b : Ref sig .tc) → Buf (Elt F) ((c : Thread nD τ).loc b) := fun c b => W2 m ρ c b
/-- At region 1's exit: the two further products written. -/
def W3 (c : Dev nD) : Valuation τ sig (Elt F) :=
  upd (upd (W2 m ρ c) main_v2_0 ((dat1 (V2 m ρ) c).arrAt 3 cfg1.N)) main_v2_1 ((dat1 (V2 m ρ) c).arrAt 4 cfg1.N)
/-- After the host stretches between region 1 and region 2 (region 2's entry). -/
abbrev W4 : Dev nD → Valuation τ sig (Elt F) := fun c => StableHlo.after hostOps2 (W3 m ρ c)
abbrev W5 : Dev nD → Valuation τ sig (Elt F) := fun c => StableHlo.after hostOps2_1 (W4 m ρ c)
abbrev W6 : Dev nD → Valuation τ sig (Elt F) := fun c => StableHlo.after hostOps2_2 (W5 m ρ c)
abbrev W7 : Dev nD → Valuation τ sig (Elt F) := fun c => StableHlo.after hostOps2_3 (W6 m ρ c)
abbrev W8 : Dev nD → Valuation τ sig (Elt F) := fun c => StableHlo.after hostOps2_4 (W7 m ρ c)
abbrev W9 : Dev nD → Valuation τ sig (Elt F) := fun c => StableHlo.after hostOps2_5 (W8 m ρ c)
abbrev W10 : Dev nD → Valuation τ sig (Elt F) := fun c => StableHlo.after hostOps2_6 (W9 m ρ c)
abbrev W11 : Dev nD → Valuation τ sig (Elt F) := fun c => StableHlo.after hostOps2_7 (W10 m ρ c)
abbrev V11 : (c : Dev nD) → (b : Ref sig .tc) → Buf (Elt F) ((c : Thread nD τ).loc b) := fun c b => W11 m ρ c b
/-- At region 2's exit: the padded result written. -/
def W12 (c : Dev nD) : Valuation τ sig (Elt F) :=
  upd (W11 m ρ c) main_v112 ((dat2 (V11 m ρ) c).arrAt 9 cfg2.N)
/-- After the last host stretch: the program's end. -/
abbrev W13 : Dev nD → Valuation τ sig (Elt F) := fun c => StableHlo.after hostOps3 (W12 m ρ c)

end Cert.Kernel.Fr

end
-- ==== Proof.KRunShare.lean ====
/-
  One array read through two windows: halving its ownership at a region's entry and joining the halves at the exit.

  Region 0 reads the bf16 adjacency through windows 0 and 1; region 1 reads the two-hop mask through windows 1 and 2.
  At the entry the buffers behind a region's arrays, each owned whole, are dealt to the windows: the shared buffer as
  a left and a right half, every other buffer whole.  At the exit an input window still holds its array's entry
  contents, so the two halves hold the same contents and join; the two output arrays hold what the write-backs left.
-/
import proofs.«121678_j3599182594335_2_alg».proof.Proof.Gen.Kernel.Launch
import proofs.«121678_j3599182594335_2_alg».proof.Proof.Gen.Kernel.Skeleton
import proofs.«121678_j3599182594335_2_alg».proof.Proof.Gen.Kernel.Points
import proofs.«121678_j3599182594335_2_alg».proof.Proof.KRunFold
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The buffers behind region 0's arrays: four of them. -/
theorem img0 : (Finset.univ.image (Pipeline.arrRef spec0) : Finset (Ref sig .tc)) = {main_v0, main_arg1, main_v1_0, main_v1_1} := by
  decide
/-- The buffers behind region 1's arrays: four of them. -/
theorem img1 : (Finset.univ.image (Pipeline.arrRef spec1) : Finset (Ref sig .tc)) = {main_v0, main_v1_1, main_v2_0, main_v2_1} := by
  decide

theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄) = iprop(
      (((c : Thread nD τ).loc main_v0) ↦{fullShare} X main_v0) ∗ (((c : Thread nD τ).loc main_arg1) ↦{fullShare} X main_arg1)
      ∗ (((c : Thread nD τ).loc main_v1_0) ↦{fullShare} X main_v1_0) ∗ (((c : Thread nD τ).loc main_v1_1) ↦{fullShare} X main_v1_1)) := by
  unfold Pipeline.arrBufs
  rw [img0, bigSep_insert (by decide), bigSep_insert (by decide), bigSep_insert (by decide), bigSep_singleton]
  rfl

theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄) = iprop(
      (((c : Thread nD τ).loc main_v0) ↦{fullShare} X main_v0) ∗ (((c : Thread nD τ).loc main_v1_1) ↦{fullShare} X main_v1_1)
      ∗ (((c : Thread nD τ).loc main_v2_0) ↦{fullShare} X main_v2_0) ∗ (((c : Thread nD τ).loc main_v2_1) ↦{fullShare} X main_v2_1)) := by
  unfold Pipeline.arrBufs
  rw [img1, bigSep_insert (by decide), bigSep_insert (by decide), bigSep_insert (by decide), bigSep_singleton]
  rfl

theorem arrays0_eq (c : Dev nD) (G : (w : Fin cfg0.W) → Buf (Elt F) ((cfg0.win w).arr.view.loc (c : Thread nD τ))) :
    ((dat0 V c).arrays G : sProp 𝕄) = iprop(
      (((c : Thread nD τ).loc main_v0) ↦{fullShare.left} G 0) ∗ (((c : Thread nD τ).loc main_v0) ↦{fullShare.right} G 1)
      ∗ (((c : Thread nD τ).loc main_arg1) ↦{fullShare} G 2) ∗ (((c : Thread nD τ).loc main_v1_0) ↦{fullShare} G 3)
      ∗ (((c : Thread nD τ).loc main_v1_1) ↦{fullShare} G 4)) := by
  unfold Dat.arrays
  rw [bigSep_W0, (arr_whole0 0).set_eq_univ, (arr_whole0 2).set_eq_univ, (arr_whole0 3).set_eq_univ, (arr_whole0 4).set_eq_univ]
  rfl

theorem arrays1_eq (c : Dev nD) (G : (w : Fin cfg1.W) → Buf (Elt F) ((cfg1.win w).arr.view.loc (c : Thread nD τ))) :
    ((dat1 V c).arrays G : sProp 𝕄) = iprop(
      (((c : Thread nD τ).loc main_v0) ↦{fullShare} G 0) ∗ (((c : Thread nD τ).loc main_v1_1) ↦{fullShare.left} G 1)
      ∗ (((c : Thread nD τ).loc main_v1_1) ↦{fullShare.right} G 2) ∗ (((c : Thread nD τ).loc main_v2_0) ↦{fullShare} G 3)
      ∗ (((c : Thread nD τ).loc main_v2_1) ↦{fullShare} G 4)) := by
  unfold Dat.arrays
  rw [bigSep_W1, (arr_whole1 0).set_eq_univ, (arr_whole1 1).set_eq_univ, (arr_whole1 3).set_eq_univ, (arr_whole1 4).set_eq_univ]
  rfl

/-- ENTRY of region 0: the core's unscoped buffers at `X` are region 0's arrays, each window's at its share and at the
    entry contents, and the buffers that are no array of the region. -/
theorem entry0 (c : Dev nD) :
    (unscopedBufs (Ix := Unit) (Name := ℕ) (U := UR sig nD τ) (Lvl := ℕ) c (V c) : sProp 𝕄)
      ⊢ iprop((dat0 V c).arrays ((dat0 V c).arrAt · 0)
        ∗ Pipeline.unscopedRest (Ix := Unit) (Name := ℕ) (U := UR sig nD τ) (Lvl := ℕ) spec0 c (V c)) := by
  rw [Pipeline.unscopedBufs_split₀ cfgs 0 winFacts₀0.arr_unscoped c (V c)]
  refine sep_mono ?_ .rfl
  rw [show (Pipeline.arrBufs (cfgs 0).spec c (V c) : sProp 𝕄) = Pipeline.arrBufs spec0 c (V c) from rfl, arrBufs0_eq, arrays0_eq]
  iintro ⟨H0, H1, H2, H3⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  isplitl [H2]; · iexact H2
  iexact H3

/-- EXIT of region 0: the arrays at their final contents and the other buffers as entered are the core's unscoped
    buffers at any contents `X'` that has the two output arrays at what the write-backs left and agrees with the entry
    contents elsewhere. -/
theorem exit0 (c : Dev nD) (X' : (b : Ref sig .tc) → Buf (Elt F) ((c : Thread nD τ).loc b))
    (h3 : X' main_v1_0 = (dat0 V c).arrAt 3 cfg0.N) (h4 : X' main_v1_1 = (dat0 V c).arrAt 4 cfg0.N)
    (hrest : ∀ b : Ref sig .tc, b ≠ main_v1_0 → b ≠ main_v1_1 → X' b = V c b) :
    iprop((dat0 V c).arrays ((dat0 V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c X' : sProp 𝕄) := by
  rw [Pipeline.unscopedBufs_split₀ cfgs 0 winFacts₀0.arr_unscoped c X']
  refine sep_mono ?_ (Entails.of_eq ?_)
  · rw [show (Pipeline.arrBufs (cfgs 0).spec c X' : sProp 𝕄) = Pipeline.arrBufs spec0 c X' from rfl, arrBufs0_eq, arrays0_eq,
      (dat0 V c).arrAt_in 0 rfl, (dat0 V c).arrAt_in 1 rfl, (dat0 V c).arrAt_in 2 rfl, h3, h4,
      hrest main_v0 (by decide) (by decide), hrest main_arg1 (by decide) (by decide)]
    iintro ⟨Hl, Hr, Hb, Hc, Hd⟩
    isplitl [Hl Hr]
    · iapply (pointsTo_share (PosShare.mem_left_op_right fullShare)).2
      isplitl [Hl]; · iexact Hl
      iexact Hr
    isplitl [Hb]; · iexact Hb
    isplitl [Hc]; · iexact Hc
    iexact Hd
  · unfold Pipeline.unscopedRest
    refine bigSep_congr fun b hb => ?_
    have hb' := (Finset.mem_sdiff.mp hb).2
    rw [img0] at hb'
    rw [hrest b (fun e => hb' (by rw [e]; decide)) (fun e => hb' (by rw [e]; decide))]

/-- ENTRY of region 1. -/
theorem entry1 (c : Dev nD) :
    (unscopedBufs (Ix := Unit) (Name := ℕ) (U := UR sig nD τ) (Lvl := ℕ) c (V c) : sProp 𝕄)
      ⊢ iprop((dat1 V c).arrays ((dat1 V c).arrAt · 0)
        ∗ Pipeline.unscopedRest (Ix := Unit) (Name := ℕ) (U := UR sig nD τ) (Lvl := ℕ) spec1 c (V c)) := by
  rw [Pipeline.unscopedBufs_split₀ cfgs 1 winFacts₀1.arr_unscoped c (V c)]
  refine sep_mono ?_ .rfl
  rw [show (Pipeline.arrBufs (cfgs 1).spec c (V c) : sProp 𝕄) = Pipeline.arrBufs spec1 c (V c) from rfl, arrBufs1_eq, arrays1_eq]
  iintro ⟨H0, H1, H2, H3⟩
  ihave H1' := (pointsTo_share (PosShare.mem_left_op_right fullShare)).1 $$ H1
  icases H1' with ⟨Hl, Hr⟩
  isplitl [H0]; · iexact H0
  isplitl [Hl]; · iexact Hl
  isplitl [Hr]; · iexact Hr
  isplitl [H2]; · iexact H2
  iexact H3

/-- EXIT of region 1. -/
theorem exit1 (c : Dev nD) (X' : (b : Ref sig .tc) → Buf (Elt F) ((c : Thread nD τ).loc b))
    (h3 : X' main_v2_0 = (dat1 V c).arrAt 3 cfg1.N) (h4 : X' main_v2_1 = (dat1 V c).arrAt 4 cfg1.N)
    (hrest : ∀ b : Ref sig .tc, b ≠ main_v2_0 → b ≠ main_v2_1 → X' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c X' : sProp 𝕄) := by
  rw [Pipeline.unscopedBufs_split₀ cfgs 1 winFacts₀1.arr_unscoped c X']
  refine sep_mono ?_ (Entails.of_eq ?_)
  · rw [show (Pipeline.arrBufs (cfgs 1).spec c X' : sProp 𝕄) = Pipeline.arrBufs spec1 c X' from rfl, arrBufs1_eq, arrays1_eq,
      (dat1 V c).arrAt_in 0 rfl, (dat1 V c).arrAt_in 1 rfl, (dat1 V c).arrAt_in 2 rfl, h3, h4,
      hrest main_v0 (by decide) (by decide), hrest main_v1_1 (by decide) (by decide)]
    iintro ⟨Ha, Hl, Hr, Hc, Hd⟩
    isplitl [Ha]; · iexact Ha
    isplitl [Hl Hr]
    · iapply (pointsTo_share (PosShare.mem_left_op_right fullShare)).2
      isplitl [Hl]; · iexact Hl
      iexact Hr
    isplitl [Hc]; · iexact Hc
    iexact Hd
  · unfold Pipeline.unscopedRest
    refine bigSep_congr fun b hb => ?_
    have hb' := (Finset.mem_sdiff.mp hb).2
    rw [img1] at hb'
    rw [hrest b (fun e => hb' (by rw [e]; decide)) (fun e => hb' (by rw [e]; decide))]

end

end Cert.Kernel.Fr

end
-- ==== Proof.KRegion0Body.lean ====
/-
  Region 0 (the product of the adjacency matrix with itself, with the two-hop mask beside it): the body at one grid
  point.

  Each of the three input windows' staging buffers holds, at every point, the block of its array that the point's
  index names, whether the block was fetched at that point or kept from the point before (the row band of window 0
  is fetched once per four points).  On whole staging buffers holding those blocks the body reads the three inputs,
  overwrites the whole product tile with the matrix product of the two bands, and overwrites the whole mask tile
  with the mask computed from the product, the adjacency tile and the tile's row and column offsets; what the two
  output buffers held before is read and discarded.  Together these give the pipeline's body obligation at a
  generic point.
-/
import proofs.«121678_j3599182594335_2_alg».proof.Proof.KRegion0Defs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Input window 0's staging buffer holds its block at every point, fetched there or kept from the point before: the
    window is an input, is never idle and is not cut, and the body leaves its block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1's staging buffer holds its block at every point, fetched there or kept from the point before: the
    window is an input, is never idle and is not cut, and the body leaves its block in place. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input window 2's staging buffer holds its block at every point, fetched there or kept from the point before: the
    window is an input, is never idle and is not cut, and the body leaves its block in place. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- One store of the whole tile covers the tile (at either element type). -/
theorem cover0_f32 (p : Vec F S512x512 .f32) (y : S512x512.Idx) :
    ∃ pc ∈ ([⟨rT0, p⟩] : List (View.Piece (Elt F) S512x512 .f32)), y ∈ pc.1.set :=
  View.cover_of_tiled [⟨rT0, p⟩] S512x512.size (by rfl) y
theorem cover0_bf16 (p : Vec F S512x512 .bf16) (y : S512x512.Idx) :
    ∃ pc ∈ ([⟨rT0, p⟩] : List (View.Piece (Elt F) S512x512 .bf16)), y ∈ pc.1.set :=
  View.cover_of_tiled [⟨rT0, p⟩] S512x512.size (by rfl) y

set_option maxHeartbeats 1000000 in
/-- The body on whole staging buffers: with the three input buffers at contents `x0`, `x1`, `x2` and the two output
    buffers at anything, it runs to the continuation with the inputs as they were and each output buffer wholly
    overwritten by its tile, a function of the inputs and of the grid point's coordinates.  What the output buffers held is
    read and not used. -/
theorem sound_kernel0 (c : Dev nD) (E : Set ℕ) (i : grid0.Coords)
    (arg2 : Memref sig .tc .vmem S512x2048 .bf16) (harg2 : arg2.IsWhole)
    (arg3 : Memref sig .tc .vmem S2048x512 .bf16) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .bf16) (harg6 : arg6.IsWhole)
    (x0 : Vec F S512x2048 .bf16) (x1 : Vec F S2048x512 .bf16) (x2 : Vec F S512x512 .f32) (K : PUnit → sProp 𝕄) :
    iprop(owns (c : Thread nD τ) arg2 fullShare x0
        ∗ owns (c : Thread nD τ) arg3 fullShare x1
        ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare (out0_3 x0 x1)
            ∗ owns (c : Thread nD τ) arg6 fullShare (out0_4 i x0 x1 x2)) -∗ K ⟨⟩))
      ⊢ wp frame (wpE (defs₀ (F := F)) Variants.none c none) E
          (cc0__a2_b2_kernel i arg2 harg2 arg3 harg3 arg4 harg4 arg5 harg5 arg6 harg6) K := by
  simp only [cc0__a2_b2_kernel_eq_skeleton]; unfold cc0__a2_b2_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_f32 _)
  iexists _; isplitr
  swap; · iexact H4
  ipureintro
  exact View.read_writes_eq_canon _ _ _ (cover0_bf16 _)

/-- What the body is handed at point `t`: the invariant, what the core owes, and each window's current staging buffer —
    an input's at what it holds then, an output's likewise (which for an output is whatever was there). -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back: the invariant and the debt at the next point, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input buffers hold their blocks, so the triple above applies at the point's staging
    buffers; the invariant and the debt are not touched and do not change from one point to the next. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation for region 0, at every point: its product over the five windows written out. -/
theorem body_obligation0 (c : Dev nD) : BodyObligation (dat0 (F := F) V c) (defs₀ (F := F)) Variants.none () Set.univ := fun t => by
  rw [bigSep_W0, bigSep_W0]
  exact sound_body0 V c t

end

end Cert.Kernel.Fr

end
-- ==== Proof.KRegion1Body.lean ====
/-
  Region 1 (two products sharing their right factor): the body at one grid point.

  Each of the three input windows' staging buffers holds, at every point, the block of its array that the point's
  index names, whether the block was fetched at that point or kept from the point before (the two row bands,
  windows 0 and 1, are fetched once per four points).  On whole staging buffers holding those blocks the body reads
  the adjacency band and the mask's column band and overwrites the whole first tile with their matrix product, then
  reads the mask's row band and the same column band again and overwrites the whole second tile with theirs; what
  the two output buffers held before is read and discarded.  Together these give the pipeline's body obligation at
  a generic point.
-/
import proofs.«121678_j3599182594335_2_alg».proof.Proof.KRegion1Defs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Input window 0's staging buffer holds its block at every point, fetched there or kept from the point before: the
    window is an input, is never idle and is not cut, and the body leaves its block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's staging buffer holds its block at every point, fetched there or kept from the point before: the
    window is an input, is never idle and is not cut, and the body leaves its block in place. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's staging buffer holds its block at every point, fetched there or kept from the point before: the
    window is an input, is never idle and is not cut, and the body leaves its block in place. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- One store of the whole tile covers the tile. -/
theorem cover1_f32 (p : Vec F S512x512 .f32) (y : S512x512.Idx) :
    ∃ pc ∈ ([⟨rT1, p⟩] : List (View.Piece (Elt F) S512x512 .f32)), y ∈ pc.1.set :=
  View.cover_of_tiled [⟨rT1, p⟩] S512x512.size (by rfl) y

set_option maxHeartbeats 1000000 in
/-- The body on whole staging buffers: with the three input buffers at contents `x0`, `x1`, `x2` and the two output
    buffers at anything, it runs to the continuation with the inputs as they were and each output buffer wholly
    overwritten by its tile, a function of the inputs.  What the output buffers held is
    read and not used. -/
theorem sound_kernel1 (c : Dev nD) (E : Set ℕ) (i : grid1.Coords)
    (arg2 : Memref sig .tc .vmem S512x2048 .bf16) (harg2 : arg2.IsWhole)
    (arg3 : Memref sig .tc .vmem S512x2048 .bf16) (harg3 : arg3.IsWhole)
    (arg4 : Memref sig .tc .vmem S2048x512 .bf16) (harg4 : arg4.IsWhole)
    (arg5 : Memref sig .tc .vmem S512x512 .f32) (harg5 : arg5.IsWhole)
    (arg6 : Memref sig .tc .vmem S512x512 .f32) (harg6 : arg6.IsWhole)
    (x0 : Vec F S512x2048 .bf16) (x1 : Vec F S512x2048 .bf16) (x2 : Vec F S2048x512 .bf16) (K : PUnit → sProp 𝕄) :
    iprop(owns (c : Thread nD τ) arg2 fullShare x0
        ∗ owns (c : Thread nD τ) arg3 fullShare x1
        ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare (out1_3 x0 x2)
            ∗ owns (c : Thread nD τ) arg6 fullShare (out1_4 x1 x2)) -∗ K ⟨⟩))
      ⊢ wp frame (wpE (defs₀ (F := F)) Variants.none c none) E
          (cc1__dual_matmul_kernel i arg2 harg2 arg3 harg3 arg4 harg4 arg5 harg5 arg6 harg6) K := by
  simp only [cc1__dual_matmul_kernel_eq_skeleton]; unfold cc1__dual_matmul_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_f32 _)
  iexists _; isplitr
  swap; · iexact H4
  ipureintro
  exact View.read_writes_eq_canon _ _ _ (cover1_f32 _)

/-- What the body is handed at point `t`: the invariant, what the core owes, and each window's current staging buffer —
    an input's at what it holds then, an output's likewise (which for an output is whatever was there). -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it hands back: the invariant and the debt at the next point, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the triple above applies at the point's staging
    buffers; the invariant and the debt are not touched and do not change from one point to the next. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation for region 1, at every point: its product over the five windows written out. -/
theorem body_obligation1 (c : Dev nD) : BodyObligation (dat1 (F := F) V c) (defs₀ (F := F)) Variants.none () Set.univ := fun t => by
  rw [bigSep_W1, bigSep_W1]
  exact sound_body1 V c t

end

end Cert.Kernel.Fr

end
-- ==== Proof.KRegion2Body.lean ====
/-
  Region 2 (the three-layer perceptron over tiles of 4096 edges): the body's obligation at every grid point.

  Each of the nine input windows' current staging buffer holds that window's block of its array at every point: the
  two tiles are fetched at every point, and a weight or a bias, fetched at the first point only, has one block, which
  the body leaves in place.  The body loads the nine buffers whole, computes the result tile as one function of them
  and stores it over the whole of the tenth buffer; so that buffer then reads as the function of the nine blocks, whatever
  it held before, and the nine others are as they were.
-/
import proofs.«121678_j3599182594335_2_alg».proof.Proof.KRegion2Defs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in an input window's buffer

An input window's current buffer holds its block at the point, fetched there or not (not fetched, the block index has
not moved and the body left the block in place), for any proof data over the arrays the region finds whose body
leaves the window's block as it was. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple -/

/-- The one store covers the result buffer: it is the buffer's whole rectangle. -/
theorem cover2_9 (p0 : Vec F S4096x128 .f32) (y : S4096x128.Idx) :
    ∃ pc ∈ ([⟨r2_9, p0⟩] : List (View.Piece (Elt F) S4096x128 .f32)), y ∈ pc.1.set :=
  View.cover_of_tiled [⟨r2_9, p0⟩] S4096x128.size (by rfl) y

set_option maxHeartbeats 1000000 in
/-- The body on ten whole buffers, the first nine reading `x0 … x8` and the tenth holding anything, runs to the
    continuation with the nine as they were and the tenth reading the result tile computed from `x0 … x8`. -/
theorem sound_kernel2 (c : Dev nD) (E : Set ℕ) (i : grid2.Coords)
    (arg1 : Memref sig .tc .vmem S4096x256 .bf16) (harg1 : arg1.IsWhole)
    (arg2 : Memref sig .tc .vmem S4096x8 .f32) (harg2 : arg2.IsWhole)
    (arg3 : Memref sig .tc .vmem S256x256 .bf16) (harg3 : arg3.IsWhole)
    (arg4 : Memref sig .tc .vmem S8x256 .f32) (harg4 : arg4.IsWhole)
    (arg5 : Memref sig .tc .vmem S256 .f32) (harg5 : arg5.IsWhole)
    (arg6 : Memref sig .tc .vmem S256x256 .bf16) (harg6 : arg6.IsWhole)
    (arg7 : Memref sig .tc .vmem S256 .f32) (harg7 : arg7.IsWhole)
    (arg8 : Memref sig .tc .vmem S256x128 .bf16) (harg8 : arg8.IsWhole)
    (arg9 : Memref sig .tc .vmem S128 .f32) (harg9 : arg9.IsWhole)
    (arg10 : Memref sig .tc .vmem S4096x128 .f32) (harg10 : arg10.IsWhole)
    (x0 : Vec F S4096x256 .bf16) (x1 : Vec F S4096x8 .f32) (x2 : Vec F S256x256 .bf16) (x3 : Vec F S8x256 .f32) (x4 : Vec F S256 .f32) (x5 : Vec F S256x256 .bf16) (x6 : Vec F S256 .f32) (x7 : Vec F S256x128 .bf16) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10) K := by
  simp only [cc2__mlp_kernel_eq_skeleton]; unfold cc2__mlp_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The input windows' buffers, for the region's proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the nine input buffers hold their windows' blocks, so the body's triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end

end Cert.Kernel.Fr

end
-- ==== Proof.KRunSegs.lean ====
/-
  The program's run as a list of segments: ten host stretches and three regions, each entered from the buffer contents
  the one before it left.

  Regions 0 and 1 read one array through two windows: at the entry that array's ownership is halved between the two
  windows, and at the exit the halves are joined again.  Every other array is held whole by its window.
-/
import proofs.«121678_j3599182594335_2_alg».proof.Proof.Gen.Kernel.Launch
import proofs.«121678_j3599182594335_2_alg».proof.Proof.Gen.Kernel.Skeleton
import proofs.«121678_j3599182594335_2_alg».proof.Proof.Gen.Kernel.Points
import proofs.«121678_j3599182594335_2_alg».proof.Proof.KRunFold
import proofs.«121678_j3599182594335_2_alg».proof.Proof.KRunShare
import proofs.«121678_j3599182594335_2_alg».proof.Proof.KRegion0Body
import proofs.«121678_j3599182594335_2_alg».proof.Proof.KRegion1Body
import proofs.«121678_j3599182594335_2_alg».proof.Proof.KRegion2Body
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 3) → (pcfgs (F := F) p).Adm := fun p => (cfgs p).toPCfg_adm

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V11 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor
theorem hostOps2_4_fresh : (hostOps2_4 : List (HloOp τ sig (Elt F))).Forall fun op => op.fresh = ∅ := by
  simp only [List.Forall]; repeat' constructor
theorem hostOps2_5_fresh : (hostOps2_5 : List (HloOp τ sig (Elt F))).Forall fun op => op.fresh = ∅ := by
  simp only [List.Forall]; repeat' constructor
theorem hostOps2_6_fresh : (hostOps2_6 : List (HloOp τ sig (Elt F))).Forall fun op => op.fresh = ∅ := by
  simp only [List.Forall]; repeat' constructor
theorem hostOps2_7_fresh : (hostOps2_7 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- The thread state at a boundary: every unscoped buffer at the boundary's contents, and `R`. -/
abbrev T (W : Dev nD → Valuation τ sig (Elt F)) (c : Dev nD) : sProp 𝕄 :=
  iprop(StableHlo.held (c : Thread nD τ) (Pipeline.ucRefs τ sig) (W c) ∗ R c)

set_option backward.isDefEq.respectTransparency.types false in
/-- REGION 0: entered from the contents `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := T (W1 m ρ) c
  post c := T (W2 m ρ) c
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry0 (V1 m ρ) c
    rw [show (unscopedBufs c (V1 m ρ c) : sProp 𝕄) = StableHlo.held (c : Thread nD τ) (Pipeline.ucRefs τ sig) (W1 m ρ c) from
      Pipeline.unscopedBufs_held c (W1 m ρ c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
          ∗ Pipeline.unscopedRest (Ix := Unit) (Name := ℕ) (U := UR sig nD τ) (Lvl := ℕ) spec0 c (V1 m ρ c))
        ⊢ (unscopedBufs (Ix := Unit) (Name := ℕ) (U := UR sig nD τ) (Lvl := ℕ) c (V2 m ρ c) : sProp 𝕄) := exit0 (V1 m ρ) c (V2 m ρ c)
      (by show W2 m ρ c (Proc.devRef .tc main_v1_0) = _
          unfold W2; rw [upd_of_ne _ _ _ _ (by decide), upd_same])
      (by show W2 m ρ c (Proc.devRef .tc main_v1_1) = _
          unfold W2; rw [upd_same])
      (fun b h0 h1 => by
        show W2 m ρ c (Proc.devRef .tc b) = W1 m ρ c (Proc.devRef .tc b)
        unfold W2; rw [upd_of_ne _ _ _ _ h1, upd_of_ne _ _ _ _ h0])
    rw [show (unscopedBufs c (V2 m ρ c) : sProp 𝕄) = StableHlo.held (c : Thread nD τ) (Pipeline.ucRefs τ sig) (W2 m ρ c) from
      Pipeline.unscopedBufs_held c (W2 m ρ c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from the contents `W2`, left at `W3`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := T (W2 m ρ) c
  post c := T (W3 m ρ) c
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 (V2 m ρ) c
    rw [show (unscopedBufs c (V2 m ρ c) : sProp 𝕄) = StableHlo.held (c : Thread nD τ) (Pipeline.ucRefs τ sig) (W2 m ρ c) from
      Pipeline.unscopedBufs_held c (W2 m ρ c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (unscopedBufs (Ix := Unit) (Name := ℕ) (U := UR sig nD τ) (Lvl := ℕ) c (fun b => W3 m ρ c b) : sProp 𝕄) := exit1 (V2 m ρ) c (fun b => W3 m ρ c b)
      (by show W3 m ρ c (Proc.devRef .tc main_v2_0) = _
          unfold W3; rw [upd_of_ne _ _ _ _ (by decide), upd_same])
      (by show W3 m ρ c (Proc.devRef .tc main_v2_1) = _
          unfold W3; rw [upd_same])
      (fun b h0 h1 => by
        show W3 m ρ c (Proc.devRef .tc b) = W2 m ρ c (Proc.devRef .tc b)
        unfold W3; rw [upd_of_ne _ _ _ _ h1, upd_of_ne _ _ _ _ h0])
    rw [show (unscopedBufs c (fun b => W3 m ρ c b) : sProp 𝕄) = StableHlo.held (c : Thread nD τ) (Pipeline.ucRefs τ sig) (W3 m ρ c) from
      Pipeline.unscopedBufs_held c (W3 m ρ c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves, and every other buffer what it held at entry. -/
theorem hF2 (c : Dev nD) (w : Fin cfg2.W) :
    (dat2 (V11 m ρ) c).arrAt w cfg2.N = (fun b : Ref sig .tc => W12 m ρ c b) (Pipeline.arrRef spec2 w) := by
  have hin : ∀ (w : Fin cfg2.W) (b : Ref sig .tc), (cfg2.win w).isOut = false → Pipeline.arrRef spec2 w = b → b ≠ main_v112 →
      (dat2 (V11 m ρ) c).arrAt w cfg2.N = (fun b : Ref sig .tc => W12 m ρ c b) (Pipeline.arrRef spec2 w) := fun w b hw hb hne => by
    rw [(dat2 (V11 m ρ) c).arrAt_in w hw]
    show V11 m ρ c (Pipeline.arrRef spec2 w) = W12 m ρ c (Proc.devRef .tc (Pipeline.arrRef spec2 w))
    unfold W12; rw [upd_of_ne _ _ _ _ (hb ▸ hne)]
  match w with
  | ⟨0, _⟩ => exact hin 0 main_v99 rfl rfl (by decide)
  | ⟨1, _⟩ => exact hin 1 main_v83 rfl rfl (by decide)
  | ⟨2, _⟩ => exact hin 2 main_v102 rfl rfl (by decide)
  | ⟨3, _⟩ => exact hin 3 main_v105 rfl rfl (by decide)
  | ⟨4, _⟩ => exact hin 4 main_arg4 rfl rfl (by decide)
  | ⟨5, _⟩ => exact hin 5 main_v107 rfl rfl (by decide)
  | ⟨6, _⟩ => exact hin 6 main_arg6 rfl rfl (by decide)
  | ⟨7, _⟩ => exact hin 7 main_v110 rfl rfl (by decide)
  | ⟨8, _⟩ => exact hin 8 main_v111 rfl rfl (by decide)
  | ⟨9, _⟩ =>
    show _ = W12 m ρ c (Proc.devRef .tc main_v112)
    unfold W12; rw [upd_same]; rfl

theorem hrest2 (c : Dev nD) : ∀ b, b ∉ Finset.univ.image (Pipeline.arrRef spec2) →
    (fun b : Ref sig .tc => W12 m ρ c b) b = V11 m ρ c b := fun b hb => by
  show W12 m ρ c (Proc.devRef .tc b) = W11 m ρ c (Proc.devRef .tc b)
  unfold W12
  rw [upd_of_ne _ _ _ _ (fun e => hb (Finset.mem_image.mpr ⟨9, Finset.mem_univ _, e.symm⟩))]

set_option backward.isDefEq.respectTransparency.types false in
/-- REGION 2: entered from the contents `W11`, left at `W12`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := T (W11 m ρ) c
  post c := T (W12 m ρ) c
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (fun b => W12 m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's 13 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .host (hseg hostOps2_3 hostOps2_3_sub hostOps2_3_fresh (W6 m ρ)),
    .host (hseg hostOps2_4 hostOps2_4_sub hostOps2_4_fresh (W7 m ρ)),
    .host (hseg hostOps2_5 hostOps2_5_sub hostOps2_5_fresh (W8 m ρ)),
    .host (hseg hostOps2_6 hostOps2_6_sub hostOps2_6_fresh (W9 m ρ)),
    .host (hseg hostOps2_7 hostOps2_7_sub hostOps2_7_fresh (W10 m ρ)),
    .region (reg2 m ρ),
    .host (hseg hostOps3 hostOps3_sub hostOps3_fresh (W12 m ρ)) ]

/-- @main IS the run of the segments. -/
theorem main_run (c : Dev nD) : main (F := F) c = Pipeline.Seg.run (segs m ρ) := (main_chain c).trans (by chain_rfl)

end Cert.Kernel.Fr

end
-- ==== Proof.KRunMain.lean ====
/-
  The program's run: every weakly fair execution terminates, nothing faulting, and every final state holds each
  unscoped buffer at the last boundary's contents of the fold; no host operation and no region writes an argument
  array, so the arguments end as launched.
-/
import proofs.«121678_j3599182594335_2_alg».proof.Proof.Gen.Kernel.Launch
import proofs.«121678_j3599182594335_2_alg».proof.Proof.Gen.Kernel.Skeleton
import proofs.«121678_j3599182594335_2_alg».proof.Proof.Gen.Kernel.Points
import proofs.«121678_j3599182594335_2_alg».proof.Proof.KRunSegs
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last thread state: every unscoped buffer at the last boundary's contents, the generator register at some state. -/
abbrev Tₙ (c : Dev nD) : sProp 𝕄 := iprop(StableHlo.held (c : Thread nD τ) (Pipeline.ucRefs τ sig) (W13 m ρ c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, at any float instance: from any memory with zero counters every weakly fair execution of @main terminates,
    nothing faulting, with every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => T (W0 m ρ) c) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W13 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Cert.Kernel.Fr

end
-- ==== Proof.KRunArgs.lean ====
/-
  The argument arrays end as launched: no host operation and no region writes one, so the fold of the buffer
  contents, read at an argument, walks back to the launch memory.  With the run this gives the frame (the arguments
  unchanged) and the run with the result buffer at the fold's last contents.
-/
import proofs.«121678_j3599182594335_2_alg».proof.Proof.Gen.Kernel.Launch
import proofs.«121678_j3599182594335_2_alg».proof.Proof.Gen.Kernel.Skeleton
import proofs.«121678_j3599182594335_2_alg».proof.Proof.Gen.Kernel.Points
import proofs.«121678_j3599182594335_2_alg».proof.Proof.KRunFold
import proofs.«121678_j3599182594335_2_alg».proof.Proof.KRunMain
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's argument arrays. -/
abbrev argL : List (Ref sig .tc) :=
  [main_arg0, main_arg1, main_arg2, main_arg3, main_arg4, main_arg5, main_arg6, main_arg7, main_arg8]

/-- An argument is not a buffer outside the arguments. -/
theorem ne_of_arg (r : Ref sig .tc) (hr : r ∈ argL) (x : Ref sig .tc) (hx : x ∉ argL) : r ≠ x := fun e => hx (e ▸ hr)

/-! ## No host operation writes an argument: every operation's result buffer is outside the arguments -/

theorem nw_hostOps0 (r : Ref sig .tc) (hr : r ∈ argL) :
    ∀ op ∈ (hostOps0 : List (HloOp τ sig (Elt F))), Proc.devRef .tc r ∉ op.writes :=
  List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))
set_option maxHeartbeats 4000000 in
theorem nw_hostOps2 (r : Ref sig .tc) (hr : r ∈ argL) :
    ∀ op ∈ (hostOps2 : List (HloOp τ sig (Elt F))), Proc.devRef .tc r ∉ op.writes :=
  List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))
theorem nw_hostOps2_1 (r : Ref sig .tc) (hr : r ∈ argL) :
    ∀ op ∈ (hostOps2_1 : List (HloOp τ sig (Elt F))), Proc.devRef .tc r ∉ op.writes :=
  List.forall_iff_forall_mem.mp (by
    simp only [hostOps2_1, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))
theorem nw_hostOps2_2 (r : Ref sig .tc) (hr : r ∈ argL) :
    ∀ op ∈ (hostOps2_2 : List (HloOp τ sig (Elt F))), Proc.devRef .tc r ∉ op.writes :=
  List.forall_iff_forall_mem.mp (by
    simp only [hostOps2_2, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))
theorem nw_hostOps2_3 (r : Ref sig .tc) (hr : r ∈ argL) :
    ∀ op ∈ (hostOps2_3 : List (HloOp τ sig (Elt F))), Proc.devRef .tc r ∉ op.writes :=
  List.forall_iff_forall_mem.mp (by
    simp only [hostOps2_3, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))
theorem nw_hostOps2_4 (r : Ref sig .tc) (hr : r ∈ argL) :
    ∀ op ∈ (hostOps2_4 : List (HloOp τ sig (Elt F))), Proc.devRef .tc r ∉ op.writes :=
  List.forall_iff_forall_mem.mp (by
    simp only [hostOps2_4, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))
theorem nw_hostOps2_5 (r : Ref sig .tc) (hr : r ∈ argL) :
    ∀ op ∈ (hostOps2_5 : List (HloOp τ sig (Elt F))), Proc.devRef .tc r ∉ op.writes :=
  List.forall_iff_forall_mem.mp (by
    simp only [hostOps2_5, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))
theorem nw_hostOps2_6 (r : Ref sig .tc) (hr : r ∈ argL) :
    ∀ op ∈ (hostOps2_6 : List (HloOp τ sig (Elt F))), Proc.devRef .tc r ∉ op.writes :=
  List.forall_iff_forall_mem.mp (by
    simp only [hostOps2_6, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))
theorem nw_hostOps2_7 (r : Ref sig .tc) (hr : r ∈ argL) :
    ∀ op ∈ (hostOps2_7 : List (HloOp τ sig (Elt F))), Proc.devRef .tc r ∉ op.writes :=
  List.forall_iff_forall_mem.mp (by
    simp only [hostOps2_7, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))
theorem nw_hostOps3 (r : Ref sig .tc) (hr : r ∈ argL) :
    ∀ op ∈ (hostOps3 : List (HloOp τ sig (Elt F))), Proc.devRef .tc r ∉ op.writes :=
  List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))

/-! ## The fold at an argument walks back to the launch memory

A host stretch writes no argument; region 0 writes the product and the mask, region 1 the two further products,
region 2 the padded result, none of them an argument. -/

theorem W13_arg (r : Ref sig .tc) (hr : r ∈ argL) (c : Dev nD) :
    W13 m ρ c (Proc.devRef .tc r) = m ((c.tc : Thread nD τ).loc r) :=
  calc W13 m ρ c (Proc.devRef .tc r)
    _ = W12 m ρ c (Proc.devRef .tc r) := StableHlo.after_of_forall_not_mem hostOps3 _ (nw_hostOps3 r hr)
    _ = W11 m ρ c (Proc.devRef .tc r) := by
          unfold W12; rw [upd_of_ne _ _ _ _ (ne_of_arg r hr _ (by decide))]
    _ = W10 m ρ c (Proc.devRef .tc r) := StableHlo.after_of_forall_not_mem hostOps2_7 _ (nw_hostOps2_7 r hr)
    _ = W9 m ρ c (Proc.devRef .tc r) := StableHlo.after_of_forall_not_mem hostOps2_6 _ (nw_hostOps2_6 r hr)
    _ = W8 m ρ c (Proc.devRef .tc r) := StableHlo.after_of_forall_not_mem hostOps2_5 _ (nw_hostOps2_5 r hr)
    _ = W7 m ρ c (Proc.devRef .tc r) := StableHlo.after_of_forall_not_mem hostOps2_4 _ (nw_hostOps2_4 r hr)
    _ = W6 m ρ c (Proc.devRef .tc r) := StableHlo.after_of_forall_not_mem hostOps2_3 _ (nw_hostOps2_3 r hr)
    _ = W5 m ρ c (Proc.devRef .tc r) := StableHlo.after_of_forall_not_mem hostOps2_2 _ (nw_hostOps2_2 r hr)
    _ = W4 m ρ c (Proc.devRef .tc r) := StableHlo.after_of_forall_not_mem hostOps2_1 _ (nw_hostOps2_1 r hr)
    _ = W3 m ρ c (Proc.devRef .tc r) := StableHlo.after_of_forall_not_mem hostOps2 _ (nw_hostOps2 r hr)
    _ = W2 m ρ c (Proc.devRef .tc r) := by
          unfold W3; rw [upd_of_ne _ _ _ _ (ne_of_arg r hr _ (by decide)), upd_of_ne _ _ _ _ (ne_of_arg r hr _ (by decide))]
    _ = W1 m ρ c (Proc.devRef .tc r) := by
          unfold W2; rw [upd_of_ne _ _ _ _ (ne_of_arg r hr _ (by decide)), upd_of_ne _ _ _ _ (ne_of_arg r hr _ (by decide))]
    _ = W0 m ρ c (Proc.devRef .tc r) := StableHlo.after_of_forall_not_mem hostOps0 _ (nw_hostOps0 r hr)
    _ = m ((c.tc : Thread nD τ).loc r) := rfl

theorem W13_arg0 (c : Dev nD) : W13 m ρ c (Proc.devRef .tc main_arg0) = m ((c.tc : Thread nD τ).loc main_arg0) :=
  W13_arg m ρ main_arg0 (by decide) c
theorem W13_arg1 (c : Dev nD) : W13 m ρ c (Proc.devRef .tc main_arg1) = m ((c.tc : Thread nD τ).loc main_arg1) :=
  W13_arg m ρ main_arg1 (by decide) c
theorem W13_arg2 (c : Dev nD) : W13 m ρ c (Proc.devRef .tc main_arg2) = m ((c.tc : Thread nD τ).loc main_arg2) :=
  W13_arg m ρ main_arg2 (by decide) c
theorem W13_arg3 (c : Dev nD) : W13 m ρ c (Proc.devRef .tc main_arg3) = m ((c.tc : Thread nD τ).loc main_arg3) :=
  W13_arg m ρ main_arg3 (by decide) c
theorem W13_arg4 (c : Dev nD) : W13 m ρ c (Proc.devRef .tc main_arg4) = m ((c.tc : Thread nD τ).loc main_arg4) :=
  W13_arg m ρ main_arg4 (by decide) c
theorem W13_arg5 (c : Dev nD) : W13 m ρ c (Proc.devRef .tc main_arg5) = m ((c.tc : Thread nD τ).loc main_arg5) :=
  W13_arg m ρ main_arg5 (by decide) c
theorem W13_arg6 (c : Dev nD) : W13 m ρ c (Proc.devRef .tc main_arg6) = m ((c.tc : Thread nD τ).loc main_arg6) :=
  W13_arg m ρ main_arg6 (by decide) c
theorem W13_arg7 (c : Dev nD) : W13 m ρ c (Proc.devRef .tc main_arg7) = m ((c.tc : Thread nD τ).loc main_arg7) :=
  W13_arg m ρ main_arg7 (by decide) c
theorem W13_arg8 (c : Dev nD) : W13 m ρ c (Proc.devRef .tc main_arg8) = m ((c.tc : Thread nD τ).loc main_arg8) :=
  W13_arg m ρ main_arg8 (by decide) c

/-- THE FRAME: every weakly fair execution terminates, nothing faulting, and the argument arrays end as launched. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W13_arg0 m ρ c),
     (h c _ (mem_uc main_arg1 (by decide))).trans (W13_arg1 m ρ c),
     (h c _ (mem_uc main_arg2 (by decide))).trans (W13_arg2 m ρ c),
     (h c _ (mem_uc main_arg3 (by decide))).trans (W13_arg3 m ρ c),
     (h c _ (mem_uc main_arg4 (by decide))).trans (W13_arg4 m ρ c),
     (h c _ (mem_uc main_arg5 (by decide))).trans (W13_arg5 m ρ c),
     (h c _ (mem_uc main_arg6 (by decide))).trans (W13_arg6 m ρ c),
     (h c _ (mem_uc main_arg7 (by decide))).trans (W13_arg7 m ρ c),
     (h c _ (mem_uc main_arg8 (by decide))).trans (W13_arg8 m ρ c)⟩) (run_all m ρ)

/-- THE RUN WITH ITS RESULT: the result buffer ends at the fold's last contents, the arguments as launched. -/
theorem run_val : θ_run defs (onTc (τ := τ) (main (F := F))) ⟨m, fun _ => 0, ρ⟩ (fun r => ∀ c : Dev nD,
      r.2.mem ((c.tc : Thread nD τ).loc main_v113) = W13 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v113 (by decide)),
     (h c _ (mem_uc main_arg0 (by decide))).trans (W13_arg0 m ρ c),
     (h c _ (mem_uc main_arg1 (by decide))).trans (W13_arg1 m ρ c),
     (h c _ (mem_uc main_arg2 (by decide))).trans (W13_arg2 m ρ c),
     (h c _ (mem_uc main_arg3 (by decide))).trans (W13_arg3 m ρ c),
     (h c _ (mem_uc main_arg4 (by decide))).trans (W13_arg4 m ρ c),
     (h c _ (mem_uc main_arg5 (by decide))).trans (W13_arg5 m ρ c),
     (h c _ (mem_uc main_arg6 (by decide))).trans (W13_arg6 m ρ c),
     (h c _ (mem_uc main_arg7 (by decide))).trans (W13_arg7 m ρ c),
     (h c _ (mem_uc main_arg8 (by decide))).trans (W13_arg8 m ρ c)⟩) (run_all m ρ)

end Cert.Kernel.Fr

end
-- ==== Proof.FrameK.lean ====
/-
  The word-level kernel's frame claim: at the bit-exact float instance, from any launch memory of which the
  precondition holds, every weakly fair execution terminates, nothing faulting, and the nine argument arrays end as
  launched.  The run is proved once for any float instance (the word-level kernel's printed text is the idealized
  kernel's, and the frame argument never looks at a float value); here it is read at the bit-exact instance.
  The precondition is not used: the run and the arguments' preservation hold from every launch memory.
-/
import proofs.«121678_j3599182594335_2_alg».proof.Defs
import proofs.«121678_j3599182594335_2_alg».proof.Proof.KRunArgs

set_option maxRecDepth 16384

noncomputable section

namespace Cert.Proof

open Idealize.ShloMosaic Idealize.SL.Sem

theorem frameK [hKernel : Cert.Kernel.Facts] [hPre_finite_inputs : Cert.Pre_finite_inputs.Facts] :
    Cert.frame_Kernel :=
  fun m ρ _ => Cert.Kernel.Fr.run_frame (F := Bits) m ρ

end Cert.Proof

end
-- ==== Proof.Region0Defs.lean ====
/-
  Region 0 (the product of the adjacency matrix with itself, with the two-hop mask computed beside it): what each
  window's staging buffer holds at a grid point, as functions of the arrays the region finds.

  The region reads a 512-row band of the matrix (window 0), a 512-column band of the same matrix (window 1) and the
  matching 512x512 tile of the float adjacency (window 2); it writes the tile of the product (window 3) and the tile of
  the mask (window 4).  Windows 0 and 1 are on one array, so each holds half of that array's share.
-/
import proofs.«121678_j3599182594335_2_alg».proof.Proof.Gen.KernelIdeal.Launch
import proofs.«121678_j3599182594335_2_alg».proof.Proof.Gen.KernelIdeal.Skeleton
import proofs.«121678_j3599182594335_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S512x2048 := Rect.unit (s := S512x2048) ![0, 0] S512x2048.size inb_S512x2048_S512x2048_0_0
abbrev rB0 : Rect S2048x512 := Rect.unit (s := S2048x512) ![0, 0] S2048x512.size inb_S2048x512_S2048x512_0_0
abbrev rT0 : Rect S512x512 := Rect.unit (s := S512x512) ![0, 0] S512x512.size inb_S512x512_S512x512_0_0

/-- The product tile the body leaves in window 3's buffer: one store of the whole tile. -/
def out0_3 (x0 : Vec F S512x2048 .bf16) (x1 : Vec F S2048x512 .bf16) : Vec F S512x512 .f32 :=
  View.canon [⟨rT0, k0_pay1 (View.ld x0 rA0) (View.ld x1 rB0)⟩]

/-- The mask tile the body leaves in window 4's buffer: one store of the whole tile; it depends on the point through
    the tile's row and column offsets. -/
def out0_4 (i : grid0.Coords) (x0 : Vec F S512x2048 .bf16) (x1 : Vec F S2048x512 .bf16) (x2 : Vec F S512x512 .f32) : Vec F S512x512 .bf16 :=
  View.canon [⟨rT0, k0_pay2 i (View.ld x0 rA0) (View.ld x1 rB0) (View.ld x2 rT0)⟩]

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (grid0.coords t) (iblk0 V c 0 t) (iblk0 V c 1 t) (iblk0 V c 2 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) :
    (dat0 V c).after 4 t = out0_4 (grid0.coords t) (iblk0 V c 0 t) (iblk0 V c 1 t) (iblk0 V c 2 t) := by dsimp only [dat0]

end

end Cert.KernelIdeal.Fr

end
-- ==== Proof.Region1Defs.lean ====
/-
  Region 1 (two products sharing their right factor): what each window's staging buffer holds at a grid point, as
  functions of the arrays the region finds.

  The region reads a 512-row band of the adjacency matrix (window 0), a 512-row band of the two-hop mask (window 1) and a
  512-column band of the same mask (window 2); it writes the tile of adjacency times mask (window 3) and the tile of
  mask times mask (window 4).  Windows 1 and 2 are on one array, so each holds half of that array's share.
-/
import proofs.«121678_j3599182594335_2_alg».proof.Proof.Gen.KernelIdeal.Launch
import proofs.«121678_j3599182594335_2_alg».proof.Proof.Gen.KernelIdeal.Skeleton
import proofs.«121678_j3599182594335_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S512x2048 := Rect.unit (s := S512x2048) ![0, 0] S512x2048.size inb_S512x2048_S512x2048_0_0
abbrev rB1 : Rect S2048x512 := Rect.unit (s := S2048x512) ![0, 0] S2048x512.size inb_S2048x512_S2048x512_0_0
abbrev rT1 : Rect S512x512 := Rect.unit (s := S512x512) ![0, 0] S512x512.size inb_S512x512_S512x512_0_0

/-- The tile of (adjacency band) x (mask band) the body leaves in window 3's buffer. -/
def out1_3 (x0 : Vec F S512x2048 .bf16) (x2 : Vec F S2048x512 .bf16) : Vec F S512x512 .f32 :=
  View.canon [⟨rT1, k1_pay1 (View.ld x0 rA1) (View.ld x2 rB1)⟩]

/-- The tile of (mask band) x (mask band) the body leaves in window 4's buffer. -/
def out1_4 (x1 : Vec F S512x2048 .bf16) (x2 : Vec F S2048x512 .bf16) : Vec F S512x512 .f32 :=
  View.canon [⟨rT1, k1_pay2 (View.ld x1 rA1) (View.ld x2 rB1)⟩]

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 2 t)
    | ⟨4, _⟩ => out1_4 (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 2 t) := by dsimp only [dat1]
theorem after1_4 (c : Dev nD) (t : Fin cfg1.N) : (dat1 V c).after 4 t = out1_4 (iblk1 V c 1 t) (iblk1 V c 2 t) := by dsimp only [dat1]

end

end Cert.KernelIdeal.Fr

end
-- ==== Proof.Region2Defs.lean ====
/-
  Region 2 (the three-layer perceptron over tiles of 4096 edges): what each window's staging buffer holds at a grid
  point, as functions of the arrays the region finds.

  Windows 0 and 1 are the tile of the products of the gathered node features and the tile of the structural features;
  windows 2 to 8 are the weights and biases, whole; window 9 is the tile of the padded result.  The arrays are distinct.
-/
import proofs.«121678_j3599182594335_2_alg».proof.Proof.Gen.KernelIdeal.Launch
import proofs.«121678_j3599182594335_2_alg».proof.Proof.Gen.KernelIdeal.Skeleton
import proofs.«121678_j3599182594335_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4096x256 := Rect.unit (s := S4096x256) ![0, 0] S4096x256.size inb_S4096x256_S4096x256_0_0
abbrev r2_1 : Rect S4096x8 := Rect.unit (s := S4096x8) ![0, 0] S4096x8.size inb_S4096x8_S4096x8_0_0
abbrev r2_2 : Rect S256x256 := Rect.unit (s := S256x256) ![0, 0] S256x256.size inb_S256x256_S256x256_0_0
abbrev r2_3 : Rect S8x256 := Rect.unit (s := S8x256) ![0, 0] S8x256.size inb_S8x256_S8x256_0_0
abbrev r2_4 : Rect S256 := Rect.unit (s := S256) ![0] S256.size inb_S256_S256_0
abbrev r2_7 : Rect S256x128 := Rect.unit (s := S256x128) ![0, 0] S256x128.size inb_S256x128_S256x128_0_0
abbrev r2_8 : Rect S128 := Rect.unit (s := S128) ![0] S128.size inb_S128_S128_0
abbrev r2_9 : Rect S4096x128 := Rect.unit (s := S4096x128) ![0, 0] S4096x128.size inb_S4096x128_S4096x128_0_0

/-- The result tile the body leaves in window 9's buffer: one store of the whole tile. -/
def out2_9 (x0 : Vec F S4096x256 .bf16) (x1 : Vec F S4096x8 .f32) (x2 : Vec F S256x256 .bf16) (x3 : Vec F S8x256 .f32)
    (x4 : Vec F S256 .f32) (x5 : Vec F S256x256 .bf16) (x6 : Vec F S256 .f32) (x7 : Vec F S256x128 .bf16) (x8 : Vec F S128 .f32) :
    Vec F S4096x128 .f32 :=
  View.canon [⟨r2_9, k2_pay1 (View.ld x0 r2_0) (View.ld x2 r2_2) (View.ld x1 r2_1) (View.ld x3 r2_3) (View.ld x4 r2_4)
    (View.ld x5 r2_2) (View.ld x6 r2_4) (View.ld x7 r2_7) (View.ld x8 r2_8)⟩]

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t)
        (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) :
    (dat2 V c).after 9 t = out2_9 (iblk2 V c 0 t) (iblk2 V c 1 t) (iblk2 V c 2 t) (iblk2 V c 3 t) (iblk2 V c 4 t) (iblk2 V c 5 t)
        (iblk2 V c 6 t) (iblk2 V c 7 t) (iblk2 V c 8 t) := by dsimp only [dat2]

end

end Cert.KernelIdeal.Fr

end
-- ==== Proof.RunFold.lean ====
/-
  The contents of the TensorCore's buffers at every boundary of the program: a fold from the launch memory through the
  host stretches and the three regions.

  A host stretch replaces the contents by what its operations compute.  A region replaces the contents of its output
  arrays by what its write-backs leave and keeps every other buffer: region 0 writes the product and the mask, region
  1 the two further products, region 2 the padded result.
-/
import proofs.«121678_j3599182594335_2_alg».proof.Proof.Gen.KernelIdeal.Launch
import proofs.«121678_j3599182594335_2_alg».proof.Proof.Gen.KernelIdeal.Skeleton
import proofs.«121678_j3599182594335_2_alg».proof.Proof.Gen.KernelIdeal.Points
import proofs.«121678_j3599182594335_2_alg».proof.Proof.Region0Defs
import proofs.«121678_j3599182594335_2_alg».proof.Proof.Region1Defs
import proofs.«121678_j3599182594335_2_alg».proof.Proof.Region2Defs
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation with one TensorCore buffer replaced. -/
def upd (W : Valuation τ sig (Elt F)) (b : Ref sig .tc) (x : (Proc.devRef (τ := τ) .tc b).ty.Contents (Elt F)) : Valuation τ sig (Elt F) :=
  Function.update W (Proc.devRef .tc b) x

theorem upd_same (W : Valuation τ sig (Elt F)) (b : Ref sig .tc) (x) : upd W b x (Proc.devRef .tc b) = x := by
  unfold upd; exact Function.update_self ..

theorem upd_of_ne (W : Valuation τ sig (Elt F)) (b b' : Ref sig .tc) (x) (h : b' ≠ b) :
    upd W b x (Proc.devRef .tc b') = W (Proc.devRef .tc b') := by
  unfold upd; exact Function.update_of_ne (fun e => h (Proc.devRef_injective _ e)) ..

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit (region 1's entry): the product and the mask written. -/
def W2 (c : Dev nD) : Valuation τ sig (Elt F) :=
  upd (upd (W1 m ρ c) main_v1_0 ((dat0 (V1 m ρ) c).arrAt 3 cfg0.N)) main_v1_1 ((dat0 (V1 m ρ) c).arrAt 4 cfg0.N)
abbrev V2 : (c : Dev nD) → (b : Ref sig .tc) → Buf (Elt F) ((c : Thread nD τ).loc b) := fun c b => W2 m ρ c b
/-- At region 1's exit: the two further products written. -/
def W3 (c : Dev nD) : Valuation τ sig (Elt F) :=
  upd (upd (W2 m ρ c) main_v2_0 ((dat1 (V2 m ρ) c).arrAt 3 cfg1.N)) main_v2_1 ((dat1 (V2 m ρ) c).arrAt 4 cfg1.N)
/-- After the host stretches between region 1 and region 2 (region 2's entry). -/
abbrev W4 : Dev nD → Valuation τ sig (Elt F) := fun c => StableHlo.after hostOps2 (W3 m ρ c)
abbrev W5 : Dev nD → Valuation τ sig (Elt F) := fun c => StableHlo.after hostOps2_1 (W4 m ρ c)
abbrev W6 : Dev nD → Valuation τ sig (Elt F) := fun c => StableHlo.after hostOps2_2 (W5 m ρ c)
abbrev W7 : Dev nD → Valuation τ sig (Elt F) := fun c => StableHlo.after hostOps2_3 (W6 m ρ c)
abbrev W8 : Dev nD → Valuation τ sig (Elt F) := fun c => StableHlo.after hostOps2_4 (W7 m ρ c)
abbrev W9 : Dev nD → Valuation τ sig (Elt F) := fun c => StableHlo.after hostOps2_5 (W8 m ρ c)
abbrev W10 : Dev nD → Valuation τ sig (Elt F) := fun c => StableHlo.after hostOps2_6 (W9 m ρ c)
abbrev W11 : Dev nD → Valuation τ sig (Elt F) := fun c => StableHlo.after hostOps2_7 (W10 m ρ c)
abbrev V11 : (c : Dev nD) → (b : Ref sig .tc) → Buf (Elt F) ((c : Thread nD τ).loc b) := fun c b => W11 m ρ c b
/-- At region 2's exit: the padded result written. -/
def W12 (c : Dev nD) : Valuation τ sig (Elt F) :=
  upd (W11 m ρ c) main_v112 ((dat2 (V11 m ρ) c).arrAt 9 cfg2.N)
/-- After the last host stretch: the program's end. -/
abbrev W13 : Dev nD → Valuation τ sig (Elt F) := fun c => StableHlo.after hostOps3 (W12 m ρ c)

end Cert.KernelIdeal.Fr

end
-- ==== Proof.RunShare.lean ====
/-
  One array read through two windows: halving its ownership at a region's entry and joining the halves at the exit.

  Region 0 reads the bf16 adjacency through windows 0 and 1; region 1 reads the two-hop mask through windows 1 and 2.
  At the entry the buffers behind a region's arrays, each owned whole, are dealt to the windows: the shared buffer as
  a left and a right half, every other buffer whole.  At the exit an input window still holds its array's entry
  contents, so the two halves hold the same contents and join; the two output arrays hold what the write-backs left.
-/
import proofs.«121678_j3599182594335_2_alg».proof.Proof.Gen.KernelIdeal.Launch
import proofs.«121678_j3599182594335_2_alg».proof.Proof.Gen.KernelIdeal.Skeleton
import proofs.«121678_j3599182594335_2_alg».proof.Proof.Gen.KernelIdeal.Points
import proofs.«121678_j3599182594335_2_alg».proof.Proof.RunFold
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The buffers behind region 0's arrays: four of them. -/
theorem img0 : (Finset.univ.image (Pipeline.arrRef spec0) : Finset (Ref sig .tc)) = {main_v0, main_arg1, main_v1_0, main_v1_1} := by
  decide
/-- The buffers behind region 1's arrays: four of them. -/
theorem img1 : (Finset.univ.image (Pipeline.arrRef spec1) : Finset (Ref sig .tc)) = {main_v0, main_v1_1, main_v2_0, main_v2_1} := by
  decide

theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄) = iprop(
      (((c : Thread nD τ).loc main_v0) ↦{fullShare} X main_v0) ∗ (((c : Thread nD τ).loc main_arg1) ↦{fullShare} X main_arg1)
      ∗ (((c : Thread nD τ).loc main_v1_0) ↦{fullShare} X main_v1_0) ∗ (((c : Thread nD τ).loc main_v1_1) ↦{fullShare} X main_v1_1)) := by
  unfold Pipeline.arrBufs
  rw [img0, bigSep_insert (by decide), bigSep_insert (by decide), bigSep_insert (by decide), bigSep_singleton]
  rfl

theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄) = iprop(
      (((c : Thread nD τ).loc main_v0) ↦{fullShare} X main_v0) ∗ (((c : Thread nD τ).loc main_v1_1) ↦{fullShare} X main_v1_1)
      ∗ (((c : Thread nD τ).loc main_v2_0) ↦{fullShare} X main_v2_0) ∗ (((c : Thread nD τ).loc main_v2_1) ↦{fullShare} X main_v2_1)) := by
  unfold Pipeline.arrBufs
  rw [img1, bigSep_insert (by decide), bigSep_insert (by decide), bigSep_insert (by decide), bigSep_singleton]
  rfl

theorem arrays0_eq (c : Dev nD) (G : (w : Fin cfg0.W) → Buf (Elt F) ((cfg0.win w).arr.view.loc (c : Thread nD τ))) :
    ((dat0 V c).arrays G : sProp 𝕄) = iprop(
      (((c : Thread nD τ).loc main_v0) ↦{fullShare.left} G 0) ∗ (((c : Thread nD τ).loc main_v0) ↦{fullShare.right} G 1)
      ∗ (((c : Thread nD τ).loc main_arg1) ↦{fullShare} G 2) ∗ (((c : Thread nD τ).loc main_v1_0) ↦{fullShare} G 3)
      ∗ (((c : Thread nD τ).loc main_v1_1) ↦{fullShare} G 4)) := by
  unfold Dat.arrays
  rw [bigSep_W0, (arr_whole0 0).set_eq_univ, (arr_whole0 2).set_eq_univ, (arr_whole0 3).set_eq_univ, (arr_whole0 4).set_eq_univ]
  rfl

theorem arrays1_eq (c : Dev nD) (G : (w : Fin cfg1.W) → Buf (Elt F) ((cfg1.win w).arr.view.loc (c : Thread nD τ))) :
    ((dat1 V c).arrays G : sProp 𝕄) = iprop(
      (((c : Thread nD τ).loc main_v0) ↦{fullShare} G 0) ∗ (((c : Thread nD τ).loc main_v1_1) ↦{fullShare.left} G 1)
      ∗ (((c : Thread nD τ).loc main_v1_1) ↦{fullShare.right} G 2) ∗ (((c : Thread nD τ).loc main_v2_0) ↦{fullShare} G 3)
      ∗ (((c : Thread nD τ).loc main_v2_1) ↦{fullShare} G 4)) := by
  unfold Dat.arrays
  rw [bigSep_W1, (arr_whole1 0).set_eq_univ, (arr_whole1 1).set_eq_univ, (arr_whole1 3).set_eq_univ, (arr_whole1 4).set_eq_univ]
  rfl

/-- ENTRY of region 0: the core's unscoped buffers at `X` are region 0's arrays, each window's at its share and at the
    entry contents, and the buffers that are no array of the region. -/
theorem entry0 (c : Dev nD) :
    (unscopedBufs (Ix := Unit) (Name := ℕ) (U := UR sig nD τ) (Lvl := ℕ) c (V c) : sProp 𝕄)
      ⊢ iprop((dat0 V c).arrays ((dat0 V c).arrAt · 0)
        ∗ Pipeline.unscopedRest (Ix := Unit) (Name := ℕ) (U := UR sig nD τ) (Lvl := ℕ) spec0 c (V c)) := by
  rw [Pipeline.unscopedBufs_split₀ cfgs 0 winFacts₀0.arr_unscoped c (V c)]
  refine sep_mono ?_ .rfl
  rw [show (Pipeline.arrBufs (cfgs 0).spec c (V c) : sProp 𝕄) = Pipeline.arrBufs spec0 c (V c) from rfl, arrBufs0_eq, arrays0_eq]
  iintro ⟨H0, H1, H2, H3⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  isplitl [H2]; · iexact H2
  iexact H3

/-- EXIT of region 0: the arrays at their final contents and the other buffers as entered are the core's unscoped
    buffers at any contents `X'` that has the two output arrays at what the write-backs left and agrees with the entry
    contents elsewhere. -/
theorem exit0 (c : Dev nD) (X' : (b : Ref sig .tc) → Buf (Elt F) ((c : Thread nD τ).loc b))
    (h3 : X' main_v1_0 = (dat0 V c).arrAt 3 cfg0.N) (h4 : X' main_v1_1 = (dat0 V c).arrAt 4 cfg0.N)
    (hrest : ∀ b : Ref sig .tc, b ≠ main_v1_0 → b ≠ main_v1_1 → X' b = V c b) :
    iprop((dat0 V c).arrays ((dat0 V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c X' : sProp 𝕄) := by
  rw [Pipeline.unscopedBufs_split₀ cfgs 0 winFacts₀0.arr_unscoped c X']
  refine sep_mono ?_ (Entails.of_eq ?_)
  · rw [show (Pipeline.arrBufs (cfgs 0).spec c X' : sProp 𝕄) = Pipeline.arrBufs spec0 c X' from rfl, arrBufs0_eq, arrays0_eq,
      (dat0 V c).arrAt_in 0 rfl, (dat0 V c).arrAt_in 1 rfl, (dat0 V c).arrAt_in 2 rfl, h3, h4,
      hrest main_v0 (by decide) (by decide), hrest main_arg1 (by decide) (by decide)]
    iintro ⟨Hl, Hr, Hb, Hc, Hd⟩
    isplitl [Hl Hr]
    · iapply (pointsTo_share (PosShare.mem_left_op_right fullShare)).2
      isplitl [Hl]; · iexact Hl
      iexact Hr
    isplitl [Hb]; · iexact Hb
    isplitl [Hc]; · iexact Hc
    iexact Hd
  · unfold Pipeline.unscopedRest
    refine bigSep_congr fun b hb => ?_
    have hb' := (Finset.mem_sdiff.mp hb).2
    rw [img0] at hb'
    rw [hrest b (fun e => hb' (by rw [e]; decide)) (fun e => hb' (by rw [e]; decide))]

/-- ENTRY of region 1. -/
theorem entry1 (c : Dev nD) :
    (unscopedBufs (Ix := Unit) (Name := ℕ) (U := UR sig nD τ) (Lvl := ℕ) c (V c) : sProp 𝕄)
      ⊢ iprop((dat1 V c).arrays ((dat1 V c).arrAt · 0)
        ∗ Pipeline.unscopedRest (Ix := Unit) (Name := ℕ) (U := UR sig nD τ) (Lvl := ℕ) spec1 c (V c)) := by
  rw [Pipeline.unscopedBufs_split₀ cfgs 1 winFacts₀1.arr_unscoped c (V c)]
  refine sep_mono ?_ .rfl
  rw [show (Pipeline.arrBufs (cfgs 1).spec c (V c) : sProp 𝕄) = Pipeline.arrBufs spec1 c (V c) from rfl, arrBufs1_eq, arrays1_eq]
  iintro ⟨H0, H1, H2, H3⟩
  ihave H1' := (pointsTo_share (PosShare.mem_left_op_right fullShare)).1 $$ H1
  icases H1' with ⟨Hl, Hr⟩
  isplitl [H0]; · iexact H0
  isplitl [Hl]; · iexact Hl
  isplitl [Hr]; · iexact Hr
  isplitl [H2]; · iexact H2
  iexact H3

/-- EXIT of region 1. -/
theorem exit1 (c : Dev nD) (X' : (b : Ref sig .tc) → Buf (Elt F) ((c : Thread nD τ).loc b))
    (h3 : X' main_v2_0 = (dat1 V c).arrAt 3 cfg1.N) (h4 : X' main_v2_1 = (dat1 V c).arrAt 4 cfg1.N)
    (hrest : ∀ b : Ref sig .tc, b ≠ main_v2_0 → b ≠ main_v2_1 → X' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c X' : sProp 𝕄) := by
  rw [Pipeline.unscopedBufs_split₀ cfgs 1 winFacts₀1.arr_unscoped c X']
  refine sep_mono ?_ (Entails.of_eq ?_)
  · rw [show (Pipeline.arrBufs (cfgs 1).spec c X' : sProp 𝕄) = Pipeline.arrBufs spec1 c X' from rfl, arrBufs1_eq, arrays1_eq,
      (dat1 V c).arrAt_in 0 rfl, (dat1 V c).arrAt_in 1 rfl, (dat1 V c).arrAt_in 2 rfl, h3, h4,
      hrest main_v0 (by decide) (by decide), hrest main_v1_1 (by decide) (by decide)]
    iintro ⟨Ha, Hl, Hr, Hc, Hd⟩
    isplitl [Ha]; · iexact Ha
    isplitl [Hl Hr]
    · iapply (pointsTo_share (PosShare.mem_left_op_right fullShare)).2
      isplitl [Hl]; · iexact Hl
      iexact Hr
    isplitl [Hc]; · iexact Hc
    iexact Hd
  · unfold Pipeline.unscopedRest
    refine bigSep_congr fun b hb => ?_
    have hb' := (Finset.mem_sdiff.mp hb).2
    rw [img1] at hb'
    rw [hrest b (fun e => hb' (by rw [e]; decide)) (fun e => hb' (by rw [e]; decide))]

end

end Cert.KernelIdeal.Fr

end
-- ==== Proof.Region0Body.lean ====
/-
  Region 0 (the product of the adjacency matrix with itself, with the two-hop mask beside it): the body at one grid
  point.

  Each of the three input windows' staging buffers holds, at every point, the block of its array that the point's
  index names, whether the block was fetched at that point or kept from the point before (the row band of window 0
  is fetched once per four points).  On whole staging buffers holding those blocks the body reads the three inputs,
  overwrites the whole product tile with the matrix product of the two bands, and overwrites the whole mask tile
  with the mask computed from the product, the adjacency tile and the tile's row and column offsets; what the two
  output buffers held before is read and discarded.  Together these give the pipeline's body obligation at a
  generic point.
-/
import proofs.«121678_j3599182594335_2_alg».proof.Proof.Region0Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Input window 0's staging buffer holds its block at every point, fetched there or kept from the point before: the
    window is an input, is never idle and is not cut, and the body leaves its block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1's staging buffer holds its block at every point, fetched there or kept from the point before: the
    window is an input, is never idle and is not cut, and the body leaves its block in place. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input window 2's staging buffer holds its block at every point, fetched there or kept from the point before: the
    window is an input, is never idle and is not cut, and the body leaves its block in place. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- One store of the whole tile covers the tile (at either element type). -/
theorem cover0_f32 (p : Vec F S512x512 .f32) (y : S512x512.Idx) :
    ∃ pc ∈ ([⟨rT0, p⟩] : List (View.Piece (Elt F) S512x512 .f32)), y ∈ pc.1.set :=
  View.cover_of_tiled [⟨rT0, p⟩] S512x512.size (by rfl) y
theorem cover0_bf16 (p : Vec F S512x512 .bf16) (y : S512x512.Idx) :
    ∃ pc ∈ ([⟨rT0, p⟩] : List (View.Piece (Elt F) S512x512 .bf16)), y ∈ pc.1.set :=
  View.cover_of_tiled [⟨rT0, p⟩] S512x512.size (by rfl) y

set_option maxHeartbeats 1000000 in
/-- The body on whole staging buffers: with the three input buffers at contents `x0`, `x1`, `x2` and the two output
    buffers at anything, it runs to the continuation with the inputs as they were and each output buffer wholly
    overwritten by its tile, a function of the inputs and of the grid point's coordinates.  What the output buffers held is
    read and not used. -/
theorem sound_kernel0 (c : Dev nD) (E : Set ℕ) (i : grid0.Coords)
    (arg2 : Memref sig .tc .vmem S512x2048 .bf16) (harg2 : arg2.IsWhole)
    (arg3 : Memref sig .tc .vmem S2048x512 .bf16) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .bf16) (harg6 : arg6.IsWhole)
    (x0 : Vec F S512x2048 .bf16) (x1 : Vec F S2048x512 .bf16) (x2 : Vec F S512x512 .f32) (K : PUnit → sProp 𝕄) :
    iprop(owns (c : Thread nD τ) arg2 fullShare x0
        ∗ owns (c : Thread nD τ) arg3 fullShare x1
        ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare (out0_3 x0 x1)
            ∗ owns (c : Thread nD τ) arg6 fullShare (out0_4 i x0 x1 x2)) -∗ K ⟨⟩))
      ⊢ wp frame (wpE (defs₀ (F := F)) Variants.none c none) E
          (cc0__a2_b2_kernel i arg2 harg2 arg3 harg3 arg4 harg4 arg5 harg5 arg6 harg6) K := by
  simp only [cc0__a2_b2_kernel_eq_skeleton]; unfold cc0__a2_b2_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_f32 _)
  iexists _; isplitr
  swap; · iexact H4
  ipureintro
  exact View.read_writes_eq_canon _ _ _ (cover0_bf16 _)

/-- What the body is handed at point `t`: the invariant, what the core owes, and each window's current staging buffer —
    an input's at what it holds then, an output's likewise (which for an output is whatever was there). -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back: the invariant and the debt at the next point, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input buffers hold their blocks, so the triple above applies at the point's staging
    buffers; the invariant and the debt are not touched and do not change from one point to the next. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation for region 0, at every point: its product over the five windows written out. -/
theorem body_obligation0 (c : Dev nD) : BodyObligation (dat0 (F := F) V c) (defs₀ (F := F)) Variants.none () Set.univ := fun t => by
  rw [bigSep_W0, bigSep_W0]
  exact sound_body0 V c t

end

end Cert.KernelIdeal.Fr

end
-- ==== Proof.Region1Body.lean ====
/-
  Region 1 (two products sharing their right factor): the body at one grid point.

  Each of the three input windows' staging buffers holds, at every point, the block of its array that the point's
  index names, whether the block was fetched at that point or kept from the point before (the two row bands,
  windows 0 and 1, are fetched once per four points).  On whole staging buffers holding those blocks the body reads
  the adjacency band and the mask's column band and overwrites the whole first tile with their matrix product, then
  reads the mask's row band and the same column band again and overwrites the whole second tile with theirs; what
  the two output buffers held before is read and discarded.  Together these give the pipeline's body obligation at
  a generic point.
-/
import proofs.«121678_j3599182594335_2_alg».proof.Proof.Region1Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Input window 0's staging buffer holds its block at every point, fetched there or kept from the point before: the
    window is an input, is never idle and is not cut, and the body leaves its block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's staging buffer holds its block at every point, fetched there or kept from the point before: the
    window is an input, is never idle and is not cut, and the body leaves its block in place. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's staging buffer holds its block at every point, fetched there or kept from the point before: the
    window is an input, is never idle and is not cut, and the body leaves its block in place. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- One store of the whole tile covers the tile. -/
theorem cover1_f32 (p : Vec F S512x512 .f32) (y : S512x512.Idx) :
    ∃ pc ∈ ([⟨rT1, p⟩] : List (View.Piece (Elt F) S512x512 .f32)), y ∈ pc.1.set :=
  View.cover_of_tiled [⟨rT1, p⟩] S512x512.size (by rfl) y

set_option maxHeartbeats 1000000 in
/-- The body on whole staging buffers: with the three input buffers at contents `x0`, `x1`, `x2` and the two output
    buffers at anything, it runs to the continuation with the inputs as they were and each output buffer wholly
    overwritten by its tile, a function of the inputs.  What the output buffers held is
    read and not used. -/
theorem sound_kernel1 (c : Dev nD) (E : Set ℕ) (i : grid1.Coords)
    (arg2 : Memref sig .tc .vmem S512x2048 .bf16) (harg2 : arg2.IsWhole)
    (arg3 : Memref sig .tc .vmem S512x2048 .bf16) (harg3 : arg3.IsWhole)
    (arg4 : Memref sig .tc .vmem S2048x512 .bf16) (harg4 : arg4.IsWhole)
    (arg5 : Memref sig .tc .vmem S512x512 .f32) (harg5 : arg5.IsWhole)
    (arg6 : Memref sig .tc .vmem S512x512 .f32) (harg6 : arg6.IsWhole)
    (x0 : Vec F S512x2048 .bf16) (x1 : Vec F S512x2048 .bf16) (x2 : Vec F S2048x512 .bf16) (K : PUnit → sProp 𝕄) :
    iprop(owns (c : Thread nD τ) arg2 fullShare x0
        ∗ owns (c : Thread nD τ) arg3 fullShare x1
        ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare (out1_3 x0 x2)
            ∗ owns (c : Thread nD τ) arg6 fullShare (out1_4 x1 x2)) -∗ K ⟨⟩))
      ⊢ wp frame (wpE (defs₀ (F := F)) Variants.none c none) E
          (cc1__dual_matmul_kernel i arg2 harg2 arg3 harg3 arg4 harg4 arg5 harg5 arg6 harg6) K := by
  simp only [cc1__dual_matmul_kernel_eq_skeleton]; unfold cc1__dual_matmul_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_f32 _)
  iexists _; isplitr
  swap; · iexact H4
  ipureintro
  exact View.read_writes_eq_canon _ _ _ (cover1_f32 _)

/-- What the body is handed at point `t`: the invariant, what the core owes, and each window's current staging buffer —
    an input's at what it holds then, an output's likewise (which for an output is whatever was there). -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it hands back: the invariant and the debt at the next point, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the triple above applies at the point's staging
    buffers; the invariant and the debt are not touched and do not change from one point to the next. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation for region 1, at every point: its product over the five windows written out. -/
theorem body_obligation1 (c : Dev nD) : BodyObligation (dat1 (F := F) V c) (defs₀ (F := F)) Variants.none () Set.univ := fun t => by
  rw [bigSep_W1, bigSep_W1]
  exact sound_body1 V c t

end

end Cert.KernelIdeal.Fr

end
-- ==== Proof.Region2Body.lean ====
/-
  Region 2 (the three-layer perceptron over tiles of 4096 edges): the body's obligation at every grid point.

  Each of the nine input windows' current staging buffer holds that window's block of its array at every point: the
  two tiles are fetched at every point, and a weight or a bias, fetched at the first point only, has one block, which
  the body leaves in place.  The body loads the nine buffers whole, computes the result tile as one function of them
  and stores it over the whole of the tenth buffer; so that buffer then reads as the function of the nine blocks, whatever
  it held before, and the nine others are as they were.
-/
import proofs.«121678_j3599182594335_2_alg».proof.Proof.Region2Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in an input window's buffer

An input window's current buffer holds its block at the point, fetched there or not (not fetched, the block index has
not moved and the body left the block in place), for any proof data over the arrays the region finds whose body
leaves the window's block as it was. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple -/

/-- The one store covers the result buffer: it is the buffer's whole rectangle. -/
theorem cover2_9 (p0 : Vec F S4096x128 .f32) (y : S4096x128.Idx) :
    ∃ pc ∈ ([⟨r2_9, p0⟩] : List (View.Piece (Elt F) S4096x128 .f32)), y ∈ pc.1.set :=
  View.cover_of_tiled [⟨r2_9, p0⟩] S4096x128.size (by rfl) y

set_option maxHeartbeats 1000000 in
/-- The body on ten whole buffers, the first nine reading `x0 … x8` and the tenth holding anything, runs to the
    continuation with the nine as they were and the tenth reading the result tile computed from `x0 … x8`. -/
theorem sound_kernel2 (c : Dev nD) (E : Set ℕ) (i : grid2.Coords)
    (arg1 : Memref sig .tc .vmem S4096x256 .bf16) (harg1 : arg1.IsWhole)
    (arg2 : Memref sig .tc .vmem S4096x8 .f32) (harg2 : arg2.IsWhole)
    (arg3 : Memref sig .tc .vmem S256x256 .bf16) (harg3 : arg3.IsWhole)
    (arg4 : Memref sig .tc .vmem S8x256 .f32) (harg4 : arg4.IsWhole)
    (arg5 : Memref sig .tc .vmem S256 .f32) (harg5 : arg5.IsWhole)
    (arg6 : Memref sig .tc .vmem S256x256 .bf16) (harg6 : arg6.IsWhole)
    (arg7 : Memref sig .tc .vmem S256 .f32) (harg7 : arg7.IsWhole)
    (arg8 : Memref sig .tc .vmem S256x128 .bf16) (harg8 : arg8.IsWhole)
    (arg9 : Memref sig .tc .vmem S128 .f32) (harg9 : arg9.IsWhole)
    (arg10 : Memref sig .tc .vmem S4096x128 .f32) (harg10 : arg10.IsWhole)
    (x0 : Vec F S4096x256 .bf16) (x1 : Vec F S4096x8 .f32) (x2 : Vec F S256x256 .bf16) (x3 : Vec F S8x256 .f32) (x4 : Vec F S256 .f32) (x5 : Vec F S256x256 .bf16) (x6 : Vec F S256 .f32) (x7 : Vec F S256x128 .bf16) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10) K := by
  simp only [cc2__mlp_kernel_eq_skeleton]; unfold cc2__mlp_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The input windows' buffers, for the region's proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the nine input buffers hold their windows' blocks, so the body's triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Fr

end
-- ==== Proof.RunSegs.lean ====
/-
  The program's run as a list of segments: ten host stretches and three regions, each entered from the buffer contents
  the one before it left.

  Regions 0 and 1 read one array through two windows: at the entry that array's ownership is halved between the two
  windows, and at the exit the halves are joined again.  Every other array is held whole by its window.
-/
import proofs.«121678_j3599182594335_2_alg».proof.Proof.Gen.KernelIdeal.Launch
import proofs.«121678_j3599182594335_2_alg».proof.Proof.Gen.KernelIdeal.Skeleton
import proofs.«121678_j3599182594335_2_alg».proof.Proof.Gen.KernelIdeal.Points
import proofs.«121678_j3599182594335_2_alg».proof.Proof.RunFold
import proofs.«121678_j3599182594335_2_alg».proof.Proof.RunShare
import proofs.«121678_j3599182594335_2_alg».proof.Proof.Region0Body
import proofs.«121678_j3599182594335_2_alg».proof.Proof.Region1Body
import proofs.«121678_j3599182594335_2_alg».proof.Proof.Region2Body
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 3) → (pcfgs (F := F) p).Adm := fun p => (cfgs p).toPCfg_adm

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V11 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor
theorem hostOps2_4_fresh : (hostOps2_4 : List (HloOp τ sig (Elt F))).Forall fun op => op.fresh = ∅ := by
  simp only [List.Forall]; repeat' constructor
theorem hostOps2_5_fresh : (hostOps2_5 : List (HloOp τ sig (Elt F))).Forall fun op => op.fresh = ∅ := by
  simp only [List.Forall]; repeat' constructor
theorem hostOps2_6_fresh : (hostOps2_6 : List (HloOp τ sig (Elt F))).Forall fun op => op.fresh = ∅ := by
  simp only [List.Forall]; repeat' constructor
theorem hostOps2_7_fresh : (hostOps2_7 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- The thread state at a boundary: every unscoped buffer at the boundary's contents, and `R`. -/
abbrev T (W : Dev nD → Valuation τ sig (Elt F)) (c : Dev nD) : sProp 𝕄 :=
  iprop(StableHlo.held (c : Thread nD τ) (Pipeline.ucRefs τ sig) (W c) ∗ R c)

set_option backward.isDefEq.respectTransparency.types false in
/-- REGION 0: entered from the contents `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := T (W1 m ρ) c
  post c := T (W2 m ρ) c
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry0 (V1 m ρ) c
    rw [show (unscopedBufs c (V1 m ρ c) : sProp 𝕄) = StableHlo.held (c : Thread nD τ) (Pipeline.ucRefs τ sig) (W1 m ρ c) from
      Pipeline.unscopedBufs_held c (W1 m ρ c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
          ∗ Pipeline.unscopedRest (Ix := Unit) (Name := ℕ) (U := UR sig nD τ) (Lvl := ℕ) spec0 c (V1 m ρ c))
        ⊢ (unscopedBufs (Ix := Unit) (Name := ℕ) (U := UR sig nD τ) (Lvl := ℕ) c (V2 m ρ c) : sProp 𝕄) := exit0 (V1 m ρ) c (V2 m ρ c)
      (by show W2 m ρ c (Proc.devRef .tc main_v1_0) = _
          unfold W2; rw [upd_of_ne _ _ _ _ (by decide), upd_same])
      (by show W2 m ρ c (Proc.devRef .tc main_v1_1) = _
          unfold W2; rw [upd_same])
      (fun b h0 h1 => by
        show W2 m ρ c (Proc.devRef .tc b) = W1 m ρ c (Proc.devRef .tc b)
        unfold W2; rw [upd_of_ne _ _ _ _ h1, upd_of_ne _ _ _ _ h0])
    rw [show (unscopedBufs c (V2 m ρ c) : sProp 𝕄) = StableHlo.held (c : Thread nD τ) (Pipeline.ucRefs τ sig) (W2 m ρ c) from
      Pipeline.unscopedBufs_held c (W2 m ρ c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from the contents `W2`, left at `W3`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := T (W2 m ρ) c
  post c := T (W3 m ρ) c
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 (V2 m ρ) c
    rw [show (unscopedBufs c (V2 m ρ c) : sProp 𝕄) = StableHlo.held (c : Thread nD τ) (Pipeline.ucRefs τ sig) (W2 m ρ c) from
      Pipeline.unscopedBufs_held c (W2 m ρ c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (unscopedBufs (Ix := Unit) (Name := ℕ) (U := UR sig nD τ) (Lvl := ℕ) c (fun b => W3 m ρ c b) : sProp 𝕄) := exit1 (V2 m ρ) c (fun b => W3 m ρ c b)
      (by show W3 m ρ c (Proc.devRef .tc main_v2_0) = _
          unfold W3; rw [upd_of_ne _ _ _ _ (by decide), upd_same])
      (by show W3 m ρ c (Proc.devRef .tc main_v2_1) = _
          unfold W3; rw [upd_same])
      (fun b h0 h1 => by
        show W3 m ρ c (Proc.devRef .tc b) = W2 m ρ c (Proc.devRef .tc b)
        unfold W3; rw [upd_of_ne _ _ _ _ h1, upd_of_ne _ _ _ _ h0])
    rw [show (unscopedBufs c (fun b => W3 m ρ c b) : sProp 𝕄) = StableHlo.held (c : Thread nD τ) (Pipeline.ucRefs τ sig) (W3 m ρ c) from
      Pipeline.unscopedBufs_held c (W3 m ρ c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves, and every other buffer what it held at entry. -/
theorem hF2 (c : Dev nD) (w : Fin cfg2.W) :
    (dat2 (V11 m ρ) c).arrAt w cfg2.N = (fun b : Ref sig .tc => W12 m ρ c b) (Pipeline.arrRef spec2 w) := by
  have hin : ∀ (w : Fin cfg2.W) (b : Ref sig .tc), (cfg2.win w).isOut = false → Pipeline.arrRef spec2 w = b → b ≠ main_v112 →
      (dat2 (V11 m ρ) c).arrAt w cfg2.N = (fun b : Ref sig .tc => W12 m ρ c b) (Pipeline.arrRef spec2 w) := fun w b hw hb hne => by
    rw [(dat2 (V11 m ρ) c).arrAt_in w hw]
    show V11 m ρ c (Pipeline.arrRef spec2 w) = W12 m ρ c (Proc.devRef .tc (Pipeline.arrRef spec2 w))
    unfold W12; rw [upd_of_ne _ _ _ _ (hb ▸ hne)]
  match w with
  | ⟨0, _⟩ => exact hin 0 main_v99 rfl rfl (by decide)
  | ⟨1, _⟩ => exact hin 1 main_v83 rfl rfl (by decide)
  | ⟨2, _⟩ => exact hin 2 main_v102 rfl rfl (by decide)
  | ⟨3, _⟩ => exact hin 3 main_v105 rfl rfl (by decide)
  | ⟨4, _⟩ => exact hin 4 main_arg4 rfl rfl (by decide)
  | ⟨5, _⟩ => exact hin 5 main_v107 rfl rfl (by decide)
  | ⟨6, _⟩ => exact hin 6 main_arg6 rfl rfl (by decide)
  | ⟨7, _⟩ => exact hin 7 main_v110 rfl rfl (by decide)
  | ⟨8, _⟩ => exact hin 8 main_v111 rfl rfl (by decide)
  | ⟨9, _⟩ =>
    show _ = W12 m ρ c (Proc.devRef .tc main_v112)
    unfold W12; rw [upd_same]; rfl

theorem hrest2 (c : Dev nD) : ∀ b, b ∉ Finset.univ.image (Pipeline.arrRef spec2) →
    (fun b : Ref sig .tc => W12 m ρ c b) b = V11 m ρ c b := fun b hb => by
  show W12 m ρ c (Proc.devRef .tc b) = W11 m ρ c (Proc.devRef .tc b)
  unfold W12
  rw [upd_of_ne _ _ _ _ (fun e => hb (Finset.mem_image.mpr ⟨9, Finset.mem_univ _, e.symm⟩))]

set_option backward.isDefEq.respectTransparency.types false in
/-- REGION 2: entered from the contents `W11`, left at `W12`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := T (W11 m ρ) c
  post c := T (W12 m ρ) c
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (fun b => W12 m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's 13 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .host (hseg hostOps2_3 hostOps2_3_sub hostOps2_3_fresh (W6 m ρ)),
    .host (hseg hostOps2_4 hostOps2_4_sub hostOps2_4_fresh (W7 m ρ)),
    .host (hseg hostOps2_5 hostOps2_5_sub hostOps2_5_fresh (W8 m ρ)),
    .host (hseg hostOps2_6 hostOps2_6_sub hostOps2_6_fresh (W9 m ρ)),
    .host (hseg hostOps2_7 hostOps2_7_sub hostOps2_7_fresh (W10 m ρ)),
    .region (reg2 m ρ),
    .host (hseg hostOps3 hostOps3_sub hostOps3_fresh (W12 m ρ)) ]

/-- @main IS the run of the segments. -/
theorem main_run (c : Dev nD) : main (F := F) c = Pipeline.Seg.run (segs m ρ) := (main_chain c).trans (by chain_rfl)

end Cert.KernelIdeal.Fr

end
-- ==== Proof.RunMain.lean ====
/-
  The program's run: every weakly fair execution terminates, nothing faulting, and every final state holds each
  unscoped buffer at the last boundary's contents of the fold; no host operation and no region writes an argument
  array, so the arguments end as launched.
-/
import proofs.«121678_j3599182594335_2_alg».proof.Proof.Gen.KernelIdeal.Launch
import proofs.«121678_j3599182594335_2_alg».proof.Proof.Gen.KernelIdeal.Skeleton
import proofs.«121678_j3599182594335_2_alg».proof.Proof.Gen.KernelIdeal.Points
import proofs.«121678_j3599182594335_2_alg».proof.Proof.RunSegs
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last thread state: every unscoped buffer at the last boundary's contents, the generator register at some state. -/
abbrev Tₙ (c : Dev nD) : sProp 𝕄 := iprop(StableHlo.held (c : Thread nD τ) (Pipeline.ucRefs τ sig) (W13 m ρ c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, at any float instance: from any memory with zero counters every weakly fair execution of @main terminates,
    nothing faulting, with every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => T (W0 m ρ) c) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W13 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Cert.KernelIdeal.Fr

end
-- ==== Proof.RunArgs.lean ====
/-
  The argument arrays end as launched: no host operation and no region writes one, so the fold of the buffer
  contents, read at an argument, walks back to the launch memory.  With the run this gives the frame (the arguments
  unchanged) and the run with the result buffer at the fold's last contents.
-/
import proofs.«121678_j3599182594335_2_alg».proof.Proof.Gen.KernelIdeal.Launch
import proofs.«121678_j3599182594335_2_alg».proof.Proof.Gen.KernelIdeal.Skeleton
import proofs.«121678_j3599182594335_2_alg».proof.Proof.Gen.KernelIdeal.Points
import proofs.«121678_j3599182594335_2_alg».proof.Proof.RunFold
import proofs.«121678_j3599182594335_2_alg».proof.Proof.RunMain
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's argument arrays. -/
abbrev argL : List (Ref sig .tc) :=
  [main_arg0, main_arg1, main_arg2, main_arg3, main_arg4, main_arg5, main_arg6, main_arg7, main_arg8]

/-- An argument is not a buffer outside the arguments. -/
theorem ne_of_arg (r : Ref sig .tc) (hr : r ∈ argL) (x : Ref sig .tc) (hx : x ∉ argL) : r ≠ x := fun e => hx (e ▸ hr)

/-! ## No host operation writes an argument: every operation's result buffer is outside the arguments -/

theorem nw_hostOps0 (r : Ref sig .tc) (hr : r ∈ argL) :
    ∀ op ∈ (hostOps0 : List (HloOp τ sig (Elt F))), Proc.devRef .tc r ∉ op.writes :=
  List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))
set_option maxHeartbeats 4000000 in
theorem nw_hostOps2 (r : Ref sig .tc) (hr : r ∈ argL) :
    ∀ op ∈ (hostOps2 : List (HloOp τ sig (Elt F))), Proc.devRef .tc r ∉ op.writes :=
  List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))
theorem nw_hostOps2_1 (r : Ref sig .tc) (hr : r ∈ argL) :
    ∀ op ∈ (hostOps2_1 : List (HloOp τ sig (Elt F))), Proc.devRef .tc r ∉ op.writes :=
  List.forall_iff_forall_mem.mp (by
    simp only [hostOps2_1, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))
theorem nw_hostOps2_2 (r : Ref sig .tc) (hr : r ∈ argL) :
    ∀ op ∈ (hostOps2_2 : List (HloOp τ sig (Elt F))), Proc.devRef .tc r ∉ op.writes :=
  List.forall_iff_forall_mem.mp (by
    simp only [hostOps2_2, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))
theorem nw_hostOps2_3 (r : Ref sig .tc) (hr : r ∈ argL) :
    ∀ op ∈ (hostOps2_3 : List (HloOp τ sig (Elt F))), Proc.devRef .tc r ∉ op.writes :=
  List.forall_iff_forall_mem.mp (by
    simp only [hostOps2_3, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))
theorem nw_hostOps2_4 (r : Ref sig .tc) (hr : r ∈ argL) :
    ∀ op ∈ (hostOps2_4 : List (HloOp τ sig (Elt F))), Proc.devRef .tc r ∉ op.writes :=
  List.forall_iff_forall_mem.mp (by
    simp only [hostOps2_4, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))
theorem nw_hostOps2_5 (r : Ref sig .tc) (hr : r ∈ argL) :
    ∀ op ∈ (hostOps2_5 : List (HloOp τ sig (Elt F))), Proc.devRef .tc r ∉ op.writes :=
  List.forall_iff_forall_mem.mp (by
    simp only [hostOps2_5, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))
theorem nw_hostOps2_6 (r : Ref sig .tc) (hr : r ∈ argL) :
    ∀ op ∈ (hostOps2_6 : List (HloOp τ sig (Elt F))), Proc.devRef .tc r ∉ op.writes :=
  List.forall_iff_forall_mem.mp (by
    simp only [hostOps2_6, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))
theorem nw_hostOps2_7 (r : Ref sig .tc) (hr : r ∈ argL) :
    ∀ op ∈ (hostOps2_7 : List (HloOp τ sig (Elt F))), Proc.devRef .tc r ∉ op.writes :=
  List.forall_iff_forall_mem.mp (by
    simp only [hostOps2_7, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))
theorem nw_hostOps3 (r : Ref sig .tc) (hr : r ∈ argL) :
    ∀ op ∈ (hostOps3 : List (HloOp τ sig (Elt F))), Proc.devRef .tc r ∉ op.writes :=
  List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (ne_of_arg r hr _ (by decide)))

/-! ## The fold at an argument walks back to the launch memory

A host stretch writes no argument; region 0 writes the product and the mask, region 1 the two further products,
region 2 the padded result, none of them an argument. -/

theorem W13_arg (r : Ref sig .tc) (hr : r ∈ argL) (c : Dev nD) :
    W13 m ρ c (Proc.devRef .tc r) = m ((c.tc : Thread nD τ).loc r) :=
  calc W13 m ρ c (Proc.devRef .tc r)
    _ = W12 m ρ c (Proc.devRef .tc r) := StableHlo.after_of_forall_not_mem hostOps3 _ (nw_hostOps3 r hr)
    _ = W11 m ρ c (Proc.devRef .tc r) := by
          unfold W12; rw [upd_of_ne _ _ _ _ (ne_of_arg r hr _ (by decide))]
    _ = W10 m ρ c (Proc.devRef .tc r) := StableHlo.after_of_forall_not_mem hostOps2_7 _ (nw_hostOps2_7 r hr)
    _ = W9 m ρ c (Proc.devRef .tc r) := StableHlo.after_of_forall_not_mem hostOps2_6 _ (nw_hostOps2_6 r hr)
    _ = W8 m ρ c (Proc.devRef .tc r) := StableHlo.after_of_forall_not_mem hostOps2_5 _ (nw_hostOps2_5 r hr)
    _ = W7 m ρ c (Proc.devRef .tc r) := StableHlo.after_of_forall_not_mem hostOps2_4 _ (nw_hostOps2_4 r hr)
    _ = W6 m ρ c (Proc.devRef .tc r) := StableHlo.after_of_forall_not_mem hostOps2_3 _ (nw_hostOps2_3 r hr)
    _ = W5 m ρ c (Proc.devRef .tc r) := StableHlo.after_of_forall_not_mem hostOps2_2 _ (nw_hostOps2_2 r hr)
    _ = W4 m ρ c (Proc.devRef .tc r) := StableHlo.after_of_forall_not_mem hostOps2_1 _ (nw_hostOps2_1 r hr)
    _ = W3 m ρ c (Proc.devRef .tc r) := StableHlo.after_of_forall_not_mem hostOps2 _ (nw_hostOps2 r hr)
    _ = W2 m ρ c (Proc.devRef .tc r) := by
          unfold W3; rw [upd_of_ne _ _ _ _ (ne_of_arg r hr _ (by decide)), upd_of_ne _ _ _ _ (ne_of_arg r hr _ (by decide))]
    _ = W1 m ρ c (Proc.devRef .tc r) := by
          unfold W2; rw [upd_of_ne _ _ _ _ (ne_of_arg r hr _ (by decide)), upd_of_ne _ _ _ _ (ne_of_arg r hr _ (by decide))]
    _ = W0 m ρ c (Proc.devRef .tc r) := StableHlo.after_of_forall_not_mem hostOps0 _ (nw_hostOps0 r hr)
    _ = m ((c.tc : Thread nD τ).loc r) := rfl

theorem W13_arg0 (c : Dev nD) : W13 m ρ c (Proc.devRef .tc main_arg0) = m ((c.tc : Thread nD τ).loc main_arg0) :=
  W13_arg m ρ main_arg0 (by decide) c
theorem W13_arg1 (c : Dev nD) : W13 m ρ c (Proc.devRef .tc main_arg1) = m ((c.tc : Thread nD τ).loc main_arg1) :=
  W13_arg m ρ main_arg1 (by decide) c
theorem W13_arg2 (c : Dev nD) : W13 m ρ c (Proc.devRef .tc main_arg2) = m ((c.tc : Thread nD τ).loc main_arg2) :=
  W13_arg m ρ main_arg2 (by decide) c
theorem W13_arg3 (c : Dev nD) : W13 m ρ c (Proc.devRef .tc main_arg3) = m ((c.tc : Thread nD τ).loc main_arg3) :=
  W13_arg m ρ main_arg3 (by decide) c
theorem W13_arg4 (c : Dev nD) : W13 m ρ c (Proc.devRef .tc main_arg4) = m ((c.tc : Thread nD τ).loc main_arg4) :=
  W13_arg m ρ main_arg4 (by decide) c
theorem W13_arg5 (c : Dev nD) : W13 m ρ c (Proc.devRef .tc main_arg5) = m ((c.tc : Thread nD τ).loc main_arg5) :=
  W13_arg m ρ main_arg5 (by decide) c
theorem W13_arg6 (c : Dev nD) : W13 m ρ c (Proc.devRef .tc main_arg6) = m ((c.tc : Thread nD τ).loc main_arg6) :=
  W13_arg m ρ main_arg6 (by decide) c
theorem W13_arg7 (c : Dev nD) : W13 m ρ c (Proc.devRef .tc main_arg7) = m ((c.tc : Thread nD τ).loc main_arg7) :=
  W13_arg m ρ main_arg7 (by decide) c
theorem W13_arg8 (c : Dev nD) : W13 m ρ c (Proc.devRef .tc main_arg8) = m ((c.tc : Thread nD τ).loc main_arg8) :=
  W13_arg m ρ main_arg8 (by decide) c

/-- THE FRAME: every weakly fair execution terminates, nothing faulting, and the argument arrays end as launched. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W13_arg0 m ρ c),
     (h c _ (mem_uc main_arg1 (by decide))).trans (W13_arg1 m ρ c),
     (h c _ (mem_uc main_arg2 (by decide))).trans (W13_arg2 m ρ c),
     (h c _ (mem_uc main_arg3 (by decide))).trans (W13_arg3 m ρ c),
     (h c _ (mem_uc main_arg4 (by decide))).trans (W13_arg4 m ρ c),
     (h c _ (mem_uc main_arg5 (by decide))).trans (W13_arg5 m ρ c),
     (h c _ (mem_uc main_arg6 (by decide))).trans (W13_arg6 m ρ c),
     (h c _ (mem_uc main_arg7 (by decide))).trans (W13_arg7 m ρ c),
     (h c _ (mem_uc main_arg8 (by decide))).trans (W13_arg8 m ρ c)⟩) (run_all m ρ)

/-- THE RUN WITH ITS RESULT: the result buffer ends at the fold's last contents, the arguments as launched. -/
theorem run_val : θ_run defs (onTc (τ := τ) (main (F := F))) ⟨m, fun _ => 0, ρ⟩ (fun r => ∀ c : Dev nD,
      r.2.mem ((c.tc : Thread nD τ).loc main_v113) = W13 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v113 (by decide)),
     (h c _ (mem_uc main_arg0 (by decide))).trans (W13_arg0 m ρ c),
     (h c _ (mem_uc main_arg1 (by decide))).trans (W13_arg1 m ρ c),
     (h c _ (mem_uc main_arg2 (by decide))).trans (W13_arg2 m ρ c),
     (h c _ (mem_uc main_arg3 (by decide))).trans (W13_arg3 m ρ c),
     (h c _ (mem_uc main_arg4 (by decide))).trans (W13_arg4 m ρ c),
     (h c _ (mem_uc main_arg5 (by decide))).trans (W13_arg5 m ρ c),
     (h c _ (mem_uc main_arg6 (by decide))).trans (W13_arg6 m ρ c),
     (h c _ (mem_uc main_arg7 (by decide))).trans (W13_arg7 m ρ c),
     (h c _ (mem_uc main_arg8 (by decide))).trans (W13_arg8 m ρ c)⟩) (run_all m ρ)

end Cert.KernelIdeal.Fr

end
-- ==== Proof.FrameKI.lean ====
/-
  The idealized kernel's frame claim: at the ideal float instance, from any launch memory of which the precondition
  holds, every weakly fair execution terminates, nothing faulting, and the nine argument arrays end as launched.
  The precondition is not used: the run and the arguments' preservation hold from every launch memory.
-/
import proofs.«121678_j3599182594335_2_alg».proof.Defs
import proofs.«121678_j3599182594335_2_alg».proof.Proof.RunArgs

set_option maxRecDepth 16384

noncomputable section

namespace Cert.Proof

open Idealize.ShloMosaic Idealize.SL.Sem

theorem frameKI [hKernelIdeal : Cert.KernelIdeal.Facts] [hPre_finite_inputs : Cert.Pre_finite_inputs.Facts] :
    Cert.frame_KernelIdeal :=
  fun m ρ _ => Cert.KernelIdeal.Fr.run_frame (F := Ideal) m ρ

end Cert.Proof

end
-- ==== Proof.FrameRef.lean ====
/- The reference program's frame claim: from any memory, every weakly fair execution of the reference
   terminates with its nine arguments unchanged. This is the argument part of the reference's run, which
   holds for every float instance and without the precondition; here it is read at the ideal instance. -/
import proofs.«121678_j3599182594335_2_alg».proof.Defs
import proofs.«121678_j3599182594335_2_alg».proof.Proof.RunP0

noncomputable section

namespace Cert.Proof

open Idealize.ShloMosaic Idealize.SL.Sem

theorem frameRef [Cert.ReferenceIdeal.Facts] [Cert.Pre_finite_inputs.Facts] : Cert.frame_ReferenceIdeal :=
  fun m ρ _ => Cert.ReferenceIdeal.Value.run_args (F := Ideal) m ρ

end Cert.Proof

end
-- ==== Proof.KerGlue.lean ====
/-
  The operations of the main function that surround the three kernel launches, read back at the ideal instance
  (floats are extended reals, a change of float format is the identity), from an arbitrary valuation of the buffers.

  This file: the valuation after the operations between the second and the third launch; the vocabulary in which the
  gathered vectors are stated (endpoints, their normalisation, the pair array, the gathers); the first operation (the
  adjacency matrix converted to bf16 is the adjacency matrix); the last one (column 0 of the padded result); and the two
  bias vectors, which no operation writes.
-/
import proofs.«121678_j3599182594335_2_alg».proof.Proof.Gen.KernelIdeal.Launch
import Idealize.ShloMosaic.Lib.StableHlo.Run
import Idealize.ShloMosaic.Lib.Pipeline.Value
import Idealize.ShloMosaic.Lib.KernelVsHost
import Idealize.ShloMosaic.Lib.ValueIdx
import Idealize.ShloMosaic.Lib.ValueLayout

set_option maxRecDepth 16384

noncomputable section

namespace Cert.KernelIdeal.Glue

open Cert.KernelIdeal Cert.KernelIdeal.Gen
open Idealize.ShloMosaic Idealize.ShloMosaic.TcCoe Idealize.SL.Sem Idealize.ShloMosaic.ValueIdx

variable {F : FTy → Type} [FloatOps F]

/-- The buffers after every operation between the second and the third launch, in order, from the valuation `W`. -/
def G (W : Valuation τ sig (Elt F)) : Valuation τ sig (Elt F) :=
  StableHlo.after hostOps2_7 (StableHlo.after hostOps2_6 (StableHlo.after hostOps2_5 (StableHlo.after hostOps2_4
    (StableHlo.after hostOps2_3 (StableHlo.after hostOps2_2 (StableHlo.after hostOps2_1 (StableHlo.after hostOps2 W)))))))

/-! ## The vocabulary of the gathers -/

/-- Row 0 of the edge list: the first endpoint of every edge. -/
def endU (x2 : (⟨S2x262144, .i32⟩ : BufTy).Contents (Elt F)) : (⟨S262144, .i32⟩ : BufTy).Contents (Elt F) :=
  shapeCast S262144 (extractStridedSlice S1x262144 ![0, 0] x2 slices_S2x262144_S1x262144_0_0) shapeCasts_S1x262144_S262144
/-- Row 1 of the edge list: the second endpoint of every edge. -/
def endV (x2 : (⟨S2x262144, .i32⟩ : BufTy).Contents (Elt F)) : (⟨S262144, .i32⟩ : BufTy).Contents (Elt F) :=
  shapeCast S262144 (extractStridedSlice S1x262144 ![1, 0] x2 slices_S2x262144_S1x262144_1_0) shapeCasts_S1x262144_S262144
/-- A negative node index is shifted by 2048. -/
def norm (a : (⟨S262144, .i32⟩ : BufTy).Contents (Elt F)) : (⟨S262144, .i32⟩ : BufTy).Contents (Elt F) :=
  select (cmpi .slt a (broadcastInDim S262144 ![] bcast_S_S262144 (constantI S_ 32 0#32)))
    (addi a (broadcastInDim S262144 ![] bcast_S_S262144 (constantI S_ 32 2048#32))) a
/-- A vector as a one-column matrix. -/
def col {ε : EltTy} (a : (⟨S262144, ε⟩ : BufTy).Contents (Elt F)) : (⟨S262144x1, ε⟩ : BufTy).Contents (Elt F) :=
  broadcastInDim S262144x1 ![0] bcast_S262144_S262144x1_0 a
/-- Two index vectors side by side: the array of index pairs. -/
def pairs (a b : (⟨S262144, .i32⟩ : BufTy).Contents (Elt F)) : (⟨S262144x2, .i32⟩ : BufTy).Contents (Elt F) :=
  concatenate S262144x2 1 [⟨S262144x1, col (F := F) a⟩, ⟨S262144x1, col (F := F) b⟩] concatenates_S262144x1_S262144x1_S262144x2_d1
/-- The entries of the matrix `M` at the pairs (u_e, v_e). -/
def kPickUV (M : (⟨S2048x2048, .f32⟩ : BufTy).Contents (Elt F)) (x2 : (⟨S2x262144, .i32⟩ : BufTy).Contents (Elt F)) :
    (⟨S262144, .f32⟩ : BufTy).Contents (Elt F) :=
  Host.gather gather_S2048x2048_S262144x2_S262144_n_01_n_n_01_1_11 M (pairs (F := F) (norm (F := F) (endU (F := F) x2)) (norm (F := F) (endV (F := F) x2)))
/-- The entries of the matrix `M` at the swapped pairs (v_e, u_e). -/
def kPickVU (M : (⟨S2048x2048, .f32⟩ : BufTy).Contents (Elt F)) (x2 : (⟨S2x262144, .i32⟩ : BufTy).Contents (Elt F)) :
    (⟨S262144, .f32⟩ : BufTy).Contents (Elt F) :=
  Host.gather gather_S2048x2048_S262144x2_S262144_n_01_n_n_01_1_11 M (pairs (F := F) (norm (F := F) (endV (F := F) x2)) (norm (F := F) (endU (F := F) x2)))
/-- The rows of the node features at the (normalised) node indices `a`. -/
def kRows (x0 : (⟨S2048x256, .f32⟩ : BufTy).Contents (Elt F)) (a : (⟨S262144, .i32⟩ : BufTy).Contents (Elt F)) :
    (⟨S262144x256, .f32⟩ : BufTy).Contents (Elt F) :=
  Host.gather gather_S2048x256_S262144x1_S262144x256_1_0_n_n_0_1_1256 x0 (col (F := F) (norm (F := F) a))
/-- The product, entry by entry, of the two endpoints' feature rows. -/
def kProd (x0 : (⟨S2048x256, .f32⟩ : BufTy).Contents (Elt F)) (x2 : (⟨S2x262144, .i32⟩ : BufTy).Contents (Elt F)) :
    (⟨S262144x256, .f32⟩ : BufTy).Contents (Elt F) :=
  mulf (kRows (F := F) x0 (endU (F := F) x2)) (kRows (F := F) x0 (endV (F := F) x2))

/-! ## The first and the last operation -/

/-- The adjacency matrix converted to the narrower float format is, at the ideal instance, the adjacency matrix. -/
theorem G0 (W : Valuation τ sig (Elt Ideal)) :
    (StableHlo.after (hostOps0 (F := Ideal)) W (Proc.devRef .tc main_v0) : S2048x2048.Idx → EReal)
      = (W (Proc.devRef .tc main_arg1) : S2048x2048.Idx → EReal) := by
  after_results; rfl

/-- The result is column 0 of the padded result of the last launch. -/
theorem G5 (W : Valuation τ sig (Elt Ideal)) (e : Fin 262144) :
    (StableHlo.after (hostOps3 (F := Ideal)) W (Proc.devRef .tc main_v113) : S262144x1.Idx → EReal) (ix2 e (0 : Fin 1))
      = (W (Proc.devRef .tc main_v112) : S262144x128.Idx → EReal) (ix2 e (0 : Fin 128)) := by
  after_results
  exact slice2_axis1_apply 0 _ _ e (0 : Fin 1) (0 : Fin 128) rfl

/-! ## The two bias vectors are written by no operation -/

theorem G4_arg4 (W : Valuation τ sig (Elt Ideal)) : G W (Proc.devRef .tc main_arg4) = W (Proc.devRef .tc main_arg4) := by
  unfold G
  after_results_simp

theorem G4_arg6 (W : Valuation τ sig (Elt Ideal)) : G W (Proc.devRef .tc main_arg6) = W (Proc.devRef .tc main_arg6) := by
  unfold G
  after_results_simp

end Cert.KernelIdeal.Glue

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibBiasRow.lean ====
/-
  A bias vector laid along the rows, and a scalar spread over an array, read at an index: general lemmas.

  A vector `[b]` shape-cast to the row `[1, b]` keeps its entries in order, so the row at `(0, q)` is the vector at
  `q`; that row broadcast to `[a, b]` (a vector broadcast: trailing axes aligned, the unit axis repeated) reads, at
  `(p, q)`, the vector at `q` again. A rank-0 array broadcast to any shape reads its one entry everywhere.
-/
import Idealize.ShloMosaic.Lib.Pipeline.Value
import Idealize.ShloMosaic.Lib.ValueIdx

namespace BiasRead

open Idealize.ShloMosaic Idealize.ShloMosaic.ValueIdx

/-- A vector `[b]` shape-cast to the row `[1, b]` reads, at `(u, q)`, the vector at `q`. -/
theorem vector_as_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have hu : u.val = 0 := by have := u.isLt; omega
  rw [hu, Nat.zero_mul, Nat.zero_add]

/-- A row `[1, b]` broadcast down to `[a, b]` (trailing axes aligned) reads, at `(p, q)`, the row at `(0, q)`. -/
theorem row_down_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector `[b]` made a row and broadcast down to `[a, b]` reads, at `(p, q)`, the vector at `q`. -/
theorem bias_rows_apply {α : Type} {a b : ℕ} (x : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ x h₁) h₂ (ix2 p q) = x (ix1 q) :=
  (row_down_apply _ h₂ p q).trans (vector_as_row_apply x h₁ 0 q)

/-- A rank-0 array broadcast to any shape reads its one entry at every index. -/
theorem scalar_apply {α : Type} {t : Shape} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k fun ax => ax.elim0

end BiasRead
-- ==== Proof.Value2Pay.lean ====
/-
  Region 2, the arithmetic of one tile: the three-layer perceptron's padded result tile read at an entry, at the exact
  extended reals.

  Entry (p, o) of the result tile is  (sum over j of h2(p, j) * W3(j, o)) + b3(o),  where
  h2(p, j) = max((sum over k of h1(p, k) * W2(k, j)) + b2(j), 0)  and
  h1(p, k) = max(((sum over a of X(p, a) * W1a(a, k)) + (sum over s of S(p, s) * W1b(s, k))) + b1(k), 0):
  each product is rows against columns into a zero accumulator, each bias is laid along the rows, the rectifier is the
  maximum against zero, and a change of float format is the identity.
-/
import proofs.«121678_j3599182594335_2_alg».proof.Proof.Gen.KernelIdeal.Skeleton
import proofs.«121678_j3599182594335_2_alg».proof.Proof.LibMatmulNN
import proofs.«121678_j3599182594335_2_alg».proof.Proof.LibBiasRow
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx

/-- The first product at an entry: row p of the feature tile against column q of the first weight block. -/
theorem mm2_a (l : FVec Ideal S4096x256 .bf16) (r : FVec Ideal S256x256 .bf16) (p : Fin 4096) (q : Fin 256) :
    matmul (F := Ideal) dot_S4096x256_S256x256_S4096x256_1_0_0_1_n_n none l r (constant (F := Ideal) S4096x256 .f32 0x00000000#32) (ix2 p q)
      = ∑ e : Fin 256, l (ix2 p e) * r (ix2 e q) :=
  Cert.LibMatmulNN.matmul_zero_apply dot_S4096x256_S256x256_S4096x256_1_0_0_1_n_n_wf none l r p q

/-- The structural product at an entry: row p of the structural tile against column q of the second weight block. -/
theorem mm2_b (l : FVec Ideal S4096x8 .f32) (r : FVec Ideal S8x256 .f32) (p : Fin 4096) (q : Fin 256) :
    matmul (F := Ideal) dot_S4096x8_S8x256_S4096x256_1_0_0_1_n_n (some .fp32) l r (constant (F := Ideal) S4096x256 .f32 0x00000000#32) (ix2 p q)
      = ∑ e : Fin 8, l (ix2 p e) * r (ix2 e q) :=
  Cert.LibMatmulNN.matmul_zero_apply dot_S4096x8_S8x256_S4096x256_1_0_0_1_n_n_wf (some .fp32) l r p q

/-- The last product at an entry: row p of the hidden tile against column q of the padded output weights. -/
theorem mm2_c (l : FVec Ideal S4096x256 .bf16) (r : FVec Ideal S256x128 .bf16) (p : Fin 4096) (q : Fin 128) :
    matmul (F := Ideal) dot_S4096x256_S256x128_S4096x128_1_0_0_1_n_n none l r (constant (F := Ideal) S4096x128 .f32 0x00000000#32) (ix2 p q)
      = ∑ e : Fin 256, l (ix2 p e) * r (ix2 e q) :=
  Cert.LibMatmulNN.matmul_zero_apply dot_S4096x256_S256x128_S4096x128_1_0_0_1_n_n_wf none l r p q

/-- The zero constant of the rectifier is the extended real zero. -/
theorem zero2 : (Scalar.ofBits (F := Ideal) .f32 0x00000000#32 : Ideal .f32) = 0 := Ideal.ofBits_zero_f32

/-- The first hidden layer of a tile at an entry. -/
def h1 (x0 : Vec Ideal S4096x256 .bf16) (x2 : Vec Ideal S256x256 .bf16) (x5 : Vec Ideal S4096x8 .f32) (x7 : Vec Ideal S8x256 .f32)
    (x11 : Vec Ideal S256 .f32) (p : Fin 4096) (k : Fin 256) : EReal :=
  max ((∑ a : Fin 256, x0 (ix2 p a) * x2 (ix2 a k)) + (∑ s : Fin 8, x5 (ix2 p s) * x7 (ix2 s k)) + x11 (ix1 k)) 0

/-- The second hidden layer of a tile at an entry. -/
def h2 (x0 : Vec Ideal S4096x256 .bf16) (x2 : Vec Ideal S256x256 .bf16) (x5 : Vec Ideal S4096x8 .f32) (x7 : Vec Ideal S8x256 .f32)
    (x11 : Vec Ideal S256 .f32) (x18 : Vec Ideal S256x256 .bf16) (x21 : Vec Ideal S256 .f32) (p : Fin 4096) (j : Fin 256) : EReal :=
  max ((∑ k : Fin 256, h1 x0 x2 x5 x7 x11 p k * x18 (ix2 k j)) + x21 (ix1 j)) 0

/-- The padded result tile at an entry. -/
theorem region2_pay_apply (x0 : Vec Ideal S4096x256 .bf16) (x2 : Vec Ideal S256x256 .bf16) (x5 : Vec Ideal S4096x8 .f32) (x7 : Vec Ideal S8x256 .f32)
    (x11 : Vec Ideal S256 .f32) (x18 : Vec Ideal S256x256 .bf16) (x21 : Vec Ideal S256 .f32) (x28 : Vec Ideal S256x128 .bf16)
    (x31 : Vec Ideal S128 .f32) (p : Fin 4096) (o : Fin 128) :
    k2_pay1 (F := Ideal) x0 x2 x5 x7 x11 x18 x21 x28 x31 (ix2 p o)
      = (∑ j : Fin 256, h2 x0 x2 x5 x7 x11 x18 x21 p j * x28 (ix2 j o)) + x31 (ix1 o) := by
  unfold k2_pay1
  simp only [shapeCast_self]
  show matmul (F := Ideal) dot_S4096x256_S256x128_S4096x128_1_0_0_1_n_n none _ x28 _ (ix2 p o) + broadcastTo S4096x128 (shapeCast S1x128 x31 _) _ (ix2 p o) = _
  rw [mm2_c, BiasRead.bias_rows_apply]
  refine congrArg (· + x31 (ix1 o)) (Finset.sum_congr rfl fun j _ => congrArg (· * x28 (ix2 j o)) ?_)
  show max (matmul (F := Ideal) dot_S4096x256_S256x256_S4096x256_1_0_0_1_n_n none _ x18 _ (ix2 p j) + broadcastTo S4096x256 (shapeCast S1x256 x21 _) _ (ix2 p j))
    (Scalar.ofBits (F := Ideal) .f32 0x00000000#32) = _
  rw [mm2_a, BiasRead.bias_rows_apply, zero2]
  unfold h2
  refine congrArg (max · 0) (congrArg (· + x21 (ix1 j)) (Finset.sum_congr rfl fun k _ => congrArg (· * x18 (ix2 k j)) ?_))
  show max (matmul (F := Ideal) dot_S4096x256_S256x256_S4096x256_1_0_0_1_n_n none x0 x2 _ (ix2 p k) + matmul (F := Ideal) dot_S4096x8_S8x256_S4096x256_1_0_0_1_n_n (some .fp32) x5 x7 _ (ix2 p k)
      + broadcastTo S4096x256 (shapeCast S1x256 x11 _) _ (ix2 p k)) 0 = _
  rw [mm2_a, mm2_b, BiasRead.bias_rows_apply]
  rfl

end Cert.KernelIdeal.Val

end
-- ==== Proof.Value2.lean ====
/-
  Region 2, the values: what the padded result array holds after the region, index by index, at the exact extended
  reals, as a function of the arrays the region finds.

  Point r of the grid of 64 reads rows [4096 r, 4096 r + 4096) of the feature products and of the structural features,
  and all of the weights and biases; it writes rows [4096 r, 4096 r + 4096) of the padded result: entry (p, o) of the tile
  is the three-layer perceptron of row 4096 r + p, read at output column o. The 64 tiles cover the array.
-/
import proofs.«121678_j3599182594335_2_alg».proof.Proof.Region2Defs
import proofs.«121678_j3599182594335_2_alg».proof.Proof.Value2Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

/-- The first hidden layer at edge e, unit k: the rectified sum of the feature products against the first weight block,
    the structural features against the second, and the bias. -/
def lay1 (xm : S262144x256.Idx → EReal) (st : S262144x8.Idx → EReal) (w1a : S256x256.Idx → EReal) (w1b : S8x256.Idx → EReal)
    (b1 : S256.Idx → EReal) (e : Fin 262144) (k : Fin 256) : EReal :=
  max ((∑ a : Fin 256, xm (ix2 e a) * w1a (ix2 a k)) + (∑ s : Fin 8, st (ix2 e s) * w1b (ix2 s k)) + b1 (ix1 k)) 0

/-- The second hidden layer at edge e, unit j. -/
def lay2 (xm : S262144x256.Idx → EReal) (st : S262144x8.Idx → EReal) (w1a : S256x256.Idx → EReal) (w1b : S8x256.Idx → EReal)
    (b1 : S256.Idx → EReal) (w2 : S256x256.Idx → EReal) (b2 : S256.Idx → EReal) (e : Fin 262144) (j : Fin 256) : EReal :=
  max ((∑ k : Fin 256, lay1 xm st w1a w1b b1 e k * w2 (ix2 k j)) + b2 (ix1 j)) 0

/-- The padded result of the perceptron, entry by entry: edge (i 0), output column (i 1). -/
def mlp (xm : S262144x256.Idx → EReal) (st : S262144x8.Idx → EReal) (w1a : S256x256.Idx → EReal) (w1b : S8x256.Idx → EReal)
    (b1 : S256.Idx → EReal) (w2 : S256x256.Idx → EReal) (b2 : S256.Idx → EReal) (w3 : S256x128.Idx → EReal) (b3 : S128.Idx → EReal) :
    S262144x128.Idx → EReal :=
  fun i => (∑ j : Fin 256, lay2 xm st w1a w1b b1 w2 b2 (i 0) j * w3 (ix2 j (i 1))) + b3 (ix1 (i 1))

/-- The tile of the perceptron: when the two tiled blocks hold rows [4096 r, 4096 r + 4096) of their arrays and the seven
    resident blocks hold their arrays, entry (p, o) of the tile is entry (4096 r + p, o) of the padded result. -/
theorem tile2_eq (xm : S262144x256.Idx → EReal) (st : S262144x8.Idx → EReal) (w1a : S256x256.Idx → EReal) (w1b : S8x256.Idx → EReal)
    (b1 : S256.Idx → EReal) (w2 : S256x256.Idx → EReal) (b2 : S256.Idx → EReal) (w3 : S256x128.Idx → EReal) (b3 : S128.Idx → EReal)
    (x0 : Vec Ideal S4096x256 .bf16) (x2 : Vec Ideal S256x256 .bf16) (x5 : Vec Ideal S4096x8 .f32) (x7 : Vec Ideal S8x256 .f32)
    (x11 : Vec Ideal S256 .f32) (x18 : Vec Ideal S256x256 .bf16) (x21 : Vec Ideal S256 .f32) (x28 : Vec Ideal S256x128 .bf16)
    (x31 : Vec Ideal S128 .f32) (r : ℕ)
    (g0 : ∀ (p : Fin 4096) (a : Fin 256) (i : S262144x256.Idx), (i 0).val = r * 4096 + p.val → (i 1).val = a.val → x0 (ix2 p a) = xm i)
    (g1 : ∀ (p : Fin 4096) (s : Fin 8) (i : S262144x8.Idx), (i 0).val = r * 4096 + p.val → (i 1).val = s.val → x5 (ix2 p s) = st i)
    (g2 : ∀ j : S256x256.Idx, x2 j = w1a j) (g3 : ∀ j : S8x256.Idx, x7 j = w1b j) (g4 : ∀ j : S256.Idx, x11 j = b1 j)
    (g5 : ∀ j : S256x256.Idx, x18 j = w2 j) (g6 : ∀ j : S256.Idx, x21 j = b2 j) (g7 : ∀ j : S256x128.Idx, x28 j = w3 j)
    (g8 : ∀ j : S128.Idx, x31 j = b3 j)
    (p : Fin 4096) (o : Fin 128) (i : S262144x128.Idx) (hi0 : (i 0).val = r * 4096 + p.val) (hi1 : (i 1).val = o.val) :
    (∑ j : Fin 256, h2 x0 x2 x5 x7 x11 x18 x21 p j * x28 (ix2 j o)) + x31 (ix1 o) = mlp xm st w1a w1b b1 w2 b2 w3 b3 i := by
  have ho : i 1 = o := Fin.ext hi1
  have e0 : ∀ a : Fin 256, x0 (ix2 p a) = xm (ix2 (i 0) a) := fun a => g0 p a (ix2 (i 0) a) hi0 rfl
  have e1 : ∀ s : Fin 8, x5 (ix2 p s) = st (ix2 (i 0) s) := fun s => g1 p s (ix2 (i 0) s) hi0 rfl
  have l1 : ∀ k : Fin 256, h1 x0 x2 x5 x7 x11 p k = lay1 xm st w1a w1b b1 (i 0) k := by
    intro k
    unfold h1 lay1
    simp only [e0, e1, g2, g3, g4]
  have l2 : ∀ j : Fin 256, h2 x0 x2 x5 x7 x11 x18 x21 p j = lay2 xm st w1a w1b b1 w2 b2 (i 0) j := by
    intro j
    unfold h2 lay2
    simp only [l1, g5, g6]
  unfold mlp
  simp only [l2, g7, g8, ho]

section
variable (V : (c : Dev nD) → (b : Ref sig .tc) → Buf (Elt Ideal) ((c : Thread nD τ).loc b))

/-- The printed index maps over the 64 points: the two tiled inputs sit on the rows of the result tile, the seven resident
    windows are the whole arrays, and the result tile's row block is below 64. -/
theorem idx_facts2 : ∀ t : Fin cfg2.N,
    win2_0.index t (0 : Fin 2) = win2_9.index t (0 : Fin 2) ∧ win2_0.index t (1 : Fin 2) = 0
    ∧ win2_1.index t (0 : Fin 2) = win2_9.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = 0 ∧ win2_7.index t (1 : Fin 2) = 0
    ∧ win2_8.index t (0 : Fin 1) = 0
    ∧ win2_9.index t (0 : Fin 2) ≤ 63 ∧ win2_9.index t (1 : Fin 2) = 0 :=
  (by decide +kernel : ∀ t : Fin grid2.N, _)

/-- Every row block of the result is some point's. -/
theorem idx_onto2 : ∀ q0 : Fin 64, ∃ t : Fin cfg2.N, win2_9.index t = ![q0.val, 0] :=
  (by decide +kernel : ∀ q0 : Fin 64, ∃ t : Fin grid2.N, win2_9.index t = ![q0.val, 0])

/-- The feature tile at a point, read at (p, a): entry (4096 r + p, a) of the array, r the tile's row block. -/
theorem iblk2_0_apply (c : Dev nD) (t : Fin cfg2.N) (p : Fin 4096) (a : Fin 256) (i : S262144x256.Idx)
    (h0 : (i 0).val = win2_9.index t 0 * 4096 + p.val) (h1 : (i 1).val = a.val) :
    (iblk2 V c 0 t : Vec Ideal S4096x256 .bf16) (ix2 p a) = (V c main_v99 : S262144x256.Idx → EReal) i := by
  obtain ⟨e0, e1, -⟩ := idx_facts2 t
  unfold iblk2
  rw [View.read_apply]
  show (V c main_v99 : S262144x256.Idx → EReal) _ = _
  refine congrArg _ ?_
  funext ax
  apply Fin.ext
  match ax with
  | ⟨0, _⟩ => show win2_0.index t 0 * 4096 + 1 * p.val = (i 0).val; omega
  | ⟨1, _⟩ => show win2_0.index t 1 * 256 + 1 * a.val = (i 1).val; omega

/-- The structural tile at a point, read at (p, s): entry (4096 r + p, s) of the array. -/
theorem iblk2_1_apply (c : Dev nD) (t : Fin cfg2.N) (p : Fin 4096) (s : Fin 8) (i : S262144x8.Idx)
    (h0 : (i 0).val = win2_9.index t 0 * 4096 + p.val) (h1 : (i 1).val = s.val) :
    (iblk2 V c 1 t : Vec Ideal S4096x8 .f32) (ix2 p s) = (V c main_v83 : S262144x8.Idx → EReal) i := by
  obtain ⟨-, -, e0, e1, -⟩ := idx_facts2 t
  unfold iblk2
  rw [View.read_apply]
  show (V c main_v83 : S262144x8.Idx → EReal) _ = _
  refine congrArg _ ?_
  funext ax
  apply Fin.ext
  match ax with
  | ⟨0, _⟩ => show win2_1.index t 0 * 4096 + 1 * p.val = (i 0).val; omega
  | ⟨1, _⟩ => show win2_1.index t 1 * 8 + 1 * s.val = (i 1).val; omega

/-- A resident window's block is its whole array: the first weight block. -/
theorem iblk2_2_apply (c : Dev nD) (t : Fin cfg2.N) (j : S256x256.Idx) :
    (iblk2 V c 2 t : Vec Ideal S256x256 .bf16) j = (V c main_v102 : S256x256.Idx → EReal) j := by
  obtain ⟨-, -, -, -, e0, e1, -⟩ := idx_facts2 t
  unfold iblk2
  rw [View.read_apply]
  show (V c main_v102 : S256x256.Idx → EReal) _ = _
  refine congrArg _ ?_
  funext ax
  apply Fin.ext
  match ax with
  | ⟨0, _⟩ => show win2_2.index t 0 * 256 + 1 * (j 0).val = (j 0).val; omega
  | ⟨1, _⟩ => show win2_2.index t 1 * 256 + 1 * (j 1).val = (j 1).val; omega

/-- The second weight block, whole. -/
theorem iblk2_3_apply (c : Dev nD) (t : Fin cfg2.N) (j : S8x256.Idx) :
    (iblk2 V c 3 t : Vec Ideal S8x256 .f32) j = (V c main_v105 : S8x256.Idx → EReal) j := by
  obtain ⟨-, -, -, -, -, -, e0, e1, -⟩ := idx_facts2 t
  unfold iblk2
  rw [View.read_apply]
  show (V c main_v105 : S8x256.Idx → EReal) _ = _
  refine congrArg _ ?_
  funext ax
  apply Fin.ext
  match ax with
  | ⟨0, _⟩ => show win2_3.index t 0 * 8 + 1 * (j 0).val = (j 0).val; omega
  | ⟨1, _⟩ => show win2_3.index t 1 * 256 + 1 * (j 1).val = (j 1).val; omega

/-- The first bias, whole. -/
theorem iblk2_4_apply (c : Dev nD) (t : Fin cfg2.N) (j : S256.Idx) :
    (iblk2 V c 4 t : Vec Ideal S256 .f32) j = (V c main_arg4 : S256.Idx → EReal) j := by
  obtain ⟨-, -, -, -, -, -, -, -, e0, -⟩ := idx_facts2 t
  unfold iblk2
  rw [View.read_apply]
  show (V c main_arg4 : S256.Idx → EReal) _ = _
  refine congrArg _ ?_
  funext ax
  apply Fin.ext
  match ax with
  | ⟨0, _⟩ => show win2_4.index t 0 * 256 + 1 * (j 0).val = (j 0).val; omega

/-- The second layer's weights, whole. -/
theorem iblk2_5_apply (c : Dev nD) (t : Fin cfg2.N) (j : S256x256.Idx) :
    (iblk2 V c 5 t : Vec Ideal S256x256 .bf16) j = (V c main_v107 : S256x256.Idx → EReal) j := by
  obtain ⟨-, -, -, -, -, -, -, -, -, e0, e1, -⟩ := idx_facts2 t
  unfold iblk2
  rw [View.read_apply]
  show (V c main_v107 : S256x256.Idx → EReal) _ = _
  refine congrArg _ ?_
  funext ax
  apply Fin.ext
  match ax with
  | ⟨0, _⟩ => show win2_5.index t 0 * 256 + 1 * (j 0).val = (j 0).val; omega
  | ⟨1, _⟩ => show win2_5.index t 1 * 256 + 1 * (j 1).val = (j 1).val; omega

/-- The second bias, whole. -/
theorem iblk2_6_apply (c : Dev nD) (t : Fin cfg2.N) (j : S256.Idx) :
    (iblk2 V c 6 t : Vec Ideal S256 .f32) j = (V c main_arg6 : S256.Idx → EReal) j := by
  obtain ⟨-, -, -, -, -, -, -, -, -, -, -, e0, -⟩ := idx_facts2 t
  unfold iblk2
  rw [View.read_apply]
  show (V c main_arg6 : S256.Idx → EReal) _ = _
  refine congrArg _ ?_
  funext ax
  apply Fin.ext
  match ax with
  | ⟨0, _⟩ => show win2_6.index t 0 * 256 + 1 * (j 0).val = (j 0).val; omega

/-- The padded output weights, whole. -/
theorem iblk2_7_apply (c : Dev nD) (t : Fin cfg2.N) (j : S256x128.Idx) :
    (iblk2 V c 7 t : Vec Ideal S256x128 .bf16) j = (V c main_v110 : S256x128.Idx → EReal) j := by
  obtain ⟨-, -, -, -, -, -, -, -, -, -, -, -, e0, e1, -⟩ := idx_facts2 t
  unfold iblk2
  rw [View.read_apply]
  show (V c main_v110 : S256x128.Idx → EReal) _ = _
  refine congrArg _ ?_
  funext ax
  apply Fin.ext
  match ax with
  | ⟨0, _⟩ => show win2_7.index t 0 * 256 + 1 * (j 0).val = (j 0).val; omega
  | ⟨1, _⟩ => show win2_7.index t 1 * 128 + 1 * (j 1).val = (j 1).val; omega

/-- The padded output bias, whole. -/
theorem iblk2_8_apply (c : Dev nD) (t : Fin cfg2.N) (j : S128.Idx) :
    (iblk2 V c 8 t : Vec Ideal S128 .f32) j = (V c main_v111 : S128.Idx → EReal) j := by
  obtain ⟨-, -, -, -, -, -, -, -, -, -, -, -, -, -, e0, -⟩ := idx_facts2 t
  unfold iblk2
  rw [View.read_apply]
  show (V c main_v111 : S128.Idx → EReal) _ = _
  refine congrArg _ ?_
  funext ax
  apply Fin.ext
  match ax with
  | ⟨0, _⟩ => show win2_8.index t 0 * 128 + 1 * (j 0).val = (j 0).val; omega

theorem origin2_pair : (![0, 0] : Fin 2 → Nat) = fun _ => 0 := funext fun a => by fin_cases a <;> rfl
theorem origin2_single : (![0] : Fin 1 → Nat) = fun _ => 0 := funext fun a => by fin_cases a; rfl

/-- The whole padded result as a function of the arrays the region finds. -/
abbrev res2 (c : Dev nD) : S262144x128.Idx → EReal :=
  mlp (V c main_v99) (V c main_v83) (V c main_v102) (V c main_v105) (V c main_arg4) (V c main_v107) (V c main_arg6)
    (V c main_v110) (V c main_v111)

/-- What a point writes back to the result array is its tile of the perceptron's padded result. -/
theorem flushed2_9_eq (c : Dev nD) (t : Fin cfg2.N) :
    (dat2 V c).flushed 9 t = ((cfg2.win 9).blk t).view.read (Elt Ideal) (res2 V c) := by
  show (cfg2.win 9).cut (grid2.coords t) ((dat2 V c).after 9 t) = _
  rw [after2_9]
  unfold out2_9
  rw [View.canon_unit_zero origin2_pair]
  simp only [View.ld_unit_zero (S := S4096x256) origin2_pair, View.ld_unit_zero (S := S4096x8) origin2_pair, View.ld_unit_zero (S := S256x256) origin2_pair,
    View.ld_unit_zero (S := S8x256) origin2_pair, View.ld_unit_zero (S := S256) origin2_single, View.ld_unit_zero (S := S256x128) origin2_pair,
    View.ld_unit_zero (S := S128) origin2_single]
  funext j
  have key : ∀ j' : S4096x128.Idx, k2_pay1 (F := Ideal) (iblk2 V c 0 t) (iblk2 V c 2 t) (iblk2 V c 1 t) (iblk2 V c 3 t) (iblk2 V c 4 t)
      (iblk2 V c 5 t) (iblk2 V c 6 t) (iblk2 V c 7 t) (iblk2 V c 8 t) j'
      = res2 V c (((cfg2.win 9).blk t).view.emb j') := by
    intro j'
    obtain ⟨-, -, -, -, -, -, -, -, -, -, -, -, -, -, -, -, e91⟩ := idx_facts2 t
    obtain ⟨p, o, rfl⟩ : ∃ (p : Fin 4096) (o : Fin 128), j' = ix2 p o := ⟨j' 0, j' 1, eq_ix2 j'⟩
    refine (region2_pay_apply (iblk2 V c 0 t) (iblk2 V c 2 t) (iblk2 V c 1 t) (iblk2 V c 3 t) (iblk2 V c 4 t)
      (iblk2 V c 5 t) (iblk2 V c 6 t) (iblk2 V c 7 t) (iblk2 V c 8 t) p o).trans ?_
    refine tile2_eq (V c main_v99) (V c main_v83) (V c main_v102) (V c main_v105) (V c main_arg4) (V c main_v107) (V c main_arg6)
      (V c main_v110) (V c main_v111) (iblk2 V c 0 t) (iblk2 V c 2 t) (iblk2 V c 1 t) (iblk2 V c 3 t) (iblk2 V c 4 t)
      (iblk2 V c 5 t) (iblk2 V c 6 t) (iblk2 V c 7 t) (iblk2 V c 8 t) (win2_9.index t 0)
      (fun p a i h0 h1 => iblk2_0_apply V c t p a i h0 h1) (fun p s i h0 h1 => iblk2_1_apply V c t p s i h0 h1)
      (fun j => iblk2_2_apply V c t j) (fun j => iblk2_3_apply V c t j) (fun j => iblk2_4_apply V c t j)
      (fun j => iblk2_5_apply V c t j) (fun j => iblk2_6_apply V c t j) (fun j => iblk2_7_apply V c t j)
      (fun j => iblk2_8_apply V c t j) p o _ ?_ ?_
    · show win2_9.index t 0 * 4096 + 1 * p.val = _; omega
    · show win2_9.index t 1 * 128 + 1 * o.val = _; omega
  exact key j

/-- An index of the result array is in a point's tile iff each coordinate is in the tile's range. -/
theorem mem_blk2_9 (t : Fin cfg2.N) (i : S262144x128.Idx) :
    i ∈ ((cfg2.win 9).blk t).view.set ↔ ∀ a : Fin 2, win2_9.index t a * S4096x128.size a ≤ (i a).val ∧ (i a).val < win2_9.index t a * S4096x128.size a + S4096x128.size a := by
  show i ∈ ((View.whole main_v112).slice (win2_9.rect t)).set ↔ _
  rw [View.set_slice_whole, Rect.mem_set_unit]
  exact Iff.rfl

/-- The 64 tiles cover the result array: index (e, o) is in tile e / 4096. -/
theorem cover2_9 (i : S262144x128.Idx) :
    ∃ t : Fin cfg2.N, (cfg2.win 9).flush t = true ∧ i ∈ ((cfg2.win 9).blk t).view.set := by
  have hi0 : (i 0).val < 262144 := (i 0).isLt
  have hi1 : (i 1).val < 128 := (i 1).isLt
  obtain ⟨t, ht⟩ := idx_onto2 ⟨(i 0).val / 4096, by omega⟩
  have q0 : win2_9.index t (0 : Fin 2) = (i 0).val / 4096 := congrFun ht 0
  have q1 : win2_9.index t (1 : Fin 2) = 0 := congrFun ht 1
  refine ⟨t, flush2_9 t, ?_⟩
  rw [mem_blk2_9]
  intro a
  match a with
  | ⟨0, _⟩ => show win2_9.index t (0 : Fin 2) * 4096 ≤ (i 0).val ∧ (i 0).val < win2_9.index t (0 : Fin 2) * 4096 + 4096; omega
  | ⟨1, _⟩ => show win2_9.index t (1 : Fin 2) * 128 ≤ (i 1).val ∧ (i 1).val < win2_9.index t (1 : Fin 2) * 128 + 128; omega

/-- The result array after the region: the perceptron's padded result. -/
theorem final2_9 (c : Dev nD) : (dat2 V c).arrAt 9 cfg2.N
    = mlp (V c main_v99) (V c main_v83) (V c main_v102) (V c main_v105) (V c main_arg4) (V c main_v107) (V c main_arg6)
        (V c main_v110) (V c main_v111) :=
  (dat2 V c).arrAt_eq_of_cover 9 (res2 V c) (fun t _ => flushed2_9_eq V c t) cover2_9

end

end Cert.KernelIdeal.Val

end
-- ==== Proof.BridgeRes.lean ====
/-
  The idealized kernel's result at an edge is the three-layer perceptron of region 2 over the arrays the host
  operations between the second and the third launch prepare.

  The last host operation takes column 0 of the padded result; region 2 leaves in the padded result the perceptron of
  the arrays it finds; and the arrays it finds are those the host operations after region 1 compute from the buffers at
  region 1's exit.
-/
import proofs.«121678_j3599182594335_2_alg».proof.Proof.RunFold
import proofs.«121678_j3599182594335_2_alg».proof.Proof.KerGlue
import proofs.«121678_j3599182594335_2_alg».proof.Proof.Value2

set_option maxRecDepth 16384

noncomputable section

namespace Cert.Bridge

open Cert.KernelIdeal Cert.KernelIdeal.Gen Cert.KernelIdeal.Fr Cert.KernelIdeal.Val
open Idealize.ShloMosaic Idealize.ShloMosaic.TcCoe Idealize.SL.Sem Idealize.ShloMosaic.ValueIdx

variable (m : (ℓ : Loc nD τ sig) → Buf (Elt Ideal) ℓ) (ρ : Dev nD → PrngReg)

/-- Buffer b as the host operations between the second and the third launch leave it, from the buffers at region 1's
    exit. -/
abbrev GW (c : Dev nD) (b : Ref sig .tc) := Cert.KernelIdeal.Glue.G (W3 m ρ c) (Proc.devRef .tc b)

/-- The buffers at region 2's entry are the buffers at region 1's exit after those host operations, in order. -/
theorem W11_eq (c : Dev nD) : W11 m ρ c = Cert.KernelIdeal.Glue.G (W3 m ρ c) := by
  unfold Cert.KernelIdeal.Glue.G
  rfl

/-- The result at (e, 0) is entry (e, 0) of the padded result that region 2 leaves. -/
theorem kres_core (c : Dev nD) (e : Fin 262144) :
    (W13 m ρ c (Proc.devRef .tc main_v113) : S262144x1.Idx → EReal) (ix2 e (0 : Fin 1))
      = ((dat2 (V11 m ρ) c).arrAt 9 cfg2.N : S262144x128.Idx → EReal) (ix2 e (0 : Fin 128)) := by
  have h : W12 m ρ c (Proc.devRef .tc main_v112) = (dat2 (V11 m ρ) c).arrAt 9 cfg2.N := by
    unfold W12
    rw [upd_same]
  rw [← h]
  exact Cert.KernelIdeal.Glue.G5 (W12 m ρ c) e

/-- The kernel's result at (e, 0): the perceptron over the prepared arrays, read at (e, 0) of its padded result. -/
theorem kres_eq (c : Dev nD) (e : Fin 262144) :
    (W13 m ρ c (Proc.devRef .tc main_v113) : S262144x1.Idx → EReal) (ix2 e (0 : Fin 1))
      = mlp (GW m ρ c main_v99) (GW m ρ c main_v83) (GW m ρ c main_v102) (GW m ρ c main_v105) (GW m ρ c main_arg4)
          (GW m ρ c main_v107) (GW m ρ c main_arg6) (GW m ρ c main_v110) (GW m ρ c main_v111)
          (ix2 e (0 : Fin 128)) := by
  rw [kres_core, final2_9 (V11 m ρ) c]
  rfl

end Cert.Bridge

end
-- ==== Proof.Value0.lean ====
/-
  Region 0, the values: what the product array and the mask array hold after the region, index by index, at the exact
  extended reals, as functions of the arrays the region finds.

  Point (r, s) of the 4 x 4 grid reads rows [512 r, 512 r + 512) and columns [512 s, 512 s + 512) of the matrix X and
  writes tile (r, s) of the product: entry (p, q) of the tile is the sum over k of X(512 r + p, k) * X(k, 512 s + q),
  which is entry (512 r + p, 512 s + q) of X * X. The sixteen tiles cover the array, so the array ends holding X * X.
-/
import proofs.«121678_j3599182594335_2_alg».proof.Proof.Region0Defs
import proofs.«121678_j3599182594335_2_alg».proof.Proof.LibMatmulNN
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

/-- The matrix product of two 2048 x 2048 arrays of extended reals, entry by entry. -/
def prod2 (X Y : S2048x2048.Idx → EReal) : S2048x2048.Idx → EReal :=
  fun i => ∑ k : Fin 2048, X (ix2 (i 0) k) * Y (ix2 k (i 1))

theorem hz2 : (![0, 0] : Fin 2 → Nat) = fun _ => 0 := funext fun a => by fin_cases a <;> rfl

/-- The product tile at an entry: row p of the row band against column q of the column band. -/
theorem pay1_apply (x0 : Vec Ideal S512x2048 .bf16) (x1 : Vec Ideal S2048x512 .bf16) (p q : Fin 512) :
    k0_pay1 (F := Ideal) x0 x1 (ix2 p q) = ∑ e : Fin 2048, x0 (ix2 p e) * x1 (ix2 e q) := by
  unfold k0_pay1
  rw [shapeCast_self, shapeCast_self]
  exact Cert.LibMatmulNN.matmul_zero_apply dot_S512x2048_S2048x512_S512x512_1_0_0_1_n_n_wf none x0 x1 p q

/-- The tile of a product: when the row band holds rows [512 r, 512 r + 512) of X and the column band holds columns
    [512 s, 512 s + 512) of Y, entry (p, q) of the tile is entry (512 r + p, 512 s + q) of X * Y. -/
theorem tile_eq (X Y : S2048x2048.Idx → EReal) (x0 : Vec Ideal S512x2048 .bf16) (x1 : Vec Ideal S2048x512 .bf16)
    (r s : ℕ)
    (h0 : ∀ (p : Fin 512) (e : Fin 2048) (i : S2048x2048.Idx), (i 0).val = r * 512 + p.val → (i 1).val = e.val → x0 (ix2 p e) = X i)
    (h1 : ∀ (e : Fin 2048) (q : Fin 512) (i : S2048x2048.Idx), (i 0).val = e.val → (i 1).val = s * 512 + q.val → x1 (ix2 e q) = Y i)
    (p q : Fin 512) (i : S2048x2048.Idx) (hi0 : (i 0).val = r * 512 + p.val) (hi1 : (i 1).val = s * 512 + q.val) :
    ∑ e : Fin 2048, x0 (ix2 p e) * x1 (ix2 e q) = prod2 X Y i := by
  unfold prod2
  refine Finset.sum_congr rfl fun e _ => ?_
  rw [h0 p e (ix2 (i 0) e) hi0 rfl, h1 e q (ix2 e (i 1)) rfl hi1]

section
variable (V : (c : Dev nD) → (b : Ref sig .tc) → Buf (Elt Ideal) ((c : Thread nD τ).loc b))

/-- The printed index maps over the sixteen points: the row band follows the tile's row, the column band the tile's
    column, the adjacency tile and the mask tile sit where the product tile sits, and the tile's block indices are the
    point's grid coordinates. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_4.index t (0 : Fin 2) = win0_3.index t (0 : Fin 2) ∧ win0_4.index t (1 : Fin 2) = win0_3.index t (1 : Fin 2)
    ∧ win0_3.index t (0 : Fin 2) ≤ 3 ∧ win0_3.index t (1 : Fin 2) ≤ 3
    ∧ win0_3.index t (0 : Fin 2) = (grid0.coords t 0).val ∧ win0_3.index t (1 : Fin 2) = (grid0.coords t 1).val :=
  (by decide +kernel : ∀ t : Fin grid0.N, _)

/-- Every tile of the 4 x 4 tiling is some point's. -/
theorem idx_onto0 : ∀ (q0 q1 : Fin 4), ∃ t : Fin cfg0.N, win0_3.index t = ![q0.val, q1.val] :=
  (by decide +kernel : ∀ (q0 q1 : Fin 4), ∃ t : Fin grid0.N, win0_3.index t = ![q0.val, q1.val])

/-- The row band at a point, read at (p, e): entry (512 r + p, e) of the matrix, r the tile's row. -/
theorem iblk0_0_apply (c : Dev nD) (t : Fin cfg0.N) (p : Fin 512) (e : Fin 2048) (i : S2048x2048.Idx)
    (h0 : (i 0).val = win0_3.index t 0 * 512 + p.val) (h1 : (i 1).val = e.val) :
    (iblk0 V c 0 t : Vec Ideal S512x2048 .bf16) (ix2 p e) = (V c main_v0 : S2048x2048.Idx → EReal) i := by
  obtain ⟨e0, e1, -⟩ := idx_facts0 t
  unfold iblk0
  rw [View.read_apply]
  show (V c main_v0 : S2048x2048.Idx → EReal) _ = _
  refine congrArg _ ?_
  funext a
  apply Fin.ext
  match a with
  | ⟨0, _⟩ => show win0_0.index t 0 * 512 + 1 * p.val = (i 0).val; omega
  | ⟨1, _⟩ => show win0_0.index t 1 * 2048 + 1 * e.val = (i 1).val; omega

/-- The column band at a point, read at (e, q): entry (e, 512 s + q) of the matrix, s the tile's column. -/
theorem iblk0_1_apply (c : Dev nD) (t : Fin cfg0.N) (e : Fin 2048) (q : Fin 512) (i : S2048x2048.Idx)
    (h0 : (i 0).val = e.val) (h1 : (i 1).val = win0_3.index t 1 * 512 + q.val) :
    (iblk0 V c 1 t : Vec Ideal S2048x512 .bf16) (ix2 e q) = (V c main_v0 : S2048x2048.Idx → EReal) i := by
  obtain ⟨-, -, e2, e3, -⟩ := idx_facts0 t
  unfold iblk0
  rw [View.read_apply]
  show (V c main_v0 : S2048x2048.Idx → EReal) _ = _
  refine congrArg _ ?_
  funext a
  apply Fin.ext
  match a with
  | ⟨0, _⟩ => show win0_1.index t 0 * 2048 + 1 * e.val = (i 0).val; omega
  | ⟨1, _⟩ => show win0_1.index t 1 * 512 + 1 * q.val = (i 1).val; omega

/-- What a point writes back to the product array is its tile of the product of the matrix with itself. -/
theorem flushed0_3_eq (c : Dev nD) (t : Fin cfg0.N) :
    (dat0 V c).flushed 3 t = ((cfg0.win 3).blk t).view.read (Elt Ideal) (prod2 (V c main_v0) (V c main_v0)) := by
  show (cfg0.win 3).cut (grid0.coords t) ((dat0 V c).after 3 t) = _
  rw [after0_3]
  unfold out0_3
  rw [View.canon_unit_zero hz2]
  simp only [View.ld_unit_zero (S := S512x2048) hz2, View.ld_unit_zero (S := S2048x512) hz2]
  funext j
  have key : ∀ j' : S512x512.Idx, k0_pay1 (F := Ideal) (iblk0 V c 0 t) (iblk0 V c 1 t) j'
      = prod2 (V c main_v0) (V c main_v0) (((cfg0.win 3).blk t).view.emb j') := by
    intro j'
    obtain ⟨p, q, rfl⟩ : ∃ (p q : Fin 512), j' = ix2 p q := ⟨j' 0, j' 1, eq_ix2 j'⟩
    refine (pay1_apply (iblk0 V c 0 t) (iblk0 V c 1 t) p q).trans ?_
    refine tile_eq (V c main_v0) (V c main_v0) (iblk0 V c 0 t) (iblk0 V c 1 t) (win0_3.index t 0) (win0_3.index t 1)
      (fun p e i a b => iblk0_0_apply V c t p e i a b) (fun e q i a b => iblk0_1_apply V c t e q i a b) p q _ ?_ ?_
    · show win0_3.index t 0 * 512 + 1 * p.val = _; omega
    · show win0_3.index t 1 * 512 + 1 * q.val = _; omega
  exact key j

/-- An index of the product array is in a point's tile iff each coordinate is in the tile's range. -/
theorem mem_blk0_3 (t : Fin cfg0.N) (i : S2048x2048.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v1_0).slice (win0_3.rect t)).set ↔ _
  rw [View.set_slice_whole, Rect.mem_set_unit]
  exact Iff.rfl

/-- The sixteen tiles cover the product array: index (r, q) is in tile (r / 512, q / 512). -/
theorem cover0_3 (i : S2048x2048.Idx) :
    ∃ t : Fin cfg0.N, (cfg0.win 3).flush t = true ∧ i ∈ ((cfg0.win 3).blk t).view.set := by
  have hi0 : (i 0).val < 2048 := (i 0).isLt
  have hi1 : (i 1).val < 2048 := (i 1).isLt
  obtain ⟨t, ht⟩ := idx_onto0 ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- The product array after the region: the matrix times itself. -/
theorem final0_3 (c : Dev nD) : (dat0 V c).arrAt 3 cfg0.N = prod2 (V c main_v0) (V c main_v0) :=
  (dat0 V c).arrAt_eq_of_cover 3 (prod2 (V c main_v0) (V c main_v0)) (fun t _ => flushed0_3_eq V c t) cover0_3

end

end Cert.KernelIdeal.Val

end
-- ==== Proof.Value0Mask.lean ====
/-
  Region 0, the second output: what the mask array holds after the region, index by index, at the exact extended reals.

  Point (r, s) of the 4 x 4 grid writes tile (r, s) of the mask. Entry (p, q) of the tile is 1 when the product's entry
  (512 r + p, 512 s + q) exceeds 1/2, the adjacency's entry there is 0, and the global row 512 r + p differs from the
  global column 512 s + q; otherwise it is 0. The row and column numbers are formed on 32-bit words (a lane number plus
  512 times the grid coordinate), which for numbers below 2048 are the numbers themselves. The sixteen tiles cover the
  array, so the array ends holding the mask of the whole product against the whole adjacency.
-/
import proofs.«121678_j3599182594335_2_alg».proof.Proof.Value0
import Idealize.ShloMosaic.Lib.IdealHost

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

/-- The f32 pattern 0x3F000000 is the real one half. -/
theorem ofBits_half_f32 : Ideal.ofBits .f32 0x3F000000#32 = (((1 / 2 : ℝ)) : EReal) := by
  simp [Ideal.ofBits, Ideal.ieee, -EReal.coe_mul]; norm_num

/-- A lane number below 512 plus 512 times a grid coordinate at most 3, on 32-bit words, is the word of the number. -/
theorem row_word (g p : ℕ) (hg : g ≤ 3) (hp : p < 512) :
    IntOp.addi (BitVec.ofNat 32 p) (Scalar.muli (BitVec.ofNat 32 g) 512#32) = BitVec.ofNat 32 (g * 512 + p) := by
  apply BitVec.eq_of_toNat_eq
  simp only [IntOp.addi, Scalar.muli, IntOp.muli, BitVec.toNat_add, BitVec.toNat_mul, BitVec.toNat_ofNat]
  omega

/-- Two numbers below 2048 differ as 32-bit words exactly when they differ. -/
theorem ne_word (a b : ℕ) (ha : a < 2048) (hb : b < 2048) :
    IntOp.cmpi .ne (BitVec.ofNat 32 a) (BitVec.ofNat 32 b) = BitVec.ofBool (decide (a ≠ b)) := by
  unfold IntOp.cmpi
  refine congrArg BitVec.ofBool ?_
  rw [Bool.eq_iff_iff]
  simp only [bne_iff_ne, ne_eq, decide_eq_true_eq]
  constructor
  · intro h e; exact h (by rw [e])
  · intro h e; apply h
    have := congrArg BitVec.toNat e
    simp only [BitVec.toNat_ofNat] at this
    omega

/-- The mask's select at one entry: 1 when the product exceeds the threshold, the adjacency is zero and the row differs
    from the column, else 0. -/
theorem mask_scalar (T P A : EReal) (a b : ℕ) (ha : a < 2048) (hb : b < 2048) :
    Scalar.select (IntOp.andi (IntOp.andi (Ideal.cmp .ogt P T) (Ideal.cmp .oeq A 0))
      (IntOp.cmpi .ne (BitVec.ofNat 32 a) (BitVec.ofNat 32 b))) (1 : EReal) 0
      = if (T < P ∧ A = 0 ∧ a ≠ b) then 1 else 0 := by
  rw [ne_word a b ha hb]
  by_cases h1 : T < P <;> by_cases h2 : A = 0 <;> by_cases h3 : a = b <;>
    simp [Ideal.cmp, Scalar.select, IntOp.andi, h1, h2, h3]

/-- The two-hop mask of a product array X against an adjacency array A, entry by entry: 1 where X exceeds one half, A is
    zero and the row differs from the column; 0 elsewhere. -/
def mask2 (X A : S2048x2048.Idx → EReal) : S2048x2048.Idx → EReal :=
  fun i => if ((((1 / 2 : ℝ)) : EReal) < X i ∧ A i = 0 ∧ (i 0).val ≠ (i 1).val) then 1 else 0

/-- The mask tile at an entry (p, q) of point g: the select over the product tile's entry, the adjacency tile's entry,
    and the global row 512 g₀ + p against the global column 512 g₁ + q. -/
theorem pay2_apply (g : grid0.Coords) (x0 : Vec Ideal S512x2048 .bf16) (x1 : Vec Ideal S2048x512 .bf16)
    (x2 : Vec Ideal S512x512 .f32) (p q : Fin 512) :
    k0_pay2 (F := Ideal) g x0 x1 x2 (ix2 p q)
      = if ((((1 / 2 : ℝ)) : EReal) < k0_pay1 (F := Ideal) x0 x1 (ix2 p q) ∧ x2 (ix2 p q) = 0
            ∧ (g 0).val * 512 + p.val ≠ (g 1).val * 512 + q.val) then 1 else 0 := by
  have hg0 : (g 0).val ≤ 3 := by have : (g 0).val < 4 := (g 0).isLt; omega
  have hg1 : (g 1).val ≤ 3 := by have : (g 1).val < 4 := (g 1).isLt; omega
  have hp : p.val < 512 := p.isLt
  have hq : q.val < 512 := q.isLt
  unfold k0_pay2
  show Scalar.select (IntOp.andi (IntOp.andi
        (Ideal.cmp .ogt (k0_pay1 (F := Ideal) x0 x1 (ix2 p q)) (Ideal.ofBits .f32 0x3F000000#32))
        (Ideal.cmp .oeq (x2 (ix2 p q)) (Ideal.ofBits .f32 0x00000000#32)))
      (IntOp.cmpi .ne
        (IntOp.addi (iota .tc S512x512 32 [0] iota_S512x512_d0_w32 (ix2 p q)) (Scalar.muli (BitVec.ofNat 32 (g 0).val) 512#32))
        (IntOp.addi (iota .tc S512x512 32 [1] iota_S512x512_d1_w32 (ix2 p q)) (Scalar.muli (BitVec.ofNat 32 (g 1).val) 512#32))))
      (Ideal.ofBits .f32 0x3F800000#32) (Ideal.ofBits .f32 0x00000000#32) = _
  rw [iota_single_apply, iota_single_apply, ofBits_half_f32, Ideal.ofBits_zero_f32, Ideal.ofBits_one_f32]
  show Scalar.select (IntOp.andi (IntOp.andi
        (Ideal.cmp .ogt (k0_pay1 (F := Ideal) x0 x1 (ix2 p q)) (((1 / 2 : ℝ)) : EReal))
        (Ideal.cmp .oeq (x2 (ix2 p q)) 0))
      (IntOp.cmpi .ne
        (IntOp.addi (BitVec.ofNat 32 p.val) (Scalar.muli (BitVec.ofNat 32 (g 0).val) 512#32))
        (IntOp.addi (BitVec.ofNat 32 q.val) (Scalar.muli (BitVec.ofNat 32 (g 1).val) 512#32))))
      (1 : EReal) 0 = _
  rw [row_word _ _ hg0 hp, row_word _ _ hg1 hq]
  exact mask_scalar _ _ _ _ _ (by omega) (by omega)

section
variable (V : (c : Dev nD) → (b : Ref sig .tc) → Buf (Elt Ideal) ((c : Thread nD τ).loc b))

/-- The adjacency tile at a point, read at (p, q): entry (512 r + p, 512 s + q) of the adjacency, (r, s) the tile. -/
theorem iblk0_2_apply (c : Dev nD) (t : Fin cfg0.N) (p q : Fin 512) (i : S2048x2048.Idx)
    (h0 : (i 0).val = win0_3.index t 0 * 512 + p.val) (h1 : (i 1).val = win0_3.index t 1 * 512 + q.val) :
    (iblk0 V c 2 t : Vec Ideal S512x512 .f32) (ix2 p q) = (V c main_arg1 : S2048x2048.Idx → EReal) i := by
  obtain ⟨-, -, -, -, e4, e5, -⟩ := idx_facts0 t
  unfold iblk0
  rw [View.read_apply]
  show (V c main_arg1 : S2048x2048.Idx → EReal) _ = _
  refine congrArg _ ?_
  funext a
  apply Fin.ext
  match a with
  | ⟨0, _⟩ => show win0_2.index t 0 * 512 + 1 * p.val = (i 0).val; omega
  | ⟨1, _⟩ => show win0_2.index t 1 * 512 + 1 * q.val = (i 1).val; omega

/-- What a point writes back to the mask array is its tile of the mask of the product against the adjacency. -/
theorem flushed0_4_eq (c : Dev nD) (t : Fin cfg0.N) :
    (dat0 V c).flushed 4 t
      = ((cfg0.win 4).blk t).view.read (Elt Ideal) (mask2 (prod2 (V c main_v0) (V c main_v0)) (V c main_arg1)) := by
  obtain ⟨-, -, -, -, -, -, e6, e7, b0, b1, g0, g1⟩ := idx_facts0 t
  show (cfg0.win 4).cut (grid0.coords t) ((dat0 V c).after 4 t) = _
  rw [after0_4]
  unfold out0_4
  rw [View.canon_unit_zero hz2]
  simp only [View.ld_unit_zero (S := S512x2048) hz2, View.ld_unit_zero (S := S2048x512) hz2,
    View.ld_unit_zero (S := S512x512) hz2]
  funext j
  have key : ∀ j' : S512x512.Idx,
      k0_pay2 (F := Ideal) (grid0.coords t) (iblk0 V c 0 t) (iblk0 V c 1 t) (iblk0 V c 2 t) j'
      = mask2 (prod2 (V c main_v0) (V c main_v0)) (V c main_arg1) (((cfg0.win 4).blk t).view.emb j') := by
    intro j'
    obtain ⟨p, q, rfl⟩ : ∃ (p q : Fin 512), j' = ix2 p q := ⟨j' 0, j' 1, eq_ix2 j'⟩
    refine (pay2_apply (grid0.coords t) (iblk0 V c 0 t) (iblk0 V c 1 t) (iblk0 V c 2 t) p q).trans ?_
    have hr : ((((cfg0.win 4).blk t).view.emb (ix2 p q)) 0).val = (grid0.coords t 0).val * 512 + p.val := by
      show win0_4.index t 0 * 512 + 1 * p.val = _; omega
    have hc : ((((cfg0.win 4).blk t).view.emb (ix2 p q)) 1).val = (grid0.coords t 1).val * 512 + q.val := by
      show win0_4.index t 1 * 512 + 1 * q.val = _; omega
    have hP : k0_pay1 (F := Ideal) (iblk0 V c 0 t) (iblk0 V c 1 t) (ix2 p q)
        = prod2 (V c main_v0) (V c main_v0) (((cfg0.win 4).blk t).view.emb (ix2 p q)) := by
      refine (pay1_apply (iblk0 V c 0 t) (iblk0 V c 1 t) p q).trans ?_
      refine tile_eq (V c main_v0) (V c main_v0) (iblk0 V c 0 t) (iblk0 V c 1 t) (win0_3.index t 0) (win0_3.index t 1)
        (fun p e i a b => iblk0_0_apply V c t p e i a b) (fun e q i a b => iblk0_1_apply V c t e q i a b) p q _ ?_ ?_
      · show win0_4.index t 0 * 512 + 1 * p.val = _; omega
      · show win0_4.index t 1 * 512 + 1 * q.val = _; omega
    have hA : (iblk0 V c 2 t : Vec Ideal S512x512 .f32) (ix2 p q)
        = (V c main_arg1 : S2048x2048.Idx → EReal) (((cfg0.win 4).blk t).view.emb (ix2 p q)) :=
      iblk0_2_apply V c t p q _ (by show win0_4.index t 0 * 512 + 1 * p.val = _; omega)
        (by show win0_4.index t 1 * 512 + 1 * q.val = _; omega)
    show (if _ then (1 : EReal) else 0) = if _ then (1 : EReal) else 0
    refine if_congr ?_ rfl rfl
    rw [hP, hA, hr, hc]
  exact key j

/-- An index of the mask array is in a point's tile iff each coordinate is in the tile's range. -/
theorem mem_blk0_4 (t : Fin cfg0.N) (i : S2048x2048.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v1_1).slice (win0_4.rect t)).set ↔ _
  rw [View.set_slice_whole, Rect.mem_set_unit]
  exact Iff.rfl

/-- The sixteen tiles cover the mask array: index (r, q) is in tile (r / 512, q / 512). -/
theorem cover0_4 (i : S2048x2048.Idx) :
    ∃ t : Fin cfg0.N, (cfg0.win 4).flush t = true ∧ i ∈ ((cfg0.win 4).blk t).view.set := by
  have hi0 : (i 0).val < 2048 := (i 0).isLt
  have hi1 : (i 1).val < 2048 := (i 1).isLt
  obtain ⟨t, ht⟩ := idx_onto0 ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  obtain ⟨-, -, -, -, -, -, e6, e7, -⟩ := idx_facts0 t
  refine ⟨t, flush0_4 t, ?_⟩
  rw [mem_blk0_4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-- The mask array after the region: the two-hop mask of the matrix's square against the adjacency. -/
theorem final0_4 (c : Dev nD) :
    (dat0 V c).arrAt 4 cfg0.N = mask2 (prod2 (V c main_v0) (V c main_v0)) (V c main_arg1) :=
  (dat0 V c).arrAt_eq_of_cover 4 (mask2 (prod2 (V c main_v0) (V c main_v0)) (V c main_arg1))
    (fun t _ => flushed0_4_eq V c t) cover0_4

end

end Cert.KernelIdeal.Val

end
-- ==== Proof.Value1.lean ====
/-
  Region 1, the values: what the two product arrays hold after the region, index by index, at the exact extended reals.

  Point (r, s) of the 4 x 4 grid reads rows [512 r, 512 r + 512) of the matrix X and of the mask B, and columns
  [512 s, 512 s + 512) of B, and writes tile (r, s) of X * B and of B * B: entry (p, q) of a tile is row 512 r + p of the
  left factor against column 512 s + q of B. The sixteen tiles cover each array.
-/
import proofs.«121678_j3599182594335_2_alg».proof.Proof.Region1Defs
import proofs.«121678_j3599182594335_2_alg».proof.Proof.Value0

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

/-- The first product tile at an entry: row p of the row band against column q of the column band. -/
theorem pay1_1_apply (x0 : Vec Ideal S512x2048 .bf16) (x1 : Vec Ideal S2048x512 .bf16) (p q : Fin 512) :
    k1_pay1 (F := Ideal) x0 x1 (ix2 p q) = ∑ e : Fin 2048, x0 (ix2 p e) * x1 (ix2 e q) := by
  unfold k1_pay1
  rw [shapeCast_self, shapeCast_self]
  exact Cert.LibMatmulNN.matmul_zero_apply dot_S512x2048_S2048x512_S512x512_1_0_0_1_n_n_wf none x0 x1 p q

/-- The second product tile at an entry, likewise. -/
theorem pay1_2_apply (x0 : Vec Ideal S512x2048 .bf16) (x1 : Vec Ideal S2048x512 .bf16) (p q : Fin 512) :
    k1_pay2 (F := Ideal) x0 x1 (ix2 p q) = ∑ e : Fin 2048, x0 (ix2 p e) * x1 (ix2 e q) := by
  unfold k1_pay2
  rw [shapeCast_self, shapeCast_self]
  exact Cert.LibMatmulNN.matmul_zero_apply dot_S512x2048_S2048x512_S512x512_1_0_0_1_n_n_wf none x0 x1 p q

section
variable (V : (c : Dev nD) → (b : Ref sig .tc) → Buf (Elt Ideal) ((c : Thread nD τ).loc b))

/-- The printed index maps over the sixteen points: both row bands follow the tiles' row, the column band the tiles'
    column, and the two output tiles sit at the same place. -/
theorem idx_facts1 : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = win1_3.index t (1 : Fin 2)
    ∧ win1_4.index t (0 : Fin 2) = win1_3.index t (0 : Fin 2) ∧ win1_4.index t (1 : Fin 2) = win1_3.index t (1 : Fin 2)
    ∧ win1_3.index t (0 : Fin 2) ≤ 3 ∧ win1_3.index t (1 : Fin 2) ≤ 3 :=
  (by decide +kernel : ∀ t : Fin grid1.N, _)

/-- Every tile of the 4 x 4 tiling is some point's. -/
theorem idx_onto1 : ∀ (q0 q1 : Fin 4), ∃ t : Fin cfg1.N, win1_3.index t = ![q0.val, q1.val] :=
  (by decide +kernel : ∀ (q0 q1 : Fin 4), ∃ t : Fin grid1.N, win1_3.index t = ![q0.val, q1.val])

/-- The matrix's row band at a point, read at (p, e): entry (512 r + p, e) of the matrix. -/
theorem iblk1_0_apply (c : Dev nD) (t : Fin cfg1.N) (p : Fin 512) (e : Fin 2048) (i : S2048x2048.Idx)
    (h0 : (i 0).val = win1_3.index t 0 * 512 + p.val) (h1 : (i 1).val = e.val) :
    (iblk1 V c 0 t : Vec Ideal S512x2048 .bf16) (ix2 p e) = (V c main_v0 : S2048x2048.Idx → EReal) i := by
  obtain ⟨e0, e1, -⟩ := idx_facts1 t
  unfold iblk1
  rw [View.read_apply]
  show (V c main_v0 : S2048x2048.Idx → EReal) _ = _
  refine congrArg _ ?_
  funext a
  apply Fin.ext
  match a with
  | ⟨0, _⟩ => show win1_0.index t 0 * 512 + 1 * p.val = (i 0).val; omega
  | ⟨1, _⟩ => show win1_0.index t 1 * 2048 + 1 * e.val = (i 1).val; omega

/-- The mask's row band at a point, read at (p, e): entry (512 r + p, e) of the mask. -/
theorem iblk1_1_apply (c : Dev nD) (t : Fin cfg1.N) (p : Fin 512) (e : Fin 2048) (i : S2048x2048.Idx)
    (h0 : (i 0).val = win1_3.index t 0 * 512 + p.val) (h1 : (i 1).val = e.val) :
    (iblk1 V c 1 t : Vec Ideal S512x2048 .bf16) (ix2 p e) = (V c main_v1_1 : S2048x2048.Idx → EReal) i := by
  obtain ⟨-, -, e2, e3, -⟩ := idx_facts1 t
  unfold iblk1
  rw [View.read_apply]
  show (V c main_v1_1 : S2048x2048.Idx → EReal) _ = _
  refine congrArg _ ?_
  funext a
  apply Fin.ext
  match a with
  | ⟨0, _⟩ => show win1_1.index t 0 * 512 + 1 * p.val = (i 0).val; omega
  | ⟨1, _⟩ => show win1_1.index t 1 * 2048 + 1 * e.val = (i 1).val; omega

/-- The mask's column band at a point, read at (e, q): entry (e, 512 s + q) of the mask. -/
theorem iblk1_2_apply (c : Dev nD) (t : Fin cfg1.N) (e : Fin 2048) (q : Fin 512) (i : S2048x2048.Idx)
    (h0 : (i 0).val = e.val) (h1 : (i 1).val = win1_3.index t 1 * 512 + q.val) :
    (iblk1 V c 2 t : Vec Ideal S2048x512 .bf16) (ix2 e q) = (V c main_v1_1 : S2048x2048.Idx → EReal) i := by
  obtain ⟨-, -, -, -, e4, e5, -⟩ := idx_facts1 t
  unfold iblk1
  rw [View.read_apply]
  show (V c main_v1_1 : S2048x2048.Idx → EReal) _ = _
  refine congrArg _ ?_
  funext a
  apply Fin.ext
  match a with
  | ⟨0, _⟩ => show win1_2.index t 0 * 2048 + 1 * e.val = (i 0).val; omega
  | ⟨1, _⟩ => show win1_2.index t 1 * 512 + 1 * q.val = (i 1).val; omega

/-- What a point writes back to the first output array is its tile of the matrix times the mask. -/
theorem flushed1_3_eq (c : Dev nD) (t : Fin cfg1.N) :
    (dat1 V c).flushed 3 t = ((cfg1.win 3).blk t).view.read (Elt Ideal) (prod2 (V c main_v0) (V c main_v1_1)) := by
  show (cfg1.win 3).cut (grid1.coords t) ((dat1 V c).after 3 t) = _
  rw [after1_3]
  unfold out1_3
  rw [View.canon_unit_zero hz2]
  simp only [View.ld_unit_zero (S := S512x2048) hz2, View.ld_unit_zero (S := S2048x512) hz2]
  funext j
  have key : ∀ j' : S512x512.Idx, k1_pay1 (F := Ideal) (iblk1 V c 0 t) (iblk1 V c 2 t) j'
      = prod2 (V c main_v0) (V c main_v1_1) (((cfg1.win 3).blk t).view.emb j') := by
    intro j'
    obtain ⟨p, q, rfl⟩ : ∃ (p q : Fin 512), j' = ix2 p q := ⟨j' 0, j' 1, eq_ix2 j'⟩
    refine (pay1_1_apply (iblk1 V c 0 t) (iblk1 V c 2 t) p q).trans ?_
    refine tile_eq (V c main_v0) (V c main_v1_1) (iblk1 V c 0 t) (iblk1 V c 2 t) (win1_3.index t 0) (win1_3.index t 1)
      (fun p e i a b => iblk1_0_apply V c t p e i a b) (fun e q i a b => iblk1_2_apply V c t e q i a b) p q _ ?_ ?_
    · show win1_3.index t 0 * 512 + 1 * p.val = _; omega
    · show win1_3.index t 1 * 512 + 1 * q.val = _; omega
  exact key j

/-- What a point writes back to the second output array is its tile of the mask times the mask. -/
theorem flushed1_4_eq (c : Dev nD) (t : Fin cfg1.N) :
    (dat1 V c).flushed 4 t = ((cfg1.win 4).blk t).view.read (Elt Ideal) (prod2 (V c main_v1_1) (V c main_v1_1)) := by
  obtain ⟨-, -, -, -, -, -, e6, e7, -⟩ := idx_facts1 t
  show (cfg1.win 4).cut (grid1.coords t) ((dat1 V c).after 4 t) = _
  rw [after1_4]
  unfold out1_4
  rw [View.canon_unit_zero hz2]
  simp only [View.ld_unit_zero (S := S512x2048) hz2, View.ld_unit_zero (S := S2048x512) hz2]
  funext j
  have key : ∀ j' : S512x512.Idx, k1_pay2 (F := Ideal) (iblk1 V c 1 t) (iblk1 V c 2 t) j'
      = prod2 (V c main_v1_1) (V c main_v1_1) (((cfg1.win 4).blk t).view.emb j') := by
    intro j'
    obtain ⟨p, q, rfl⟩ : ∃ (p q : Fin 512), j' = ix2 p q := ⟨j' 0, j' 1, eq_ix2 j'⟩
    refine (pay1_2_apply (iblk1 V c 1 t) (iblk1 V c 2 t) p q).trans ?_
    refine tile_eq (V c main_v1_1) (V c main_v1_1) (iblk1 V c 1 t) (iblk1 V c 2 t) (win1_3.index t 0) (win1_3.index t 1)
      (fun p e i a b => iblk1_1_apply V c t p e i a b) (fun e q i a b => iblk1_2_apply V c t e q i a b) p q _ ?_ ?_
    · show win1_4.index t 0 * 512 + 1 * p.val = _; omega
    · show win1_4.index t 1 * 512 + 1 * q.val = _; omega
  exact key j

/-- An index of the first output array is in a point's tile iff each coordinate is in the tile's range. -/
theorem mem_blk1_3 (t : Fin cfg1.N) (i : S2048x2048.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v2_0).slice (win1_3.rect t)).set ↔ _
  rw [View.set_slice_whole, Rect.mem_set_unit]
  exact Iff.rfl

/-- The same for the second output array. -/
theorem mem_blk1_4 (t : Fin cfg1.N) (i : S2048x2048.Idx) :
    i ∈ ((cfg1.win 4).blk t).view.set ↔ ∀ a : Fin 2, win1_4.index t a * S512x512.size a ≤ (i a).val ∧ (i a).val < win1_4.index t a * S512x512.size a + S512x512.size a := by
  show i ∈ ((View.whole main_v2_1).slice (win1_4.rect t)).set ↔ _
  rw [View.set_slice_whole, Rect.mem_set_unit]
  exact Iff.rfl

/-- The sixteen tiles cover the first output array: index (r, q) is in tile (r / 512, q / 512). -/
theorem cover1_3 (i : S2048x2048.Idx) :
    ∃ t : Fin cfg1.N, (cfg1.win 3).flush t = true ∧ i ∈ ((cfg1.win 3).blk t).view.set := by
  have hi0 : (i 0).val < 2048 := (i 0).isLt
  have hi1 : (i 1).val < 2048 := (i 1).isLt
  obtain ⟨t, ht⟩ := idx_onto1 ⟨(i 0).val / 512, by omega⟩ ⟨(i 1).val / 512, by omega⟩
  have q0 : win1_3.index t (0 : Fin 2) = (i 0).val / 512 := congrFun ht 0
  have q1 : win1_3.index t (1 : Fin 2) = (i 1).val / 512 := congrFun ht 1
  refine ⟨t, flush1_3 t, ?_⟩
  rw [mem_blk1_3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-- And the second. -/
theorem cover1_4 (i : S2048x2048.Idx) :
    ∃ t : Fin cfg1.N, (cfg1.win 4).flush t = true ∧ i ∈ ((cfg1.win 4).blk t).view.set := by
  have hi0 : (i 0).val < 2048 := (i 0).isLt
  have hi1 : (i 1).val < 2048 := (i 1).isLt
  obtain ⟨t, ht⟩ := idx_onto1 ⟨(i 0).val / 512, by omega⟩ ⟨(i 1).val / 512, by omega⟩
  have q0 : win1_3.index t (0 : Fin 2) = (i 0).val / 512 := congrFun ht 0
  have q1 : win1_3.index t (1 : Fin 2) = (i 1).val / 512 := congrFun ht 1
  obtain ⟨-, -, -, -, -, -, e6, e7, -⟩ := idx_facts1 t
  refine ⟨t, flush1_4 t, ?_⟩
  rw [mem_blk1_4]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 512 ≤ (i 1).val ∧ (i 1).val < win1_4.index t (1 : Fin 2) * 512 + 512; omega

/-- The first output array after the region: the matrix times the mask. -/
theorem final1_3 (c : Dev nD) : (dat1 V c).arrAt 3 cfg1.N = prod2 (V c main_v0) (V c main_v1_1) :=
  (dat1 V c).arrAt_eq_of_cover 3 (prod2 (V c main_v0) (V c main_v1_1)) (fun t _ => flushed1_3_eq V c t) cover1_3

/-- The second output array after the region: the mask times the mask. -/
theorem final1_4 (c : Dev nD) : (dat1 V c).arrAt 4 cfg1.N = prod2 (V c main_v1_1) (V c main_v1_1) :=
  (dat1 V c).arrAt_eq_of_cover 4 (prod2 (V c main_v1_1) (V c main_v1_1)) (fun t _ => flushed1_4_eq V c t) cover1_4

end

end Cert.KernelIdeal.Val

end
-- ==== Proof.BridgeK.lean ====
/-
  The idealized kernel's buffers at region 2's entry, traced back to the launch memory.

  With A the adjacency argument as launched: the first host stretch stores A itself (a change of float format is the
  identity on extended reals); region 0 leaves the product A * A and the two-hop mask of A; region 1 leaves A times the
  mask and the mask times itself; no host operation and no region writes an argument.
-/
import proofs.«121678_j3599182594335_2_alg».proof.Proof.RunArgs
import proofs.«121678_j3599182594335_2_alg».proof.Proof.Value0Mask
import proofs.«121678_j3599182594335_2_alg».proof.Proof.Value1
import proofs.«121678_j3599182594335_2_alg».proof.Proof.KerGlue

set_option maxRecDepth 16384

noncomputable section

namespace Cert.Bridge

open Cert.KernelIdeal Cert.KernelIdeal.Gen Cert.KernelIdeal.Fr Cert.KernelIdeal.Val
open Idealize.ShloMosaic Idealize.ShloMosaic.TcCoe Idealize.SL.Sem Idealize.ShloMosaic.ValueIdx

variable (m : (ℓ : Loc nD τ sig) → Buf (Elt Ideal) ℓ) (ρ : Dev nD → PrngReg)

/-- The adjacency matrix as launched on core c. -/
abbrev adjK (c : Dev nD) : S2048x2048.Idx → EReal := m ((c.tc : Thread nD τ).loc main_arg1)

/-- The two-hop mask of the launched adjacency matrix. -/
abbrev b2K (c : Dev nD) : S2048x2048.Idx → EReal := mask2 (prod2 (adjK m c) (adjK m c)) (adjK m c)

/-- After the first host stretch an argument still holds its launched contents. -/
theorem W1_arg (r : Ref sig .tc) (hr : r ∈ argL) (c : Dev nD) :
    W1 m ρ c (Proc.devRef .tc r) = m ((c.tc : Thread nD τ).loc r) :=
  (StableHlo.after_of_forall_not_mem hostOps0 _ (nw_hostOps0 r hr)).trans rfl

/-- At region 1's entry an argument still holds its launched contents. -/
theorem W2_arg (r : Ref sig .tc) (hr : r ∈ argL) (c : Dev nD) :
    W2 m ρ c (Proc.devRef .tc r) = m ((c.tc : Thread nD τ).loc r) := by
  unfold W2
  rw [upd_of_ne _ _ _ _ (ne_of_arg r hr _ (by decide)), upd_of_ne _ _ _ _ (ne_of_arg r hr _ (by decide))]
  exact W1_arg m ρ r hr c

/-- At region 1's exit an argument still holds its launched contents. -/
theorem W3_arg (r : Ref sig .tc) (hr : r ∈ argL) (c : Dev nD) :
    W3 m ρ c (Proc.devRef .tc r) = m ((c.tc : Thread nD τ).loc r) := by
  unfold W3
  rw [upd_of_ne _ _ _ _ (ne_of_arg r hr _ (by decide)), upd_of_ne _ _ _ _ (ne_of_arg r hr _ (by decide))]
  exact W2_arg m ρ r hr c

/-- The first host stretch stores the adjacency matrix in the narrow format: the same matrix of extended reals. -/
theorem W1_v0 (c : Dev nD) : (W1 m ρ c (Proc.devRef .tc main_v0) : S2048x2048.Idx → EReal) = adjK m c :=
  Cert.KernelIdeal.Glue.G0 (W0 m ρ c)

/-- Region 0 leaves the product of the adjacency matrix with itself. -/
theorem W2_v1_0 (c : Dev nD) :
    (W2 m ρ c (Proc.devRef .tc main_v1_0) : S2048x2048.Idx → EReal) = prod2 (adjK m c) (adjK m c) := by
  have h : W2 m ρ c (Proc.devRef .tc main_v1_0) = (dat0 (V1 m ρ) c).arrAt 3 cfg0.N := by
    unfold W2
    rw [upd_of_ne _ _ _ _ (by decide), upd_same]
  rw [h, final0_3 (V1 m ρ) c]
  exact congrArg₂ prod2 (W1_v0 m ρ c) (W1_v0 m ρ c)

/-- Region 0 leaves the two-hop mask. -/
theorem W2_v1_1 (c : Dev nD) : (W2 m ρ c (Proc.devRef .tc main_v1_1) : S2048x2048.Idx → EReal) = b2K m c := by
  have h : W2 m ρ c (Proc.devRef .tc main_v1_1) = (dat0 (V1 m ρ) c).arrAt 4 cfg0.N := by
    unfold W2
    rw [upd_same]
  rw [h, final0_4 (V1 m ρ) c]
  exact congrArg₂ mask2 (congrArg₂ prod2 (W1_v0 m ρ c) (W1_v0 m ρ c)) (W1_arg m ρ main_arg1 (by decide) c)

/-- The narrow-format adjacency matrix is still there at region 1's entry. -/
theorem W2_v0 (c : Dev nD) : (W2 m ρ c (Proc.devRef .tc main_v0) : S2048x2048.Idx → EReal) = adjK m c := by
  have h : W2 m ρ c (Proc.devRef .tc main_v0) = W1 m ρ c (Proc.devRef .tc main_v0) := by
    unfold W2
    rw [upd_of_ne _ _ _ _ (by decide), upd_of_ne _ _ _ _ (by decide)]
  rw [h]
  exact W1_v0 m ρ c

/-- At region 1's exit the product of region 0 is still there. -/
theorem W3_v1_0 (c : Dev nD) :
    (W3 m ρ c (Proc.devRef .tc main_v1_0) : S2048x2048.Idx → EReal) = prod2 (adjK m c) (adjK m c) := by
  have h : W3 m ρ c (Proc.devRef .tc main_v1_0) = W2 m ρ c (Proc.devRef .tc main_v1_0) := by
    unfold W3
    rw [upd_of_ne _ _ _ _ (by decide), upd_of_ne _ _ _ _ (by decide)]
  rw [h]
  exact W2_v1_0 m ρ c

/-- Region 1 leaves the adjacency matrix times the mask. -/
theorem W3_v2_0 (c : Dev nD) :
    (W3 m ρ c (Proc.devRef .tc main_v2_0) : S2048x2048.Idx → EReal) = prod2 (adjK m c) (b2K m c) := by
  have h : W3 m ρ c (Proc.devRef .tc main_v2_0) = (dat1 (V2 m ρ) c).arrAt 3 cfg1.N := by
    unfold W3
    rw [upd_of_ne _ _ _ _ (by decide), upd_same]
  rw [h, final1_3 (V2 m ρ) c]
  exact congrArg₂ prod2 (W2_v0 m ρ c) (W2_v1_1 m ρ c)

/-- Region 1 leaves the mask times itself. -/
theorem W3_v2_1 (c : Dev nD) :
    (W3 m ρ c (Proc.devRef .tc main_v2_1) : S2048x2048.Idx → EReal) = prod2 (b2K m c) (b2K m c) := by
  have h : W3 m ρ c (Proc.devRef .tc main_v2_1) = (dat1 (V2 m ρ) c).arrAt 4 cfg1.N := by
    unfold W3
    rw [upd_same]
  rw [h, final1_4 (V2 m ρ) c]
  exact congrArg₂ prod2 (W2_v1_1 m ρ c) (W2_v1_1 m ρ c)

end Cert.Bridge

end
-- ==== Proof.KerGlueA.lean ====
/-
  The weights of the three-layer perceptron as the third launch finds them, at the ideal instance: each is a slice of
  an argument, transposed, and for three of them padded with zeros (rows 5 to 7 of the structural weights, columns 1 to
  127 of the last layer's weights, entries 1 to 127 of the last bias).  A change of float format is the identity.
-/
import proofs.«121678_j3599182594335_2_alg».proof.Proof.KerGlue
import Idealize.ShloMosaic.Lib.StableHlo.Run
import Idealize.ShloMosaic.Lib.Pipeline.Value
import Idealize.ShloMosaic.Lib.KernelVsHost
import Idealize.ShloMosaic.Lib.ValueIdx
import Idealize.ShloMosaic.Lib.ValueLayout

set_option maxRecDepth 16384

noncomputable section

namespace Cert.KernelIdeal.Glue

open Cert.KernelIdeal Cert.KernelIdeal.Gen
open Idealize.ShloMosaic Idealize.ShloMosaic.TcCoe Idealize.SL.Sem Idealize.ShloMosaic.ValueIdx

/-- The integer zero converted to a float and read at the scalar's one index is zero: the value every padding holds. -/
theorem padValue (i : S_.Idx) : (sitofp .f32 (constantI S_ 32 0#32) : FVec Ideal S_ .f32) i = 0 :=
  Idealize.ShloMosaic.sitofp_zero

/-- Columns 0 to 255 of the first layer's weights, transposed: entry (a, k) is W1[k, a]. -/
theorem G_w1a (W : Valuation τ sig (Elt Ideal)) (a k : Fin 256) :
    (G W (Proc.devRef .tc main_v102) : S256x256.Idx → EReal) (ix2 a k)
      = (W (Proc.devRef .tc main_arg3) : S256x261.Idx → EReal) (ix2 k (⟨a.val, by have := a.isLt; omega⟩ : Fin 261)) := by
  unfold G
  after_results_simp
  refine (truncf_apply (φ := .f32) (ψ := .bf16) _ bitsLt_bf16_f32 _).trans ?_
  refine (transpose_ix2_apply _ _ a k).trans ?_
  exact slice2_axis1_apply 0 _ _ k a _ (Nat.zero_add _).symm

/-- Columns 256 to 260 of the first layer's weights, transposed, with three rows of zeros below: entry (s, k) is
    W1[k, 256 + s] for s < 5 and zero for s = 5, 6, 7. -/
theorem G_w1b (W : Valuation τ sig (Elt Ideal)) (s : Fin 8) (k : Fin 256) :
    (G W (Proc.devRef .tc main_v105) : S8x256.Idx → EReal) (ix2 s k)
      = (if h : s.val < 5 then
          (W (Proc.devRef .tc main_arg3) : S256x261.Idx → EReal) (ix2 k (⟨256 + s.val, by omega⟩ : Fin 261))
        else 0 : EReal) := by
  unfold G
  after_results_simp
  show (pad S8x256 ![0, 0] ![3, 0] ![0, 0]
      (transpose S5x256 [1, 0]
        (extractStridedSlice S256x5 ![0, 256] (W (Proc.devRef .tc main_arg3) : S256x261.Idx → EReal) slices_S256x261_S256x5_0_256)
        transposes_S256x5_S5x256_1_0)
      (sitofp .f32 (constantI S_ 32 0#32) : FVec Ideal S_ .f32) pads_S5x256_S8x256_030_000 h_S_ : S8x256.Idx → EReal) (ix2 s k) = _
  by_cases h : s.val < 5
  · rw [dif_pos h]
    refine (pad_apply_of_inside _ _ _ _ _ _ _ (ix2 s k) (ix2 (⟨s.val, h⟩ : Fin 5) k) (fun ax => ?_)).trans ?_
    · match ax with
      | ⟨0, _⟩ => show s.val = 0 + s.val * (0 + 1); omega
      | ⟨1, _⟩ => show k.val = 0 + k.val * (0 + 1); omega
    refine (transpose_ix2_apply _ _ (⟨s.val, h⟩ : Fin 5) k).trans ?_
    exact slice2_axis1_apply 256 _ _ k (⟨s.val, h⟩ : Fin 5) _ rfl
  · rw [dif_neg h]
    refine (pad_apply_of_not_inside _ _ _ _ _ _ _ (ix2 s k) (0 : Fin 2) ?_).trans (padValue _)
    show ¬(0 ≤ s.val ∧ (s.val - 0) % 1 = 0 ∧ (s.val - 0) / 1 < 5)
    omega

/-- The second layer's weights transposed: entry (k, j) is W2[j, k]. -/
theorem G_w2 (W : Valuation τ sig (Elt Ideal)) (k j : Fin 256) :
    (G W (Proc.devRef .tc main_v107) : S256x256.Idx → EReal) (ix2 k j)
      = (W (Proc.devRef .tc main_arg5) : S256x256.Idx → EReal) (ix2 j k) := by
  unfold G
  after_results_simp
  refine (truncf_apply (φ := .f32) (ψ := .bf16) _ bitsLt_bf16_f32 _).trans ?_
  exact transpose_ix2_apply _ _ k j

/-- The last layer's weights transposed, with 127 columns of zeros to the right: entry (j, o) is W3[0, j] for o = 0
    and zero otherwise. -/
theorem G_w3 (W : Valuation τ sig (Elt Ideal)) (j : Fin 256) (o : Fin 128) :
    (G W (Proc.devRef .tc main_v110) : S256x128.Idx → EReal) (ix2 j o)
      = (if o.val = 0 then (W (Proc.devRef .tc main_arg7) : S1x256.Idx → EReal) (ix2 (0 : Fin 1) j) else 0 : EReal) := by
  unfold G
  after_results_simp
  show (pad S256x128 ![0, 0] ![0, 127] ![0, 0]
      (transpose S256x1 [1, 0] (W (Proc.devRef .tc main_arg7) : S1x256.Idx → EReal) transposes_S1x256_S256x1_1_0)
      (sitofp .f32 (constantI S_ 32 0#32) : FVec Ideal S_ .f32) pads_S256x1_S256x128_000_01270 h_S_ : S256x128.Idx → EReal) (ix2 j o) = _
  by_cases h : o.val = 0
  · rw [if_pos h]
    refine (pad_apply_of_inside _ _ _ _ _ _ _ (ix2 j o) (ix2 j (0 : Fin 1)) (fun ax => ?_)).trans ?_
    · match ax with
      | ⟨0, _⟩ => show j.val = 0 + j.val * (0 + 1); omega
      | ⟨1, _⟩ => show o.val = 0 + 0 * (0 + 1); omega
    exact transpose_ix2_apply _ _ j (0 : Fin 1)
  · rw [if_neg h]
    refine (pad_apply_of_not_inside _ _ _ _ _ _ _ (ix2 j o) (1 : Fin 2) ?_).trans (padValue _)
    show ¬(0 ≤ o.val ∧ (o.val - 0) % 1 = 0 ∧ (o.val - 0) / 1 < 1)
    omega

/-- The last bias with 127 zeros after it: entry o is b3[0] for o = 0 and zero otherwise. -/
theorem G_b3 (W : Valuation τ sig (Elt Ideal)) (o : Fin 128) :
    (G W (Proc.devRef .tc main_v111) : S128.Idx → EReal) (ix1 o)
      = (if o.val = 0 then (W (Proc.devRef .tc main_arg8) : S1.Idx → EReal) (ix1 (0 : Fin 1)) else 0 : EReal) := by
  unfold G
  after_results_simp
  show (pad S128 ![0] ![127] ![0] (W (Proc.devRef .tc main_arg8) : S1.Idx → EReal)
      (sitofp .f32 (constantI S_ 32 0#32) : FVec Ideal S_ .f32) pads_S1_S128_01270 h_S_ : S128.Idx → EReal) (ix1 o) = _
  by_cases h : o.val = 0
  · rw [if_pos h]
    refine pad_apply_of_inside _ _ _ _ _ _ _ (ix1 o) (ix1 (0 : Fin 1)) (fun ax => ?_)
    match ax with
    | ⟨0, _⟩ => show o.val = 0 + 0 * (0 + 1); omega
  · rw [if_neg h]
    refine (pad_apply_of_not_inside _ _ _ _ _ _ _ (ix1 o) (0 : Fin 1) ?_).trans (padValue _)
    show ¬(0 ≤ o.val ∧ (o.val - 0) % 1 = 0 ∧ (o.val - 0) / 1 < 1)
    omega

end Cert.KernelIdeal.Glue

end
-- ==== Proof.BridgeW.lean ====
/-
  The weights and biases the third region reads, traced back to the launched arguments, entry by entry.

  The glue between the second and the third region stores: columns 0 to 255 of the first weight matrix, transposed;
  columns 256 to 260 of it, transposed and padded with three zero rows; the second weight matrix, transposed; the single
  row of the third weight matrix as column 0 of a matrix whose other columns are zero; the third bias as entry 0 of a
  vector whose other entries are zero; and the first two biases as they are.  No operation before that writes an
  argument, so the arguments are the launched ones.
-/
import proofs.«121678_j3599182594335_2_alg».proof.Proof.BridgeK
import proofs.«121678_j3599182594335_2_alg».proof.Proof.BridgeRes
import proofs.«121678_j3599182594335_2_alg».proof.Proof.KerGlueA

set_option maxRecDepth 16384

noncomputable section

namespace Cert.Bridge

open Cert.KernelIdeal Cert.KernelIdeal.Gen Cert.KernelIdeal.Fr Cert.KernelIdeal.Val Cert.KernelIdeal.Glue
open Idealize.ShloMosaic Idealize.ShloMosaic.TcCoe Idealize.SL.Sem Idealize.ShloMosaic.ValueIdx

variable (m : (ℓ : Loc nD τ sig) → Buf (Elt Ideal) ℓ) (ρ : Dev nD → PrngReg)

/-- First-layer weights, feature part: entry (a, k) is entry (k, a) of the launched first weight matrix. -/
theorem w1a_at (c : Dev nD) (a k : Fin 256) :
    (GW m ρ c main_v102 : S256x256.Idx → EReal) (ix2 a k)
      = (m ((c.tc : Thread nD τ).loc main_arg3) : S256x261.Idx → EReal) (ix2 k (⟨a.val, by have := a.isLt; omega⟩ : Fin 261)) := by
  refine (G_w1a (W3 m ρ c) a k).trans ?_
  rw [W3_arg m ρ main_arg3 (by decide) c]

/-- First-layer weights, structural part, rows 0 to 4: entry (s, k) is entry (k, 256 + s) of the launched matrix. -/
theorem w1b_at (c : Dev nD) (s : Fin 8) (k : Fin 256) (h : s.val < 5) :
    (GW m ρ c main_v105 : S8x256.Idx → EReal) (ix2 s k)
      = (m ((c.tc : Thread nD τ).loc main_arg3) : S256x261.Idx → EReal) (ix2 k (⟨256 + s.val, by omega⟩ : Fin 261)) := by
  refine (G_w1b (W3 m ρ c) s k).trans ?_
  rw [dif_pos h, W3_arg m ρ main_arg3 (by decide) c]

/-- First-layer weights, structural part, rows 5 to 7: zero. -/
theorem w1b_pad (c : Dev nD) (s : Fin 8) (k : Fin 256) (h : 5 ≤ s.val) :
    (GW m ρ c main_v105 : S8x256.Idx → EReal) (ix2 s k) = (0 : EReal) := by
  refine (G_w1b (W3 m ρ c) s k).trans ?_
  rw [dif_neg (by omega)]

/-- The first bias is the launched one. -/
theorem b1_at (c : Dev nD) (k : Fin 256) :
    (GW m ρ c main_arg4 : S256.Idx → EReal) (ix1 k) = (m ((c.tc : Thread nD τ).loc main_arg4) : S256.Idx → EReal) (ix1 k) := by
  show (Cert.KernelIdeal.Glue.G (W3 m ρ c) (Proc.devRef .tc main_arg4) : S256.Idx → EReal) (ix1 k) = _
  rw [G4_arg4 (W3 m ρ c), W3_arg m ρ main_arg4 (by decide) c]

/-- Second-layer weights: entry (k, j) is entry (j, k) of the launched second weight matrix. -/
theorem w2_at (c : Dev nD) (k j : Fin 256) :
    (GW m ρ c main_v107 : S256x256.Idx → EReal) (ix2 k j)
      = (m ((c.tc : Thread nD τ).loc main_arg5) : S256x256.Idx → EReal) (ix2 j k) := by
  refine (G_w2 (W3 m ρ c) k j).trans ?_
  rw [W3_arg m ρ main_arg5 (by decide) c]

/-- The second bias is the launched one. -/
theorem b2_at (c : Dev nD) (j : Fin 256) :
    (GW m ρ c main_arg6 : S256.Idx → EReal) (ix1 j) = (m ((c.tc : Thread nD τ).loc main_arg6) : S256.Idx → EReal) (ix1 j) := by
  show (Cert.KernelIdeal.Glue.G (W3 m ρ c) (Proc.devRef .tc main_arg6) : S256.Idx → EReal) (ix1 j) = _
  rw [G4_arg6 (W3 m ρ c), W3_arg m ρ main_arg6 (by decide) c]

/-- Third-layer weights, column 0: entry (j, 0) is entry (0, j) of the launched third weight matrix. -/
theorem w3_at (c : Dev nD) (j : Fin 256) :
    (GW m ρ c main_v110 : S256x128.Idx → EReal) (ix2 j (0 : Fin 128))
      = (m ((c.tc : Thread nD τ).loc main_arg7) : S1x256.Idx → EReal) (ix2 (0 : Fin 1) j) := by
  refine (G_w3 (W3 m ρ c) j (0 : Fin 128)).trans ?_
  rw [if_pos (show (0 : Fin 128).val = 0 from rfl), W3_arg m ρ main_arg7 (by decide) c]

/-- Third bias, entry 0: the launched third bias. -/
theorem b3_at (c : Dev nD) :
    (GW m ρ c main_v111 : S128.Idx → EReal) (ix1 (0 : Fin 128))
      = (m ((c.tc : Thread nD τ).loc main_arg8) : S1.Idx → EReal) (ix1 (0 : Fin 1)) := by
  refine (G_b3 (W3 m ρ c) (0 : Fin 128)).trans ?_
  rw [if_pos (show (0 : Fin 128).val = 0 from rfl), W3_arg m ρ main_arg8 (by decide) c]

end Cert.Bridge

end
-- ==== Proof.KerGlueB.lean ====
/-
  The product of the two endpoints' feature rows as the third launch finds it, at the ideal instance: for every edge the
  rows of the node features at its two (normalised) endpoints, multiplied entry by entry; the change of float format that
  follows is the identity.
-/
import proofs.«121678_j3599182594335_2_alg».proof.Proof.KerGlue
import Idealize.ShloMosaic.Lib.StableHlo.Run
import Idealize.ShloMosaic.Lib.Pipeline.Value
import Idealize.ShloMosaic.Lib.KernelVsHost
import Idealize.ShloMosaic.Lib.ValueIdx
import Idealize.ShloMosaic.Lib.ValueLayout

set_option maxRecDepth 16384

noncomputable section

namespace Cert.KernelIdeal.Glue

open Cert.KernelIdeal Cert.KernelIdeal.Gen
open Idealize.ShloMosaic Idealize.ShloMosaic.TcCoe Idealize.SL.Sem Idealize.ShloMosaic.ValueIdx

/-- Entry (e, a) of the first operand of the perceptron: x[u_e, a] * x[v_e, a], stated as the product of the two gathered
    row arrays. -/
theorem G_xmul (W : Valuation τ sig (Elt Ideal)) (e : Fin 262144) (a : Fin 256) :
    (G W (Proc.devRef .tc main_v99) : S262144x256.Idx → EReal) (ix2 e a)
      = (kProd (F := Ideal) (W (Proc.devRef .tc main_arg0)) (W (Proc.devRef .tc main_arg2)) : S262144x256.Idx → EReal) (ix2 e a) := by
  unfold G
  after_results_simp
  rfl

/-- The same, with the product read at the index: the two gathered rows' entries multiplied. -/
theorem G_xmul_mul (W : Valuation τ sig (Elt Ideal)) (e : Fin 262144) (a : Fin 256) :
    (G W (Proc.devRef .tc main_v99) : S262144x256.Idx → EReal) (ix2 e a)
      = (kRows (F := Ideal) (W (Proc.devRef .tc main_arg0)) (endU (F := Ideal) (W (Proc.devRef .tc main_arg2))) : S262144x256.Idx → EReal) (ix2 e a)
        * (kRows (F := Ideal) (W (Proc.devRef .tc main_arg0)) (endV (F := Ideal) (W (Proc.devRef .tc main_arg2))) : S262144x256.Idx → EReal) (ix2 e a) :=
  G_xmul W e a

end Cert.KernelIdeal.Glue

end
-- ==== Proof.PickDefs.lean ====
/-
  Reading a 2048 x 2048 matrix at the endpoint pairs of the 262144 edges.

  The reference program normalises each endpoint (a negative index is shifted by 2048) and gathers single entries of a
  matrix at the pairs (u_e, v_e), or at the swapped pairs (v_e, u_e).  The two functions below are those gathers with the
  matrix left as a variable, so that equal matrices give equal gathered vectors.
-/
import proofs.«121678_j3599182594335_2_alg».proof.Proof.ReadP0

noncomputable section

namespace Cert.Shared

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The entries of `M` at the pairs (u_e, v_e). -/
def pickUV (M : (⟨S2048x2048, .f32⟩ : BufTy).Contents (Elt F)) (x2 : (⟨S2x262144, .i32⟩ : BufTy).Contents (Elt F)) :
    (⟨S262144, .f32⟩ : BufTy).Contents (Elt F) :=
  Host.gather gather_S2048x2048_S262144x2_S262144_n_01_n_n_01_1_11 M (val_main_v35 (F := F) x2)

/-- The entries of `M` at the swapped pairs (v_e, u_e). -/
def pickVU (M : (⟨S2048x2048, .f32⟩ : BufTy).Contents (Elt F)) (x2 : (⟨S2x262144, .i32⟩ : BufTy).Contents (Elt F)) :
    (⟨S262144, .f32⟩ : BufTy).Contents (Elt F) :=
  Host.gather gather_S2048x2048_S262144x2_S262144_n_01_n_n_01_1_11 M (val_main_v77 (F := F) x2)

end Cert.Shared

end
-- ==== Proof.RefStagesB.lean ====
/-
  The reference program's gathered features and joined feature array read at an index.

  The program recomputes the normalised endpoint pairs before every gather; each recomputation is the same function of
  the edge list, so the five gathers are single-entry reads of five matrices at the pairs (u, v), or (v, u) for the
  fourth.  The five gathered vectors are stacked as the columns of a 262144 x 5 array, and that array is joined to the
  right of the 262144 x 256 array of products of endpoint features: column k of the join is column k of the products
  for k below 256 and column k - 256 of the stack from 256 on.
-/
import proofs.«121678_j3599182594335_2_alg».proof.Proof.ReadP0
import proofs.«121678_j3599182594335_2_alg».proof.Proof.PickDefs

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

set_option quotPrecheck false in
local notation "X0" => (⟨S2048x256, .f32⟩ : BufTy).Contents (Elt Ideal)
set_option quotPrecheck false in
local notation "X1" => (⟨S2048x2048, .f32⟩ : BufTy).Contents (Elt Ideal)
set_option quotPrecheck false in
local notation "X2" => (⟨S2x262144, .i32⟩ : BufTy).Contents (Elt Ideal)

/-! ## The endpoint pairs are recomputed identically -/

theorem v49_eq (x2 : X2) : val_main_v49 (F := Ideal) x2 = val_main_v35 (F := Ideal) x2 := rfl
theorem v63_eq (x2 : X2) : val_main_v63 (F := Ideal) x2 = val_main_v35 (F := Ideal) x2 := rfl
theorem v91_eq (x2 : X2) : val_main_v91 (F := Ideal) x2 = val_main_v35 (F := Ideal) x2 := rfl

/-! ## The five gathers, with the gathered matrix as a variable -/

/-- The adjacency matrix at (u, v). -/
theorem v36_eq (x1 : X1) (x2 : X2) : val_main_v36 (F := Ideal) x1 x2 = Cert.Shared.pickUV x1 x2 := rfl

/-- The square of the adjacency matrix at (u, v). -/
theorem v50_eq (x1 : X1) (x2 : X2) :
    val_main_v50 (F := Ideal) x1 x2 = Cert.Shared.pickUV (val_main_v4 (F := Ideal) x1) x2 := by
  unfold val_main_v50 Cert.Shared.pickUV
  rw [v49_eq]

/-- Adjacency times mask at (u, v). -/
theorem v64_eq (x1 : X1) (x2 : X2) :
    val_main_v64 (F := Ideal) x1 x2 = Cert.Shared.pickUV (val_main_v21 (F := Ideal) x1) x2 := by
  unfold val_main_v64 Cert.Shared.pickUV
  rw [v63_eq]

/-- Adjacency times mask at the swapped pair (v, u). -/
theorem v78_eq (x1 : X1) (x2 : X2) :
    val_main_v78 (F := Ideal) x1 x2 = Cert.Shared.pickVU (val_main_v21 (F := Ideal) x1) x2 := rfl

/-- Mask times mask at (u, v). -/
theorem v92_eq (x1 : X1) (x2 : X2) :
    val_main_v92 (F := Ideal) x1 x2 = Cert.Shared.pickUV (val_main_v22 (F := Ideal) x1) x2 := by
  unfold val_main_v92 Cert.Shared.pickUV
  rw [v91_eq]

/-! ## Five columns stacked, and two arrays joined along the columns: general readings -/

section Join
variable {α : Type}

/-- Five 262144 x 1 columns joined along axis 1, read at (e, s): column s at (e, 0). -/
theorem stack5_col (y0 y1 y2 y3 y4 : S262144x1.Idx → α)
    (h : Shape.Concatenates ([(⟨S262144x1, y0⟩ : (s : Shape) × (s.Idx → α)), ⟨S262144x1, y1⟩, ⟨S262144x1, y2⟩,
      ⟨S262144x1, y3⟩, ⟨S262144x1, y4⟩].map (·.1)) S262144x5 1)
    (e : Fin 262144) (s : Fin 5) :
    concatenate S262144x5 1 [⟨S262144x1, y0⟩, ⟨S262144x1, y1⟩, ⟨S262144x1, y2⟩, ⟨S262144x1, y3⟩, ⟨S262144x1, y4⟩] h (ix2 e s)
      = (match s with
          | ⟨0, _⟩ => y0 | ⟨1, _⟩ => y1 | ⟨2, _⟩ => y2 | ⟨3, _⟩ => y3 | ⟨_, _⟩ => y4) (ix2 e (0 : Fin 1)) := by
  have hi : ∀ (c : Fin 5) (b : Fin S262144x1.rank), b.cast (rfl : S262144x1.rank = S262144x5.rank) ≠ (1 : Fin S262144x5.rank) →
      ((ix2 e (0 : Fin 1) : S262144x1.Idx) b).val = ((ix2 e c : S262144x5.Idx) (b.cast rfl)).val := fun c b hb => by
    match b with
    | ⟨0, _⟩ => rfl
    | ⟨1, _⟩ => exact absurd (Fin.ext rfl) hb
  match s with
  | ⟨0, _⟩ => exact concatenate_apply_piece 1 _ h _ 0 (by simp) S262144x1 y0 rfl rfl 0 rfl (ix2 e 0) (hi _) rfl
  | ⟨1, _⟩ => exact concatenate_apply_piece 1 _ h _ 1 (by simp) S262144x1 y1 rfl rfl 1 rfl (ix2 e 0) (hi _) rfl
  | ⟨2, _⟩ => exact concatenate_apply_piece 1 _ h _ 2 (by simp) S262144x1 y2 rfl rfl 2 rfl (ix2 e 0) (hi _) rfl
  | ⟨3, _⟩ => exact concatenate_apply_piece 1 _ h _ 3 (by simp) S262144x1 y3 rfl rfl 3 rfl (ix2 e 0) (hi _) rfl
  | ⟨4, _⟩ => exact concatenate_apply_piece 1 _ h _ 4 (by simp) S262144x1 y4 rfl rfl 4 rfl (ix2 e 0) (hi _) rfl

/-- A 262144 x 256 array joined with a 262144 x 5 array along axis 1, read at (e, k): the first at (e, k) for k below
    256, the second at (e, k - 256) from 256 on. -/
theorem join2_apply (yA : S262144x256.Idx → α) (yB : S262144x5.Idx → α)
    (h : Shape.Concatenates [S262144x256, S262144x5] S262144x261 1) (e : Fin 262144) (k : Fin 261) :
    concatenate S262144x261 1 [⟨S262144x256, yA⟩, ⟨S262144x5, yB⟩] h (ix2 e k)
      = if hk : k.val < 256 then yA (ix2 e ⟨k.val, hk⟩)
        else yB (ix2 e ⟨k.val - 256, by have := k.isLt; omega⟩) := by
  by_cases hk : k.val < 256
  · rw [dif_pos hk]
    exact concatenate_pair_apply_left 1 yA yB h (ix2 e k) rfl (ix2 e ⟨k.val, hk⟩)
      (fun b => by match b with | ⟨0, _⟩ => rfl | ⟨1, _⟩ => rfl)
  · rw [dif_neg hk]
    exact concatenate_pair_apply_right 1 yA yB h (ix2 e k) rfl rfl (ix2 e ⟨k.val - 256, by have := k.isLt; omega⟩)
      (fun b hb => by match b with | ⟨0, _⟩ => rfl | ⟨1, _⟩ => exact absurd (Fin.ext rfl) hb)
      (by show k.val - 256 + 256 = k.val; omega)

end Join

/-! ## The stack of the five gathered vectors, column by column -/

/-- Entry (e, 0) of a 262144 x 1 column is entry e of the vector it was made from. -/
theorem col93_eq (e : Fin 262144) : idx_main_v93 (ix2 e (0 : Fin 1)) = ix1 e :=
  funext fun a => Fin.ext (by match a with | ⟨0, _⟩ => rfl)
theorem col94_eq (e : Fin 262144) : idx_main_v94 (ix2 e (0 : Fin 1)) = ix1 e :=
  funext fun a => Fin.ext (by match a with | ⟨0, _⟩ => rfl)
theorem col95_eq (e : Fin 262144) : idx_main_v95 (ix2 e (0 : Fin 1)) = ix1 e :=
  funext fun a => Fin.ext (by match a with | ⟨0, _⟩ => rfl)
theorem col96_eq (e : Fin 262144) : idx_main_v96 (ix2 e (0 : Fin 1)) = ix1 e :=
  funext fun a => Fin.ext (by match a with | ⟨0, _⟩ => rfl)
theorem col97_eq (e : Fin 262144) : idx_main_v97 (ix2 e (0 : Fin 1)) = ix1 e :=
  funext fun a => Fin.ext (by match a with | ⟨0, _⟩ => rfl)

/-- The stack at (e, s) is the s-th gathered vector at e, in the order: adjacency, its square, adjacency times mask
    at (u, v), adjacency times mask at (v, u), mask times mask. -/
theorem v98_apply (x1 : X1) (x2 : X2) (e : Fin 262144) (s : Fin 5) :
    val_main_v98 (F := Ideal) x1 x2 (ix2 e s)
      = (match s with
          | ⟨0, _⟩ => val_main_v36 (F := Ideal) x1 x2
          | ⟨1, _⟩ => val_main_v50 (F := Ideal) x1 x2
          | ⟨2, _⟩ => val_main_v64 (F := Ideal) x1 x2
          | ⟨3, _⟩ => val_main_v78 (F := Ideal) x1 x2
          | ⟨_, _⟩ => val_main_v92 (F := Ideal) x1 x2) (ix1 e) := by
  have h := stack5_col (val_main_v93 (F := Ideal) x1 x2) (val_main_v94 (F := Ideal) x1 x2) (val_main_v95 (F := Ideal) x1 x2)
    (val_main_v96 (F := Ideal) x1 x2) (val_main_v97 (F := Ideal) x1 x2)
    concatenates_S262144x1_S262144x1_S262144x1_S262144x1_S262144x1_S262144x5_d1 e s
  refine h.trans ?_
  match s with
  | ⟨0, _⟩ => exact (val_main_v93_apply x1 x2 _).trans (congrArg _ (col93_eq e))
  | ⟨1, _⟩ => exact (val_main_v94_apply x1 x2 _).trans (congrArg _ (col94_eq e))
  | ⟨2, _⟩ => exact (val_main_v95_apply x1 x2 _).trans (congrArg _ (col95_eq e))
  | ⟨3, _⟩ => exact (val_main_v96_apply x1 x2 _).trans (congrArg _ (col96_eq e))
  | ⟨4, _⟩ => exact (val_main_v97_apply x1 x2 _).trans (congrArg _ (col97_eq e))

theorem v98_col0 (x1 : X1) (x2 : X2) (e : Fin 262144) :
    val_main_v98 (F := Ideal) x1 x2 (ix2 e (0 : Fin 5)) = val_main_v36 (F := Ideal) x1 x2 (ix1 e) := v98_apply x1 x2 e 0
theorem v98_col1 (x1 : X1) (x2 : X2) (e : Fin 262144) :
    val_main_v98 (F := Ideal) x1 x2 (ix2 e (1 : Fin 5)) = val_main_v50 (F := Ideal) x1 x2 (ix1 e) := v98_apply x1 x2 e 1
theorem v98_col2 (x1 : X1) (x2 : X2) (e : Fin 262144) :
    val_main_v98 (F := Ideal) x1 x2 (ix2 e (2 : Fin 5)) = val_main_v64 (F := Ideal) x1 x2 (ix1 e) := v98_apply x1 x2 e 2
theorem v98_col3 (x1 : X1) (x2 : X2) (e : Fin 262144) :
    val_main_v98 (F := Ideal) x1 x2 (ix2 e (3 : Fin 5)) = val_main_v78 (F := Ideal) x1 x2 (ix1 e) := v98_apply x1 x2 e 3
theorem v98_col4 (x1 : X1) (x2 : X2) (e : Fin 262144) :
    val_main_v98 (F := Ideal) x1 x2 (ix2 e (4 : Fin 5)) = val_main_v92 (F := Ideal) x1 x2 (ix1 e) := v98_apply x1 x2 e 4

/-! ## The joined feature array -/

/-- Column k of the joined array: the products of endpoint features for k below 256, the stack from 256 on. -/
theorem v118_apply (x0 : X0) (x1 : X1) (x2 : X2) (e : Fin 262144) (k : Fin 261) :
    val_main_v118 (F := Ideal) x0 x1 x2 (ix2 e k)
      = if hk : k.val < 256 then val_main_v117 (F := Ideal) x0 x2 (ix2 e ⟨k.val, hk⟩)
        else val_main_v98 (F := Ideal) x1 x2 (ix2 e ⟨k.val - 256, by have := k.isLt; omega⟩) :=
  join2_apply (val_main_v117 (F := Ideal) x0 x2) (val_main_v98 (F := Ideal) x1 x2)
    concatenates_S262144x256_S262144x5_S262144x261_d1 e k

end Cert.ReferenceIdeal.RefValue

end
-- ==== Proof.BridgeX.lean ====
/-
  The first operand of the perceptron as the third region finds it, traced back to the launched arguments.

  The glue stores, for every edge, the product entry by entry of the feature rows of its two endpoints.  The reference
  joins that same product array (256 columns) with the five structural features (columns 256 to 260), so entry (e, a) of
  the stored array is column a of the reference's joined array for edge e.
-/
import proofs.«121678_j3599182594335_2_alg».proof.Proof.BridgeK
import proofs.«121678_j3599182594335_2_alg».proof.Proof.KerGlueB
import proofs.«121678_j3599182594335_2_alg».proof.Proof.RefStagesB

set_option maxRecDepth 16384

noncomputable section

namespace Cert.Bridge

open Cert.KernelIdeal Cert.KernelIdeal.Gen Cert.KernelIdeal.Fr Cert.KernelIdeal.Val Cert.KernelIdeal.Glue
open Idealize.ShloMosaic Idealize.ShloMosaic.TcCoe Idealize.SL.Sem Idealize.ShloMosaic.ValueIdx

variable (m : (ℓ : Loc nD τ sig) → Buf (Elt Ideal) ℓ) (ρ : Dev nD → PrngReg)

/-- Products of endpoint features: entry (e, a) is column a (below 256) of the reference's joined feature array. -/
theorem xm_at (c : Dev nD) (e : Fin 262144) (a : Fin 256) :
    (Cert.KernelIdeal.Glue.G (W3 m ρ c) (Proc.devRef .tc main_v99) : S262144x256.Idx → EReal) (ix2 e a)
      = (Cert.ReferenceIdeal.Read.val_main_v118 (F := Ideal) (m ((c.tc : Thread nD τ).loc main_arg0))
          (m ((c.tc : Thread nD τ).loc main_arg1)) (m ((c.tc : Thread nD τ).loc main_arg2)) : _ → EReal)
          (ix2 e (⟨a.val, by have := a.isLt; omega⟩ : Fin 261)) := by
  refine (G_xmul (W3 m ρ c) e a).trans ?_
  rw [W3_arg m ρ main_arg0 (by decide) c, W3_arg m ρ main_arg2 (by decide) c]
  refine Eq.trans ?_ (Cert.ReferenceIdeal.RefValue.v118_apply _ _ _ e (⟨a.val, by have := a.isLt; omega⟩ : Fin 261)).symm
  split
  · rfl
  · next h => exact absurd a.isLt h

end Cert.Bridge

end
-- ==== Proof.RefStagesA.lean ====
/-
  The reference program's first stages read at an index, at the exact extended reals.

  The square of the adjacency matrix is a sum of products of entries; the two-hop mask is 1 exactly where the square is
  positive, the adjacency entry is zero and the position is off the diagonal, and 0 elsewhere; the two further matrix
  products (adjacency times mask, mask times mask) are again sums of products of entries.
-/
import proofs.«121678_j3599182594335_2_alg».proof.Proof.ReadP0
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-! ## Index equations: the left index of a rows-against-columns product at entry i and position k is (i 0, k), the
    right index is (k, i 1). -/

theorem lidx4_eq (i : S2048x2048.Idx) (k : Fin 2048) : lidx_main_v4 i k = ix2 (n0 := 2048) (n1 := 2048) (i 0) k :=
  funext fun a => Fin.ext (by match a with | ⟨0, _⟩ => rfl | ⟨1, _⟩ => rfl)
theorem ridx4_eq (i : S2048x2048.Idx) (k : Fin 2048) : ridx_main_v4 i k = ix2 (n0 := 2048) (n1 := 2048) k (i 1) :=
  funext fun a => Fin.ext (by match a with | ⟨0, _⟩ => rfl | ⟨1, _⟩ => rfl)
theorem lidx21_eq (i : S2048x2048.Idx) (k : Fin 2048) : lidx_main_v21 i k = ix2 (n0 := 2048) (n1 := 2048) (i 0) k :=
  funext fun a => Fin.ext (by match a with | ⟨0, _⟩ => rfl | ⟨1, _⟩ => rfl)
theorem ridx21_eq (i : S2048x2048.Idx) (k : Fin 2048) : ridx_main_v21 i k = ix2 (n0 := 2048) (n1 := 2048) k (i 1) :=
  funext fun a => Fin.ext (by match a with | ⟨0, _⟩ => rfl | ⟨1, _⟩ => rfl)
theorem lidx22_eq (i : S2048x2048.Idx) (k : Fin 2048) : lidx_main_v22 i k = ix2 (n0 := 2048) (n1 := 2048) (i 0) k :=
  funext fun a => Fin.ext (by match a with | ⟨0, _⟩ => rfl | ⟨1, _⟩ => rfl)
theorem ridx22_eq (i : S2048x2048.Idx) (k : Fin 2048) : ridx_main_v22 i k = ix2 (n0 := 2048) (n1 := 2048) k (i 1) :=
  funext fun a => Fin.ext (by match a with | ⟨0, _⟩ => rfl | ⟨1, _⟩ => rfl)

/-- The square of the adjacency matrix: entry i is the sum over k of A (i 0, k) * A (k, i 1). -/
theorem v4_apply (x1 : (⟨S2048x2048, .f32⟩ : BufTy).Contents (Elt Ideal)) (i : S2048x2048.Idx) :
    val_main_v4 (F := Ideal) x1 i
      = ∑ k : Fin 2048, x1 (ix2 (n0 := 2048) (n1 := 2048) (i 0) k) * x1 (ix2 (n0 := 2048) (n1 := 2048) k (i 1)) := by
  rw [val_main_v4_apply]
  refine Finset.sum_congr rfl fun k _ => ?_
  rw [lidx4_eq, ridx4_eq]

/-! ## The two-hop mask -/

/-- Two row or column numbers below 2048, as 32-bit words, are equal words exactly when they are equal numbers. -/
theorem ofNat_beq (a b : ℕ) (ha : a < 2048) (hb : b < 2048) :
    (BitVec.ofNat 32 a + 0#32 == BitVec.ofNat 32 b) = decide (a = b) := by
  rw [BitVec.add_zero, Bool.eq_iff_iff, beq_iff_eq, decide_eq_true_eq]
  constructor
  · intro h
    have := congrArg BitVec.toNat h
    simp only [BitVec.toNat_ofNat] at this
    omega
  · rintro rfl; rfl

/-- A truth value converted to a float is 1 or 0. -/
theorem uitofp_ofBool (c : Bool) :
    FloatOps.uitofp (F := Ideal) .f32 (BitVec.ofBool c) = if c then (1 : EReal) else 0 := by
  cases c
  · show (((BitVec.ofBool false).toNat : ℝ) : EReal) = 0
    simp
  · show (((BitVec.ofBool true).toNat : ℝ) : EReal) = 1
    simp

/-- The mask's scalar form: select 1 where (A > 0) and (X = 0) and (the diagonal indicator, as a float, is 0), else 0. -/
theorem mask_scalar (A X : EReal) (a b : ℕ) (ha : a < 2048) (hb : b < 2048) :
    Scalar.select (IntOp.andi (IntOp.andi (Ideal.cmp .ogt A 0) (Ideal.cmp .oeq X 0))
      (Ideal.cmp .oeq (FloatOps.uitofp (F := Ideal) .f32
        (IntOp.cmpi .eq (IntOp.addi (BitVec.ofNat 32 a) 0#32) (BitVec.ofNat 32 b))) 0)) (1 : EReal) 0
      = if 0 < A ∧ X = 0 ∧ a ≠ b then 1 else 0 := by
  have hd : IntOp.cmpi .eq (IntOp.addi (BitVec.ofNat 32 a) 0#32) (BitVec.ofNat 32 b) = BitVec.ofBool (decide (a = b)) :=
    congrArg BitVec.ofBool (ofNat_beq a b ha hb)
  rw [hd, uitofp_ofBool]
  by_cases h1 : 0 < A <;> by_cases h2 : X = 0 <;> by_cases h3 : a = b <;>
    simp [Ideal.cmp, Scalar.select, IntOp.andi, h1, h2, h3]

/-- The two-hop mask: 1 exactly where the square of the adjacency matrix is positive, the adjacency entry is zero and
    the position is off the diagonal; 0 elsewhere. -/
theorem v20_apply (x1 : (⟨S2048x2048, .f32⟩ : BufTy).Contents (Elt Ideal)) (i : S2048x2048.Idx) :
    val_main_v20 (F := Ideal) x1 i
      = if (0 : EReal) < val_main_v4 (F := Ideal) x1 i ∧ (x1 i : EReal) = 0 ∧ (i 0).val ≠ (i 1).val then 1 else 0 := by
  rw [val_main_v20_apply, val_main_v19_apply, val_main_v18_apply, val_main_v15_apply, val_main_v12_apply,
    val_main_v14_apply, val_main_v17_apply, val_main_v10_apply, val_main_v9_apply, val_main_v8_apply,
    val_main_v5_apply, val_main_v6_apply, val_main_v7_apply, val_main_c_apply, val_main_v11_apply, val_main_cst_apply,
    val_main_v13_apply, val_main_cst_0_apply, val_main_v16_apply, val_main_cst_1_apply, val_main_call0_v0_apply,
    val_main_cst_2_apply, val_main_call0_v1_apply, val_main_cst_3_apply]
  simp only [Ideal.cmpf_def, Ideal.ofBits_def, Ideal.ofBits_zero_f32, Ideal.ofBits_one_f32]
  exact mask_scalar _ _ _ _ (i 0).isLt (i 1).isLt

/-! ## The two further products -/

/-- Adjacency times mask: entry i is the sum over k of A (i 0, k) * mask (k, i 1). -/
theorem v21_apply (x1 : (⟨S2048x2048, .f32⟩ : BufTy).Contents (Elt Ideal)) (i : S2048x2048.Idx) :
    val_main_v21 (F := Ideal) x1 i
      = ∑ k : Fin 2048, x1 (ix2 (n0 := 2048) (n1 := 2048) (i 0) k)
          * val_main_v20 (F := Ideal) x1 (ix2 (n0 := 2048) (n1 := 2048) k (i 1)) := by
  rw [val_main_v21_apply]
  refine Finset.sum_congr rfl fun k _ => ?_
  rw [lidx21_eq, ridx21_eq]

/-- Mask times mask: entry i is the sum over k of mask (i 0, k) * mask (k, i 1). -/
theorem v22_apply (x1 : (⟨S2048x2048, .f32⟩ : BufTy).Contents (Elt Ideal)) (i : S2048x2048.Idx) :
    val_main_v22 (F := Ideal) x1 i
      = ∑ k : Fin 2048, val_main_v20 (F := Ideal) x1 (ix2 (n0 := 2048) (n1 := 2048) (i 0) k)
          * val_main_v20 (F := Ideal) x1 (ix2 (n0 := 2048) (n1 := 2048) k (i 1)) := by
  rw [val_main_v22_apply]
  refine Finset.sum_congr rfl fun k _ => ?_
  rw [lidx22_eq, ridx22_eq]

end Cert.ReferenceIdeal.RefValue

end
-- ==== Proof.LibBinaryWalks.lean ====
/-
Sums of products of 0/1-valued extended reals.

If every value of X and Y is 0 or 1, then the sum of the products X k * Y k over a
finite index type is a natural number (the number of indices where both are 1).  Hence
such a sum is positive exactly when it exceeds one half: thresholding a two-walk count
of a 0/1 adjacency matrix at 0 or at 1/2 selects the same entries.
-/
import Mathlib.Data.EReal.Operations
import Mathlib.Algebra.BigOperators.Fin
import Mathlib.Tactic.Linarith
import Mathlib.Tactic.NormNum

namespace Cert.LibBinaryWalks

open Finset

/-- The product of two extended reals that are each 0 or 1 is again 0 or 1. -/
theorem mul_zero_or_one {x y : EReal} (hx : x = 0 ∨ x = 1) (hy : y = 0 ∨ y = 1) :
    x * y = 0 ∨ x * y = 1 := by
  rcases hx with rfl | rfl <;> rcases hy with rfl | rfl <;> simp

/-- A finite sum of extended reals that are each 0 or 1 is a natural number. -/
theorem sum_zero_or_one_eq_nat {ι : Type*} (s : Finset ι) (Z : ι → EReal)
    (hZ : ∀ k, Z k = 0 ∨ Z k = 1) : ∃ n : ℕ, ∑ k ∈ s, Z k = (n : EReal) := by
  classical
  induction s using Finset.induction_on with
  | empty => exact ⟨0, by simp⟩
  | insert a s ha ih =>
    obtain ⟨n, hn⟩ := ih
    rw [Finset.sum_insert ha, hn]
    rcases hZ a with h | h
    · exact ⟨n, by rw [h, zero_add]⟩
    · exact ⟨n + 1, by rw [h, Nat.cast_add, Nat.cast_one, add_comm]⟩

/-- (A1) A sum of products of 0/1 values is a natural number. -/
theorem sum_mul_eq_nat {ι : Type*} [Fintype ι] (X Y : ι → EReal)
    (hX : ∀ k, X k = 0 ∨ X k = 1) (hY : ∀ k, Y k = 0 ∨ Y k = 1) :
    ∃ n : ℕ, ∑ k, X k * Y k = (n : EReal) :=
  sum_zero_or_one_eq_nat Finset.univ (fun k => X k * Y k)
    (fun k => mul_zero_or_one (hX k) (hY k))

/-- A natural number, read as an extended real, is positive exactly when it exceeds 1/2. -/
theorem nat_pos_iff_half_lt (n : ℕ) :
    ((0 : EReal) < (n : EReal)) ↔ ((((1 / 2 : ℝ)) : EReal) < (n : EReal)) := by
  have h0 : (0 : EReal) = ((0 : ℝ) : EReal) := rfl
  have hn : (n : EReal) = ((n : ℝ) : EReal) := by simp
  rw [hn, h0, EReal.coe_lt_coe_iff, EReal.coe_lt_coe_iff]
  rcases Nat.eq_zero_or_pos n with rfl | hpos
  · norm_num
  · have : (1 : ℝ) ≤ (n : ℝ) := by exact_mod_cast hpos
    constructor
    · intro _; linarith
    · intro _; linarith

/-- (A2) A sum of products of 0/1 values is positive exactly when it exceeds 1/2. -/
theorem sum_mul_pos_iff_half_lt {ι : Type*} [Fintype ι] (X Y : ι → EReal)
    (hX : ∀ k, X k = 0 ∨ X k = 1) (hY : ∀ k, Y k = 0 ∨ Y k = 1) :
    ((0 : EReal) < ∑ k, X k * Y k) ↔ ((((1 / 2 : ℝ)) : EReal) < ∑ k, X k * Y k) := by
  obtain ⟨n, hn⟩ := sum_mul_eq_nat X Y hX hY
  rw [hn]
  exact nat_pos_iff_half_lt n

/-- (A3) For a 0/1 matrix, the two-hop mask (a two-walk exists, no edge, off the diagonal)
is the same whether the two-walk count is thresholded at 0 or at 1/2.  The decidability
instances of the two conditions are arbitrary. -/
theorem two_hop_mask_eq {n : ℕ} (adj : Fin n → Fin n → EReal)
    (hadj : ∀ i j, adj i j = 0 ∨ adj i j = 1) (i j : Fin n)
    {d0 : Decidable ((0 : EReal) < ∑ k, adj i k * adj k j ∧ adj i j = 0 ∧ i.val ≠ j.val)}
    {d1 : Decidable ((((1 / 2 : ℝ)) : EReal) < ∑ k, adj i k * adj k j ∧ adj i j = 0 ∧ i.val ≠ j.val)} :
    (@ite EReal ((0 : EReal) < ∑ k, adj i k * adj k j ∧ adj i j = 0 ∧ i.val ≠ j.val) d0 1 0)
      = (@ite EReal ((((1 / 2 : ℝ)) : EReal) < ∑ k, adj i k * adj k j ∧ adj i j = 0 ∧ i.val ≠ j.val) d1 1 0) :=
  if_congr
    (and_congr (sum_mul_pos_iff_half_lt (fun k => adj i k) (fun k => adj k j)
      (fun k => hadj i k) (fun k => hadj k j)) Iff.rfl) rfl rfl

/-- (A3), for the standard decidability instances. -/
theorem two_hop_mask_eq' {n : ℕ} (adj : Fin n → Fin n → EReal)
    (hadj : ∀ i j, adj i j = 0 ∨ adj i j = 1) (i j : Fin n) :
    (if (0 : EReal) < ∑ k, adj i k * adj k j ∧ adj i j = 0 ∧ i.val ≠ j.val then (1 : EReal) else 0)
      = (if (((1 / 2 : ℝ)) : EReal) < ∑ k, adj i k * adj k j ∧ adj i j = 0 ∧ i.val ≠ j.val
          then 1 else 0) :=
  two_hop_mask_eq adj hadj i j

end Cert.LibBinaryWalks
-- ==== Proof.BridgeMats.lean ====
/-
  The four 2048 x 2048 matrices behind the structural features, as the reference computes them, are the kernel's.

  With A the adjacency matrix: the reference's square of A is the product of A with itself; its two-hop mask (1 where
  the square is positive, A is 0 and row differs from column) is the kernel's mask (1 where the square exceeds 1/2, A is 0
  and row differs from column) as soon as every entry of A is 0 or 1, because the square's entries are then natural
  numbers; and A times the mask, and the mask times itself, are the same products on both sides.
-/
import proofs.«121678_j3599182594335_2_alg».proof.Proof.RefStagesA
import proofs.«121678_j3599182594335_2_alg».proof.Proof.Value0Mask
import proofs.«121678_j3599182594335_2_alg».proof.Proof.LibBinaryWalks

set_option maxRecDepth 16384

noncomputable section

namespace Cert.Bridge

open Idealize.ShloMosaic Idealize.ShloMosaic.TcCoe Idealize.ShloMosaic.ValueIdx
open Cert.ReferenceIdeal.Read Cert.ReferenceIdeal.RefValue Cert.KernelIdeal.Val

/-- A 2048 x 2048 matrix of extended reals, index by index. -/
abbrev Mat := Cert.KernelIdeal.S2048x2048.Idx → EReal

/-- The reference's square of the adjacency matrix is the product of the matrix with itself. -/
theorem sq_eq (x1 : Mat) : (val_main_v4 (F := Ideal) x1 : Mat) = prod2 x1 x1 :=
  funext fun i => by rw [v4_apply]; rfl

/-- The reference's two-hop mask is the kernel's, for a matrix of zeros and ones. -/
theorem mask_eq (x1 : Mat) (hb : ∀ i, x1 i = 0 ∨ x1 i = 1) :
    (val_main_v20 (F := Ideal) x1 : Mat) = mask2 (prod2 x1 x1) x1 := by
  funext i
  obtain ⟨p, q, rfl⟩ : ∃ (p q : Fin 2048), i = ix2 p q := ⟨i 0, i 1, eq_ix2 i⟩
  rw [v20_apply, v4_apply]
  unfold mask2 prod2
  exact Cert.LibBinaryWalks.two_hop_mask_eq (n := 2048) (fun a b => x1 (ix2 a b)) (fun a b => hb _) p q

/-- The reference's adjacency-times-mask is the product of the two. -/
theorem ab_eq (x1 : Mat) : (val_main_v21 (F := Ideal) x1 : Mat) = prod2 x1 (val_main_v20 (F := Ideal) x1) :=
  funext fun i => by rw [v21_apply]; rfl

/-- The reference's mask-times-mask is the product of the mask with itself. -/
theorem bb_eq (x1 : Mat) :
    (val_main_v22 (F := Ideal) x1 : Mat) = prod2 (val_main_v20 (F := Ideal) x1) (val_main_v20 (F := Ideal) x1) :=
  funext fun i => by rw [v22_apply]; rfl

end Cert.Bridge

end
-- ==== Proof.BridgeFeat.lean ====
/-
  The three arrays the first two regions leave, at the third region's entry, are the reference's matrices.

  For a launched adjacency matrix A of zeros and ones: the product array is the reference's square of A, the second
  region's first output is the reference's A times two-hop mask, and its second output is the reference's mask times
  mask.  (The kernel's mask, cut at one half, is the reference's mask, cut at zero, because the square of a 0/1 matrix
  has natural-number entries.)
-/
import proofs.«121678_j3599182594335_2_alg».proof.Proof.BridgeK
import proofs.«121678_j3599182594335_2_alg».proof.Proof.BridgeMats

set_option maxRecDepth 16384

noncomputable section

namespace Cert.Bridge

open Cert.KernelIdeal Cert.KernelIdeal.Gen Cert.KernelIdeal.Fr Cert.KernelIdeal.Val
open Idealize.ShloMosaic Idealize.ShloMosaic.TcCoe Idealize.SL.Sem Idealize.ShloMosaic.ValueIdx

variable (m : (ℓ : Loc nD τ sig) → Buf (Elt Ideal) ℓ) (ρ : Dev nD → PrngReg)

/-- The kernel's two-hop mask of a 0/1 adjacency matrix is the reference's. -/
theorem b2_eq (c : Dev nD) (hb : ∀ i, adjK m c i = 0 ∨ adjK m c i = 1) :
    b2K m c = (Cert.ReferenceIdeal.Read.val_main_v20 (F := Ideal) (adjK m c) : Mat) :=
  (mask_eq (adjK m c) hb).symm

/-- The product array is the reference's square of the adjacency matrix. -/
theorem feat_sq (c : Dev nD) :
    (W3 m ρ c (Proc.devRef .tc main_v1_0) : Mat) = Cert.ReferenceIdeal.Read.val_main_v4 (F := Ideal) (adjK m c) :=
  (W3_v1_0 m ρ c).trans (sq_eq (adjK m c)).symm

/-- Adjacency times mask is the reference's. -/
theorem feat_ab (c : Dev nD) (hb : ∀ i, adjK m c i = 0 ∨ adjK m c i = 1) :
    (W3 m ρ c (Proc.devRef .tc main_v2_0) : Mat) = Cert.ReferenceIdeal.Read.val_main_v21 (F := Ideal) (adjK m c) :=
  (W3_v2_0 m ρ c).trans ((congrArg (prod2 (adjK m c)) (b2_eq m c hb)).trans (ab_eq (adjK m c)).symm)

/-- Mask times mask is the reference's. -/
theorem feat_bb (c : Dev nD) (hb : ∀ i, adjK m c i = 0 ∨ adjK m c i = 1) :
    (W3 m ρ c (Proc.devRef .tc main_v2_1) : Mat) = Cert.ReferenceIdeal.Read.val_main_v22 (F := Ideal) (adjK m c) :=
  (W3_v2_1 m ρ c).trans ((congrArg₂ prod2 (b2_eq m c hb) (b2_eq m c hb)).trans (bb_eq (adjK m c)).symm)

end Cert.Bridge

end
-- ==== Proof.KerGlueC.lean ====
/-
  The structural-feature array of the operations between the second and the third launch, read at the ideal instance
  from an arbitrary valuation of the buffers: five gathered vectors (a matrix read at the edges' endpoint pairs) made
  columns, joined side by side, and padded with three columns of zeros.  Read at (e, s): the s-th gathered vector at e
  for s below 5, zero from 5 on.
-/
import proofs.«121678_j3599182594335_2_alg».proof.Proof.KerGlue
import Idealize.ShloMosaic.Lib.StableHlo.Run
import Idealize.ShloMosaic.Lib.Pipeline.Value
import Idealize.ShloMosaic.Lib.KernelVsHost
import Idealize.ShloMosaic.Lib.ValueIdx
import Idealize.ShloMosaic.Lib.ValueLayout

set_option maxRecDepth 16384

noncomputable section

namespace Cert.KernelIdeal.Glue

open Cert.KernelIdeal Cert.KernelIdeal.Gen
open Idealize.ShloMosaic Idealize.ShloMosaic.TcCoe Idealize.SL.Sem Idealize.ShloMosaic.ValueIdx
open Idealize.ShloMosaic.StableHlo

/-! ## The operations that join columns, their operands read outside the join

Two index columns side by side, and the five feature columns side by side, as functions of their operands. -/

/-- Two one-column index arrays side by side. -/
def join2 (a b : (⟨S262144x1, .i32⟩ : BufTy).Contents (Elt Ideal)) : (⟨S262144x2, .i32⟩ : BufTy).Contents (Elt Ideal) :=
  concatenate S262144x2 1 [⟨S262144x1, a⟩, ⟨S262144x1, b⟩] concatenates_S262144x1_S262144x1_S262144x2_d1

/-- Five one-column arrays side by side. -/
def join5 (y0 y1 y2 y3 y4 : (⟨S262144x1, .f32⟩ : BufTy).Contents (Elt Ideal)) : (⟨S262144x5, .f32⟩ : BufTy).Contents (Elt Ideal) :=
  concatenate S262144x5 1 [⟨S262144x1, y0⟩, ⟨S262144x1, y1⟩, ⟨S262144x1, y2⟩, ⟨S262144x1, y3⟩, ⟨S262144x1, y4⟩]
    concatenates_S262144x1_S262144x1_S262144x1_S262144x1_S262144x1_S262144x5_d1

theorem pair_v19' (ha hb hy) (V : Valuation τ sig (Elt Ideal)) :
    (binary (τ := τ) main_v17 main_v18 main_v19 ((fun a b => concatenate S262144x2 1 [⟨S262144x1, a⟩, ⟨S262144x1, b⟩] concatenates_S262144x1_S262144x1_S262144x2_d1) : (⟨S262144x1, .i32⟩ : BufTy).Contents (Elt Ideal) → (⟨S262144x1, .i32⟩ : BufTy).Contents (Elt Ideal) → (⟨S262144x2, .i32⟩ : BufTy).Contents (Elt Ideal)) ha hb hy).result V
        (no_index (Proc.devRef .tc main_v19))
      = join2 (V (Proc.devRef .tc main_v17)) (V (Proc.devRef .tc main_v18)) :=
  binary_result ..
theorem pair_v33' (ha hb hy) (V : Valuation τ sig (Elt Ideal)) :
    (binary (τ := τ) main_v31 main_v32 main_v33 ((fun a b => concatenate S262144x2 1 [⟨S262144x1, a⟩, ⟨S262144x1, b⟩] concatenates_S262144x1_S262144x1_S262144x2_d1) : (⟨S262144x1, .i32⟩ : BufTy).Contents (Elt Ideal) → (⟨S262144x1, .i32⟩ : BufTy).Contents (Elt Ideal) → (⟨S262144x2, .i32⟩ : BufTy).Contents (Elt Ideal)) ha hb hy).result V
        (no_index (Proc.devRef .tc main_v33))
      = join2 (V (Proc.devRef .tc main_v31)) (V (Proc.devRef .tc main_v32)) :=
  binary_result ..
theorem pair_v47' (ha hb hy) (V : Valuation τ sig (Elt Ideal)) :
    (binary (τ := τ) main_v45 main_v46 main_v47 ((fun a b => concatenate S262144x2 1 [⟨S262144x1, a⟩, ⟨S262144x1, b⟩] concatenates_S262144x1_S262144x1_S262144x2_d1) : (⟨S262144x1, .i32⟩ : BufTy).Contents (Elt Ideal) → (⟨S262144x1, .i32⟩ : BufTy).Contents (Elt Ideal) → (⟨S262144x2, .i32⟩ : BufTy).Contents (Elt Ideal)) ha hb hy).result V
        (no_index (Proc.devRef .tc main_v47))
      = join2 (V (Proc.devRef .tc main_v45)) (V (Proc.devRef .tc main_v46)) :=
  binary_result ..
theorem pair_v61' (ha hb hy) (V : Valuation τ sig (Elt Ideal)) :
    (binary (τ := τ) main_v59 main_v60 main_v61 ((fun a b => concatenate S262144x2 1 [⟨S262144x1, a⟩, ⟨S262144x1, b⟩] concatenates_S262144x1_S262144x1_S262144x2_d1) : (⟨S262144x1, .i32⟩ : BufTy).Contents (Elt Ideal) → (⟨S262144x1, .i32⟩ : BufTy).Contents (Elt Ideal) → (⟨S262144x2, .i32⟩ : BufTy).Contents (Elt Ideal)) ha hb hy).result V
        (no_index (Proc.devRef .tc main_v61))
      = join2 (V (Proc.devRef .tc main_v59)) (V (Proc.devRef .tc main_v60)) :=
  binary_result ..
theorem pair_v75' (ha hb hy) (V : Valuation τ sig (Elt Ideal)) :
    (binary (τ := τ) main_v73 main_v74 main_v75 ((fun a b => concatenate S262144x2 1 [⟨S262144x1, a⟩, ⟨S262144x1, b⟩] concatenates_S262144x1_S262144x1_S262144x2_d1) : (⟨S262144x1, .i32⟩ : BufTy).Contents (Elt Ideal) → (⟨S262144x1, .i32⟩ : BufTy).Contents (Elt Ideal) → (⟨S262144x2, .i32⟩ : BufTy).Contents (Elt Ideal)) ha hb hy).result V
        (no_index (Proc.devRef .tc main_v75))
      = join2 (V (Proc.devRef .tc main_v73)) (V (Proc.devRef .tc main_v74)) :=
  binary_result ..

/-- The result of joining the five feature columns, each operand's contents read at its own reference. -/
theorem join5_result' (hxs hy) (V : Valuation τ sig (Elt Ideal)) :
    (nary (τ := τ) ![main_v77, main_v78, main_v79, main_v80, main_v81] main_v82
        (fun u => concatenate S262144x5 1 [⟨S262144x1, u 0⟩, ⟨S262144x1, u 1⟩, ⟨S262144x1, u 2⟩, ⟨S262144x1, u 3⟩, ⟨S262144x1, u 4⟩]
          concatenates_S262144x1_S262144x1_S262144x1_S262144x1_S262144x1_S262144x5_d1) hxs hy).result V
        (no_index (Proc.devRef .tc main_v82))
      = join5 (V (Proc.devRef .tc main_v77)) (V (Proc.devRef .tc main_v78)) (V (Proc.devRef .tc main_v79))
          (V (Proc.devRef .tc main_v80)) (V (Proc.devRef .tc main_v81)) :=
  nary_result ..

/-! ## Five columns side by side, read at an index -/

section Join
variable {α : Type}

/-- Five 262144 x 1 columns joined along axis 1, read at (e, s): column s at (e, 0). -/
theorem stack5_col (y0 y1 y2 y3 y4 : S262144x1.Idx → α)
    (h : Shape.Concatenates ([(⟨S262144x1, y0⟩ : (s : Shape) × (s.Idx → α)), ⟨S262144x1, y1⟩, ⟨S262144x1, y2⟩,
      ⟨S262144x1, y3⟩, ⟨S262144x1, y4⟩].map (·.1)) S262144x5 1)
    (e : Fin 262144) (s : Fin 5) :
    concatenate S262144x5 1 [⟨S262144x1, y0⟩, ⟨S262144x1, y1⟩, ⟨S262144x1, y2⟩, ⟨S262144x1, y3⟩, ⟨S262144x1, y4⟩] h (ix2 e s)
      = (match s with
          | ⟨0, _⟩ => y0 | ⟨1, _⟩ => y1 | ⟨2, _⟩ => y2 | ⟨3, _⟩ => y3 | ⟨_, _⟩ => y4) (ix2 e (0 : Fin 1)) := by
  have hi : ∀ (c : Fin 5) (b : Fin S262144x1.rank), b.cast (rfl : S262144x1.rank = S262144x5.rank) ≠ (1 : Fin S262144x5.rank) →
      ((ix2 e (0 : Fin 1) : S262144x1.Idx) b).val = ((ix2 e c : S262144x5.Idx) (b.cast rfl)).val := fun c b hb => by
    match b with
    | ⟨0, _⟩ => rfl
    | ⟨1, _⟩ => exact absurd (Fin.ext rfl) hb
  match s with
  | ⟨0, _⟩ => exact concatenate_apply_piece 1 _ h _ 0 (by simp) S262144x1 y0 rfl rfl 0 rfl (ix2 e 0) (hi _) rfl
  | ⟨1, _⟩ => exact concatenate_apply_piece 1 _ h _ 1 (by simp) S262144x1 y1 rfl rfl 1 rfl (ix2 e 0) (hi _) rfl
  | ⟨2, _⟩ => exact concatenate_apply_piece 1 _ h _ 2 (by simp) S262144x1 y2 rfl rfl 2 rfl (ix2 e 0) (hi _) rfl
  | ⟨3, _⟩ => exact concatenate_apply_piece 1 _ h _ 3 (by simp) S262144x1 y3 rfl rfl 3 rfl (ix2 e 0) (hi _) rfl
  | ⟨4, _⟩ => exact concatenate_apply_piece 1 _ h _ 4 (by simp) S262144x1 y4 rfl rfl 4 rfl (ix2 e 0) (hi _) rfl

/-- A vector as a one-column matrix, read at (e, 0): the vector at e. -/
theorem col_apply {ε : EltTy} (a : (⟨S262144, ε⟩ : BufTy).Contents (Elt Ideal)) (e : Fin 262144) :
    (col (F := Ideal) a : S262144x1.Idx → Elt Ideal ε) (ix2 e (0 : Fin 1)) = (a : S262144.Idx → Elt Ideal ε) (ix1 e) :=
  broadcastInDim_apply _ _ _ _ (ix1 e) (fun ax => by match ax with | ⟨0, _⟩ => rfl)

end Join

/-! ## The structural-feature array -/

/-- The five gathered vectors as columns, side by side: the second argument, the first result of the first launch, the
    first result of the second launch at (u, v) and at (v, u), and the second result of the second launch, each read
    at the edges' endpoint pairs. -/
def stack5 (W : Valuation τ sig (Elt Ideal)) : (⟨S262144x5, .f32⟩ : BufTy).Contents (Elt Ideal) :=
  concatenate S262144x5 1
    [⟨S262144x1, col (F := Ideal) (kPickUV (F := Ideal) (W (Proc.devRef .tc main_arg1)) (W (Proc.devRef .tc main_arg2)))⟩,
     ⟨S262144x1, col (F := Ideal) (kPickUV (F := Ideal) (W (Proc.devRef .tc main_v1_0)) (W (Proc.devRef .tc main_arg2)))⟩,
     ⟨S262144x1, col (F := Ideal) (kPickUV (F := Ideal) (W (Proc.devRef .tc main_v2_0)) (W (Proc.devRef .tc main_arg2)))⟩,
     ⟨S262144x1, col (F := Ideal) (kPickVU (F := Ideal) (W (Proc.devRef .tc main_v2_0)) (W (Proc.devRef .tc main_arg2)))⟩,
     ⟨S262144x1, col (F := Ideal) (kPickUV (F := Ideal) (W (Proc.devRef .tc main_v2_1)) (W (Proc.devRef .tc main_arg2)))⟩]
    concatenates_S262144x1_S262144x1_S262144x1_S262144x1_S262144x1_S262144x5_d1

set_option maxHeartbeats 8000000 in
/-- The array the third launch reads its structural features from: the five columns and three columns of zeros. -/
theorem G_v83 (W : Valuation τ sig (Elt Ideal)) :
    (G W (Proc.devRef .tc main_v83) : S262144x8.Idx → EReal)
      = (pad S262144x8 ![0, 0] ![0, 3] ![0, 0] (stack5 W : S262144x5.Idx → EReal)
          (sitofp .f32 (constantI S_ 32 0#32) : FVec Ideal S_ .f32) pads_S262144x5_S262144x8_000_030 h_S_ : S262144x8.Idx → EReal) := by
  unfold G
  simp (disch := decide) only [after_cons, after_nil,
      ↓pair_v19', ↓pair_v33', ↓pair_v47', ↓pair_v61', ↓pair_v75', ↓join5_result',
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']
  rfl

/-- The integer zero converted to a float and read at the scalar's one index is zero: the value the padding holds. -/
theorem padZero (i : S_.Idx) : (sitofp .f32 (constantI S_ 32 0#32) : FVec Ideal S_ .f32) i = 0 :=
  Idealize.ShloMosaic.sitofp_zero

/-- The five columns read at (e, s): the s-th gathered vector at e. -/
theorem stack5_apply (W : Valuation τ sig (Elt Ideal)) (e : Fin 262144) (s : Fin 5) :
    (stack5 W : S262144x5.Idx → EReal) (ix2 e s)
      = (match s with
          | ⟨0, _⟩ => (kPickUV (F := Ideal) (W (Proc.devRef .tc main_arg1)) (W (Proc.devRef .tc main_arg2)) : S262144.Idx → EReal)
          | ⟨1, _⟩ => (kPickUV (F := Ideal) (W (Proc.devRef .tc main_v1_0)) (W (Proc.devRef .tc main_arg2)) : S262144.Idx → EReal)
          | ⟨2, _⟩ => (kPickUV (F := Ideal) (W (Proc.devRef .tc main_v2_0)) (W (Proc.devRef .tc main_arg2)) : S262144.Idx → EReal)
          | ⟨3, _⟩ => (kPickVU (F := Ideal) (W (Proc.devRef .tc main_v2_0)) (W (Proc.devRef .tc main_arg2)) : S262144.Idx → EReal)
          | ⟨_, _⟩ => (kPickUV (F := Ideal) (W (Proc.devRef .tc main_v2_1)) (W (Proc.devRef .tc main_arg2)) : S262144.Idx → EReal)) (ix1 e) := by
  unfold stack5
  refine (stack5_col _ _ _ _ _ concatenates_S262144x1_S262144x1_S262144x1_S262144x1_S262144x1_S262144x5_d1 e s).trans ?_
  match s with
  | ⟨0, _⟩ => exact col_apply _ e
  | ⟨1, _⟩ => exact col_apply _ e
  | ⟨2, _⟩ => exact col_apply _ e
  | ⟨3, _⟩ => exact col_apply _ e
  | ⟨4, _⟩ => exact col_apply _ e

/-- A column below 5 of the padded array is that column of the five. -/
theorem G_struct_in (W : Valuation τ sig (Elt Ideal)) (e : Fin 262144) (s : Fin 8) (h : s.val < 5) :
    (G W (Proc.devRef .tc main_v83) : S262144x8.Idx → EReal) (ix2 e s)
      = (stack5 W : S262144x5.Idx → EReal) (ix2 e (⟨s.val, h⟩ : Fin 5)) := by
  rw [G_v83]
  refine pad_apply_of_inside _ _ _ _ _ _ _ (ix2 e s) (ix2 e (⟨s.val, h⟩ : Fin 5)) (fun ax => ?_)
  match ax with
  | ⟨0, _⟩ => show e.val = 0 + e.val * (0 + 1); omega
  | ⟨1, _⟩ => show s.val = 0 + s.val * (0 + 1); omega

/-- Columns 5, 6 and 7 of the padded array are zero. -/
theorem G_struct_pad (W : Valuation τ sig (Elt Ideal)) (e : Fin 262144) (s : Fin 8) (h : 5 ≤ s.val) :
    (G W (Proc.devRef .tc main_v83) : S262144x8.Idx → EReal) (ix2 e s) = (0 : EReal) := by
  rw [G_v83]
  refine (pad_apply_of_not_inside _ _ _ _ _ _ _ (ix2 e s) (1 : Fin 2) ?_).trans (padZero _)
  show ¬(0 ≤ s.val ∧ (s.val - 0) % 1 = 0 ∧ (s.val - 0) / 1 < 5)
  omega

/-- Column 0 of the structural features. -/
theorem G_struct0 (W : Valuation τ sig (Elt Ideal)) (e : Fin 262144) :
    (G W (Proc.devRef .tc main_v83) : S262144x8.Idx → EReal) (ix2 e (0 : Fin 8))
      = (kPickUV (F := Ideal) (W (Proc.devRef .tc main_arg1)) (W (Proc.devRef .tc main_arg2)) : S262144.Idx → EReal) (ix1 e) :=
  (G_struct_in W e (0 : Fin 8) (by decide)).trans (stack5_apply W e (0 : Fin 5))

/-- Column 1 of the structural features. -/
theorem G_struct1 (W : Valuation τ sig (Elt Ideal)) (e : Fin 262144) :
    (G W (Proc.devRef .tc main_v83) : S262144x8.Idx → EReal) (ix2 e (1 : Fin 8))
      = (kPickUV (F := Ideal) (W (Proc.devRef .tc main_v1_0)) (W (Proc.devRef .tc main_arg2)) : S262144.Idx → EReal) (ix1 e) :=
  (G_struct_in W e (1 : Fin 8) (by decide)).trans (stack5_apply W e (1 : Fin 5))

/-- Column 2 of the structural features. -/
theorem G_struct2 (W : Valuation τ sig (Elt Ideal)) (e : Fin 262144) :
    (G W (Proc.devRef .tc main_v83) : S262144x8.Idx → EReal) (ix2 e (2 : Fin 8))
      = (kPickUV (F := Ideal) (W (Proc.devRef .tc main_v2_0)) (W (Proc.devRef .tc main_arg2)) : S262144.Idx → EReal) (ix1 e) :=
  (G_struct_in W e (2 : Fin 8) (by decide)).trans (stack5_apply W e (2 : Fin 5))

/-- Column 3 of the structural features. -/
theorem G_struct3 (W : Valuation τ sig (Elt Ideal)) (e : Fin 262144) :
    (G W (Proc.devRef .tc main_v83) : S262144x8.Idx → EReal) (ix2 e (3 : Fin 8))
      = (kPickVU (F := Ideal) (W (Proc.devRef .tc main_v2_0)) (W (Proc.devRef .tc main_arg2)) : S262144.Idx → EReal) (ix1 e) :=
  (G_struct_in W e (3 : Fin 8) (by decide)).trans (stack5_apply W e (3 : Fin 5))

/-- Column 4 of the structural features. -/
theorem G_struct4 (W : Valuation τ sig (Elt Ideal)) (e : Fin 262144) :
    (G W (Proc.devRef .tc main_v83) : S262144x8.Idx → EReal) (ix2 e (4 : Fin 8))
      = (kPickUV (F := Ideal) (W (Proc.devRef .tc main_v2_1)) (W (Proc.devRef .tc main_arg2)) : S262144.Idx → EReal) (ix1 e) :=
  (G_struct_in W e (4 : Fin 8) (by decide)).trans (stack5_apply W e (4 : Fin 5))

/-- THE STRUCTURAL FEATURES the third launch reads, at edge e and column s: the second argument, the first result of
    the first launch, the first result of the second launch at (u, v) and at (v, u), and the second result of the second
    launch, each read at the edge's endpoints; columns 5 to 7 are zero. -/
theorem G_struct (W : Valuation τ sig (Elt Ideal)) (e : Fin 262144) (s : Fin 8) :
    (G W (Proc.devRef .tc main_v83) : S262144x8.Idx → EReal) (ix2 e s)
      = (match s with
          | ⟨0, _⟩ => (kPickUV (F := Ideal) (W (Proc.devRef .tc main_arg1)) (W (Proc.devRef .tc main_arg2)) : S262144.Idx → EReal) (ix1 e)
          | ⟨1, _⟩ => (kPickUV (F := Ideal) (W (Proc.devRef .tc main_v1_0)) (W (Proc.devRef .tc main_arg2)) : S262144.Idx → EReal) (ix1 e)
          | ⟨2, _⟩ => (kPickUV (F := Ideal) (W (Proc.devRef .tc main_v2_0)) (W (Proc.devRef .tc main_arg2)) : S262144.Idx → EReal) (ix1 e)
          | ⟨3, _⟩ => (kPickVU (F := Ideal) (W (Proc.devRef .tc main_v2_0)) (W (Proc.devRef .tc main_arg2)) : S262144.Idx → EReal) (ix1 e)
          | ⟨4, _⟩ => (kPickUV (F := Ideal) (W (Proc.devRef .tc main_v2_1)) (W (Proc.devRef .tc main_arg2)) : S262144.Idx → EReal) (ix1 e)
          | _ => (0 : EReal)) := by
  match s with
  | ⟨0, _⟩ => exact G_struct0 W e
  | ⟨1, _⟩ => exact G_struct1 W e
  | ⟨2, _⟩ => exact G_struct2 W e
  | ⟨3, _⟩ => exact G_struct3 W e
  | ⟨4, _⟩ => exact G_struct4 W e
  | ⟨5, _⟩ => exact G_struct_pad W e _ (by show 5 ≤ 5; omega)
  | ⟨6, _⟩ => exact G_struct_pad W e _ (by show 5 ≤ 6; omega)
  | ⟨7, _⟩ => exact G_struct_pad W e _ (by show 5 ≤ 7; omega)

end Cert.KernelIdeal.Glue

end
-- ==== Proof.BridgeS.lean ====
/-
  The second operand of the perceptron as the third region finds it, traced back to the launched arguments.

  The glue stores, for every edge, five structural features and three zeros: the adjacency matrix, its square, the
  adjacency matrix times the two-hop mask at (u, v) and at (v, u), and the mask times itself, each read at the edge's
  endpoint pair.  For a launched adjacency matrix of zeros and ones the three matrices the first two regions leave are the
  reference's, so entry (e, s) of the stored array is column 256 + s of the reference's joined feature array for s below
  5, and zero from 5 on.
-/
import proofs.«121678_j3599182594335_2_alg».proof.Proof.BridgeRes
import proofs.«121678_j3599182594335_2_alg».proof.Proof.BridgeFeat
import proofs.«121678_j3599182594335_2_alg».proof.Proof.KerGlueC
import proofs.«121678_j3599182594335_2_alg».proof.Proof.RefStagesB

set_option maxRecDepth 16384

noncomputable section

namespace Cert.Bridge

open Cert.KernelIdeal Cert.KernelIdeal.Gen Cert.KernelIdeal.Fr Cert.KernelIdeal.Val Cert.KernelIdeal.Glue
open Idealize.ShloMosaic Idealize.ShloMosaic.TcCoe Idealize.SL.Sem Idealize.ShloMosaic.ValueIdx

variable (m : (ℓ : Loc nD τ sig) → Buf (Elt Ideal) ℓ) (ρ : Dev nD → PrngReg)

/-- Column 256 + s of the reference's joined feature array is column s of its stack of five gathered vectors. -/
theorem joined_tail (c : Dev nD) (e : Fin 262144) (s : Fin 5) :
    (Cert.ReferenceIdeal.Read.val_main_v118 (F := Ideal) (m ((c.tc : Thread nD τ).loc main_arg0))
        (m ((c.tc : Thread nD τ).loc main_arg1)) (m ((c.tc : Thread nD τ).loc main_arg2)) : _ → EReal)
        (ix2 e (⟨256 + s.val, by have := s.isLt; omega⟩ : Fin 261))
      = (Cert.ReferenceIdeal.Read.val_main_v98 (F := Ideal) (m ((c.tc : Thread nD τ).loc main_arg1))
          (m ((c.tc : Thread nD τ).loc main_arg2)) : _ → EReal) (ix2 e s) := by
  refine (Cert.ReferenceIdeal.RefValue.v118_apply _ _ _ e (⟨256 + s.val, by have := s.isLt; omega⟩ : Fin 261)).trans ?_
  split
  · next h => exact absurd h (by show ¬ (256 + s.val < 256); omega)
  · refine congrArg (fun q : Fin 5 => (Cert.ReferenceIdeal.Read.val_main_v98 (F := Ideal) (m ((c.tc : Thread nD τ).loc main_arg1))
        (m ((c.tc : Thread nD τ).loc main_arg2)) : _ → EReal) (ix2 e q)) (Fin.ext ?_)
    show 256 + s.val - 256 = s.val
    omega

/-- Feature 0: the adjacency matrix at (u, v). -/
theorem st_col0 (c : Dev nD) (e : Fin 262144) :
    (GW m ρ c main_v83 : S262144x8.Idx → EReal) (ix2 e (0 : Fin 8))
      = (Cert.ReferenceIdeal.Read.val_main_v98 (F := Ideal) (m ((c.tc : Thread nD τ).loc main_arg1))
          (m ((c.tc : Thread nD τ).loc main_arg2)) : _ → EReal) (ix2 e (0 : Fin 5)) := by
  refine (G_struct0 (W3 m ρ c) e).trans ?_
  rw [W3_arg m ρ main_arg1 (by decide) c, W3_arg m ρ main_arg2 (by decide) c]
  refine Eq.trans ?_ (Cert.ReferenceIdeal.RefValue.v98_col0 _ _ e).symm
  rfl

/-- Feature 1: the square of the adjacency matrix at (u, v). -/
theorem st_col1 (c : Dev nD) (e : Fin 262144) :
    (GW m ρ c main_v83 : S262144x8.Idx → EReal) (ix2 e (1 : Fin 8))
      = (Cert.ReferenceIdeal.Read.val_main_v98 (F := Ideal) (m ((c.tc : Thread nD τ).loc main_arg1))
          (m ((c.tc : Thread nD τ).loc main_arg2)) : _ → EReal) (ix2 e (1 : Fin 5)) := by
  refine (G_struct1 (W3 m ρ c) e).trans ?_
  rw [W3_arg m ρ main_arg2 (by decide) c, feat_sq m ρ c]
  refine Eq.trans ?_ (Cert.ReferenceIdeal.RefValue.v98_col1 _ _ e).symm
  refine Eq.trans ?_ (congrFun (Cert.ReferenceIdeal.RefValue.v50_eq _ _).symm (ix1 e))
  rfl

/-- Feature 2: the adjacency matrix times the two-hop mask at (u, v). -/
theorem st_col2 (c : Dev nD) (hb : ∀ i, adjK m c i = 0 ∨ adjK m c i = 1) (e : Fin 262144) :
    (GW m ρ c main_v83 : S262144x8.Idx → EReal) (ix2 e (2 : Fin 8))
      = (Cert.ReferenceIdeal.Read.val_main_v98 (F := Ideal) (m ((c.tc : Thread nD τ).loc main_arg1))
          (m ((c.tc : Thread nD τ).loc main_arg2)) : _ → EReal) (ix2 e (2 : Fin 5)) := by
  refine (G_struct2 (W3 m ρ c) e).trans ?_
  rw [W3_arg m ρ main_arg2 (by decide) c, feat_ab m ρ c hb]
  refine Eq.trans ?_ (Cert.ReferenceIdeal.RefValue.v98_col2 _ _ e).symm
  refine Eq.trans ?_ (congrFun (Cert.ReferenceIdeal.RefValue.v64_eq _ _).symm (ix1 e))
  rfl

/-- Feature 3: the adjacency matrix times the two-hop mask at the swapped pair (v, u). -/
theorem st_col3 (c : Dev nD) (hb : ∀ i, adjK m c i = 0 ∨ adjK m c i = 1) (e : Fin 262144) :
    (GW m ρ c main_v83 : S262144x8.Idx → EReal) (ix2 e (3 : Fin 8))
      = (Cert.ReferenceIdeal.Read.val_main_v98 (F := Ideal) (m ((c.tc : Thread nD τ).loc main_arg1))
          (m ((c.tc : Thread nD τ).loc main_arg2)) : _ → EReal) (ix2 e (3 : Fin 5)) := by
  refine (G_struct3 (W3 m ρ c) e).trans ?_
  rw [W3_arg m ρ main_arg2 (by decide) c, feat_ab m ρ c hb]
  refine Eq.trans ?_ (Cert.ReferenceIdeal.RefValue.v98_col3 _ _ e).symm
  refine Eq.trans ?_ (congrFun (Cert.ReferenceIdeal.RefValue.v78_eq _ _).symm (ix1 e))
  rfl

/-- Feature 4: the two-hop mask times itself at (u, v). -/
theorem st_col4 (c : Dev nD) (hb : ∀ i, adjK m c i = 0 ∨ adjK m c i = 1) (e : Fin 262144) :
    (GW m ρ c main_v83 : S262144x8.Idx → EReal) (ix2 e (4 : Fin 8))
      = (Cert.ReferenceIdeal.Read.val_main_v98 (F := Ideal) (m ((c.tc : Thread nD τ).loc main_arg1))
          (m ((c.tc : Thread nD τ).loc main_arg2)) : _ → EReal) (ix2 e (4 : Fin 5)) := by
  refine (G_struct4 (W3 m ρ c) e).trans ?_
  rw [W3_arg m ρ main_arg2 (by decide) c, feat_bb m ρ c hb]
  refine Eq.trans ?_ (Cert.ReferenceIdeal.RefValue.v98_col4 _ _ e).symm
  refine Eq.trans ?_ (congrFun (Cert.ReferenceIdeal.RefValue.v92_eq _ _).symm (ix1 e))
  rfl

/-- Structural features, columns 0 to 4: entry (e, s) is column 256 + s of the reference's joined feature array. -/
theorem st_at (c : Dev nD) (hb : ∀ i, adjK m c i = 0 ∨ adjK m c i = 1) (e : Fin 262144) (s : Fin 8) (h : s.val < 5) :
    (GW m ρ c main_v83 : S262144x8.Idx → EReal) (ix2 e s)
      = (Cert.ReferenceIdeal.Read.val_main_v118 (F := Ideal) (m ((c.tc : Thread nD τ).loc main_arg0))
          (m ((c.tc : Thread nD τ).loc main_arg1)) (m ((c.tc : Thread nD τ).loc main_arg2)) : _ → EReal)
          (ix2 e (⟨256 + s.val, by omega⟩ : Fin 261)) := by
  refine Eq.trans ?_ (joined_tail m c e (⟨s.val, h⟩ : Fin 5)).symm
  match s, h with
  | ⟨0, _⟩, _ => exact st_col0 m ρ c e
  | ⟨1, _⟩, _ => exact st_col1 m ρ c e
  | ⟨2, _⟩, _ => exact st_col2 m ρ c hb e
  | ⟨3, _⟩, _ => exact st_col3 m ρ c hb e
  | ⟨4, _⟩, _ => exact st_col4 m ρ c hb e
  | ⟨n + 5, _⟩, h => exact absurd h (by show ¬ (n + 5 < 5); omega)

/-- Structural features, columns 5 to 7: zero. -/
theorem st_pad (c : Dev nD) (e : Fin 262144) (s : Fin 8) (h : 5 ≤ s.val) :
    (GW m ρ c main_v83 : S262144x8.Idx → EReal) (ix2 e s) = (0 : EReal) :=
  G_struct_pad (W3 m ρ c) e s h

end Cert.Bridge

end
-- ==== Proof.LibSplitDot.lean ====
/-
Splitting a dot product over the extended reals into a leading block and a zero-padded tail.

The extended reals are an additive commutative monoid with 0 * 0 = 0, so no finiteness is
needed: a sum over a + b terms is the sum over the first a terms plus the sum over the last
b terms, and appending c further terms whose factors are both 0 changes nothing.
The instance used is 261 = 256 + 5, the tail padded from 5 to 8 = 5 + 3 terms.
-/
import Mathlib.Data.EReal.Operations
import Mathlib.Algebra.BigOperators.Fin

namespace Cert.LibSplitDot

open Finset

/-- A dot product of length a + b is the dot product of the first a terms plus the dot product
of the last b terms padded by c terms in which both factors are 0. -/
theorem dot_split_pad (a b c : ℕ) (f g : Fin (a + b) → EReal) :
    ∑ k : Fin (a + b), f k * g k
      = (∑ k : Fin a, f (Fin.castAdd b k) * g (Fin.castAdd b k))
        + ∑ s : Fin (b + c),
            (if h : s.val < b then f (Fin.natAdd a ⟨s.val, h⟩) else 0)
              * (if h : s.val < b then g (Fin.natAdd a ⟨s.val, h⟩) else 0) := by
  rw [Fin.sum_univ_add, Fin.sum_univ_add]
  have h1 : ∀ i : Fin b,
      (if h : (Fin.castAdd c i).val < b then f (Fin.natAdd a ⟨(Fin.castAdd c i).val, h⟩) else 0)
        * (if h : (Fin.castAdd c i).val < b then g (Fin.natAdd a ⟨(Fin.castAdd c i).val, h⟩) else 0)
      = f (Fin.natAdd a i) * g (Fin.natAdd a i) := by
    intro i
    have hi : (Fin.castAdd c i).val < b := i.isLt
    rw [dif_pos hi, dif_pos hi]
    rfl
  have h2 : ∀ i : Fin c,
      (if h : (Fin.natAdd b i).val < b then f (Fin.natAdd a ⟨(Fin.natAdd b i).val, h⟩) else 0)
        * (if h : (Fin.natAdd b i).val < b then g (Fin.natAdd a ⟨(Fin.natAdd b i).val, h⟩) else 0)
      = 0 := by
    intro i
    have hi : ¬ (Fin.natAdd b i).val < b := by simp [Fin.natAdd]
    rw [dif_neg hi, dif_neg hi, mul_zero]
  simp only [h1, h2, Finset.sum_const_zero, add_zero]

/-- The same splitting when the padded factors are given as functions on the padded tail:
equal to the last b factors on the first b places and 0 on the remaining c places. -/
theorem dot_split_pad_fun (a b c : ℕ) (f g : Fin (a + b) → EReal) (fp gp : Fin (b + c) → EReal)
    (hf : ∀ (s : Fin (b + c)) (h : s.val < b), fp s = f (Fin.natAdd a ⟨s.val, h⟩))
    (hf0 : ∀ s : Fin (b + c), b ≤ s.val → fp s = 0)
    (hg : ∀ (s : Fin (b + c)) (h : s.val < b), gp s = g (Fin.natAdd a ⟨s.val, h⟩))
    (hg0 : ∀ s : Fin (b + c), b ≤ s.val → gp s = 0) :
    ∑ k : Fin (a + b), f k * g k
      = (∑ k : Fin a, f (Fin.castAdd b k) * g (Fin.castAdd b k)) + ∑ s : Fin (b + c), fp s * gp s := by
  rw [dot_split_pad a b c f g]
  congr 1
  refine Finset.sum_congr rfl (fun s _ => ?_)
  by_cases h : s.val < b
  · rw [dif_pos h, dif_pos h, hf s h, hg s h]
  · rw [dif_neg h, dif_neg h, hf0 s (Nat.le_of_not_lt h), hg0 s (Nat.le_of_not_lt h)]

/-- The instance 261 = 256 + 5 with the tail padded to 8 terms, indices written out. -/
theorem dot_261_split (f g : Fin 261 → EReal) :
    ∑ k : Fin 261, f k * g k
      = (∑ k : Fin 256, f ⟨k.val, by omega⟩ * g ⟨k.val, by omega⟩)
        + ∑ s : Fin 8,
            (if h : s.val < 5 then f ⟨256 + s.val, by omega⟩ else 0)
              * (if h : s.val < 5 then g ⟨256 + s.val, by omega⟩ else 0) :=
  dot_split_pad 256 5 3 f g

/-- The instance 261 = 256 + 5 with the padded factors given as functions on Fin 8. -/
theorem dot_261_split_fun (f g : Fin 261 → EReal) (fp gp : Fin 8 → EReal)
    (hf : ∀ (s : Fin 8) (h : s.val < 5), fp s = f ⟨256 + s.val, by omega⟩)
    (hf0 : ∀ s : Fin 8, 5 ≤ s.val → fp s = 0)
    (hg : ∀ (s : Fin 8) (h : s.val < 5), gp s = g ⟨256 + s.val, by omega⟩)
    (hg0 : ∀ s : Fin 8, 5 ≤ s.val → gp s = 0) :
    ∑ k : Fin 261, f k * g k
      = (∑ k : Fin 256, f ⟨k.val, by omega⟩ * g ⟨k.val, by omega⟩) + ∑ s : Fin 8, fp s * gp s :=
  dot_split_pad_fun 256 5 3 f g fp gp hf hf0 hg hg0

end Cert.LibSplitDot
-- ==== Proof.BridgeMath.lean ====
/-
  The three-layer perceptron at one edge, in two arrangements, is one extended real.

  The reference joins the 256 products of endpoint features and the 5 structural features into one row J of length
  261 and takes its dot product with a row of the first weight matrix.  The kernel keeps the two parts apart: the 256
  products against the first 256 columns of the weights, and the 5 structural features, padded with three zeros to
  length 8, against columns 256 to 260 of the weights padded with three zero rows.  A sum over 261 terms is the sum
  over the first 256 plus the sum over the last 5, and a padded position contributes 0 * 0 = 0, so the first layers
  agree; the second and third layers are the same sums with the weight matrices read transposed.  Only commutativity
  and associativity of the extended reals' addition are used, so no finiteness is needed.
-/
import proofs.«121678_j3599182594335_2_alg».proof.Proof.LibSplitDot

namespace Cert.BridgeMath

open Finset

/-- The first layer before the bias's maximum: split dot product plus bias = joined dot product plus bias. -/
theorem layer1_eq (J W : Fin 261 → EReal) (b : EReal) (xm wa : Fin 256 → EReal) (st wb : Fin 8 → EReal)
    (hxm : ∀ a : Fin 256, xm a = J ⟨a.val, by omega⟩)
    (hwa : ∀ a : Fin 256, wa a = W ⟨a.val, by omega⟩)
    (hst : ∀ (s : Fin 8) (h : s.val < 5), st s = J ⟨256 + s.val, by omega⟩)
    (hst0 : ∀ s : Fin 8, 5 ≤ s.val → st s = 0)
    (hwb : ∀ (s : Fin 8) (h : s.val < 5), wb s = W ⟨256 + s.val, by omega⟩)
    (hwb0 : ∀ s : Fin 8, 5 ≤ s.val → wb s = 0) :
    (∑ a : Fin 256, xm a * wa a) + (∑ s : Fin 8, st s * wb s) + b = (∑ k : Fin 261, J k * W k) + b := by
  have h1 : ∑ a : Fin 256, xm a * wa a = ∑ k : Fin 256, J ⟨k.val, by omega⟩ * W ⟨k.val, by omega⟩ :=
    Finset.sum_congr rfl (fun a _ => by rw [hxm a, hwa a])
  rw [Cert.LibSplitDot.dot_261_split_fun J W st wb hst hst0 hwb hwb0, h1]

/-- The result at one edge: the kernel's arrangement (split first layer, weights as the kernel stores them) equals
    the reference's (joined first layer, weights as given). -/
theorem edge_eq
    (J : Fin 261 → EReal) (W1 : Fin 256 → Fin 261 → EReal) (B1 : Fin 256 → EReal)
    (W2 : Fin 256 → Fin 256 → EReal) (B2 : Fin 256 → EReal) (W3 : Fin 256 → EReal) (B3 : EReal)
    (xm : Fin 256 → EReal) (st : Fin 8 → EReal) (w1a : Fin 256 → Fin 256 → EReal) (w1b : Fin 8 → Fin 256 → EReal)
    (b1 : Fin 256 → EReal) (w2 : Fin 256 → Fin 256 → EReal) (b2 : Fin 256 → EReal) (w3 : Fin 256 → EReal) (b3 : EReal)
    (hxm : ∀ a : Fin 256, xm a = J ⟨a.val, by omega⟩)
    (hst : ∀ (s : Fin 8) (h : s.val < 5), st s = J ⟨256 + s.val, by omega⟩)
    (hst0 : ∀ s : Fin 8, 5 ≤ s.val → st s = 0)
    (hw1a : ∀ (a k : Fin 256), w1a a k = W1 k ⟨a.val, by omega⟩)
    (hw1b : ∀ (s : Fin 8) (k : Fin 256) (h : s.val < 5), w1b s k = W1 k ⟨256 + s.val, by omega⟩)
    (hw1b0 : ∀ (s : Fin 8) (k : Fin 256), 5 ≤ s.val → w1b s k = 0)
    (hb1 : ∀ k, b1 k = B1 k) (hw2 : ∀ k j, w2 k j = W2 j k) (hb2 : ∀ j, b2 j = B2 j)
    (hw3 : ∀ j, w3 j = W3 j) (hb3 : b3 = B3) :
    (∑ j : Fin 256, max ((∑ k : Fin 256,
        max ((∑ a : Fin 256, xm a * w1a a k) + (∑ s : Fin 8, st s * w1b s k) + b1 k) 0 * w2 k j) + b2 j) 0 * w3 j) + b3
      = (∑ j : Fin 256, max ((∑ k : Fin 256,
        max ((∑ q : Fin 261, J q * W1 k q) + B1 k) 0 * W2 j k) + B2 j) 0 * W3 j) + B3 := by
  have l1 : ∀ k : Fin 256, (∑ a : Fin 256, xm a * w1a a k) + (∑ s : Fin 8, st s * w1b s k) + b1 k
      = (∑ q : Fin 261, J q * W1 k q) + B1 k := by
    intro k
    rw [hb1 k]
    exact layer1_eq J (W1 k) (B1 k) xm (fun a => w1a a k) st (fun s => w1b s k) hxm (fun a => hw1a a k) hst hst0
      (fun s h => hw1b s k h) (fun s h => hw1b0 s k h)
  have l2 : ∀ j : Fin 256, (∑ k : Fin 256,
        max ((∑ a : Fin 256, xm a * w1a a k) + (∑ s : Fin 8, st s * w1b s k) + b1 k) 0 * w2 k j) + b2 j
      = (∑ k : Fin 256, max ((∑ q : Fin 261, J q * W1 k q) + B1 k) 0 * W2 j k) + B2 j := by
    intro j
    rw [hb2 j]
    congr 1
    exact Finset.sum_congr rfl (fun k _ => by rw [l1 k, hw2 k j])
  rw [hb3]
  congr 1
  exact Finset.sum_congr rfl (fun j _ => by rw [l2 j, hw3 j])

end Cert.BridgeMath
-- ==== Proof.RefStagesC.lean ====
/-
  The reference program's three-layer perceptron read at an index, at the exact extended reals.

  For edge e the input row is row e of the joined feature array (261 columns).  Each hidden layer multiplies the row by
  the transposed weight matrix (a sum over the ORIGINAL weight array's columns), adds the bias and takes the maximum
  with zero; the last layer is a single weighted sum plus its bias.
-/
import proofs.«121678_j3599182594335_2_alg».proof.Proof.ReadP0

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

set_option quotPrecheck false in
local notation "X0" => (⟨S2048x256, .f32⟩ : BufTy).Contents (Elt Ideal)
set_option quotPrecheck false in
local notation "X1" => (⟨S2048x2048, .f32⟩ : BufTy).Contents (Elt Ideal)
set_option quotPrecheck false in
local notation "X2" => (⟨S2x262144, .i32⟩ : BufTy).Contents (Elt Ideal)
set_option quotPrecheck false in
local notation "X3" => (⟨S256x261, .f32⟩ : BufTy).Contents (Elt Ideal)
set_option quotPrecheck false in
local notation "X4" => (⟨S256, .f32⟩ : BufTy).Contents (Elt Ideal)
set_option quotPrecheck false in
local notation "X5" => (⟨S256x256, .f32⟩ : BufTy).Contents (Elt Ideal)
set_option quotPrecheck false in
local notation "X6" => (⟨S256, .f32⟩ : BufTy).Contents (Elt Ideal)
set_option quotPrecheck false in
local notation "X7" => (⟨S1x256, .f32⟩ : BufTy).Contents (Elt Ideal)
set_option quotPrecheck false in
local notation "X8" => (⟨S1, .f32⟩ : BufTy).Contents (Elt Ideal)

/-- The first hidden layer at edge e, unit j: max (row e of the features against row j of W1, plus b1 j, 0). -/
def h1 (x0 : X0) (x1 : X1) (x2 : X2) (x3 : X3) (x4 : X4) (e : Fin 262144) (j : Fin 256) : EReal :=
  max ((∑ k : Fin 261, val_main_v118 (F := Ideal) x0 x1 x2 (ix2 e k) * x3 (ix2 j k)) + x4 (ix1 j)) 0

/-- The second hidden layer at edge e, unit j: max (the first layer at e against row j of W2, plus b2 j, 0). -/
def h2 (x0 : X0) (x1 : X1) (x2 : X2) (x3 : X3) (x4 : X4) (x5 : X5) (x6 : X6) (e : Fin 262144) (j : Fin 256) : EReal :=
  max ((∑ k : Fin 256, h1 x0 x1 x2 x3 x4 e k * x5 (ix2 j k)) + x6 (ix1 j)) 0

/-! ## Index equations -/

theorem lidx120_eq (e : Fin 262144) (j : Fin 256) (k : Fin 261) :
    lidx_main_v120 (ix2 e j) k = ix2 e k :=
  funext fun a => Fin.ext (by match a with | ⟨0, _⟩ => rfl | ⟨1, _⟩ => rfl)
theorem ridx120_eq (e : Fin 262144) (j : Fin 256) (k : Fin 261) :
    idx_main_v119 (ridx_main_v120 (ix2 e j) k) = ix2 j k :=
  funext fun a => Fin.ext (by match a with | ⟨0, _⟩ => rfl | ⟨1, _⟩ => rfl)
theorem bias122_eq (e : Fin 262144) (j : Fin 256) :
    idx_main_v121 (idx_main_v122 (ix2 e j)) = ix1 j :=
  funext fun a => Fin.ext (by match a with | ⟨0, _⟩ => rfl)

theorem lidx126_eq (e : Fin 262144) (j : Fin 256) (k : Fin 256) :
    lidx_main_v126 (ix2 e j) k = ix2 e k :=
  funext fun a => Fin.ext (by match a with | ⟨0, _⟩ => rfl | ⟨1, _⟩ => rfl)
theorem ridx126_eq (e : Fin 262144) (j : Fin 256) (k : Fin 256) :
    idx_main_v125 (ridx_main_v126 (ix2 e j) k) = ix2 j k :=
  funext fun a => Fin.ext (by match a with | ⟨0, _⟩ => rfl | ⟨1, _⟩ => rfl)
theorem bias128_eq (e : Fin 262144) (j : Fin 256) :
    idx_main_v127 (idx_main_v128 (ix2 e j)) = ix1 j :=
  funext fun a => Fin.ext (by match a with | ⟨0, _⟩ => rfl)

theorem lidx132_eq (e : Fin 262144) (k : Fin 256) :
    lidx_main_v132 (ix2 e (0 : Fin 1)) k = ix2 e k :=
  funext fun a => Fin.ext (by match a with | ⟨0, _⟩ => rfl | ⟨1, _⟩ => rfl)
theorem ridx132_eq (e : Fin 262144) (k : Fin 256) :
    idx_main_v131 (ridx_main_v132 (ix2 e (0 : Fin 1)) k) = ix2 (0 : Fin 1) k :=
  funext fun a => Fin.ext (by match a with | ⟨0, _⟩ => rfl | ⟨1, _⟩ => rfl)
theorem bias134_eq (e : Fin 262144) :
    idx_main_v133 (idx_main_v134 (ix2 e (0 : Fin 1))) = ix1 (0 : Fin 1) :=
  funext fun a => Fin.ext (by match a with | ⟨0, _⟩ => rfl)

/-! ## The layers -/

/-- The first layer's output (after the maximum with zero) at edge e, unit j. -/
theorem v124_apply (x0 : X0) (x1 : X1) (x2 : X2) (x3 : X3) (x4 : X4) (e : Fin 262144) (j : Fin 256) :
    val_main_v124 (F := Ideal) x0 x1 x2 x3 x4 (ix2 e j) = h1 x0 x1 x2 x3 x4 e j := by
  rw [val_main_v124_apply, val_main_v123_apply, val_main_v120_apply, val_main_v122_apply, val_main_v121_apply,
    val_main_call1_v0_apply, val_main_call1_cst_apply, bias122_eq]
  simp only [val_main_v119_apply, lidx120_eq, ridx120_eq, Ideal.maximumf_def, Ideal.addf_def, Ideal.ofBits_def,
    Ideal.ofBits_zero_f32]
  rfl

/-- The second layer's output (after the maximum with zero) at edge e, unit j. -/
theorem v130_apply (x0 : X0) (x1 : X1) (x2 : X2) (x3 : X3) (x4 : X4) (x5 : X5) (x6 : X6) (e : Fin 262144) (j : Fin 256) :
    val_main_v130 (F := Ideal) x0 x1 x2 x3 x4 x5 x6 (ix2 e j) = h2 x0 x1 x2 x3 x4 x5 x6 e j := by
  rw [val_main_v130_apply, val_main_v129_apply, val_main_v126_apply, val_main_v128_apply, val_main_v127_apply,
    val_main_call2_v0_apply, val_main_call2_cst_apply, bias128_eq]
  simp only [val_main_v125_apply, lidx126_eq, ridx126_eq, v124_apply, Ideal.maximumf_def, Ideal.addf_def,
    Ideal.ofBits_def, Ideal.ofBits_zero_f32]
  rfl

/-- The result at edge e: the second layer at e against the single row of W3, plus b3. -/
theorem v135_apply (x0 : X0) (x1 : X1) (x2 : X2) (x3 : X3) (x4 : X4) (x5 : X5) (x6 : X6) (x7 : X7) (x8 : X8)
    (e : Fin 262144) :
    val_main_v135 (F := Ideal) x0 x1 x2 x3 x4 x5 x6 x7 x8 (ix2 e (0 : Fin 1))
      = (∑ k : Fin 256, h2 x0 x1 x2 x3 x4 x5 x6 e k * x7 (ix2 (0 : Fin 1) k)) + x8 (ix1 (0 : Fin 1)) := by
  rw [val_main_v135_apply, val_main_v132_apply, val_main_v134_apply, val_main_v133_apply, bias134_eq]
  simp only [val_main_v131_apply, lidx132_eq, ridx132_eq, v130_apply, Ideal.addf_def]

end Cert.ReferenceIdeal.RefValue

end
-- ==== Proof.BridgeEdge.lean ====
/-
  The idealized kernel's result is the reference's result of the launched arguments.

  At edge e the kernel's result is column 0 of the padded output of the third region: the three-layer perceptron over
  the product row, the padded structural features and the stored weights.  The product row and the structural features
  are columns 0 to 255 and 256 to 260 of the reference's joined feature row; the stored weights are the launched weight
  matrices transposed, cut and zero-padded; so the split first layer is the joined one, and the other two layers are
  the same sums.  Both results have a single column, so equality at every (e, 0) is equality of the arrays.
-/
import proofs.«121678_j3599182594335_2_alg».proof.Proof.BridgeRes
import proofs.«121678_j3599182594335_2_alg».proof.Proof.BridgeW
import proofs.«121678_j3599182594335_2_alg».proof.Proof.BridgeX
import proofs.«121678_j3599182594335_2_alg».proof.Proof.BridgeS
import proofs.«121678_j3599182594335_2_alg».proof.Proof.BridgeMath
import proofs.«121678_j3599182594335_2_alg».proof.Proof.RefStagesC

set_option maxRecDepth 16384

noncomputable section

namespace Cert.Bridge

open Cert.KernelIdeal Cert.KernelIdeal.Gen Cert.KernelIdeal.Fr Cert.KernelIdeal.Val Cert.KernelIdeal.Glue
open Idealize.ShloMosaic Idealize.ShloMosaic.TcCoe Idealize.SL.Sem Idealize.ShloMosaic.ValueIdx

variable (m : (ℓ : Loc nD τ sig) → Buf (Elt Ideal) ℓ) (ρ : Dev nD → PrngReg)

/-- The reference's result stage applied to the kernel's launched arguments on core c. -/
abbrev refOf (c : Dev nD) : S262144x1.Idx → EReal :=
  Cert.ReferenceIdeal.Read.val_main_v135 (F := Ideal)
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8))

/-- At every edge the kernel's result is the reference's. -/
theorem edge (c : Dev nD) (hb : ∀ i, adjK m c i = 0 ∨ adjK m c i = 1) (e : Fin 262144) :
    (W13 m ρ c (Proc.devRef .tc main_v113) : S262144x1.Idx → EReal) (ix2 e (0 : Fin 1))
      = refOf m c (ix2 e (0 : Fin 1)) := by
  rw [kres_eq m ρ c e]
  refine Eq.trans ?_ (Cert.ReferenceIdeal.RefValue.v135_apply _ _ _ _ _ _ _ _ _ e).symm
  exact Cert.BridgeMath.edge_eq
    (fun q : Fin 261 => (Cert.ReferenceIdeal.Read.val_main_v118 (F := Ideal)
      (m ((c.tc : Thread nD τ).loc main_arg0)) (m ((c.tc : Thread nD τ).loc main_arg1))
      (m ((c.tc : Thread nD τ).loc main_arg2)) : _ → EReal) (ix2 e q))
    (fun (k : Fin 256) (q : Fin 261) => (m ((c.tc : Thread nD τ).loc main_arg3) : S256x261.Idx → EReal) (ix2 k q))
    (fun k : Fin 256 => (m ((c.tc : Thread nD τ).loc main_arg4) : S256.Idx → EReal) (ix1 k))
    (fun j k : Fin 256 => (m ((c.tc : Thread nD τ).loc main_arg5) : S256x256.Idx → EReal) (ix2 j k))
    (fun j : Fin 256 => (m ((c.tc : Thread nD τ).loc main_arg6) : S256.Idx → EReal) (ix1 j))
    (fun j : Fin 256 => (m ((c.tc : Thread nD τ).loc main_arg7) : S1x256.Idx → EReal) (ix2 (0 : Fin 1) j))
    ((m ((c.tc : Thread nD τ).loc main_arg8) : S1.Idx → EReal) (ix1 (0 : Fin 1)))
    (fun a : Fin 256 => (GW m ρ c main_v99 : S262144x256.Idx → EReal) (ix2 e a))
    (fun s : Fin 8 => (GW m ρ c main_v83 : S262144x8.Idx → EReal) (ix2 e s))
    (fun a k : Fin 256 => (GW m ρ c main_v102 : S256x256.Idx → EReal) (ix2 a k))
    (fun (s : Fin 8) (k : Fin 256) => (GW m ρ c main_v105 : S8x256.Idx → EReal) (ix2 s k))
    (fun k : Fin 256 => (GW m ρ c main_arg4 : S256.Idx → EReal) (ix1 k))
    (fun k j : Fin 256 => (GW m ρ c main_v107 : S256x256.Idx → EReal) (ix2 k j))
    (fun j : Fin 256 => (GW m ρ c main_arg6 : S256.Idx → EReal) (ix1 j))
    (fun j : Fin 256 => (GW m ρ c main_v110 : S256x128.Idx → EReal) (ix2 j (0 : Fin 128)))
    ((GW m ρ c main_v111 : S128.Idx → EReal) (ix1 (0 : Fin 128)))
    (fun a => xm_at m ρ c e a)
    (fun s h => st_at m ρ c hb e s h)
    (fun s h => st_pad m ρ c e s h)
    (fun a k => w1a_at m ρ c a k)
    (fun s k h => w1b_at m ρ c s k h)
    (fun s k h => w1b_pad m ρ c s k h)
    (fun k => b1_at m ρ c k)
    (fun k j => w2_at m ρ c k j)
    (fun j => b2_at m ρ c j)
    (fun j => w3_at m ρ c j)
    (b3_at m ρ c)

/-- The kernel's result array is the reference's result stage of the launched arguments. -/
theorem result_eq (c : Dev nD) (hb : ∀ i, adjK m c i = 0 ∨ adjK m c i = 1) :
    (W13 m ρ c (Proc.devRef .tc main_v113) : S262144x1.Idx → EReal) = refOf m c := by
  funext i
  obtain ⟨e, z, rfl⟩ : ∃ (e : Fin 262144) (z : Fin 1), i = ix2 e z := ⟨i 0, i 1, eq_ix2 i⟩
  obtain rfl : z = 0 := Subsingleton.elim _ _
  exact edge m ρ c hb e

end Cert.Bridge

end
-- ==== Proof.RunPeel.lean ====
/-
  The reference program's fold over its list of operations, peeled one operation at a time.

  Write V_k for the buffer contents after the first k operations. Each stage function of the program gives the value its
  operation writes from the values of the operation's operands. The lemmas below say, for k from the list's length down
  to 0: from ANY contents W that hold, at every buffer some operation from the k-th on still reads, that buffer's stage
  value of the nine arguments x0 … x8, the operations from the k-th on leave the result buffer at the last stage's
  value. Step k: the k-th operation writes its own buffer with its function of its operands' contents, which by the
  hypotheses are the operands' stage values, so by the stage's definition the buffer holds its stage value; it leaves
  every other buffer as it was (the buffers are different references); the lemma for k + 1 applies to the new contents.
  At k = 0 the hypotheses are the launch contents of the nine arguments themselves.
-/
import proofs.«121678_j3599182594335_2_alg».proof.Proof.RunP0
import proofs.«121678_j3599182594335_2_alg».proof.Proof.ReadP0

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem chain_172 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_v135 : W (Proc.devRef .tc main_v135) = (Cert.ReferenceIdeal.Read.val_main_v135 (F := F) x0 x1 x2 x3 x4 x5 x6 x7 x8)) :
    after ((ops (F := F)).drop 172) W (Proc.devRef .tc main_v135) = Cert.ReferenceIdeal.Read.val_main_v135 (F := F) x0 x1 x2 x3 x4 x5 x6 x7 x8 := h_main_v135

theorem chain_171 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_v132 : W (Proc.devRef .tc main_v132) = (Cert.ReferenceIdeal.Read.val_main_v132 (F := F) x0 x1 x2 x3 x4 x5 x6 x7))
    (h_main_v134 : W (Proc.devRef .tc main_v134) = (Cert.ReferenceIdeal.Read.val_main_v134 (F := F) x8)) :
    after ((ops (F := F)).drop 171) W (Proc.devRef .tc main_v135) = Cert.ReferenceIdeal.Read.val_main_v135 (F := F) x0 x1 x2 x3 x4 x5 x6 x7 x8 := by
  have e : (ops (F := F)).drop 171 = (binary main_v132 main_v134 main_v135 (addf : (⟨S262144x1, .f32⟩ : BufTy).Contents (Elt F) → (⟨S262144x1, .f32⟩ : BufTy).Contents (Elt F) → (⟨S262144x1, .f32⟩ : BufTy).Contents (Elt F)) : HloOp τ sig (Elt F)) :: (ops (F := F)).drop 172 := rfl
  rw [e, after_cons]
  refine chain_172 _ x0 x1 x2 x3 x4 x5 x6 x7 x8 ?_
  · rw [binary_result, h_main_v132, h_main_v134]; rfl

theorem chain_170 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_v132 : W (Proc.devRef .tc main_v132) = (Cert.ReferenceIdeal.Read.val_main_v132 (F := F) x0 x1 x2 x3 x4 x5 x6 x7))
    (h_main_v133 : W (Proc.devRef .tc main_v133) = (Cert.ReferenceIdeal.Read.val_main_v133 (F := F) x8)) :
    after ((ops (F := F)).drop 170) W (Proc.devRef .tc main_v135) = Cert.ReferenceIdeal.Read.val_main_v135 (F := F) x0 x1 x2 x3 x4 x5 x6 x7 x8 := by
  have e : (ops (F := F)).drop 170 = (unary main_v133 main_v134 (broadcastInDim S262144x1 ![0, 1] bcast_S1x1_S262144x1_0_1 : (⟨S1x1, .f32⟩ : BufTy).Contents (Elt F) → (⟨S262144x1, .f32⟩ : BufTy).Contents (Elt F)) : HloOp τ sig (Elt F)) :: (ops (F := F)).drop 171 := rfl
  rw [e, after_cons]
  refine chain_171 _ x0 x1 x2 x3 x4 x5 x6 x7 x8 ?_ ?_
  · rw [unary_result_ne]
    · exact h_main_v132
    · decide
  · rw [unary_result, h_main_v133]; rfl

theorem chain_169 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg8 : W (Proc.devRef .tc main_arg8) = x8)
    (h_main_v132 : W (Proc.devRef .tc main_v132) = (Cert.ReferenceIdeal.Read.val_main_v132 (F := F) x0 x1 x2 x3 x4 x5 x6 x7)) :
    after ((ops (F := F)).drop 169) W (Proc.devRef .tc main_v135) = Cert.ReferenceIdeal.Read.val_main_v135 (F := F) x0 x1 x2 x3 x4 x5 x6 x7 x8 := by
  have e : (ops (F := F)).drop 169 = (unary main_arg8 main_v133 (broadcastInDim S1x1 ![1] bcast_S1_S1x1_1 : (⟨S1, .f32⟩ : BufTy).Contents (Elt F) → (⟨S1x1, .f32⟩ : BufTy).Contents (Elt F)) : HloOp τ sig (Elt F)) :: (ops (F := F)).drop 170 := rfl
  rw [e, after_cons]
  refine chain_170 _ x0 x1 x2 x3 x4 x5 x6 x7 x8 ?_ ?_
  · rw [unary_result_ne]
    · exact h_main_v132
    · decide
  · rw [unary_result, h_main_arg8]; rfl

theorem chain_168 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg8 : W (Proc.devRef .tc main_arg8) = x8)
    (h_main_v130 : W (Proc.devRef .tc main_v130) = (Cert.ReferenceIdeal.Read.val_main_v130 (F := F) x0 x1 x2 x3 x4 x5 x6))
    (h_main_v131 : W (Proc.devRef .tc main_v131) = (Cert.ReferenceIdeal.Read.val_main_v131 (F := F) x7)) :
    after ((ops (F := F)).drop 168) W (Proc.devRef .tc main_v135) = Cert.ReferenceIdeal.Read.val_main_v135 (F := F) x0 x1 x2 x3 x4 x5 x6 x7 x8 := by
  have e : (ops (F := F)).drop 168 = (binary main_v130 main_v131 main_v132 ((fun l r => Host.dotGeneral dot_S262144x256_S256x1_S262144x1_1_0_0_1_n_n none l r) : (⟨S262144x256, .f32⟩ : BufTy).Contents (Elt F) → (⟨S256x1, .f32⟩ : BufTy).Contents (Elt F) → (⟨S262144x1, .f32⟩ : BufTy).Contents (Elt F)) : HloOp τ sig (Elt F)) :: (ops (F := F)).drop 169 := rfl
  rw [e, after_cons]
  refine chain_169 _ x0 x1 x2 x3 x4 x5 x6 x7 x8 ?_ ?_
  · rw [binary_result_ne]
    · exact h_main_arg8
    · decide
  · rw [binary_result, h_main_v130, h_main_v131]; rfl

theorem chain_167 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg7 : W (Proc.devRef .tc main_arg7) = x7)
    (h_main_arg8 : W (Proc.devRef .tc main_arg8) = x8)
    (h_main_v130 : W (Proc.devRef .tc main_v130) = (Cert.ReferenceIdeal.Read.val_main_v130 (F := F) x0 x1 x2 x3 x4 x5 x6)) :
    after ((ops (F := F)).drop 167) W (Proc.devRef .tc main_v135) = Cert.ReferenceIdeal.Read.val_main_v135 (F := F) x0 x1 x2 x3 x4 x5 x6 x7 x8 := by
  have e : (ops (F := F)).drop 167 = (unary main_arg7 main_v131 ((transpose S256x1 [1, 0] · transposes_S1x256_S256x1_1_0) : (⟨S1x256, .f32⟩ : BufTy).Contents (Elt F) → (⟨S256x1, .f32⟩ : BufTy).Contents (Elt F)) : HloOp τ sig (Elt F)) :: (ops (F := F)).drop 168 := rfl
  rw [e, after_cons]
  refine chain_168 _ x0 x1 x2 x3 x4 x5 x6 x7 x8 ?_ ?_ ?_
  · rw [unary_result_ne]
    · exact h_main_arg8
    · decide
  · rw [unary_result_ne]
    · exact h_main_v130
    · decide
  · rw [unary_result, h_main_arg7]; rfl

theorem chain_166 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg7 : W (Proc.devRef .tc main_arg7) = x7)
    (h_main_arg8 : W (Proc.devRef .tc main_arg8) = x8)
    (h_main_v129 : W (Proc.devRef .tc main_v129) = (Cert.ReferenceIdeal.Read.val_main_v129 (F := F) x0 x1 x2 x3 x4 x5 x6))
    (h_main_call2_v0 : W (Proc.devRef .tc main_call2_v0) = (Cert.ReferenceIdeal.Read.val_main_call2_v0 (F := F))) :
    after ((ops (F := F)).drop 166) W (Proc.devRef .tc main_v135) = Cert.ReferenceIdeal.Read.val_main_v135 (F := F) x0 x1 x2 x3 x4 x5 x6 x7 x8 := by
  have e : (ops (F := F)).drop 166 = (binary main_v129 main_call2_v0 main_v130 (maximumf : (⟨S262144x256, .f32⟩ : BufTy).Contents (Elt F) → (⟨S262144x256, .f32⟩ : BufTy).Contents (Elt F) → (⟨S262144x256, .f32⟩ : BufTy).Contents (Elt F)) : HloOp τ sig (Elt F)) :: (ops (F := F)).drop 167 := rfl
  rw [e, after_cons]
  refine chain_167 _ x0 x1 x2 x3 x4 x5 x6 x7 x8 ?_ ?_ ?_
  · rw [binary_result_ne]
    · exact h_main_arg7
    · decide
  · rw [binary_result_ne]
    · exact h_main_arg8
    · decide
  · rw [binary_result, h_main_v129, h_main_call2_v0]; rfl

theorem chain_165 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg7 : W (Proc.devRef .tc main_arg7) = x7)
    (h_main_arg8 : W (Proc.devRef .tc main_arg8) = x8)
    (h_main_v129 : W (Proc.devRef .tc main_v129) = (Cert.ReferenceIdeal.Read.val_main_v129 (F := F) x0 x1 x2 x3 x4 x5 x6))
    (h_main_call2_cst : W (Proc.devRef .tc main_call2_cst) = (Cert.ReferenceIdeal.Read.val_main_call2_cst (F := F))) :
    after ((ops (F := F)).drop 165) W (Proc.devRef .tc main_v135) = Cert.ReferenceIdeal.Read.val_main_v135 (F := F) x0 x1 x2 x3 x4 x5 x6 x7 x8 := by
  have e : (ops (F := F)).drop 165 = (unary main_call2_cst main_call2_v0 (broadcastInDim S262144x256 ![] bcast_S_S262144x256 : (⟨S_, .f32⟩ : BufTy).Contents (Elt F) → (⟨S262144x256, .f32⟩ : BufTy).Contents (Elt F)) : HloOp τ sig (Elt F)) :: (ops (F := F)).drop 166 := rfl
  rw [e, after_cons]
  refine chain_166 _ x0 x1 x2 x3 x4 x5 x6 x7 x8 ?_ ?_ ?_ ?_
  · rw [unary_result_ne]
    · exact h_main_arg7
    · decide
  · rw [unary_result_ne]
    · exact h_main_arg8
    · decide
  · rw [unary_result_ne]
    · exact h_main_v129
    · decide
  · rw [unary_result, h_main_call2_cst]; rfl

theorem chain_164 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg7 : W (Proc.devRef .tc main_arg7) = x7)
    (h_main_arg8 : W (Proc.devRef .tc main_arg8) = x8)
    (h_main_v129 : W (Proc.devRef .tc main_v129) = (Cert.ReferenceIdeal.Read.val_main_v129 (F := F) x0 x1 x2 x3 x4 x5 x6)) :
    after ((ops (F := F)).drop 164) W (Proc.devRef .tc main_v135) = Cert.ReferenceIdeal.Read.val_main_v135 (F := F) x0 x1 x2 x3 x4 x5 x6 x7 x8 := by
  have e : (ops (F := F)).drop 164 = (nullary main_call2_cst (constant S_ .f32 0x00000000#32 : (⟨S_, .f32⟩ : BufTy).Contents (Elt F)) : HloOp τ sig (Elt F)) :: (ops (F := F)).drop 165 := rfl
  rw [e, after_cons]
  refine chain_165 _ x0 x1 x2 x3 x4 x5 x6 x7 x8 ?_ ?_ ?_ ?_
  · rw [nullary_result_ne]
    · exact h_main_arg7
    · decide
  · rw [nullary_result_ne]
    · exact h_main_arg8
    · decide
  · rw [nullary_result_ne]
    · exact h_main_v129
    · decide
  · rw [nullary_result]; rfl

theorem chain_163 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg7 : W (Proc.devRef .tc main_arg7) = x7)
    (h_main_arg8 : W (Proc.devRef .tc main_arg8) = x8)
    (h_main_v126 : W (Proc.devRef .tc main_v126) = (Cert.ReferenceIdeal.Read.val_main_v126 (F := F) x0 x1 x2 x3 x4 x5))
    (h_main_v128 : W (Proc.devRef .tc main_v128) = (Cert.ReferenceIdeal.Read.val_main_v128 (F := F) x6)) :
    after ((ops (F := F)).drop 163) W (Proc.devRef .tc main_v135) = Cert.ReferenceIdeal.Read.val_main_v135 (F := F) x0 x1 x2 x3 x4 x5 x6 x7 x8 := by
  have e : (ops (F := F)).drop 163 = (binary main_v126 main_v128 main_v129 (addf : (⟨S262144x256, .f32⟩ : BufTy).Contents (Elt F) → (⟨S262144x256, .f32⟩ : BufTy).Contents (Elt F) → (⟨S262144x256, .f32⟩ : BufTy).Contents (Elt F)) : HloOp τ sig (Elt F)) :: (ops (F := F)).drop 164 := rfl
  rw [e, after_cons]
  refine chain_164 _ x0 x1 x2 x3 x4 x5 x6 x7 x8 ?_ ?_ ?_
  · rw [binary_result_ne]
    · exact h_main_arg7
    · decide
  · rw [binary_result_ne]
    · exact h_main_arg8
    · decide
  · rw [binary_result, h_main_v126, h_main_v128]; rfl

theorem chain_162 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg7 : W (Proc.devRef .tc main_arg7) = x7)
    (h_main_arg8 : W (Proc.devRef .tc main_arg8) = x8)
    (h_main_v126 : W (Proc.devRef .tc main_v126) = (Cert.ReferenceIdeal.Read.val_main_v126 (F := F) x0 x1 x2 x3 x4 x5))
    (h_main_v127 : W (Proc.devRef .tc main_v127) = (Cert.ReferenceIdeal.Read.val_main_v127 (F := F) x6)) :
    after ((ops (F := F)).drop 162) W (Proc.devRef .tc main_v135) = Cert.ReferenceIdeal.Read.val_main_v135 (F := F) x0 x1 x2 x3 x4 x5 x6 x7 x8 := by
  have e : (ops (F := F)).drop 162 = (unary main_v127 main_v128 (broadcastInDim S262144x256 ![0, 1] bcast_S1x256_S262144x256_0_1 : (⟨S1x256, .f32⟩ : BufTy).Contents (Elt F) → (⟨S262144x256, .f32⟩ : BufTy).Contents (Elt F)) : HloOp τ sig (Elt F)) :: (ops (F := F)).drop 163 := rfl
  rw [e, after_cons]
  refine chain_163 _ x0 x1 x2 x3 x4 x5 x6 x7 x8 ?_ ?_ ?_ ?_
  · rw [unary_result_ne]
    · exact h_main_arg7
    · decide
  · rw [unary_result_ne]
    · exact h_main_arg8
    · decide
  · rw [unary_result_ne]
    · exact h_main_v126
    · decide
  · rw [unary_result, h_main_v127]; rfl

theorem chain_161 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg6 : W (Proc.devRef .tc main_arg6) = x6)
    (h_main_arg7 : W (Proc.devRef .tc main_arg7) = x7)
    (h_main_arg8 : W (Proc.devRef .tc main_arg8) = x8)
    (h_main_v126 : W (Proc.devRef .tc main_v126) = (Cert.ReferenceIdeal.Read.val_main_v126 (F := F) x0 x1 x2 x3 x4 x5)) :
    after ((ops (F := F)).drop 161) W (Proc.devRef .tc main_v135) = Cert.ReferenceIdeal.Read.val_main_v135 (F := F) x0 x1 x2 x3 x4 x5 x6 x7 x8 := by
  have e : (ops (F := F)).drop 161 = (unary main_arg6 main_v127 (broadcastInDim S1x256 ![1] bcast_S256_S1x256_1 : (⟨S256, .f32⟩ : BufTy).Contents (Elt F) → (⟨S1x256, .f32⟩ : BufTy).Contents (Elt F)) : HloOp τ sig (Elt F)) :: (ops (F := F)).drop 162 := rfl
  rw [e, after_cons]
  refine chain_162 _ x0 x1 x2 x3 x4 x5 x6 x7 x8 ?_ ?_ ?_ ?_
  · rw [unary_result_ne]
    · exact h_main_arg7
    · decide
  · rw [unary_result_ne]
    · exact h_main_arg8
    · decide
  · rw [unary_result_ne]
    · exact h_main_v126
    · decide
  · rw [unary_result, h_main_arg6]; rfl

theorem chain_160 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg6 : W (Proc.devRef .tc main_arg6) = x6)
    (h_main_arg7 : W (Proc.devRef .tc main_arg7) = x7)
    (h_main_arg8 : W (Proc.devRef .tc main_arg8) = x8)
    (h_main_v124 : W (Proc.devRef .tc main_v124) = (Cert.ReferenceIdeal.Read.val_main_v124 (F := F) x0 x1 x2 x3 x4))
    (h_main_v125 : W (Proc.devRef .tc main_v125) = (Cert.ReferenceIdeal.Read.val_main_v125 (F := F) x5)) :
    after ((ops (F := F)).drop 160) W (Proc.devRef .tc main_v135) = Cert.ReferenceIdeal.Read.val_main_v135 (F := F) x0 x1 x2 x3 x4 x5 x6 x7 x8 := by
  have e : (ops (F := F)).drop 160 = (binary main_v124 main_v125 main_v126 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)) : HloOp τ sig (Elt F)) :: (ops (F := F)).drop 161 := rfl
  rw [e, after_cons]
  refine chain_161 _ x0 x1 x2 x3 x4 x5 x6 x7 x8 ?_ ?_ ?_ ?_
  · rw [binary_result_ne]
    · exact h_main_arg6
    · decide
  · rw [binary_result_ne]
    · exact h_main_arg7
    · decide
  · rw [binary_result_ne]
    · exact h_main_arg8
    · decide
  · rw [binary_result, h_main_v124, h_main_v125]; rfl

theorem chain_159 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v124 : W (Proc.devRef .tc main_v124) = (Cert.ReferenceIdeal.Read.val_main_v124 (F := F) x0 x1 x2 x3 x4)) :
    after ((ops (F := F)).drop 159) W (Proc.devRef .tc main_v135) = Cert.ReferenceIdeal.Read.val_main_v135 (F := F) x0 x1 x2 x3 x4 x5 x6 x7 x8 := by
  have e : (ops (F := F)).drop 159 = (unary main_arg5 main_v125 ((transpose S256x256 [1, 0] · transposes_S256x256_S256x256_1_0) : (⟨S256x256, .f32⟩ : BufTy).Contents (Elt F) → (⟨S256x256, .f32⟩ : BufTy).Contents (Elt F)) : HloOp τ sig (Elt F)) :: (ops (F := F)).drop 160 := rfl
  rw [e, after_cons]
  refine chain_160 _ x0 x1 x2 x3 x4 x5 x6 x7 x8 ?_ ?_ ?_ ?_ ?_
  · rw [unary_result_ne]
    · exact h_main_arg6
    · decide
  · rw [unary_result_ne]
    · exact h_main_arg7
    · decide
  · rw [unary_result_ne]
    · exact h_main_arg8
    · decide
  · rw [unary_result_ne]
    · exact h_main_v124
    · decide
  · rw [unary_result, h_main_arg5]; rfl

theorem chain_158 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v123 : W (Proc.devRef .tc main_v123) = (Cert.ReferenceIdeal.Read.val_main_v123 (F := F) x0 x1 x2 x3 x4))
    (h_main_call1_v0 : W (Proc.devRef .tc main_call1_v0) = (Cert.ReferenceIdeal.Read.val_main_call1_v0 (F := F))) :
    after ((ops (F := F)).drop 158) W (Proc.devRef .tc main_v135) = Cert.ReferenceIdeal.Read.val_main_v135 (F := F) x0 x1 x2 x3 x4 x5 x6 x7 x8 := by
  have e : (ops (F := F)).drop 158 = (binary main_v123 main_call1_v0 main_v124 (maximumf : (⟨S262144x256, .f32⟩ : BufTy).Contents (Elt F) → (⟨S262144x256, .f32⟩ : BufTy).Contents (Elt F) → (⟨S262144x256, .f32⟩ : BufTy).Contents (Elt F)) : HloOp τ sig (Elt F)) :: (ops (F := F)).drop 159 := rfl
  rw [e, after_cons]
  refine chain_159 _ x0 x1 x2 x3 x4 x5 x6 x7 x8 ?_ ?_ ?_ ?_ ?_
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result, h_main_v123, h_main_call1_v0]; rfl

theorem chain_157 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v123 : W (Proc.devRef .tc main_v123) = (Cert.ReferenceIdeal.Read.val_main_v123 (F := F) x0 x1 x2 x3 x4))
    (h_main_call1_cst : W (Proc.devRef .tc main_call1_cst) = (Cert.ReferenceIdeal.Read.val_main_call1_cst (F := F))) :
    after ((ops (F := F)).drop 157) W (Proc.devRef .tc main_v135) = Cert.ReferenceIdeal.Read.val_main_v135 (F := F) x0 x1 x2 x3 x4 x5 x6 x7 x8 := by
  have e : (ops (F := F)).drop 157 = (unary main_call1_cst main_call1_v0 (broadcastInDim S262144x256 ![] bcast_S_S262144x256 : (⟨S_, .f32⟩ : BufTy).Contents (Elt F) → (⟨S262144x256, .f32⟩ : BufTy).Contents (Elt F)) : HloOp τ sig (Elt F)) :: (ops (F := F)).drop 158 := rfl
  rw [e, after_cons]
  refine chain_158 _ x0 x1 x2 x3 x4 x5 x6 x7 x8 ?_ ?_ ?_ ?_ ?_ ?_
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v123
    · decide
  · rw [unary_result, h_main_call1_cst]; rfl

theorem chain_156 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v123 : W (Proc.devRef .tc main_v123) = (Cert.ReferenceIdeal.Read.val_main_v123 (F := F) x0 x1 x2 x3 x4)) :
    after ((ops (F := F)).drop 156) W (Proc.devRef .tc main_v135) = Cert.ReferenceIdeal.Read.val_main_v135 (F := F) x0 x1 x2 x3 x4 x5 x6 x7 x8 := by
  have e : (ops (F := F)).drop 156 = (nullary main_call1_cst (constant S_ .f32 0x00000000#32 : (⟨S_, .f32⟩ : BufTy).Contents (Elt F)) : HloOp τ sig (Elt F)) :: (ops (F := F)).drop 157 := rfl
  rw [e, after_cons]
  refine chain_157 _ x0 x1 x2 x3 x4 x5 x6 x7 x8 ?_ ?_ ?_ ?_ ?_ ?_
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v123
    · decide
  · rw [nullary_result]; rfl

theorem chain_155 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v120 : W (Proc.devRef .tc main_v120) = (Cert.ReferenceIdeal.Read.val_main_v120 (F := F) x0 x1 x2 x3))
    (h_main_v122 : W (Proc.devRef .tc main_v122) = (Cert.ReferenceIdeal.Read.val_main_v122 (F := F) x4)) :
    after ((ops (F := F)).drop 155) W (Proc.devRef .tc main_v135) = Cert.ReferenceIdeal.Read.val_main_v135 (F := F) x0 x1 x2 x3 x4 x5 x6 x7 x8 := by
  have e : (ops (F := F)).drop 155 = (binary main_v120 main_v122 main_v123 (addf : (⟨S262144x256, .f32⟩ : BufTy).Contents (Elt F) → (⟨S262144x256, .f32⟩ : BufTy).Contents (Elt F) → (⟨S262144x256, .f32⟩ : BufTy).Contents (Elt F)) : HloOp τ sig (Elt F)) :: (ops (F := F)).drop 156 := rfl
  rw [e, after_cons]
  refine chain_156 _ x0 x1 x2 x3 x4 x5 x6 x7 x8 ?_ ?_ ?_ ?_ ?_
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result, h_main_v120, h_main_v122]; rfl

theorem chain_154 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v120 : W (Proc.devRef .tc main_v120) = (Cert.ReferenceIdeal.Read.val_main_v120 (F := F) x0 x1 x2 x3))
    (h_main_v121 : W (Proc.devRef .tc main_v121) = (Cert.ReferenceIdeal.Read.val_main_v121 (F := F) x4)) :
    after ((ops (F := F)).drop 154) W (Proc.devRef .tc main_v135) = Cert.ReferenceIdeal.Read.val_main_v135 (F := F) x0 x1 x2 x3 x4 x5 x6 x7 x8 := by
  have e : (ops (F := F)).drop 154 = (unary main_v121 main_v122 (broadcastInDim S262144x256 ![0, 1] bcast_S1x256_S262144x256_0_1 : (⟨S1x256, .f32⟩ : BufTy).Contents (Elt F) → (⟨S262144x256, .f32⟩ : BufTy).Contents (Elt F)) : HloOp τ sig (Elt F)) :: (ops (F := F)).drop 155 := rfl
  rw [e, after_cons]
  refine chain_155 _ x0 x1 x2 x3 x4 x5 x6 x7 x8 ?_ ?_ ?_ ?_ ?_ ?_
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v120
    · decide
  · rw [unary_result, h_main_v121]; rfl

theorem chain_153 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v120 : W (Proc.devRef .tc main_v120) = (Cert.ReferenceIdeal.Read.val_main_v120 (F := F) x0 x1 x2 x3)) :
    after ((ops (F := F)).drop 153) W (Proc.devRef .tc main_v135) = Cert.ReferenceIdeal.Read.val_main_v135 (F := F) x0 x1 x2 x3 x4 x5 x6 x7 x8 := by
  have e : (ops (F := F)).drop 153 = (unary main_arg4 main_v121 (broadcastInDim S1x256 ![1] bcast_S256_S1x256_1 : (⟨S256, .f32⟩ : BufTy).Contents (Elt F) → (⟨S1x256, .f32⟩ : BufTy).Contents (Elt F)) : HloOp τ sig (Elt F)) :: (ops (F := F)).drop 154 := rfl
  rw [e, after_cons]
  refine chain_154 _ x0 x1 x2 x3 x4 x5 x6 x7 x8 ?_ ?_ ?_ ?_ ?_ ?_
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v120
    · decide
  · rw [unary_result, h_main_arg4]; rfl

theorem chain_152 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v118 : W (Proc.devRef .tc main_v118) = (Cert.ReferenceIdeal.Read.val_main_v118 (F := F) x0 x1 x2))
    (h_main_v119 : W (Proc.devRef .tc main_v119) = (Cert.ReferenceIdeal.Read.val_main_v119 (F := F) x3)) :
    after ((ops (F := F)).drop 152) W (Proc.devRef .tc main_v135) = Cert.ReferenceIdeal.Read.val_main_v135 (F := F) x0 x1 x2 x3 x4 x5 x6 x7 x8 := by
  have e : (ops (F := F)).drop 152 = (binary main_v118 main_v119 main_v120 ((fun l r => Host.dotGeneral dot_S262144x261_S261x256_S262144x256_1_0_0_1_n_n none l r) : (⟨S262144x261, .f32⟩ : BufTy).Contents (Elt F) → (⟨S261x256, .f32⟩ : BufTy).Contents (Elt F) → (⟨S262144x256, .f32⟩ : BufTy).Contents (Elt F)) : HloOp τ sig (Elt F)) :: (ops (F := F)).drop 153 := rfl
  rw [e, after_cons]
  refine chain_153 _ x0 x1 x2 x3 x4 x5 x6 x7 x8 ?_ ?_ ?_ ?_ ?_ ?_
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result, h_main_v118, h_main_v119]; rfl

theorem chain_151 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v118 : W (Proc.devRef .tc main_v118) = (Cert.ReferenceIdeal.Read.val_main_v118 (F := F) x0 x1 x2)) :
    after ((ops (F := F)).drop 151) W (Proc.devRef .tc main_v135) = Cert.ReferenceIdeal.Read.val_main_v135 (F := F) x0 x1 x2 x3 x4 x5 x6 x7 x8 := by
  have e : (ops (F := F)).drop 151 = (unary main_arg3 main_v119 ((transpose S261x256 [1, 0] · transposes_S256x261_S261x256_1_0) : (⟨S256x261, .f32⟩ : BufTy).Contents (Elt F) → (⟨S261x256, .f32⟩ : BufTy).Contents (Elt F)) : HloOp τ sig (Elt F)) :: (ops (F := F)).drop 152 := rfl
  rw [e, after_cons]
  refine chain_152 _ x0 x1 x2 x3 x4 x5 x6 x7 x8 ?_ ?_ ?_ ?_ ?_ ?_ ?_
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v118
    · decide
  · rw [unary_result, h_main_arg3]; rfl

theorem chain_150 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v117 : W (Proc.devRef .tc main_v117) = (Cert.ReferenceIdeal.Read.val_main_v117 (F := F) x0 x2)) :
    after ((ops (F := F)).drop 150) W (Proc.devRef .tc main_v135) = Cert.ReferenceIdeal.Read.val_main_v135 (F := F) x0 x1 x2 x3 x4 x5 x6 x7 x8 := by
  have e : (ops (F := F)).drop 150 = (binary main_v117 main_v98 main_v118 ((fun a b => concatenate S262144x261 1 [⟨S262144x256, a⟩, ⟨S262144x5, b⟩] concatenates_S262144x256_S262144x5_S262144x261_d1) : (⟨S262144x256, .f32⟩ : BufTy).Contents (Elt F) → (⟨S262144x5, .f32⟩ : BufTy).Contents (Elt F) → (⟨S262144x261, .f32⟩ : BufTy).Contents (Elt F)) : HloOp τ sig (Elt F)) :: (ops (F := F)).drop 151 := rfl
  rw [e, after_cons]
  refine chain_151 _ x0 x1 x2 x3 x4 x5 x6 x7 x8 ?_ ?_ ?_ ?_ ?_ ?_ ?_
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result, h_main_v117, h_main_v98]; rfl

theorem chain_149 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v109 : W (Proc.devRef .tc main_v109) = (Cert.ReferenceIdeal.Read.val_main_v109 (F := F) x0 x2))
    (h_main_v116 : W (Proc.devRef .tc main_v116) = (Cert.ReferenceIdeal.Read.val_main_v116 (F := F) x0 x2)) :
    after ((ops (F := F)).drop 149) W (Proc.devRef .tc main_v135) = Cert.ReferenceIdeal.Read.val_main_v135 (F := F) x0 x1 x2 x3 x4 x5 x6 x7 x8 := by
  have e : (ops (F := F)).drop 149 = (binary main_v109 main_v116 main_v117 (mulf : (⟨S262144x256, .f32⟩ : BufTy).Contents (Elt F) → (⟨S262144x256, .f32⟩ : BufTy).Contents (Elt F) → (⟨S262144x256, .f32⟩ : BufTy).Contents (Elt F)) : HloOp τ sig (Elt F)) :: (ops (F := F)).drop 150 := rfl
  rw [e, after_cons]
  refine chain_150 _ x0 x1 x2 x3 x4 x5 x6 x7 x8 ?_ ?_ ?_ ?_ ?_ ?_ ?_ ?_
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v98
    · decide
  · rw [binary_result, h_main_v109, h_main_v116]; rfl

theorem chain_148 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v109 : W (Proc.devRef .tc main_v109) = (Cert.ReferenceIdeal.Read.val_main_v109 (F := F) x0 x2))
    (h_main_v115 : W (Proc.devRef .tc main_v115) = (Cert.ReferenceIdeal.Read.val_main_v115 (F := F) x2)) :
    after ((ops (F := F)).drop 148) W (Proc.devRef .tc main_v135) = Cert.ReferenceIdeal.Read.val_main_v135 (F := F) x0 x1 x2 x3 x4 x5 x6 x7 x8 := by
  have e : (ops (F := F)).drop 148 = (binary main_arg0 main_v115 main_v116 ((fun x i => Host.gather gather_S2048x256_S262144x1_S262144x256_1_0_n_n_0_1_1256 x i) : (⟨S2048x256, .f32⟩ : BufTy).Contents (Elt F) → (⟨S262144x1, .i32⟩ : BufTy).Contents (Elt F) → (⟨S262144x256, .f32⟩ : BufTy).Contents (Elt F)) : HloOp τ sig (Elt F)) :: (ops (F := F)).drop 149 := rfl
  rw [e, after_cons]
  refine chain_149 _ x0 x1 x2 x3 x4 x5 x6 x7 x8 ?_ ?_ ?_ ?_ ?_ ?_ ?_ ?_ ?_
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v98
    · decide
  · rw [binary_result_ne]
    · exact h_main_v109
    · decide
  · rw [binary_result, h_main_arg0, h_main_v115]; rfl

theorem chain_147 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v109 : W (Proc.devRef .tc main_v109) = (Cert.ReferenceIdeal.Read.val_main_v109 (F := F) x0 x2))
    (h_main_v114 : W (Proc.devRef .tc main_v114) = (Cert.ReferenceIdeal.Read.val_main_v114 (F := F) x2)) :
    after ((ops (F := F)).drop 147) W (Proc.devRef .tc main_v135) = Cert.ReferenceIdeal.Read.val_main_v135 (F := F) x0 x1 x2 x3 x4 x5 x6 x7 x8 := by
  have e : (ops (F := F)).drop 147 = (unary main_v114 main_v115 (broadcastInDim S262144x1 ![0] bcast_S262144_S262144x1_0 : (⟨S262144, .i32⟩ : BufTy).Contents (Elt F) → (⟨S262144x1, .i32⟩ : BufTy).Contents (Elt F)) : HloOp τ sig (Elt F)) :: (ops (F := F)).drop 148 := rfl
  rw [e, after_cons]
  refine chain_148 _ x0 x1 x2 x3 x4 x5 x6 x7 x8 ?_ ?_ ?_ ?_ ?_ ?_ ?_ ?_ ?_ ?_
  · rw [unary_result_ne]
    · exact h_main_arg0
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v98
    · decide
  · rw [unary_result_ne]
    · exact h_main_v109
    · decide
  · rw [unary_result, h_main_v114]; rfl

theorem chain_146 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v102 : W (Proc.devRef .tc main_v102) = (Cert.ReferenceIdeal.Read.val_main_v102 (F := F) x2))
    (h_main_v109 : W (Proc.devRef .tc main_v109) = (Cert.ReferenceIdeal.Read.val_main_v109 (F := F) x0 x2))
    (h_main_v111 : W (Proc.devRef .tc main_v111) = (Cert.ReferenceIdeal.Read.val_main_v111 (F := F) x2))
    (h_main_v113 : W (Proc.devRef .tc main_v113) = (Cert.ReferenceIdeal.Read.val_main_v113 (F := F) x2)) :
    after ((ops (F := F)).drop 146) W (Proc.devRef .tc main_v135) = Cert.ReferenceIdeal.Read.val_main_v135 (F := F) x0 x1 x2 x3 x4 x5 x6 x7 x8 := by
  have e : (ops (F := F)).drop 146 = (ternary main_v111 main_v113 main_v102 main_v114 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) : HloOp τ sig (Elt F)) :: (ops (F := F)).drop 147 := rfl
  rw [e, after_cons]
  refine chain_147 _ x0 x1 x2 x3 x4 x5 x6 x7 x8 ?_ ?_ ?_ ?_ ?_ ?_ ?_ ?_ ?_ ?_
  · rw [ternary_result_ne]
    · exact h_main_arg0
    · decide
  · rw [ternary_result_ne]
    · exact h_main_arg3
    · decide
  · rw [ternary_result_ne]
    · exact h_main_arg4
    · decide
  · rw [ternary_result_ne]
    · exact h_main_arg5
    · decide
  · rw [ternary_result_ne]
    · exact h_main_arg6
    · decide
  · rw [ternary_result_ne]
    · exact h_main_arg7
    · decide
  · rw [ternary_result_ne]
    · exact h_main_arg8
    · decide
  · rw [ternary_result_ne]
    · exact h_main_v98
    · decide
  · rw [ternary_result_ne]
    · exact h_main_v109
    · decide
  · rw [ternary_result, h_main_v111, h_main_v113, h_main_v102]; rfl

theorem chain_145 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v102 : W (Proc.devRef .tc main_v102) = (Cert.ReferenceIdeal.Read.val_main_v102 (F := F) x2))
    (h_main_v109 : W (Proc.devRef .tc main_v109) = (Cert.ReferenceIdeal.Read.val_main_v109 (F := F) x0 x2))
    (h_main_v111 : W (Proc.devRef .tc main_v111) = (Cert.ReferenceIdeal.Read.val_main_v111 (F := F) x2))
    (h_main_v112 : W (Proc.devRef .tc main_v112) = (Cert.ReferenceIdeal.Read.val_main_v112 (F := F))) :
    after ((ops (F := F)).drop 145) W (Proc.devRef .tc main_v135) = Cert.ReferenceIdeal.Read.val_main_v135 (F := F) x0 x1 x2 x3 x4 x5 x6 x7 x8 := by
  have e : (ops (F := F)).drop 145 = (binary main_v102 main_v112 main_v113 (addi : (⟨S262144, .i32⟩ : BufTy).Contents (Elt F) → (⟨S262144, .i32⟩ : BufTy).Contents (Elt F) → (⟨S262144, .i32⟩ : BufTy).Contents (Elt F)) : HloOp τ sig (Elt F)) :: (ops (F := F)).drop 146 := rfl
  rw [e, after_cons]
  refine chain_146 _ x0 x1 x2 x3 x4 x5 x6 x7 x8 ?_ ?_ ?_ ?_ ?_ ?_ ?_ ?_ ?_ ?_ ?_ ?_
  · rw [binary_result_ne]
    · exact h_main_arg0
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v98
    · decide
  · rw [binary_result_ne]
    · exact h_main_v102
    · decide
  · rw [binary_result_ne]
    · exact h_main_v109
    · decide
  · rw [binary_result_ne]
    · exact h_main_v111
    · decide
  · rw [binary_result, h_main_v102, h_main_v112]; rfl

theorem chain_144 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v102 : W (Proc.devRef .tc main_v102) = (Cert.ReferenceIdeal.Read.val_main_v102 (F := F) x2))
    (h_main_v109 : W (Proc.devRef .tc main_v109) = (Cert.ReferenceIdeal.Read.val_main_v109 (F := F) x0 x2))
    (h_main_v111 : W (Proc.devRef .tc main_v111) = (Cert.ReferenceIdeal.Read.val_main_v111 (F := F) x2))
    (h_main_c_27 : W (Proc.devRef .tc main_c_27) = (Cert.ReferenceIdeal.Read.val_main_c_27 (F := F))) :
    after ((ops (F := F)).drop 144) W (Proc.devRef .tc main_v135) = Cert.ReferenceIdeal.Read.val_main_v135 (F := F) x0 x1 x2 x3 x4 x5 x6 x7 x8 := by
  have e : (ops (F := F)).drop 144 = (unary main_c_27 main_v112 (broadcastInDim S262144 ![] bcast_S_S262144 : (⟨S_, .i32⟩ : BufTy).Contents (Elt F) → (⟨S262144, .i32⟩ : BufTy).Contents (Elt F)) : HloOp τ sig (Elt F)) :: (ops (F := F)).drop 145 := rfl
  rw [e, after_cons]
  refine chain_145 _ x0 x1 x2 x3 x4 x5 x6 x7 x8 ?_ ?_ ?_ ?_ ?_ ?_ ?_ ?_ ?_ ?_ ?_ ?_
  · rw [unary_result_ne]
    · exact h_main_arg0
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v98
    · decide
  · rw [unary_result_ne]
    · exact h_main_v102
    · decide
  · rw [unary_result_ne]
    · exact h_main_v109
    · decide
  · rw [unary_result_ne]
    · exact h_main_v111
    · decide
  · rw [unary_result, h_main_c_27]; rfl

theorem chain_143 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v102 : W (Proc.devRef .tc main_v102) = (Cert.ReferenceIdeal.Read.val_main_v102 (F := F) x2))
    (h_main_v109 : W (Proc.devRef .tc main_v109) = (Cert.ReferenceIdeal.Read.val_main_v109 (F := F) x0 x2))
    (h_main_v111 : W (Proc.devRef .tc main_v111) = (Cert.ReferenceIdeal.Read.val_main_v111 (F := F) x2)) :
    after ((ops (F := F)).drop 143) W (Proc.devRef .tc main_v135) = Cert.ReferenceIdeal.Read.val_main_v135 (F := F) x0 x1 x2 x3 x4 x5 x6 x7 x8 := by
  have e : (ops (F := F)).drop 143 = (nullary main_c_27 (constantI S_ 32 2048#32) : HloOp τ sig (Elt F)) :: (ops (F := F)).drop 144 := rfl
  rw [e, after_cons]
  refine chain_144 _ x0 x1 x2 x3 x4 x5 x6 x7 x8 ?_ ?_ ?_ ?_ ?_ ?_ ?_ ?_ ?_ ?_ ?_ ?_
  · rw [nullary_result_ne]
    · exact h_main_arg0
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v98
    · decide
  · rw [nullary_result_ne]
    · exact h_main_v102
    · decide
  · rw [nullary_result_ne]
    · exact h_main_v109
    · decide
  · rw [nullary_result_ne]
    · exact h_main_v111
    · decide
  · rw [nullary_result]; rfl

theorem chain_142 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v102 : W (Proc.devRef .tc main_v102) = (Cert.ReferenceIdeal.Read.val_main_v102 (F := F) x2))
    (h_main_v109 : W (Proc.devRef .tc main_v109) = (Cert.ReferenceIdeal.Read.val_main_v109 (F := F) x0 x2))
    (h_main_v110 : W (Proc.devRef .tc main_v110) = (Cert.ReferenceIdeal.Read.val_main_v110 (F := F))) :
    after ((ops (F := F)).drop 142) W (Proc.devRef .tc main_v135) = Cert.ReferenceIdeal.Read.val_main_v135 (F := F) x0 x1 x2 x3 x4 x5 x6 x7 x8 := by
  have e : (ops (F := F)).drop 142 = (binary main_v102 main_v110 main_v111 (cmpi .slt : (⟨S262144, .i32⟩ : BufTy).Contents (Elt F) → (⟨S262144, .i32⟩ : BufTy).Contents (Elt F) → (⟨S262144, .i1⟩ : BufTy).Contents (Elt F)) : HloOp τ sig (Elt F)) :: (ops (F := F)).drop 143 := rfl
  rw [e, after_cons]
  refine chain_143 _ x0 x1 x2 x3 x4 x5 x6 x7 x8 ?_ ?_ ?_ ?_ ?_ ?_ ?_ ?_ ?_ ?_ ?_
  · rw [binary_result_ne]
    · exact h_main_arg0
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v98
    · decide
  · rw [binary_result_ne]
    · exact h_main_v102
    · decide
  · rw [binary_result_ne]
    · exact h_main_v109
    · decide
  · rw [binary_result, h_main_v102, h_main_v110]; rfl

theorem chain_141 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v102 : W (Proc.devRef .tc main_v102) = (Cert.ReferenceIdeal.Read.val_main_v102 (F := F) x2))
    (h_main_v109 : W (Proc.devRef .tc main_v109) = (Cert.ReferenceIdeal.Read.val_main_v109 (F := F) x0 x2))
    (h_main_c_26 : W (Proc.devRef .tc main_c_26) = (Cert.ReferenceIdeal.Read.val_main_c_26 (F := F))) :
    after ((ops (F := F)).drop 141) W (Proc.devRef .tc main_v135) = Cert.ReferenceIdeal.Read.val_main_v135 (F := F) x0 x1 x2 x3 x4 x5 x6 x7 x8 := by
  have e : (ops (F := F)).drop 141 = (unary main_c_26 main_v110 (broadcastInDim S262144 ![] bcast_S_S262144 : (⟨S_, .i32⟩ : BufTy).Contents (Elt F) → (⟨S262144, .i32⟩ : BufTy).Contents (Elt F)) : HloOp τ sig (Elt F)) :: (ops (F := F)).drop 142 := rfl
  rw [e, after_cons]
  refine chain_142 _ x0 x1 x2 x3 x4 x5 x6 x7 x8 ?_ ?_ ?_ ?_ ?_ ?_ ?_ ?_ ?_ ?_ ?_
  · rw [unary_result_ne]
    · exact h_main_arg0
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v98
    · decide
  · rw [unary_result_ne]
    · exact h_main_v102
    · decide
  · rw [unary_result_ne]
    · exact h_main_v109
    · decide
  · rw [unary_result, h_main_c_26]; rfl

theorem chain_140 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v102 : W (Proc.devRef .tc main_v102) = (Cert.ReferenceIdeal.Read.val_main_v102 (F := F) x2))
    (h_main_v109 : W (Proc.devRef .tc main_v109) = (Cert.ReferenceIdeal.Read.val_main_v109 (F := F) x0 x2)) :
    after ((ops (F := F)).drop 140) W (Proc.devRef .tc main_v135) = Cert.ReferenceIdeal.Read.val_main_v135 (F := F) x0 x1 x2 x3 x4 x5 x6 x7 x8 := by
  have e : (ops (F := F)).drop 140 = (nullary main_c_26 (constantI S_ 32 0#32) : HloOp τ sig (Elt F)) :: (ops (F := F)).drop 141 := rfl
  rw [e, after_cons]
  refine chain_141 _ x0 x1 x2 x3 x4 x5 x6 x7 x8 ?_ ?_ ?_ ?_ ?_ ?_ ?_ ?_ ?_ ?_ ?_
  · rw [nullary_result_ne]
    · exact h_main_arg0
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v98
    · decide
  · rw [nullary_result_ne]
    · exact h_main_v102
    · decide
  · rw [nullary_result_ne]
    · exact h_main_v109
    · decide
  · rw [nullary_result]; rfl

theorem chain_139 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v102 : W (Proc.devRef .tc main_v102) = (Cert.ReferenceIdeal.Read.val_main_v102 (F := F) x2))
    (h_main_v108 : W (Proc.devRef .tc main_v108) = (Cert.ReferenceIdeal.Read.val_main_v108 (F := F) x2)) :
    after ((ops (F := F)).drop 139) W (Proc.devRef .tc main_v135) = Cert.ReferenceIdeal.Read.val_main_v135 (F := F) x0 x1 x2 x3 x4 x5 x6 x7 x8 := by
  have e : (ops (F := F)).drop 139 = (binary main_arg0 main_v108 main_v109 ((fun x i => Host.gather gather_S2048x256_S262144x1_S262144x256_1_0_n_n_0_1_1256 x i) : (⟨S2048x256, .f32⟩ : BufTy).Contents (Elt F) → (⟨S262144x1, .i32⟩ : BufTy).Contents (Elt F) → (⟨S262144x256, .f32⟩ : BufTy).Contents (Elt F)) : HloOp τ sig (Elt F)) :: (ops (F := F)).drop 140 := rfl
  rw [e, after_cons]
  refine chain_140 _ x0 x1 x2 x3 x4 x5 x6 x7 x8 ?_ ?_ ?_ ?_ ?_ ?_ ?_ ?_ ?_ ?_
  · rw [binary_result_ne]
    · exact h_main_arg0
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v98
    · decide
  · rw [binary_result_ne]
    · exact h_main_v102
    · decide
  · rw [binary_result, h_main_arg0, h_main_v108]; rfl

theorem chain_138 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v102 : W (Proc.devRef .tc main_v102) = (Cert.ReferenceIdeal.Read.val_main_v102 (F := F) x2))
    (h_main_v107 : W (Proc.devRef .tc main_v107) = (Cert.ReferenceIdeal.Read.val_main_v107 (F := F) x2)) :
    after ((ops (F := F)).drop 138) W (Proc.devRef .tc main_v135) = Cert.ReferenceIdeal.Read.val_main_v135 (F := F) x0 x1 x2 x3 x4 x5 x6 x7 x8 := by
  have e : (ops (F := F)).drop 138 = (unary main_v107 main_v108 (broadcastInDim S262144x1 ![0] bcast_S262144_S262144x1_0 : (⟨S262144, .i32⟩ : BufTy).Contents (Elt F) → (⟨S262144x1, .i32⟩ : BufTy).Contents (Elt F)) : HloOp τ sig (Elt F)) :: (ops (F := F)).drop 139 := rfl
  rw [e, after_cons]
  refine chain_139 _ x0 x1 x2 x3 x4 x5 x6 x7 x8 ?_ ?_ ?_ ?_ ?_ ?_ ?_ ?_ ?_ ?_
  · rw [unary_result_ne]
    · exact h_main_arg0
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v98
    · decide
  · rw [unary_result_ne]
    · exact h_main_v102
    · decide
  · rw [unary_result, h_main_v107]; rfl

theorem chain_137 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v100 : W (Proc.devRef .tc main_v100) = (Cert.ReferenceIdeal.Read.val_main_v100 (F := F) x2))
    (h_main_v102 : W (Proc.devRef .tc main_v102) = (Cert.ReferenceIdeal.Read.val_main_v102 (F := F) x2))
    (h_main_v104 : W (Proc.devRef .tc main_v104) = (Cert.ReferenceIdeal.Read.val_main_v104 (F := F) x2))
    (h_main_v106 : W (Proc.devRef .tc main_v106) = (Cert.ReferenceIdeal.Read.val_main_v106 (F := F) x2)) :
    after ((ops (F := F)).drop 137) W (Proc.devRef .tc main_v135) = Cert.ReferenceIdeal.Read.val_main_v135 (F := F) x0 x1 x2 x3 x4 x5 x6 x7 x8 := by
  have e : (ops (F := F)).drop 137 = (ternary main_v104 main_v106 main_v100 main_v107 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) : HloOp τ sig (Elt F)) :: (ops (F := F)).drop 138 := rfl
  rw [e, after_cons]
  refine chain_138 _ x0 x1 x2 x3 x4 x5 x6 x7 x8 ?_ ?_ ?_ ?_ ?_ ?_ ?_ ?_ ?_ ?_
  · rw [ternary_result_ne]
    · exact h_main_arg0
    · decide
  · rw [ternary_result_ne]
    · exact h_main_arg3
    · decide
  · rw [ternary_result_ne]
    · exact h_main_arg4
    · decide
  · rw [ternary_result_ne]
    · exact h_main_arg5
    · decide
  · rw [ternary_result_ne]
    · exact h_main_arg6
    · decide
  · rw [ternary_result_ne]
    · exact h_main_arg7
    · decide
  · rw [ternary_result_ne]
    · exact h_main_arg8
    · decide
  · rw [ternary_result_ne]
    · exact h_main_v98
    · decide
  · rw [ternary_result_ne]
    · exact h_main_v102
    · decide
  · rw [ternary_result, h_main_v104, h_main_v106, h_main_v100]; rfl

theorem chain_136 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v100 : W (Proc.devRef .tc main_v100) = (Cert.ReferenceIdeal.Read.val_main_v100 (F := F) x2))
    (h_main_v102 : W (Proc.devRef .tc main_v102) = (Cert.ReferenceIdeal.Read.val_main_v102 (F := F) x2))
    (h_main_v104 : W (Proc.devRef .tc main_v104) = (Cert.ReferenceIdeal.Read.val_main_v104 (F := F) x2))
    (h_main_v105 : W (Proc.devRef .tc main_v105) = (Cert.ReferenceIdeal.Read.val_main_v105 (F := F))) :
    after ((ops (F := F)).drop 136) W (Proc.devRef .tc main_v135) = Cert.ReferenceIdeal.Read.val_main_v135 (F := F) x0 x1 x2 x3 x4 x5 x6 x7 x8 := by
  have e : (ops (F := F)).drop 136 = (binary main_v100 main_v105 main_v106 (addi : (⟨S262144, .i32⟩ : BufTy).Contents (Elt F) → (⟨S262144, .i32⟩ : BufTy).Contents (Elt F) → (⟨S262144, .i32⟩ : BufTy).Contents (Elt F)) : HloOp τ sig (Elt F)) :: (ops (F := F)).drop 137 := rfl
  rw [e, after_cons]
  refine chain_137 _ x0 x1 x2 x3 x4 x5 x6 x7 x8 ?_ ?_ ?_ ?_ ?_ ?_ ?_ ?_ ?_ ?_ ?_ ?_
  · rw [binary_result_ne]
    · exact h_main_arg0
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v98
    · decide
  · rw [binary_result_ne]
    · exact h_main_v100
    · decide
  · rw [binary_result_ne]
    · exact h_main_v102
    · decide
  · rw [binary_result_ne]
    · exact h_main_v104
    · decide
  · rw [binary_result, h_main_v100, h_main_v105]; rfl

theorem chain_135 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v100 : W (Proc.devRef .tc main_v100) = (Cert.ReferenceIdeal.Read.val_main_v100 (F := F) x2))
    (h_main_v102 : W (Proc.devRef .tc main_v102) = (Cert.ReferenceIdeal.Read.val_main_v102 (F := F) x2))
    (h_main_v104 : W (Proc.devRef .tc main_v104) = (Cert.ReferenceIdeal.Read.val_main_v104 (F := F) x2))
    (h_main_c_25 : W (Proc.devRef .tc main_c_25) = (Cert.ReferenceIdeal.Read.val_main_c_25 (F := F))) :
    after ((ops (F := F)).drop 135) W (Proc.devRef .tc main_v135) = Cert.ReferenceIdeal.Read.val_main_v135 (F := F) x0 x1 x2 x3 x4 x5 x6 x7 x8 := by
  have e : (ops (F := F)).drop 135 = (unary main_c_25 main_v105 (broadcastInDim S262144 ![] bcast_S_S262144 : (⟨S_, .i32⟩ : BufTy).Contents (Elt F) → (⟨S262144, .i32⟩ : BufTy).Contents (Elt F)) : HloOp τ sig (Elt F)) :: (ops (F := F)).drop 136 := rfl
  rw [e, after_cons]
  refine chain_136 _ x0 x1 x2 x3 x4 x5 x6 x7 x8 ?_ ?_ ?_ ?_ ?_ ?_ ?_ ?_ ?_ ?_ ?_ ?_
  · rw [unary_result_ne]
    · exact h_main_arg0
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v98
    · decide
  · rw [unary_result_ne]
    · exact h_main_v100
    · decide
  · rw [unary_result_ne]
    · exact h_main_v102
    · decide
  · rw [unary_result_ne]
    · exact h_main_v104
    · decide
  · rw [unary_result, h_main_c_25]; rfl

theorem chain_134 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v100 : W (Proc.devRef .tc main_v100) = (Cert.ReferenceIdeal.Read.val_main_v100 (F := F) x2))
    (h_main_v102 : W (Proc.devRef .tc main_v102) = (Cert.ReferenceIdeal.Read.val_main_v102 (F := F) x2))
    (h_main_v104 : W (Proc.devRef .tc main_v104) = (Cert.ReferenceIdeal.Read.val_main_v104 (F := F) x2)) :
    after ((ops (F := F)).drop 134) W (Proc.devRef .tc main_v135) = Cert.ReferenceIdeal.Read.val_main_v135 (F := F) x0 x1 x2 x3 x4 x5 x6 x7 x8 := by
  have e : (ops (F := F)).drop 134 = (nullary main_c_25 (constantI S_ 32 2048#32) : HloOp τ sig (Elt F)) :: (ops (F := F)).drop 135 := rfl
  rw [e, after_cons]
  refine chain_135 _ x0 x1 x2 x3 x4 x5 x6 x7 x8 ?_ ?_ ?_ ?_ ?_ ?_ ?_ ?_ ?_ ?_ ?_ ?_
  · rw [nullary_result_ne]
    · exact h_main_arg0
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v98
    · decide
  · rw [nullary_result_ne]
    · exact h_main_v100
    · decide
  · rw [nullary_result_ne]
    · exact h_main_v102
    · decide
  · rw [nullary_result_ne]
    · exact h_main_v104
    · decide
  · rw [nullary_result]; rfl

theorem chain_133 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v100 : W (Proc.devRef .tc main_v100) = (Cert.ReferenceIdeal.Read.val_main_v100 (F := F) x2))
    (h_main_v102 : W (Proc.devRef .tc main_v102) = (Cert.ReferenceIdeal.Read.val_main_v102 (F := F) x2))
    (h_main_v103 : W (Proc.devRef .tc main_v103) = (Cert.ReferenceIdeal.Read.val_main_v103 (F := F))) :
    after ((ops (F := F)).drop 133) W (Proc.devRef .tc main_v135) = Cert.ReferenceIdeal.Read.val_main_v135 (F := F) x0 x1 x2 x3 x4 x5 x6 x7 x8 := by
  have e : (ops (F := F)).drop 133 = (binary main_v100 main_v103 main_v104 (cmpi .slt : (⟨S262144, .i32⟩ : BufTy).Contents (Elt F) → (⟨S262144, .i32⟩ : BufTy).Contents (Elt F) → (⟨S262144, .i1⟩ : BufTy).Contents (Elt F)) : HloOp τ sig (Elt F)) :: (ops (F := F)).drop 134 := rfl
  rw [e, after_cons]
  refine chain_134 _ x0 x1 x2 x3 x4 x5 x6 x7 x8 ?_ ?_ ?_ ?_ ?_ ?_ ?_ ?_ ?_ ?_ ?_
  · rw [binary_result_ne]
    · exact h_main_arg0
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v98
    · decide
  · rw [binary_result_ne]
    · exact h_main_v100
    · decide
  · rw [binary_result_ne]
    · exact h_main_v102
    · decide
  · rw [binary_result, h_main_v100, h_main_v103]; rfl

theorem chain_132 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v100 : W (Proc.devRef .tc main_v100) = (Cert.ReferenceIdeal.Read.val_main_v100 (F := F) x2))
    (h_main_v102 : W (Proc.devRef .tc main_v102) = (Cert.ReferenceIdeal.Read.val_main_v102 (F := F) x2))
    (h_main_c_24 : W (Proc.devRef .tc main_c_24) = (Cert.ReferenceIdeal.Read.val_main_c_24 (F := F))) :
    after ((ops (F := F)).drop 132) W (Proc.devRef .tc main_v135) = Cert.ReferenceIdeal.Read.val_main_v135 (F := F) x0 x1 x2 x3 x4 x5 x6 x7 x8 := by
  have e : (ops (F := F)).drop 132 = (unary main_c_24 main_v103 (broadcastInDim S262144 ![] bcast_S_S262144 : (⟨S_, .i32⟩ : BufTy).Contents (Elt F) → (⟨S262144, .i32⟩ : BufTy).Contents (Elt F)) : HloOp τ sig (Elt F)) :: (ops (F := F)).drop 133 := rfl
  rw [e, after_cons]
  refine chain_133 _ x0 x1 x2 x3 x4 x5 x6 x7 x8 ?_ ?_ ?_ ?_ ?_ ?_ ?_ ?_ ?_ ?_ ?_
  · rw [unary_result_ne]
    · exact h_main_arg0
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v98
    · decide
  · rw [unary_result_ne]
    · exact h_main_v100
    · decide
  · rw [unary_result_ne]
    · exact h_main_v102
    · decide
  · rw [unary_result, h_main_c_24]; rfl

theorem chain_131 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v100 : W (Proc.devRef .tc main_v100) = (Cert.ReferenceIdeal.Read.val_main_v100 (F := F) x2))
    (h_main_v102 : W (Proc.devRef .tc main_v102) = (Cert.ReferenceIdeal.Read.val_main_v102 (F := F) x2)) :
    after ((ops (F := F)).drop 131) W (Proc.devRef .tc main_v135) = Cert.ReferenceIdeal.Read.val_main_v135 (F := F) x0 x1 x2 x3 x4 x5 x6 x7 x8 := by
  have e : (ops (F := F)).drop 131 = (nullary main_c_24 (constantI S_ 32 0#32) : HloOp τ sig (Elt F)) :: (ops (F := F)).drop 132 := rfl
  rw [e, after_cons]
  refine chain_132 _ x0 x1 x2 x3 x4 x5 x6 x7 x8 ?_ ?_ ?_ ?_ ?_ ?_ ?_ ?_ ?_ ?_ ?_
  · rw [nullary_result_ne]
    · exact h_main_arg0
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v98
    · decide
  · rw [nullary_result_ne]
    · exact h_main_v100
    · decide
  · rw [nullary_result_ne]
    · exact h_main_v102
    · decide
  · rw [nullary_result]; rfl

theorem chain_130 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v100 : W (Proc.devRef .tc main_v100) = (Cert.ReferenceIdeal.Read.val_main_v100 (F := F) x2))
    (h_main_v101 : W (Proc.devRef .tc main_v101) = (Cert.ReferenceIdeal.Read.val_main_v101 (F := F) x2)) :
    after ((ops (F := F)).drop 130) W (Proc.devRef .tc main_v135) = Cert.ReferenceIdeal.Read.val_main_v135 (F := F) x0 x1 x2 x3 x4 x5 x6 x7 x8 := by
  have e : (ops (F := F)).drop 130 = (reshape main_v101 main_v102 rfl shapeCasts_S1x262144_S262144 : HloOp τ sig (Elt F)) :: (ops (F := F)).drop 131 := rfl
  rw [e, after_cons]
  refine chain_131 _ x0 x1 x2 x3 x4 x5 x6 x7 x8 ?_ ?_ ?_ ?_ ?_ ?_ ?_ ?_ ?_ ?_
  · rw [reshape_result_ne]
    · exact h_main_arg0
    · decide
  · rw [reshape_result_ne]
    · exact h_main_arg3
    · decide
  · rw [reshape_result_ne]
    · exact h_main_arg4
    · decide
  · rw [reshape_result_ne]
    · exact h_main_arg5
    · decide
  · rw [reshape_result_ne]
    · exact h_main_arg6
    · decide
  · rw [reshape_result_ne]
    · exact h_main_arg7
    · decide
  · rw [reshape_result_ne]
    · exact h_main_arg8
    · decide
  · rw [reshape_result_ne]
    · exact h_main_v98
    · decide
  · rw [reshape_result_ne]
    · exact h_main_v100
    · decide
  · rw [reshape_result, h_main_v101]; rfl

theorem chain_129 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v100 : W (Proc.devRef .tc main_v100) = (Cert.ReferenceIdeal.Read.val_main_v100 (F := F) x2)) :
    after ((ops (F := F)).drop 129) W (Proc.devRef .tc main_v135) = Cert.ReferenceIdeal.Read.val_main_v135 (F := F) x0 x1 x2 x3 x4 x5 x6 x7 x8 := by
  have e : (ops (F := F)).drop 129 = (unary main_arg2 main_v101 ((extractStridedSlice S1x262144 ![1, 0] · slices_S2x262144_S1x262144_1_0) : (⟨S2x262144, .i32⟩ : BufTy).Contents (Elt F) → (⟨S1x262144, .i32⟩ : BufTy).Contents (Elt F)) : HloOp τ sig (Elt F)) :: (ops (F := F)).drop 130 := rfl
  rw [e, after_cons]
  refine chain_130 _ x0 x1 x2 x3 x4 x5 x6 x7 x8 ?_ ?_ ?_ ?_ ?_ ?_ ?_ ?_ ?_ ?_
  · rw [unary_result_ne]
    · exact h_main_arg0
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v98
    · decide
  · rw [unary_result_ne]
    · exact h_main_v100
    · decide
  · rw [unary_result, h_main_arg2]; rfl

theorem chain_128 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2))
    (h_main_v99 : W (Proc.devRef .tc main_v99) = (Cert.ReferenceIdeal.Read.val_main_v99 (F := F) x2)) :
    after ((ops (F := F)).drop 128) W (Proc.devRef .tc main_v135) = Cert.ReferenceIdeal.Read.val_main_v135 (F := F) x0 x1 x2 x3 x4 x5 x6 x7 x8 := by
  have e : (ops (F := F)).drop 128 = (reshape main_v99 main_v100 rfl shapeCasts_S1x262144_S262144 : HloOp τ sig (Elt F)) :: (ops (F := F)).drop 129 := rfl
  rw [e, after_cons]
  refine chain_129 _ x0 x1 x2 x3 x4 x5 x6 x7 x8 ?_ ?_ ?_ ?_ ?_ ?_ ?_ ?_ ?_ ?_
  · rw [reshape_result_ne]
    · exact h_main_arg0
    · decide
  · rw [reshape_result_ne]
    · exact h_main_arg2
    · decide
  · rw [reshape_result_ne]
    · exact h_main_arg3
    · decide
  · rw [reshape_result_ne]
    · exact h_main_arg4
    · decide
  · rw [reshape_result_ne]
    · exact h_main_arg5
    · decide
  · rw [reshape_result_ne]
    · exact h_main_arg6
    · decide
  · rw [reshape_result_ne]
    · exact h_main_arg7
    · decide
  · rw [reshape_result_ne]
    · exact h_main_arg8
    · decide
  · rw [reshape_result_ne]
    · exact h_main_v98
    · decide
  · rw [reshape_result, h_main_v99]; rfl

theorem chain_127 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v98 : W (Proc.devRef .tc main_v98) = (Cert.ReferenceIdeal.Read.val_main_v98 (F := F) x1 x2)) :
    after ((ops (F := F)).drop 127) W (Proc.devRef .tc main_v135) = Cert.ReferenceIdeal.Read.val_main_v135 (F := F) x0 x1 x2 x3 x4 x5 x6 x7 x8 := by
  have e : (ops (F := F)).drop 127 = (unary main_arg2 main_v99 ((extractStridedSlice S1x262144 ![0, 0] · slices_S2x262144_S1x262144_0_0) : (⟨S2x262144, .i32⟩ : BufTy).Contents (Elt F) → (⟨S1x262144, .i32⟩ : BufTy).Contents (Elt F)) : HloOp τ sig (Elt F)) :: (ops (F := F)).drop 128 := rfl
  rw [e, after_cons]
  refine chain_128 _ x0 x1 x2 x3 x4 x5 x6 x7 x8 ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v98
    · decide
  · rw [unary_result, h_main_arg2]; rfl

theorem chain_126 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v93 : W (Proc.devRef .tc main_v93) = (Cert.ReferenceIdeal.Read.val_main_v93 (F := F) x1 x2))
    (h_main_v94 : W (Proc.devRef .tc main_v94) = (Cert.ReferenceIdeal.Read.val_main_v94 (F := F) x1 x2))
    (h_main_v95 : W (Proc.devRef .tc main_v95) = (Cert.ReferenceIdeal.Read.val_main_v95 (F := F) x1 x2))
    (h_main_v96 : W (Proc.devRef .tc main_v96) = (Cert.ReferenceIdeal.Read.val_main_v96 (F := F) x1 x2))
    (h_main_v97 : W (Proc.devRef .tc main_v97) = (Cert.ReferenceIdeal.Read.val_main_v97 (F := F) x1 x2)) :
    after ((ops (F := F)).drop 126) W (Proc.devRef .tc main_v135) = Cert.ReferenceIdeal.Read.val_main_v135 (F := F) x0 x1 x2 x3 x4 x5 x6 x7 x8 := by
  have e : (ops (F := F)).drop 126 = (nary ![main_v93, main_v94, main_v95, main_v96, main_v97] main_v98 (fun u => concatenate S262144x5 1 [⟨S262144x1, u 0⟩, ⟨S262144x1, u 1⟩, ⟨S262144x1, u 2⟩, ⟨S262144x1, u 3⟩, ⟨S262144x1, u 4⟩] concatenates_S262144x1_S262144x1_S262144x1_S262144x1_S262144x1_S262144x5_d1) : HloOp τ sig (Elt F)) :: (ops (F := F)).drop 127 := rfl
  rw [e, after_cons]
  refine chain_127 _ x0 x1 x2 x3 x4 x5 x6 x7 x8 ?_ ?_ ?_ ?_ ?_ ?_ ?_ ?_ ?_
  · rw [nary_result_ne]
    · exact h_main_arg0
    · decide
  · rw [nary_result_ne]
    · exact h_main_arg2
    · decide
  · rw [nary_result_ne]
    · exact h_main_arg3
    · decide
  · rw [nary_result_ne]
    · exact h_main_arg4
    · decide
  · rw [nary_result_ne]
    · exact h_main_arg5
    · decide
  · rw [nary_result_ne]
    · exact h_main_arg6
    · decide
  · rw [nary_result_ne]
    · exact h_main_arg7
    · decide
  · rw [nary_result_ne]
    · exact h_main_arg8
    · decide
  · rw [nary_result]
    show concatenate S262144x5 1 [⟨S262144x1, W (Proc.devRef .tc main_v93)⟩, ⟨S262144x1, W (Proc.devRef .tc main_v94)⟩, ⟨S262144x1, W (Proc.devRef .tc main_v95)⟩, ⟨S262144x1, W (Proc.devRef .tc main_v96)⟩, ⟨S262144x1, W (Proc.devRef .tc main_v97)⟩] concatenates_S262144x1_S262144x1_S262144x1_S262144x1_S262144x1_S262144x5_d1 = _
    rw [h_main_v93, h_main_v94, h_main_v95, h_main_v96, h_main_v97]; rfl

theorem chain_125 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v92 : W (Proc.devRef .tc main_v92) = (Cert.ReferenceIdeal.Read.val_main_v92 (F := F) x1 x2))
    (h_main_v93 : W (Proc.devRef .tc main_v93) = (Cert.ReferenceIdeal.Read.val_main_v93 (F := F) x1 x2))
    (h_main_v94 : W (Proc.devRef .tc main_v94) = (Cert.ReferenceIdeal.Read.val_main_v94 (F := F) x1 x2))
    (h_main_v95 : W (Proc.devRef .tc main_v95) = (Cert.ReferenceIdeal.Read.val_main_v95 (F := F) x1 x2))
    (h_main_v96 : W (Proc.devRef .tc main_v96) = (Cert.ReferenceIdeal.Read.val_main_v96 (F := F) x1 x2)) :
    after ((ops (F := F)).drop 125) W (Proc.devRef .tc main_v135) = Cert.ReferenceIdeal.Read.val_main_v135 (F := F) x0 x1 x2 x3 x4 x5 x6 x7 x8 := by
  have e : (ops (F := F)).drop 125 = (unary main_v92 main_v97 (broadcastInDim S262144x1 ![0] bcast_S262144_S262144x1_0 : (⟨S262144, .f32⟩ : BufTy).Contents (Elt F) → (⟨S262144x1, .f32⟩ : BufTy).Contents (Elt F)) : HloOp τ sig (Elt F)) :: (ops (F := F)).drop 126 := rfl
  rw [e, after_cons]
  refine chain_126 _ x0 x1 x2 x3 x4 x5 x6 x7 x8 ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v93
    · decide
  · rw [unary_result_ne]
    · exact h_main_v94
    · decide
  · rw [unary_result_ne]
    · exact h_main_v95
    · decide
  · rw [unary_result_ne]
    · exact h_main_v96
    · decide
  · rw [unary_result, h_main_v92]; rfl

theorem chain_124 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v78 : W (Proc.devRef .tc main_v78) = (Cert.ReferenceIdeal.Read.val_main_v78 (F := F) x1 x2))
    (h_main_v92 : W (Proc.devRef .tc main_v92) = (Cert.ReferenceIdeal.Read.val_main_v92 (F := F) x1 x2))
    (h_main_v93 : W (Proc.devRef .tc main_v93) = (Cert.ReferenceIdeal.Read.val_main_v93 (F := F) x1 x2))
    (h_main_v94 : W (Proc.devRef .tc main_v94) = (Cert.ReferenceIdeal.Read.val_main_v94 (F := F) x1 x2))
    (h_main_v95 : W (Proc.devRef .tc main_v95) = (Cert.ReferenceIdeal.Read.val_main_v95 (F := F) x1 x2)) :
    after ((ops (F := F)).drop 124) W (Proc.devRef .tc main_v135) = Cert.ReferenceIdeal.Read.val_main_v135 (F := F) x0 x1 x2 x3 x4 x5 x6 x7 x8 := by
  have e : (ops (F := F)).drop 124 = (unary main_v78 main_v96 (broadcastInDim S262144x1 ![0] bcast_S262144_S262144x1_0 : (⟨S262144, .f32⟩ : BufTy).Contents (Elt F) → (⟨S262144x1, .f32⟩ : BufTy).Contents (Elt F)) : HloOp τ sig (Elt F)) :: (ops (F := F)).drop 125 := rfl
  rw [e, after_cons]
  refine chain_125 _ x0 x1 x2 x3 x4 x5 x6 x7 x8 ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v92
    · decide
  · rw [unary_result_ne]
    · exact h_main_v93
    · decide
  · rw [unary_result_ne]
    · exact h_main_v94
    · decide
  · rw [unary_result_ne]
    · exact h_main_v95
    · decide
  · rw [unary_result, h_main_v78]; rfl

theorem chain_123 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v92 : W (Proc.devRef .tc main_v92) = (Cert.ReferenceIdeal.Read.val_main_v92 (F := F) x1 x2))
    (h_main_v93 : W (Proc.devRef .tc main_v93) = (Cert.ReferenceIdeal.Read.val_main_v93 (F := F) x1 x2))
    (h_main_v94 : W (Proc.devRef .tc main_v94) = (Cert.ReferenceIdeal.Read.val_main_v94 (F := F) x1 x2)) :
    after ((ops (F := F)).drop 123) W (Proc.devRef .tc main_v135) = Cert.ReferenceIdeal.Read.val_main_v135 (F := F) x0 x1 x2 x3 x4 x5 x6 x7 x8 := by
  have e : (ops (F := F)).drop 123 = (unary main_v64 main_v95 (broadcastInDim S262144x1 ![0] bcast_S262144_S262144x1_0 : (⟨S262144, .f32⟩ : BufTy).Contents (Elt F) → (⟨S262144x1, .f32⟩ : BufTy).Contents (Elt F)) : HloOp τ sig (Elt F)) :: (ops (F := F)).drop 124 := rfl
  rw [e, after_cons]
  refine chain_124 _ x0 x1 x2 x3 x4 x5 x6 x7 x8 ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v78
    · decide
  · rw [unary_result_ne]
    · exact h_main_v92
    · decide
  · rw [unary_result_ne]
    · exact h_main_v93
    · decide
  · rw [unary_result_ne]
    · exact h_main_v94
    · decide
  · rw [unary_result, h_main_v64]; rfl

theorem chain_122 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v92 : W (Proc.devRef .tc main_v92) = (Cert.ReferenceIdeal.Read.val_main_v92 (F := F) x1 x2))
    (h_main_v93 : W (Proc.devRef .tc main_v93) = (Cert.ReferenceIdeal.Read.val_main_v93 (F := F) x1 x2)) :
    after ((ops (F := F)).drop 122) W (Proc.devRef .tc main_v135) = Cert.ReferenceIdeal.Read.val_main_v135 (F := F) x0 x1 x2 x3 x4 x5 x6 x7 x8 := by
  have e : (ops (F := F)).drop 122 = (unary main_v50 main_v94 (broadcastInDim S262144x1 ![0] bcast_S262144_S262144x1_0 : (⟨S262144, .f32⟩ : BufTy).Contents (Elt F) → (⟨S262144x1, .f32⟩ : BufTy).Contents (Elt F)) : HloOp τ sig (Elt F)) :: (ops (F := F)).drop 123 := rfl
  rw [e, after_cons]
  refine chain_123 _ x0 x1 x2 x3 x4 x5 x6 x7 x8 ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v64
    · decide
  · rw [unary_result_ne]
    · exact h_main_v78
    · decide
  · rw [unary_result_ne]
    · exact h_main_v92
    · decide
  · rw [unary_result_ne]
    · exact h_main_v93
    · decide
  · rw [unary_result, h_main_v50]; rfl

theorem chain_121 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v92 : W (Proc.devRef .tc main_v92) = (Cert.ReferenceIdeal.Read.val_main_v92 (F := F) x1 x2)) :
    after ((ops (F := F)).drop 121) W (Proc.devRef .tc main_v135) = Cert.ReferenceIdeal.Read.val_main_v135 (F := F) x0 x1 x2 x3 x4 x5 x6 x7 x8 := by
  have e : (ops (F := F)).drop 121 = (unary main_v36 main_v93 (broadcastInDim S262144x1 ![0] bcast_S262144_S262144x1_0 : (⟨S262144, .f32⟩ : BufTy).Contents (Elt F) → (⟨S262144x1, .f32⟩ : BufTy).Contents (Elt F)) : HloOp τ sig (Elt F)) :: (ops (F := F)).drop 122 := rfl
  rw [e, after_cons]
  refine chain_122 _ x0 x1 x2 x3 x4 x5 x6 x7 x8 ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v50
    · decide
  · rw [unary_result_ne]
    · exact h_main_v64
    · decide
  · rw [unary_result_ne]
    · exact h_main_v78
    · decide
  · rw [unary_result_ne]
    · exact h_main_v92
    · decide
  · rw [unary_result, h_main_v36]; rfl

theorem chain_120 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v91 : W (Proc.devRef .tc main_v91) = (Cert.ReferenceIdeal.Read.val_main_v91 (F := F) x2)) :
    after ((ops (F := F)).drop 120) W (Proc.devRef .tc main_v135) = Cert.ReferenceIdeal.Read.val_main_v135 (F := F) x0 x1 x2 x3 x4 x5 x6 x7 x8 := by
  have e : (ops (F := F)).drop 120 = (binary main_v22 main_v91 main_v92 ((fun x i => Host.gather gather_S2048x2048_S262144x2_S262144_n_01_n_n_01_1_11 x i) : (⟨S2048x2048, .f32⟩ : BufTy).Contents (Elt F) → (⟨S262144x2, .i32⟩ : BufTy).Contents (Elt F) → (⟨S262144, .f32⟩ : BufTy).Contents (Elt F)) : HloOp τ sig (Elt F)) :: (ops (F := F)).drop 121 := rfl
  rw [e, after_cons]
  refine chain_121 _ x0 x1 x2 x3 x4 x5 x6 x7 x8 ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v36
    · decide
  · rw [binary_result_ne]
    · exact h_main_v50
    · decide
  · rw [binary_result_ne]
    · exact h_main_v64
    · decide
  · rw [binary_result_ne]
    · exact h_main_v78
    · decide
  · rw [binary_result, h_main_v22, h_main_v91]; rfl

theorem chain_119 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v89 : W (Proc.devRef .tc main_v89) = (Cert.ReferenceIdeal.Read.val_main_v89 (F := F) x2))
    (h_main_v90 : W (Proc.devRef .tc main_v90) = (Cert.ReferenceIdeal.Read.val_main_v90 (F := F) x2)) :
    after ((ops (F := F)).drop 119) W (Proc.devRef .tc main_v135) = Cert.ReferenceIdeal.Read.val_main_v135 (F := F) x0 x1 x2 x3 x4 x5 x6 x7 x8 := by
  have e : (ops (F := F)).drop 119 = (binary main_v89 main_v90 main_v91 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)) : HloOp τ sig (Elt F)) :: (ops (F := F)).drop 120 := rfl
  rw [e, after_cons]
  refine chain_120 _ x0 x1 x2 x3 x4 x5 x6 x7 x8 ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v22
    · decide
  · rw [binary_result_ne]
    · exact h_main_v36
    · decide
  · rw [binary_result_ne]
    · exact h_main_v50
    · decide
  · rw [binary_result_ne]
    · exact h_main_v64
    · decide
  · rw [binary_result_ne]
    · exact h_main_v78
    · decide
  · rw [binary_result, h_main_v89, h_main_v90]; rfl

theorem chain_118 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v88 : W (Proc.devRef .tc main_v88) = (Cert.ReferenceIdeal.Read.val_main_v88 (F := F) x2))
    (h_main_v89 : W (Proc.devRef .tc main_v89) = (Cert.ReferenceIdeal.Read.val_main_v89 (F := F) x2)) :
    after ((ops (F := F)).drop 118) W (Proc.devRef .tc main_v135) = Cert.ReferenceIdeal.Read.val_main_v135 (F := F) x0 x1 x2 x3 x4 x5 x6 x7 x8 := by
  have e : (ops (F := F)).drop 118 = (unary main_v88 main_v90 (broadcastInDim S262144x1 ![0] bcast_S262144_S262144x1_0 : (⟨S262144, .i32⟩ : BufTy).Contents (Elt F) → (⟨S262144x1, .i32⟩ : BufTy).Contents (Elt F)) : HloOp τ sig (Elt F)) :: (ops (F := F)).drop 119 := rfl
  rw [e, after_cons]
  refine chain_119 _ x0 x1 x2 x3 x4 x5 x6 x7 x8 ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v22
    · decide
  · rw [unary_result_ne]
    · exact h_main_v36
    · decide
  · rw [unary_result_ne]
    · exact h_main_v50
    · decide
  · rw [unary_result_ne]
    · exact h_main_v64
    · decide
  · rw [unary_result_ne]
    · exact h_main_v78
    · decide
  · rw [unary_result_ne]
    · exact h_main_v89
    · decide
  · rw [unary_result, h_main_v88]; rfl

theorem chain_117 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v83 : W (Proc.devRef .tc main_v83) = (Cert.ReferenceIdeal.Read.val_main_v83 (F := F) x2))
    (h_main_v88 : W (Proc.devRef .tc main_v88) = (Cert.ReferenceIdeal.Read.val_main_v88 (F := F) x2)) :
    after ((ops (F := F)).drop 117) W (Proc.devRef .tc main_v135) = Cert.ReferenceIdeal.Read.val_main_v135 (F := F) x0 x1 x2 x3 x4 x5 x6 x7 x8 := by
  have e : (ops (F := F)).drop 117 = (unary main_v83 main_v89 (broadcastInDim S262144x1 ![0] bcast_S262144_S262144x1_0 : (⟨S262144, .i32⟩ : BufTy).Contents (Elt F) → (⟨S262144x1, .i32⟩ : BufTy).Contents (Elt F)) : HloOp τ sig (Elt F)) :: (ops (F := F)).drop 118 := rfl
  rw [e, after_cons]
  refine chain_118 _ x0 x1 x2 x3 x4 x5 x6 x7 x8 ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v22
    · decide
  · rw [unary_result_ne]
    · exact h_main_v36
    · decide
  · rw [unary_result_ne]
    · exact h_main_v50
    · decide
  · rw [unary_result_ne]
    · exact h_main_v64
    · decide
  · rw [unary_result_ne]
    · exact h_main_v78
    · decide
  · rw [unary_result_ne]
    · exact h_main_v88
    · decide
  · rw [unary_result, h_main_v83]; rfl

theorem chain_116 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v3 : W (Proc.devRef .tc main_v3) = (Cert.ReferenceIdeal.Read.val_main_v3 (F := F) x2))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v83 : W (Proc.devRef .tc main_v83) = (Cert.ReferenceIdeal.Read.val_main_v83 (F := F) x2))
    (h_main_v85 : W (Proc.devRef .tc main_v85) = (Cert.ReferenceIdeal.Read.val_main_v85 (F := F) x2))
    (h_main_v87 : W (Proc.devRef .tc main_v87) = (Cert.ReferenceIdeal.Read.val_main_v87 (F := F) x2)) :
    after ((ops (F := F)).drop 116) W (Proc.devRef .tc main_v135) = Cert.ReferenceIdeal.Read.val_main_v135 (F := F) x0 x1 x2 x3 x4 x5 x6 x7 x8 := by
  have e : (ops (F := F)).drop 116 = (ternary main_v85 main_v87 main_v3 main_v88 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) : HloOp τ sig (Elt F)) :: (ops (F := F)).drop 117 := rfl
  rw [e, after_cons]
  refine chain_117 _ x0 x1 x2 x3 x4 x5 x6 x7 x8 ?_ ?_ ?_ ?_ ?_ ?_ ?_ ?_ ?_ ?_ ?_ ?_ ?_ ?_ ?_
  · rw [ternary_result_ne]
    · exact h_main_arg0
    · decide
  · rw [ternary_result_ne]
    · exact h_main_arg2
    · decide
  · rw [ternary_result_ne]
    · exact h_main_arg3
    · decide
  · rw [ternary_result_ne]
    · exact h_main_arg4
    · decide
  · rw [ternary_result_ne]
    · exact h_main_arg5
    · decide
  · rw [ternary_result_ne]
    · exact h_main_arg6
    · decide
  · rw [ternary_result_ne]
    · exact h_main_arg7
    · decide
  · rw [ternary_result_ne]
    · exact h_main_arg8
    · decide
  · rw [ternary_result_ne]
    · exact h_main_v22
    · decide
  · rw [ternary_result_ne]
    · exact h_main_v36
    · decide
  · rw [ternary_result_ne]
    · exact h_main_v50
    · decide
  · rw [ternary_result_ne]
    · exact h_main_v64
    · decide
  · rw [ternary_result_ne]
    · exact h_main_v78
    · decide
  · rw [ternary_result_ne]
    · exact h_main_v83
    · decide
  · rw [ternary_result, h_main_v85, h_main_v87, h_main_v3]; rfl

theorem chain_115 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v3 : W (Proc.devRef .tc main_v3) = (Cert.ReferenceIdeal.Read.val_main_v3 (F := F) x2))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v83 : W (Proc.devRef .tc main_v83) = (Cert.ReferenceIdeal.Read.val_main_v83 (F := F) x2))
    (h_main_v85 : W (Proc.devRef .tc main_v85) = (Cert.ReferenceIdeal.Read.val_main_v85 (F := F) x2))
    (h_main_v86 : W (Proc.devRef .tc main_v86) = (Cert.ReferenceIdeal.Read.val_main_v86 (F := F))) :
    after ((ops (F := F)).drop 115) W (Proc.devRef .tc main_v135) = Cert.ReferenceIdeal.Read.val_main_v135 (F := F) x0 x1 x2 x3 x4 x5 x6 x7 x8 := by
  have e : (ops (F := F)).drop 115 = (binary main_v3 main_v86 main_v87 (addi : (⟨S262144, .i32⟩ : BufTy).Contents (Elt F) → (⟨S262144, .i32⟩ : BufTy).Contents (Elt F) → (⟨S262144, .i32⟩ : BufTy).Contents (Elt F)) : HloOp τ sig (Elt F)) :: (ops (F := F)).drop 116 := rfl
  rw [e, after_cons]
  refine chain_116 _ x0 x1 x2 x3 x4 x5 x6 x7 x8 ?_ ?_ ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v3
    · decide
  · rw [binary_result_ne]
    · exact h_main_v22
    · decide
  · rw [binary_result_ne]
    · exact h_main_v36
    · decide
  · rw [binary_result_ne]
    · exact h_main_v50
    · decide
  · rw [binary_result_ne]
    · exact h_main_v64
    · decide
  · rw [binary_result_ne]
    · exact h_main_v78
    · decide
  · rw [binary_result_ne]
    · exact h_main_v83
    · decide
  · rw [binary_result_ne]
    · exact h_main_v85
    · decide
  · rw [binary_result, h_main_v3, h_main_v86]; rfl

theorem chain_114 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v3 : W (Proc.devRef .tc main_v3) = (Cert.ReferenceIdeal.Read.val_main_v3 (F := F) x2))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v83 : W (Proc.devRef .tc main_v83) = (Cert.ReferenceIdeal.Read.val_main_v83 (F := F) x2))
    (h_main_v85 : W (Proc.devRef .tc main_v85) = (Cert.ReferenceIdeal.Read.val_main_v85 (F := F) x2))
    (h_main_c_23 : W (Proc.devRef .tc main_c_23) = (Cert.ReferenceIdeal.Read.val_main_c_23 (F := F))) :
    after ((ops (F := F)).drop 114) W (Proc.devRef .tc main_v135) = Cert.ReferenceIdeal.Read.val_main_v135 (F := F) x0 x1 x2 x3 x4 x5 x6 x7 x8 := by
  have e : (ops (F := F)).drop 114 = (unary main_c_23 main_v86 (broadcastInDim S262144 ![] bcast_S_S262144 : (⟨S_, .i32⟩ : BufTy).Contents (Elt F) → (⟨S262144, .i32⟩ : BufTy).Contents (Elt F)) : HloOp τ sig (Elt F)) :: (ops (F := F)).drop 115 := rfl
  rw [e, after_cons]
  refine chain_115 _ x0 x1 x2 x3 x4 x5 x6 x7 x8 ?_ ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v3
    · decide
  · rw [unary_result_ne]
    · exact h_main_v22
    · decide
  · rw [unary_result_ne]
    · exact h_main_v36
    · decide
  · rw [unary_result_ne]
    · exact h_main_v50
    · decide
  · rw [unary_result_ne]
    · exact h_main_v64
    · decide
  · rw [unary_result_ne]
    · exact h_main_v78
    · decide
  · rw [unary_result_ne]
    · exact h_main_v83
    · decide
  · rw [unary_result_ne]
    · exact h_main_v85
    · decide
  · rw [unary_result, h_main_c_23]; rfl

theorem chain_113 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v3 : W (Proc.devRef .tc main_v3) = (Cert.ReferenceIdeal.Read.val_main_v3 (F := F) x2))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v83 : W (Proc.devRef .tc main_v83) = (Cert.ReferenceIdeal.Read.val_main_v83 (F := F) x2))
    (h_main_v85 : W (Proc.devRef .tc main_v85) = (Cert.ReferenceIdeal.Read.val_main_v85 (F := F) x2)) :
    after ((ops (F := F)).drop 113) W (Proc.devRef .tc main_v135) = Cert.ReferenceIdeal.Read.val_main_v135 (F := F) x0 x1 x2 x3 x4 x5 x6 x7 x8 := by
  have e : (ops (F := F)).drop 113 = (nullary main_c_23 (constantI S_ 32 2048#32) : HloOp τ sig (Elt F)) :: (ops (F := F)).drop 114 := rfl
  rw [e, after_cons]
  refine chain_114 _ x0 x1 x2 x3 x4 x5 x6 x7 x8 ?_ ?_ ?_ ?_ ?_ ?_ ?_ ?_ ?_ ?_ ?_ ?_ ?_ ?_ ?_ ?_ ?_
  · rw [nullary_result_ne]
    · exact h_main_arg0
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v3
    · decide
  · rw [nullary_result_ne]
    · exact h_main_v22
    · decide
  · rw [nullary_result_ne]
    · exact h_main_v36
    · decide
  · rw [nullary_result_ne]
    · exact h_main_v50
    · decide
  · rw [nullary_result_ne]
    · exact h_main_v64
    · decide
  · rw [nullary_result_ne]
    · exact h_main_v78
    · decide
  · rw [nullary_result_ne]
    · exact h_main_v83
    · decide
  · rw [nullary_result_ne]
    · exact h_main_v85
    · decide
  · rw [nullary_result]; rfl

theorem chain_112 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v3 : W (Proc.devRef .tc main_v3) = (Cert.ReferenceIdeal.Read.val_main_v3 (F := F) x2))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v83 : W (Proc.devRef .tc main_v83) = (Cert.ReferenceIdeal.Read.val_main_v83 (F := F) x2))
    (h_main_v84 : W (Proc.devRef .tc main_v84) = (Cert.ReferenceIdeal.Read.val_main_v84 (F := F))) :
    after ((ops (F := F)).drop 112) W (Proc.devRef .tc main_v135) = Cert.ReferenceIdeal.Read.val_main_v135 (F := F) x0 x1 x2 x3 x4 x5 x6 x7 x8 := by
  have e : (ops (F := F)).drop 112 = (binary main_v3 main_v84 main_v85 (cmpi .slt : (⟨S262144, .i32⟩ : BufTy).Contents (Elt F) → (⟨S262144, .i32⟩ : BufTy).Contents (Elt F) → (⟨S262144, .i1⟩ : BufTy).Contents (Elt F)) : HloOp τ sig (Elt F)) :: (ops (F := F)).drop 113 := rfl
  rw [e, after_cons]
  refine chain_113 _ x0 x1 x2 x3 x4 x5 x6 x7 x8 ?_ ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v3
    · decide
  · rw [binary_result_ne]
    · exact h_main_v22
    · decide
  · rw [binary_result_ne]
    · exact h_main_v36
    · decide
  · rw [binary_result_ne]
    · exact h_main_v50
    · decide
  · rw [binary_result_ne]
    · exact h_main_v64
    · decide
  · rw [binary_result_ne]
    · exact h_main_v78
    · decide
  · rw [binary_result_ne]
    · exact h_main_v83
    · decide
  · rw [binary_result, h_main_v3, h_main_v84]; rfl

theorem chain_111 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v3 : W (Proc.devRef .tc main_v3) = (Cert.ReferenceIdeal.Read.val_main_v3 (F := F) x2))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v83 : W (Proc.devRef .tc main_v83) = (Cert.ReferenceIdeal.Read.val_main_v83 (F := F) x2))
    (h_main_c_22 : W (Proc.devRef .tc main_c_22) = (Cert.ReferenceIdeal.Read.val_main_c_22 (F := F))) :
    after ((ops (F := F)).drop 111) W (Proc.devRef .tc main_v135) = Cert.ReferenceIdeal.Read.val_main_v135 (F := F) x0 x1 x2 x3 x4 x5 x6 x7 x8 := by
  have e : (ops (F := F)).drop 111 = (unary main_c_22 main_v84 (broadcastInDim S262144 ![] bcast_S_S262144 : (⟨S_, .i32⟩ : BufTy).Contents (Elt F) → (⟨S262144, .i32⟩ : BufTy).Contents (Elt F)) : HloOp τ sig (Elt F)) :: (ops (F := F)).drop 112 := rfl
  rw [e, after_cons]
  refine chain_112 _ x0 x1 x2 x3 x4 x5 x6 x7 x8 ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v3
    · decide
  · rw [unary_result_ne]
    · exact h_main_v22
    · decide
  · rw [unary_result_ne]
    · exact h_main_v36
    · decide
  · rw [unary_result_ne]
    · exact h_main_v50
    · decide
  · rw [unary_result_ne]
    · exact h_main_v64
    · decide
  · rw [unary_result_ne]
    · exact h_main_v78
    · decide
  · rw [unary_result_ne]
    · exact h_main_v83
    · decide
  · rw [unary_result, h_main_c_22]; rfl

theorem chain_110 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v3 : W (Proc.devRef .tc main_v3) = (Cert.ReferenceIdeal.Read.val_main_v3 (F := F) x2))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v83 : W (Proc.devRef .tc main_v83) = (Cert.ReferenceIdeal.Read.val_main_v83 (F := F) x2)) :
    after ((ops (F := F)).drop 110) W (Proc.devRef .tc main_v135) = Cert.ReferenceIdeal.Read.val_main_v135 (F := F) x0 x1 x2 x3 x4 x5 x6 x7 x8 := by
  have e : (ops (F := F)).drop 110 = (nullary main_c_22 (constantI S_ 32 0#32) : HloOp τ sig (Elt F)) :: (ops (F := F)).drop 111 := rfl
  rw [e, after_cons]
  refine chain_111 _ x0 x1 x2 x3 x4 x5 x6 x7 x8 ?_ ?_ ?_ ?_ ?_ ?_ ?_ ?_ ?_ ?_ ?_ ?_ ?_ ?_ ?_ ?_
  · rw [nullary_result_ne]
    · exact h_main_arg0
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v3
    · decide
  · rw [nullary_result_ne]
    · exact h_main_v22
    · decide
  · rw [nullary_result_ne]
    · exact h_main_v36
    · decide
  · rw [nullary_result_ne]
    · exact h_main_v50
    · decide
  · rw [nullary_result_ne]
    · exact h_main_v64
    · decide
  · rw [nullary_result_ne]
    · exact h_main_v78
    · decide
  · rw [nullary_result_ne]
    · exact h_main_v83
    · decide
  · rw [nullary_result]; rfl

theorem chain_109 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v80 : W (Proc.devRef .tc main_v80) = (Cert.ReferenceIdeal.Read.val_main_v80 (F := F) x2))
    (h_main_v82 : W (Proc.devRef .tc main_v82) = (Cert.ReferenceIdeal.Read.val_main_v82 (F := F) x2)) :
    after ((ops (F := F)).drop 109) W (Proc.devRef .tc main_v135) = Cert.ReferenceIdeal.Read.val_main_v135 (F := F) x0 x1 x2 x3 x4 x5 x6 x7 x8 := by
  have e : (ops (F := F)).drop 109 = (ternary main_v80 main_v82 main_v1 main_v83 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) : HloOp τ sig (Elt F)) :: (ops (F := F)).drop 110 := rfl
  rw [e, after_cons]
  refine chain_110 _ x0 x1 x2 x3 x4 x5 x6 x7 x8 ?_ ?_ ?_ ?_ ?_ ?_ ?_ ?_ ?_ ?_ ?_ ?_ ?_ ?_ ?_
  · rw [ternary_result_ne]
    · exact h_main_arg0
    · decide
  · rw [ternary_result_ne]
    · exact h_main_arg2
    · decide
  · rw [ternary_result_ne]
    · exact h_main_arg3
    · decide
  · rw [ternary_result_ne]
    · exact h_main_arg4
    · decide
  · rw [ternary_result_ne]
    · exact h_main_arg5
    · decide
  · rw [ternary_result_ne]
    · exact h_main_arg6
    · decide
  · rw [ternary_result_ne]
    · exact h_main_arg7
    · decide
  · rw [ternary_result_ne]
    · exact h_main_arg8
    · decide
  · rw [ternary_result_ne]
    · exact h_main_v3
    · decide
  · rw [ternary_result_ne]
    · exact h_main_v22
    · decide
  · rw [ternary_result_ne]
    · exact h_main_v36
    · decide
  · rw [ternary_result_ne]
    · exact h_main_v50
    · decide
  · rw [ternary_result_ne]
    · exact h_main_v64
    · decide
  · rw [ternary_result_ne]
    · exact h_main_v78
    · decide
  · rw [ternary_result, h_main_v80, h_main_v82, h_main_v1]; rfl

theorem chain_108 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v80 : W (Proc.devRef .tc main_v80) = (Cert.ReferenceIdeal.Read.val_main_v80 (F := F) x2))
    (h_main_v81 : W (Proc.devRef .tc main_v81) = (Cert.ReferenceIdeal.Read.val_main_v81 (F := F))) :
    after ((ops (F := F)).drop 108) W (Proc.devRef .tc main_v135) = Cert.ReferenceIdeal.Read.val_main_v135 (F := F) x0 x1 x2 x3 x4 x5 x6 x7 x8 := by
  have e : (ops (F := F)).drop 108 = (binary main_v1 main_v81 main_v82 (addi : (⟨S262144, .i32⟩ : BufTy).Contents (Elt F) → (⟨S262144, .i32⟩ : BufTy).Contents (Elt F) → (⟨S262144, .i32⟩ : BufTy).Contents (Elt F)) : HloOp τ sig (Elt F)) :: (ops (F := F)).drop 109 := rfl
  rw [e, after_cons]
  refine chain_109 _ x0 x1 x2 x3 x4 x5 x6 x7 x8 ?_ ?_ ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v22
    · decide
  · rw [binary_result_ne]
    · exact h_main_v36
    · decide
  · rw [binary_result_ne]
    · exact h_main_v50
    · decide
  · rw [binary_result_ne]
    · exact h_main_v64
    · decide
  · rw [binary_result_ne]
    · exact h_main_v78
    · decide
  · rw [binary_result_ne]
    · exact h_main_v80
    · decide
  · rw [binary_result, h_main_v1, h_main_v81]; rfl

theorem chain_107 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v80 : W (Proc.devRef .tc main_v80) = (Cert.ReferenceIdeal.Read.val_main_v80 (F := F) x2))
    (h_main_c_21 : W (Proc.devRef .tc main_c_21) = (Cert.ReferenceIdeal.Read.val_main_c_21 (F := F))) :
    after ((ops (F := F)).drop 107) W (Proc.devRef .tc main_v135) = Cert.ReferenceIdeal.Read.val_main_v135 (F := F) x0 x1 x2 x3 x4 x5 x6 x7 x8 := by
  have e : (ops (F := F)).drop 107 = (unary main_c_21 main_v81 (broadcastInDim S262144 ![] bcast_S_S262144 : (⟨S_, .i32⟩ : BufTy).Contents (Elt F) → (⟨S262144, .i32⟩ : BufTy).Contents (Elt F)) : HloOp τ sig (Elt F)) :: (ops (F := F)).drop 108 := rfl
  rw [e, after_cons]
  refine chain_108 _ x0 x1 x2 x3 x4 x5 x6 x7 x8 ?_ ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v22
    · decide
  · rw [unary_result_ne]
    · exact h_main_v36
    · decide
  · rw [unary_result_ne]
    · exact h_main_v50
    · decide
  · rw [unary_result_ne]
    · exact h_main_v64
    · decide
  · rw [unary_result_ne]
    · exact h_main_v78
    · decide
  · rw [unary_result_ne]
    · exact h_main_v80
    · decide
  · rw [unary_result, h_main_c_21]; rfl

theorem chain_106 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v80 : W (Proc.devRef .tc main_v80) = (Cert.ReferenceIdeal.Read.val_main_v80 (F := F) x2)) :
    after ((ops (F := F)).drop 106) W (Proc.devRef .tc main_v135) = Cert.ReferenceIdeal.Read.val_main_v135 (F := F) x0 x1 x2 x3 x4 x5 x6 x7 x8 := by
  have e : (ops (F := F)).drop 106 = (nullary main_c_21 (constantI S_ 32 2048#32) : HloOp τ sig (Elt F)) :: (ops (F := F)).drop 107 := rfl
  rw [e, after_cons]
  refine chain_107 _ x0 x1 x2 x3 x4 x5 x6 x7 x8 ?_ ?_ ?_ ?_ ?_ ?_ ?_ ?_ ?_ ?_ ?_ ?_ ?_ ?_ ?_ ?_ ?_
  · rw [nullary_result_ne]
    · exact h_main_arg0
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v22
    · decide
  · rw [nullary_result_ne]
    · exact h_main_v36
    · decide
  · rw [nullary_result_ne]
    · exact h_main_v50
    · decide
  · rw [nullary_result_ne]
    · exact h_main_v64
    · decide
  · rw [nullary_result_ne]
    · exact h_main_v78
    · decide
  · rw [nullary_result_ne]
    · exact h_main_v80
    · decide
  · rw [nullary_result]; rfl

theorem chain_105 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_v79 : W (Proc.devRef .tc main_v79) = (Cert.ReferenceIdeal.Read.val_main_v79 (F := F))) :
    after ((ops (F := F)).drop 105) W (Proc.devRef .tc main_v135) = Cert.ReferenceIdeal.Read.val_main_v135 (F := F) x0 x1 x2 x3 x4 x5 x6 x7 x8 := by
  have e : (ops (F := F)).drop 105 = (binary main_v1 main_v79 main_v80 (cmpi .slt : (⟨S262144, .i32⟩ : BufTy).Contents (Elt F) → (⟨S262144, .i32⟩ : BufTy).Contents (Elt F) → (⟨S262144, .i1⟩ : BufTy).Contents (Elt F)) : HloOp τ sig (Elt F)) :: (ops (F := F)).drop 106 := rfl
  rw [e, after_cons]
  refine chain_106 _ x0 x1 x2 x3 x4 x5 x6 x7 x8 ?_ ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v22
    · decide
  · rw [binary_result_ne]
    · exact h_main_v36
    · decide
  · rw [binary_result_ne]
    · exact h_main_v50
    · decide
  · rw [binary_result_ne]
    · exact h_main_v64
    · decide
  · rw [binary_result_ne]
    · exact h_main_v78
    · decide
  · rw [binary_result, h_main_v1, h_main_v79]; rfl

theorem chain_104 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2))
    (h_main_c_20 : W (Proc.devRef .tc main_c_20) = (Cert.ReferenceIdeal.Read.val_main_c_20 (F := F))) :
    after ((ops (F := F)).drop 104) W (Proc.devRef .tc main_v135) = Cert.ReferenceIdeal.Read.val_main_v135 (F := F) x0 x1 x2 x3 x4 x5 x6 x7 x8 := by
  have e : (ops (F := F)).drop 104 = (unary main_c_20 main_v79 (broadcastInDim S262144 ![] bcast_S_S262144 : (⟨S_, .i32⟩ : BufTy).Contents (Elt F) → (⟨S262144, .i32⟩ : BufTy).Contents (Elt F)) : HloOp τ sig (Elt F)) :: (ops (F := F)).drop 105 := rfl
  rw [e, after_cons]
  refine chain_105 _ x0 x1 x2 x3 x4 x5 x6 x7 x8 ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v22
    · decide
  · rw [unary_result_ne]
    · exact h_main_v36
    · decide
  · rw [unary_result_ne]
    · exact h_main_v50
    · decide
  · rw [unary_result_ne]
    · exact h_main_v64
    · decide
  · rw [unary_result_ne]
    · exact h_main_v78
    · decide
  · rw [unary_result, h_main_c_20]; rfl

theorem chain_103 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v78 : W (Proc.devRef .tc main_v78) = (Cert.ReferenceIdeal.Read.val_main_v78 (F := F) x1 x2)) :
    after ((ops (F := F)).drop 103) W (Proc.devRef .tc main_v135) = Cert.ReferenceIdeal.Read.val_main_v135 (F := F) x0 x1 x2 x3 x4 x5 x6 x7 x8 := by
  have e : (ops (F := F)).drop 103 = (nullary main_c_20 (constantI S_ 32 0#32) : HloOp τ sig (Elt F)) :: (ops (F := F)).drop 104 := rfl
  rw [e, after_cons]
  refine chain_104 _ x0 x1 x2 x3 x4 x5 x6 x7 x8 ?_ ?_ ?_ ?_ ?_ ?_ ?_ ?_ ?_ ?_ ?_ ?_ ?_ ?_ ?_ ?_
  · rw [nullary_result_ne]
    · exact h_main_arg0
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v22
    · decide
  · rw [nullary_result_ne]
    · exact h_main_v36
    · decide
  · rw [nullary_result_ne]
    · exact h_main_v50
    · decide
  · rw [nullary_result_ne]
    · exact h_main_v64
    · decide
  · rw [nullary_result_ne]
    · exact h_main_v78
    · decide
  · rw [nullary_result]; rfl

theorem chain_102 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v77 : W (Proc.devRef .tc main_v77) = (Cert.ReferenceIdeal.Read.val_main_v77 (F := F) x2)) :
    after ((ops (F := F)).drop 102) W (Proc.devRef .tc main_v135) = Cert.ReferenceIdeal.Read.val_main_v135 (F := F) x0 x1 x2 x3 x4 x5 x6 x7 x8 := by
  have e : (ops (F := F)).drop 102 = (binary main_v21 main_v77 main_v78 ((fun x i => Host.gather gather_S2048x2048_S262144x2_S262144_n_01_n_n_01_1_11 x i) : (⟨S2048x2048, .f32⟩ : BufTy).Contents (Elt F) → (⟨S262144x2, .i32⟩ : BufTy).Contents (Elt F) → (⟨S262144, .f32⟩ : BufTy).Contents (Elt F)) : HloOp τ sig (Elt F)) :: (ops (F := F)).drop 103 := rfl
  rw [e, after_cons]
  refine chain_103 _ x0 x1 x2 x3 x4 x5 x6 x7 x8 ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v22
    · decide
  · rw [binary_result_ne]
    · exact h_main_v36
    · decide
  · rw [binary_result_ne]
    · exact h_main_v50
    · decide
  · rw [binary_result_ne]
    · exact h_main_v64
    · decide
  · rw [binary_result, h_main_v21, h_main_v77]; rfl

theorem chain_101 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v75 : W (Proc.devRef .tc main_v75) = (Cert.ReferenceIdeal.Read.val_main_v75 (F := F) x2))
    (h_main_v76 : W (Proc.devRef .tc main_v76) = (Cert.ReferenceIdeal.Read.val_main_v76 (F := F) x2)) :
    after ((ops (F := F)).drop 101) W (Proc.devRef .tc main_v135) = Cert.ReferenceIdeal.Read.val_main_v135 (F := F) x0 x1 x2 x3 x4 x5 x6 x7 x8 := by
  have e : (ops (F := F)).drop 101 = (binary main_v75 main_v76 main_v77 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)) : HloOp τ sig (Elt F)) :: (ops (F := F)).drop 102 := rfl
  rw [e, after_cons]
  refine chain_102 _ x0 x1 x2 x3 x4 x5 x6 x7 x8 ?_ ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v21
    · decide
  · rw [binary_result_ne]
    · exact h_main_v22
    · decide
  · rw [binary_result_ne]
    · exact h_main_v36
    · decide
  · rw [binary_result_ne]
    · exact h_main_v50
    · decide
  · rw [binary_result_ne]
    · exact h_main_v64
    · decide
  · rw [binary_result, h_main_v75, h_main_v76]; rfl

theorem chain_100 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v74 : W (Proc.devRef .tc main_v74) = (Cert.ReferenceIdeal.Read.val_main_v74 (F := F) x2))
    (h_main_v75 : W (Proc.devRef .tc main_v75) = (Cert.ReferenceIdeal.Read.val_main_v75 (F := F) x2)) :
    after ((ops (F := F)).drop 100) W (Proc.devRef .tc main_v135) = Cert.ReferenceIdeal.Read.val_main_v135 (F := F) x0 x1 x2 x3 x4 x5 x6 x7 x8 := by
  have e : (ops (F := F)).drop 100 = (unary main_v74 main_v76 (broadcastInDim S262144x1 ![0] bcast_S262144_S262144x1_0 : (⟨S262144, .i32⟩ : BufTy).Contents (Elt F) → (⟨S262144x1, .i32⟩ : BufTy).Contents (Elt F)) : HloOp τ sig (Elt F)) :: (ops (F := F)).drop 101 := rfl
  rw [e, after_cons]
  refine chain_101 _ x0 x1 x2 x3 x4 x5 x6 x7 x8 ?_ ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v21
    · decide
  · rw [unary_result_ne]
    · exact h_main_v22
    · decide
  · rw [unary_result_ne]
    · exact h_main_v36
    · decide
  · rw [unary_result_ne]
    · exact h_main_v50
    · decide
  · rw [unary_result_ne]
    · exact h_main_v64
    · decide
  · rw [unary_result_ne]
    · exact h_main_v75
    · decide
  · rw [unary_result, h_main_v74]; rfl

theorem chain_99 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v69 : W (Proc.devRef .tc main_v69) = (Cert.ReferenceIdeal.Read.val_main_v69 (F := F) x2))
    (h_main_v74 : W (Proc.devRef .tc main_v74) = (Cert.ReferenceIdeal.Read.val_main_v74 (F := F) x2)) :
    after ((ops (F := F)).drop 99) W (Proc.devRef .tc main_v135) = Cert.ReferenceIdeal.Read.val_main_v135 (F := F) x0 x1 x2 x3 x4 x5 x6 x7 x8 := by
  have e : (ops (F := F)).drop 99 = (unary main_v69 main_v75 (broadcastInDim S262144x1 ![0] bcast_S262144_S262144x1_0 : (⟨S262144, .i32⟩ : BufTy).Contents (Elt F) → (⟨S262144x1, .i32⟩ : BufTy).Contents (Elt F)) : HloOp τ sig (Elt F)) :: (ops (F := F)).drop 100 := rfl
  rw [e, after_cons]
  refine chain_100 _ x0 x1 x2 x3 x4 x5 x6 x7 x8 ?_ ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v21
    · decide
  · rw [unary_result_ne]
    · exact h_main_v22
    · decide
  · rw [unary_result_ne]
    · exact h_main_v36
    · decide
  · rw [unary_result_ne]
    · exact h_main_v50
    · decide
  · rw [unary_result_ne]
    · exact h_main_v64
    · decide
  · rw [unary_result_ne]
    · exact h_main_v74
    · decide
  · rw [unary_result, h_main_v69]; rfl

theorem chain_98 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v69 : W (Proc.devRef .tc main_v69) = (Cert.ReferenceIdeal.Read.val_main_v69 (F := F) x2))
    (h_main_v71 : W (Proc.devRef .tc main_v71) = (Cert.ReferenceIdeal.Read.val_main_v71 (F := F) x2))
    (h_main_v73 : W (Proc.devRef .tc main_v73) = (Cert.ReferenceIdeal.Read.val_main_v73 (F := F) x2)) :
    after ((ops (F := F)).drop 98) W (Proc.devRef .tc main_v135) = Cert.ReferenceIdeal.Read.val_main_v135 (F := F) x0 x1 x2 x3 x4 x5 x6 x7 x8 := by
  have e : (ops (F := F)).drop 98 = (ternary main_v71 main_v73 main_v1 main_v74 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) : HloOp τ sig (Elt F)) :: (ops (F := F)).drop 99 := rfl
  rw [e, after_cons]
  refine chain_99 _ x0 x1 x2 x3 x4 x5 x6 x7 x8 ?_ ?_ ?_ ?_ ?_ ?_ ?_ ?_ ?_ ?_ ?_ ?_ ?_ ?_ ?_ ?_ ?_
  · rw [ternary_result_ne]
    · exact h_main_arg0
    · decide
  · rw [ternary_result_ne]
    · exact h_main_arg2
    · decide
  · rw [ternary_result_ne]
    · exact h_main_arg3
    · decide
  · rw [ternary_result_ne]
    · exact h_main_arg4
    · decide
  · rw [ternary_result_ne]
    · exact h_main_arg5
    · decide
  · rw [ternary_result_ne]
    · exact h_main_arg6
    · decide
  · rw [ternary_result_ne]
    · exact h_main_arg7
    · decide
  · rw [ternary_result_ne]
    · exact h_main_arg8
    · decide
  · rw [ternary_result_ne]
    · exact h_main_v1
    · decide
  · rw [ternary_result_ne]
    · exact h_main_v3
    · decide
  · rw [ternary_result_ne]
    · exact h_main_v21
    · decide
  · rw [ternary_result_ne]
    · exact h_main_v22
    · decide
  · rw [ternary_result_ne]
    · exact h_main_v36
    · decide
  · rw [ternary_result_ne]
    · exact h_main_v50
    · decide
  · rw [ternary_result_ne]
    · exact h_main_v64
    · decide
  · rw [ternary_result_ne]
    · exact h_main_v69
    · decide
  · rw [ternary_result, h_main_v71, h_main_v73, h_main_v1]; rfl

theorem chain_97 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v69 : W (Proc.devRef .tc main_v69) = (Cert.ReferenceIdeal.Read.val_main_v69 (F := F) x2))
    (h_main_v71 : W (Proc.devRef .tc main_v71) = (Cert.ReferenceIdeal.Read.val_main_v71 (F := F) x2))
    (h_main_v72 : W (Proc.devRef .tc main_v72) = (Cert.ReferenceIdeal.Read.val_main_v72 (F := F))) :
    after ((ops (F := F)).drop 97) W (Proc.devRef .tc main_v135) = Cert.ReferenceIdeal.Read.val_main_v135 (F := F) x0 x1 x2 x3 x4 x5 x6 x7 x8 := by
  have e : (ops (F := F)).drop 97 = (binary main_v1 main_v72 main_v73 (addi : (⟨S262144, .i32⟩ : BufTy).Contents (Elt F) → (⟨S262144, .i32⟩ : BufTy).Contents (Elt F) → (⟨S262144, .i32⟩ : BufTy).Contents (Elt F)) : HloOp τ sig (Elt F)) :: (ops (F := F)).drop 98 := rfl
  rw [e, after_cons]
  refine chain_98 _ x0 x1 x2 x3 x4 x5 x6 x7 x8 ?_ ?_ ?_ ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v21
    · decide
  · rw [binary_result_ne]
    · exact h_main_v22
    · decide
  · rw [binary_result_ne]
    · exact h_main_v36
    · decide
  · rw [binary_result_ne]
    · exact h_main_v50
    · decide
  · rw [binary_result_ne]
    · exact h_main_v64
    · decide
  · rw [binary_result_ne]
    · exact h_main_v69
    · decide
  · rw [binary_result_ne]
    · exact h_main_v71
    · decide
  · rw [binary_result, h_main_v1, h_main_v72]; rfl

theorem chain_96 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v69 : W (Proc.devRef .tc main_v69) = (Cert.ReferenceIdeal.Read.val_main_v69 (F := F) x2))
    (h_main_v71 : W (Proc.devRef .tc main_v71) = (Cert.ReferenceIdeal.Read.val_main_v71 (F := F) x2))
    (h_main_c_19 : W (Proc.devRef .tc main_c_19) = (Cert.ReferenceIdeal.Read.val_main_c_19 (F := F))) :
    after ((ops (F := F)).drop 96) W (Proc.devRef .tc main_v135) = Cert.ReferenceIdeal.Read.val_main_v135 (F := F) x0 x1 x2 x3 x4 x5 x6 x7 x8 := by
  have e : (ops (F := F)).drop 96 = (unary main_c_19 main_v72 (broadcastInDim S262144 ![] bcast_S_S262144 : (⟨S_, .i32⟩ : BufTy).Contents (Elt F) → (⟨S262144, .i32⟩ : BufTy).Contents (Elt F)) : HloOp τ sig (Elt F)) :: (ops (F := F)).drop 97 := rfl
  rw [e, after_cons]
  refine chain_97 _ x0 x1 x2 x3 x4 x5 x6 x7 x8 ?_ ?_ ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v21
    · decide
  · rw [unary_result_ne]
    · exact h_main_v22
    · decide
  · rw [unary_result_ne]
    · exact h_main_v36
    · decide
  · rw [unary_result_ne]
    · exact h_main_v50
    · decide
  · rw [unary_result_ne]
    · exact h_main_v64
    · decide
  · rw [unary_result_ne]
    · exact h_main_v69
    · decide
  · rw [unary_result_ne]
    · exact h_main_v71
    · decide
  · rw [unary_result, h_main_c_19]; rfl

theorem chain_95 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v69 : W (Proc.devRef .tc main_v69) = (Cert.ReferenceIdeal.Read.val_main_v69 (F := F) x2))
    (h_main_v71 : W (Proc.devRef .tc main_v71) = (Cert.ReferenceIdeal.Read.val_main_v71 (F := F) x2)) :
    after ((ops (F := F)).drop 95) W (Proc.devRef .tc main_v135) = Cert.ReferenceIdeal.Read.val_main_v135 (F := F) x0 x1 x2 x3 x4 x5 x6 x7 x8 := by
  have e : (ops (F := F)).drop 95 = (nullary main_c_19 (constantI S_ 32 2048#32) : HloOp τ sig (Elt F)) :: (ops (F := F)).drop 96 := rfl
  rw [e, after_cons]
  refine chain_96 _ x0 x1 x2 x3 x4 x5 x6 x7 x8 ?_ ?_ ?_ ?_ ?_ ?_ ?_ ?_ ?_ ?_ ?_ ?_ ?_ ?_ ?_ ?_ ?_ ?_
  · rw [nullary_result_ne]
    · exact h_main_arg0
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v21
    · decide
  · rw [nullary_result_ne]
    · exact h_main_v22
    · decide
  · rw [nullary_result_ne]
    · exact h_main_v36
    · decide
  · rw [nullary_result_ne]
    · exact h_main_v50
    · decide
  · rw [nullary_result_ne]
    · exact h_main_v64
    · decide
  · rw [nullary_result_ne]
    · exact h_main_v69
    · decide
  · rw [nullary_result_ne]
    · exact h_main_v71
    · decide
  · rw [nullary_result]; rfl

theorem chain_94 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v69 : W (Proc.devRef .tc main_v69) = (Cert.ReferenceIdeal.Read.val_main_v69 (F := F) x2))
    (h_main_v70 : W (Proc.devRef .tc main_v70) = (Cert.ReferenceIdeal.Read.val_main_v70 (F := F))) :
    after ((ops (F := F)).drop 94) W (Proc.devRef .tc main_v135) = Cert.ReferenceIdeal.Read.val_main_v135 (F := F) x0 x1 x2 x3 x4 x5 x6 x7 x8 := by
  have e : (ops (F := F)).drop 94 = (binary main_v1 main_v70 main_v71 (cmpi .slt : (⟨S262144, .i32⟩ : BufTy).Contents (Elt F) → (⟨S262144, .i32⟩ : BufTy).Contents (Elt F) → (⟨S262144, .i1⟩ : BufTy).Contents (Elt F)) : HloOp τ sig (Elt F)) :: (ops (F := F)).drop 95 := rfl
  rw [e, after_cons]
  refine chain_95 _ x0 x1 x2 x3 x4 x5 x6 x7 x8 ?_ ?_ ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v21
    · decide
  · rw [binary_result_ne]
    · exact h_main_v22
    · decide
  · rw [binary_result_ne]
    · exact h_main_v36
    · decide
  · rw [binary_result_ne]
    · exact h_main_v50
    · decide
  · rw [binary_result_ne]
    · exact h_main_v64
    · decide
  · rw [binary_result_ne]
    · exact h_main_v69
    · decide
  · rw [binary_result, h_main_v1, h_main_v70]; rfl

theorem chain_93 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v69 : W (Proc.devRef .tc main_v69) = (Cert.ReferenceIdeal.Read.val_main_v69 (F := F) x2))
    (h_main_c_18 : W (Proc.devRef .tc main_c_18) = (Cert.ReferenceIdeal.Read.val_main_c_18 (F := F))) :
    after ((ops (F := F)).drop 93) W (Proc.devRef .tc main_v135) = Cert.ReferenceIdeal.Read.val_main_v135 (F := F) x0 x1 x2 x3 x4 x5 x6 x7 x8 := by
  have e : (ops (F := F)).drop 93 = (unary main_c_18 main_v70 (broadcastInDim S262144 ![] bcast_S_S262144 : (⟨S_, .i32⟩ : BufTy).Contents (Elt F) → (⟨S262144, .i32⟩ : BufTy).Contents (Elt F)) : HloOp τ sig (Elt F)) :: (ops (F := F)).drop 94 := rfl
  rw [e, after_cons]
  refine chain_94 _ x0 x1 x2 x3 x4 x5 x6 x7 x8 ?_ ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v21
    · decide
  · rw [unary_result_ne]
    · exact h_main_v22
    · decide
  · rw [unary_result_ne]
    · exact h_main_v36
    · decide
  · rw [unary_result_ne]
    · exact h_main_v50
    · decide
  · rw [unary_result_ne]
    · exact h_main_v64
    · decide
  · rw [unary_result_ne]
    · exact h_main_v69
    · decide
  · rw [unary_result, h_main_c_18]; rfl

theorem chain_92 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v69 : W (Proc.devRef .tc main_v69) = (Cert.ReferenceIdeal.Read.val_main_v69 (F := F) x2)) :
    after ((ops (F := F)).drop 92) W (Proc.devRef .tc main_v135) = Cert.ReferenceIdeal.Read.val_main_v135 (F := F) x0 x1 x2 x3 x4 x5 x6 x7 x8 := by
  have e : (ops (F := F)).drop 92 = (nullary main_c_18 (constantI S_ 32 0#32) : HloOp τ sig (Elt F)) :: (ops (F := F)).drop 93 := rfl
  rw [e, after_cons]
  refine chain_93 _ x0 x1 x2 x3 x4 x5 x6 x7 x8 ?_ ?_ ?_ ?_ ?_ ?_ ?_ ?_ ?_ ?_ ?_ ?_ ?_ ?_ ?_ ?_ ?_
  · rw [nullary_result_ne]
    · exact h_main_arg0
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v21
    · decide
  · rw [nullary_result_ne]
    · exact h_main_v22
    · decide
  · rw [nullary_result_ne]
    · exact h_main_v36
    · decide
  · rw [nullary_result_ne]
    · exact h_main_v50
    · decide
  · rw [nullary_result_ne]
    · exact h_main_v64
    · decide
  · rw [nullary_result_ne]
    · exact h_main_v69
    · decide
  · rw [nullary_result]; rfl

theorem chain_91 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v66 : W (Proc.devRef .tc main_v66) = (Cert.ReferenceIdeal.Read.val_main_v66 (F := F) x2))
    (h_main_v68 : W (Proc.devRef .tc main_v68) = (Cert.ReferenceIdeal.Read.val_main_v68 (F := F) x2)) :
    after ((ops (F := F)).drop 91) W (Proc.devRef .tc main_v135) = Cert.ReferenceIdeal.Read.val_main_v135 (F := F) x0 x1 x2 x3 x4 x5 x6 x7 x8 := by
  have e : (ops (F := F)).drop 91 = (ternary main_v66 main_v68 main_v3 main_v69 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) : HloOp τ sig (Elt F)) :: (ops (F := F)).drop 92 := rfl
  rw [e, after_cons]
  refine chain_92 _ x0 x1 x2 x3 x4 x5 x6 x7 x8 ?_ ?_ ?_ ?_ ?_ ?_ ?_ ?_ ?_ ?_ ?_ ?_ ?_ ?_ ?_ ?_
  · rw [ternary_result_ne]
    · exact h_main_arg0
    · decide
  · rw [ternary_result_ne]
    · exact h_main_arg2
    · decide
  · rw [ternary_result_ne]
    · exact h_main_arg3
    · decide
  · rw [ternary_result_ne]
    · exact h_main_arg4
    · decide
  · rw [ternary_result_ne]
    · exact h_main_arg5
    · decide
  · rw [ternary_result_ne]
    · exact h_main_arg6
    · decide
  · rw [ternary_result_ne]
    · exact h_main_arg7
    · decide
  · rw [ternary_result_ne]
    · exact h_main_arg8
    · decide
  · rw [ternary_result_ne]
    · exact h_main_v1
    · decide
  · rw [ternary_result_ne]
    · exact h_main_v3
    · decide
  · rw [ternary_result_ne]
    · exact h_main_v21
    · decide
  · rw [ternary_result_ne]
    · exact h_main_v22
    · decide
  · rw [ternary_result_ne]
    · exact h_main_v36
    · decide
  · rw [ternary_result_ne]
    · exact h_main_v50
    · decide
  · rw [ternary_result_ne]
    · exact h_main_v64
    · decide
  · rw [ternary_result, h_main_v66, h_main_v68, h_main_v3]; rfl

theorem chain_90 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v66 : W (Proc.devRef .tc main_v66) = (Cert.ReferenceIdeal.Read.val_main_v66 (F := F) x2))
    (h_main_v67 : W (Proc.devRef .tc main_v67) = (Cert.ReferenceIdeal.Read.val_main_v67 (F := F))) :
    after ((ops (F := F)).drop 90) W (Proc.devRef .tc main_v135) = Cert.ReferenceIdeal.Read.val_main_v135 (F := F) x0 x1 x2 x3 x4 x5 x6 x7 x8 := by
  have e : (ops (F := F)).drop 90 = (binary main_v3 main_v67 main_v68 (addi : (⟨S262144, .i32⟩ : BufTy).Contents (Elt F) → (⟨S262144, .i32⟩ : BufTy).Contents (Elt F) → (⟨S262144, .i32⟩ : BufTy).Contents (Elt F)) : HloOp τ sig (Elt F)) :: (ops (F := F)).drop 91 := rfl
  rw [e, after_cons]
  refine chain_91 _ x0 x1 x2 x3 x4 x5 x6 x7 x8 ?_ ?_ ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v21
    · decide
  · rw [binary_result_ne]
    · exact h_main_v22
    · decide
  · rw [binary_result_ne]
    · exact h_main_v36
    · decide
  · rw [binary_result_ne]
    · exact h_main_v50
    · decide
  · rw [binary_result_ne]
    · exact h_main_v64
    · decide
  · rw [binary_result_ne]
    · exact h_main_v66
    · decide
  · rw [binary_result, h_main_v3, h_main_v67]; rfl

theorem chain_89 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v66 : W (Proc.devRef .tc main_v66) = (Cert.ReferenceIdeal.Read.val_main_v66 (F := F) x2))
    (h_main_c_17 : W (Proc.devRef .tc main_c_17) = (Cert.ReferenceIdeal.Read.val_main_c_17 (F := F))) :
    after ((ops (F := F)).drop 89) W (Proc.devRef .tc main_v135) = Cert.ReferenceIdeal.Read.val_main_v135 (F := F) x0 x1 x2 x3 x4 x5 x6 x7 x8 := by
  have e : (ops (F := F)).drop 89 = (unary main_c_17 main_v67 (broadcastInDim S262144 ![] bcast_S_S262144 : (⟨S_, .i32⟩ : BufTy).Contents (Elt F) → (⟨S262144, .i32⟩ : BufTy).Contents (Elt F)) : HloOp τ sig (Elt F)) :: (ops (F := F)).drop 90 := rfl
  rw [e, after_cons]
  refine chain_90 _ x0 x1 x2 x3 x4 x5 x6 x7 x8 ?_ ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v21
    · decide
  · rw [unary_result_ne]
    · exact h_main_v22
    · decide
  · rw [unary_result_ne]
    · exact h_main_v36
    · decide
  · rw [unary_result_ne]
    · exact h_main_v50
    · decide
  · rw [unary_result_ne]
    · exact h_main_v64
    · decide
  · rw [unary_result_ne]
    · exact h_main_v66
    · decide
  · rw [unary_result, h_main_c_17]; rfl

theorem chain_88 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v66 : W (Proc.devRef .tc main_v66) = (Cert.ReferenceIdeal.Read.val_main_v66 (F := F) x2)) :
    after ((ops (F := F)).drop 88) W (Proc.devRef .tc main_v135) = Cert.ReferenceIdeal.Read.val_main_v135 (F := F) x0 x1 x2 x3 x4 x5 x6 x7 x8 := by
  have e : (ops (F := F)).drop 88 = (nullary main_c_17 (constantI S_ 32 2048#32) : HloOp τ sig (Elt F)) :: (ops (F := F)).drop 89 := rfl
  rw [e, after_cons]
  refine chain_89 _ x0 x1 x2 x3 x4 x5 x6 x7 x8 ?_ ?_ ?_ ?_ ?_ ?_ ?_ ?_ ?_ ?_ ?_ ?_ ?_ ?_ ?_ ?_ ?_
  · rw [nullary_result_ne]
    · exact h_main_arg0
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v21
    · decide
  · rw [nullary_result_ne]
    · exact h_main_v22
    · decide
  · rw [nullary_result_ne]
    · exact h_main_v36
    · decide
  · rw [nullary_result_ne]
    · exact h_main_v50
    · decide
  · rw [nullary_result_ne]
    · exact h_main_v64
    · decide
  · rw [nullary_result_ne]
    · exact h_main_v66
    · decide
  · rw [nullary_result]; rfl

theorem chain_87 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_v65 : W (Proc.devRef .tc main_v65) = (Cert.ReferenceIdeal.Read.val_main_v65 (F := F))) :
    after ((ops (F := F)).drop 87) W (Proc.devRef .tc main_v135) = Cert.ReferenceIdeal.Read.val_main_v135 (F := F) x0 x1 x2 x3 x4 x5 x6 x7 x8 := by
  have e : (ops (F := F)).drop 87 = (binary main_v3 main_v65 main_v66 (cmpi .slt : (⟨S262144, .i32⟩ : BufTy).Contents (Elt F) → (⟨S262144, .i32⟩ : BufTy).Contents (Elt F) → (⟨S262144, .i1⟩ : BufTy).Contents (Elt F)) : HloOp τ sig (Elt F)) :: (ops (F := F)).drop 88 := rfl
  rw [e, after_cons]
  refine chain_88 _ x0 x1 x2 x3 x4 x5 x6 x7 x8 ?_ ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v21
    · decide
  · rw [binary_result_ne]
    · exact h_main_v22
    · decide
  · rw [binary_result_ne]
    · exact h_main_v36
    · decide
  · rw [binary_result_ne]
    · exact h_main_v50
    · decide
  · rw [binary_result_ne]
    · exact h_main_v64
    · decide
  · rw [binary_result, h_main_v3, h_main_v65]; rfl

theorem chain_86 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2))
    (h_main_c_16 : W (Proc.devRef .tc main_c_16) = (Cert.ReferenceIdeal.Read.val_main_c_16 (F := F))) :
    after ((ops (F := F)).drop 86) W (Proc.devRef .tc main_v135) = Cert.ReferenceIdeal.Read.val_main_v135 (F := F) x0 x1 x2 x3 x4 x5 x6 x7 x8 := by
  have e : (ops (F := F)).drop 86 = (unary main_c_16 main_v65 (broadcastInDim S262144 ![] bcast_S_S262144 : (⟨S_, .i32⟩ : BufTy).Contents (Elt F) → (⟨S262144, .i32⟩ : BufTy).Contents (Elt F)) : HloOp τ sig (Elt F)) :: (ops (F := F)).drop 87 := rfl
  rw [e, after_cons]
  refine chain_87 _ x0 x1 x2 x3 x4 x5 x6 x7 x8 ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v21
    · decide
  · rw [unary_result_ne]
    · exact h_main_v22
    · decide
  · rw [unary_result_ne]
    · exact h_main_v36
    · decide
  · rw [unary_result_ne]
    · exact h_main_v50
    · decide
  · rw [unary_result_ne]
    · exact h_main_v64
    · decide
  · rw [unary_result, h_main_c_16]; rfl

theorem chain_85 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v64 : W (Proc.devRef .tc main_v64) = (Cert.ReferenceIdeal.Read.val_main_v64 (F := F) x1 x2)) :
    after ((ops (F := F)).drop 85) W (Proc.devRef .tc main_v135) = Cert.ReferenceIdeal.Read.val_main_v135 (F := F) x0 x1 x2 x3 x4 x5 x6 x7 x8 := by
  have e : (ops (F := F)).drop 85 = (nullary main_c_16 (constantI S_ 32 0#32) : HloOp τ sig (Elt F)) :: (ops (F := F)).drop 86 := rfl
  rw [e, after_cons]
  refine chain_86 _ x0 x1 x2 x3 x4 x5 x6 x7 x8 ?_ ?_ ?_ ?_ ?_ ?_ ?_ ?_ ?_ ?_ ?_ ?_ ?_ ?_ ?_ ?_
  · rw [nullary_result_ne]
    · exact h_main_arg0
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v21
    · decide
  · rw [nullary_result_ne]
    · exact h_main_v22
    · decide
  · rw [nullary_result_ne]
    · exact h_main_v36
    · decide
  · rw [nullary_result_ne]
    · exact h_main_v50
    · decide
  · rw [nullary_result_ne]
    · exact h_main_v64
    · decide
  · rw [nullary_result]; rfl

theorem chain_84 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v63 : W (Proc.devRef .tc main_v63) = (Cert.ReferenceIdeal.Read.val_main_v63 (F := F) x2)) :
    after ((ops (F := F)).drop 84) W (Proc.devRef .tc main_v135) = Cert.ReferenceIdeal.Read.val_main_v135 (F := F) x0 x1 x2 x3 x4 x5 x6 x7 x8 := by
  have e : (ops (F := F)).drop 84 = (binary main_v21 main_v63 main_v64 ((fun x i => Host.gather gather_S2048x2048_S262144x2_S262144_n_01_n_n_01_1_11 x i) : (⟨S2048x2048, .f32⟩ : BufTy).Contents (Elt F) → (⟨S262144x2, .i32⟩ : BufTy).Contents (Elt F) → (⟨S262144, .f32⟩ : BufTy).Contents (Elt F)) : HloOp τ sig (Elt F)) :: (ops (F := F)).drop 85 := rfl
  rw [e, after_cons]
  refine chain_85 _ x0 x1 x2 x3 x4 x5 x6 x7 x8 ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v21
    · decide
  · rw [binary_result_ne]
    · exact h_main_v22
    · decide
  · rw [binary_result_ne]
    · exact h_main_v36
    · decide
  · rw [binary_result_ne]
    · exact h_main_v50
    · decide
  · rw [binary_result, h_main_v21, h_main_v63]; rfl

theorem chain_83 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v61 : W (Proc.devRef .tc main_v61) = (Cert.ReferenceIdeal.Read.val_main_v61 (F := F) x2))
    (h_main_v62 : W (Proc.devRef .tc main_v62) = (Cert.ReferenceIdeal.Read.val_main_v62 (F := F) x2)) :
    after ((ops (F := F)).drop 83) W (Proc.devRef .tc main_v135) = Cert.ReferenceIdeal.Read.val_main_v135 (F := F) x0 x1 x2 x3 x4 x5 x6 x7 x8 := by
  have e : (ops (F := F)).drop 83 = (binary main_v61 main_v62 main_v63 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)) : HloOp τ sig (Elt F)) :: (ops (F := F)).drop 84 := rfl
  rw [e, after_cons]
  refine chain_84 _ x0 x1 x2 x3 x4 x5 x6 x7 x8 ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v21
    · decide
  · rw [binary_result_ne]
    · exact h_main_v22
    · decide
  · rw [binary_result_ne]
    · exact h_main_v36
    · decide
  · rw [binary_result_ne]
    · exact h_main_v50
    · decide
  · rw [binary_result, h_main_v61, h_main_v62]; rfl

theorem chain_82 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v60 : W (Proc.devRef .tc main_v60) = (Cert.ReferenceIdeal.Read.val_main_v60 (F := F) x2))
    (h_main_v61 : W (Proc.devRef .tc main_v61) = (Cert.ReferenceIdeal.Read.val_main_v61 (F := F) x2)) :
    after ((ops (F := F)).drop 82) W (Proc.devRef .tc main_v135) = Cert.ReferenceIdeal.Read.val_main_v135 (F := F) x0 x1 x2 x3 x4 x5 x6 x7 x8 := by
  have e : (ops (F := F)).drop 82 = (unary main_v60 main_v62 (broadcastInDim S262144x1 ![0] bcast_S262144_S262144x1_0 : (⟨S262144, .i32⟩ : BufTy).Contents (Elt F) → (⟨S262144x1, .i32⟩ : BufTy).Contents (Elt F)) : HloOp τ sig (Elt F)) :: (ops (F := F)).drop 83 := rfl
  rw [e, after_cons]
  refine chain_83 _ x0 x1 x2 x3 x4 x5 x6 x7 x8 ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v21
    · decide
  · rw [unary_result_ne]
    · exact h_main_v22
    · decide
  · rw [unary_result_ne]
    · exact h_main_v36
    · decide
  · rw [unary_result_ne]
    · exact h_main_v50
    · decide
  · rw [unary_result_ne]
    · exact h_main_v61
    · decide
  · rw [unary_result, h_main_v60]; rfl

theorem chain_81 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v55 : W (Proc.devRef .tc main_v55) = (Cert.ReferenceIdeal.Read.val_main_v55 (F := F) x2))
    (h_main_v60 : W (Proc.devRef .tc main_v60) = (Cert.ReferenceIdeal.Read.val_main_v60 (F := F) x2)) :
    after ((ops (F := F)).drop 81) W (Proc.devRef .tc main_v135) = Cert.ReferenceIdeal.Read.val_main_v135 (F := F) x0 x1 x2 x3 x4 x5 x6 x7 x8 := by
  have e : (ops (F := F)).drop 81 = (unary main_v55 main_v61 (broadcastInDim S262144x1 ![0] bcast_S262144_S262144x1_0 : (⟨S262144, .i32⟩ : BufTy).Contents (Elt F) → (⟨S262144x1, .i32⟩ : BufTy).Contents (Elt F)) : HloOp τ sig (Elt F)) :: (ops (F := F)).drop 82 := rfl
  rw [e, after_cons]
  refine chain_82 _ x0 x1 x2 x3 x4 x5 x6 x7 x8 ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v21
    · decide
  · rw [unary_result_ne]
    · exact h_main_v22
    · decide
  · rw [unary_result_ne]
    · exact h_main_v36
    · decide
  · rw [unary_result_ne]
    · exact h_main_v50
    · decide
  · rw [unary_result_ne]
    · exact h_main_v60
    · decide
  · rw [unary_result, h_main_v55]; rfl

theorem chain_80 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v55 : W (Proc.devRef .tc main_v55) = (Cert.ReferenceIdeal.Read.val_main_v55 (F := F) x2))
    (h_main_v57 : W (Proc.devRef .tc main_v57) = (Cert.ReferenceIdeal.Read.val_main_v57 (F := F) x2))
    (h_main_v59 : W (Proc.devRef .tc main_v59) = (Cert.ReferenceIdeal.Read.val_main_v59 (F := F) x2)) :
    after ((ops (F := F)).drop 80) W (Proc.devRef .tc main_v135) = Cert.ReferenceIdeal.Read.val_main_v135 (F := F) x0 x1 x2 x3 x4 x5 x6 x7 x8 := by
  have e : (ops (F := F)).drop 80 = (ternary main_v57 main_v59 main_v3 main_v60 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) : HloOp τ sig (Elt F)) :: (ops (F := F)).drop 81 := rfl
  rw [e, after_cons]
  refine chain_81 _ x0 x1 x2 x3 x4 x5 x6 x7 x8 ?_ ?_ ?_ ?_ ?_ ?_ ?_ ?_ ?_ ?_ ?_ ?_ ?_ ?_ ?_ ?_
  · rw [ternary_result_ne]
    · exact h_main_arg0
    · decide
  · rw [ternary_result_ne]
    · exact h_main_arg2
    · decide
  · rw [ternary_result_ne]
    · exact h_main_arg3
    · decide
  · rw [ternary_result_ne]
    · exact h_main_arg4
    · decide
  · rw [ternary_result_ne]
    · exact h_main_arg5
    · decide
  · rw [ternary_result_ne]
    · exact h_main_arg6
    · decide
  · rw [ternary_result_ne]
    · exact h_main_arg7
    · decide
  · rw [ternary_result_ne]
    · exact h_main_arg8
    · decide
  · rw [ternary_result_ne]
    · exact h_main_v1
    · decide
  · rw [ternary_result_ne]
    · exact h_main_v3
    · decide
  · rw [ternary_result_ne]
    · exact h_main_v21
    · decide
  · rw [ternary_result_ne]
    · exact h_main_v22
    · decide
  · rw [ternary_result_ne]
    · exact h_main_v36
    · decide
  · rw [ternary_result_ne]
    · exact h_main_v50
    · decide
  · rw [ternary_result_ne]
    · exact h_main_v55
    · decide
  · rw [ternary_result, h_main_v57, h_main_v59, h_main_v3]; rfl

theorem chain_79 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v55 : W (Proc.devRef .tc main_v55) = (Cert.ReferenceIdeal.Read.val_main_v55 (F := F) x2))
    (h_main_v57 : W (Proc.devRef .tc main_v57) = (Cert.ReferenceIdeal.Read.val_main_v57 (F := F) x2))
    (h_main_v58 : W (Proc.devRef .tc main_v58) = (Cert.ReferenceIdeal.Read.val_main_v58 (F := F))) :
    after ((ops (F := F)).drop 79) W (Proc.devRef .tc main_v135) = Cert.ReferenceIdeal.Read.val_main_v135 (F := F) x0 x1 x2 x3 x4 x5 x6 x7 x8 := by
  have e : (ops (F := F)).drop 79 = (binary main_v3 main_v58 main_v59 (addi : (⟨S262144, .i32⟩ : BufTy).Contents (Elt F) → (⟨S262144, .i32⟩ : BufTy).Contents (Elt F) → (⟨S262144, .i32⟩ : BufTy).Contents (Elt F)) : HloOp τ sig (Elt F)) :: (ops (F := F)).drop 80 := rfl
  rw [e, after_cons]
  refine chain_80 _ x0 x1 x2 x3 x4 x5 x6 x7 x8 ?_ ?_ ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v21
    · decide
  · rw [binary_result_ne]
    · exact h_main_v22
    · decide
  · rw [binary_result_ne]
    · exact h_main_v36
    · decide
  · rw [binary_result_ne]
    · exact h_main_v50
    · decide
  · rw [binary_result_ne]
    · exact h_main_v55
    · decide
  · rw [binary_result_ne]
    · exact h_main_v57
    · decide
  · rw [binary_result, h_main_v3, h_main_v58]; rfl

theorem chain_78 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v55 : W (Proc.devRef .tc main_v55) = (Cert.ReferenceIdeal.Read.val_main_v55 (F := F) x2))
    (h_main_v57 : W (Proc.devRef .tc main_v57) = (Cert.ReferenceIdeal.Read.val_main_v57 (F := F) x2))
    (h_main_c_15 : W (Proc.devRef .tc main_c_15) = (Cert.ReferenceIdeal.Read.val_main_c_15 (F := F))) :
    after ((ops (F := F)).drop 78) W (Proc.devRef .tc main_v135) = Cert.ReferenceIdeal.Read.val_main_v135 (F := F) x0 x1 x2 x3 x4 x5 x6 x7 x8 := by
  have e : (ops (F := F)).drop 78 = (unary main_c_15 main_v58 (broadcastInDim S262144 ![] bcast_S_S262144 : (⟨S_, .i32⟩ : BufTy).Contents (Elt F) → (⟨S262144, .i32⟩ : BufTy).Contents (Elt F)) : HloOp τ sig (Elt F)) :: (ops (F := F)).drop 79 := rfl
  rw [e, after_cons]
  refine chain_79 _ x0 x1 x2 x3 x4 x5 x6 x7 x8 ?_ ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v21
    · decide
  · rw [unary_result_ne]
    · exact h_main_v22
    · decide
  · rw [unary_result_ne]
    · exact h_main_v36
    · decide
  · rw [unary_result_ne]
    · exact h_main_v50
    · decide
  · rw [unary_result_ne]
    · exact h_main_v55
    · decide
  · rw [unary_result_ne]
    · exact h_main_v57
    · decide
  · rw [unary_result, h_main_c_15]; rfl

theorem chain_77 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v55 : W (Proc.devRef .tc main_v55) = (Cert.ReferenceIdeal.Read.val_main_v55 (F := F) x2))
    (h_main_v57 : W (Proc.devRef .tc main_v57) = (Cert.ReferenceIdeal.Read.val_main_v57 (F := F) x2)) :
    after ((ops (F := F)).drop 77) W (Proc.devRef .tc main_v135) = Cert.ReferenceIdeal.Read.val_main_v135 (F := F) x0 x1 x2 x3 x4 x5 x6 x7 x8 := by
  have e : (ops (F := F)).drop 77 = (nullary main_c_15 (constantI S_ 32 2048#32) : HloOp τ sig (Elt F)) :: (ops (F := F)).drop 78 := rfl
  rw [e, after_cons]
  refine chain_78 _ x0 x1 x2 x3 x4 x5 x6 x7 x8 ?_ ?_ ?_ ?_ ?_ ?_ ?_ ?_ ?_ ?_ ?_ ?_ ?_ ?_ ?_ ?_ ?_
  · rw [nullary_result_ne]
    · exact h_main_arg0
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v21
    · decide
  · rw [nullary_result_ne]
    · exact h_main_v22
    · decide
  · rw [nullary_result_ne]
    · exact h_main_v36
    · decide
  · rw [nullary_result_ne]
    · exact h_main_v50
    · decide
  · rw [nullary_result_ne]
    · exact h_main_v55
    · decide
  · rw [nullary_result_ne]
    · exact h_main_v57
    · decide
  · rw [nullary_result]; rfl

theorem chain_76 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v55 : W (Proc.devRef .tc main_v55) = (Cert.ReferenceIdeal.Read.val_main_v55 (F := F) x2))
    (h_main_v56 : W (Proc.devRef .tc main_v56) = (Cert.ReferenceIdeal.Read.val_main_v56 (F := F))) :
    after ((ops (F := F)).drop 76) W (Proc.devRef .tc main_v135) = Cert.ReferenceIdeal.Read.val_main_v135 (F := F) x0 x1 x2 x3 x4 x5 x6 x7 x8 := by
  have e : (ops (F := F)).drop 76 = (binary main_v3 main_v56 main_v57 (cmpi .slt : (⟨S262144, .i32⟩ : BufTy).Contents (Elt F) → (⟨S262144, .i32⟩ : BufTy).Contents (Elt F) → (⟨S262144, .i1⟩ : BufTy).Contents (Elt F)) : HloOp τ sig (Elt F)) :: (ops (F := F)).drop 77 := rfl
  rw [e, after_cons]
  refine chain_77 _ x0 x1 x2 x3 x4 x5 x6 x7 x8 ?_ ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v21
    · decide
  · rw [binary_result_ne]
    · exact h_main_v22
    · decide
  · rw [binary_result_ne]
    · exact h_main_v36
    · decide
  · rw [binary_result_ne]
    · exact h_main_v50
    · decide
  · rw [binary_result_ne]
    · exact h_main_v55
    · decide
  · rw [binary_result, h_main_v3, h_main_v56]; rfl

theorem chain_75 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v55 : W (Proc.devRef .tc main_v55) = (Cert.ReferenceIdeal.Read.val_main_v55 (F := F) x2))
    (h_main_c_14 : W (Proc.devRef .tc main_c_14) = (Cert.ReferenceIdeal.Read.val_main_c_14 (F := F))) :
    after ((ops (F := F)).drop 75) W (Proc.devRef .tc main_v135) = Cert.ReferenceIdeal.Read.val_main_v135 (F := F) x0 x1 x2 x3 x4 x5 x6 x7 x8 := by
  have e : (ops (F := F)).drop 75 = (unary main_c_14 main_v56 (broadcastInDim S262144 ![] bcast_S_S262144 : (⟨S_, .i32⟩ : BufTy).Contents (Elt F) → (⟨S262144, .i32⟩ : BufTy).Contents (Elt F)) : HloOp τ sig (Elt F)) :: (ops (F := F)).drop 76 := rfl
  rw [e, after_cons]
  refine chain_76 _ x0 x1 x2 x3 x4 x5 x6 x7 x8 ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v21
    · decide
  · rw [unary_result_ne]
    · exact h_main_v22
    · decide
  · rw [unary_result_ne]
    · exact h_main_v36
    · decide
  · rw [unary_result_ne]
    · exact h_main_v50
    · decide
  · rw [unary_result_ne]
    · exact h_main_v55
    · decide
  · rw [unary_result, h_main_c_14]; rfl

theorem chain_74 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v55 : W (Proc.devRef .tc main_v55) = (Cert.ReferenceIdeal.Read.val_main_v55 (F := F) x2)) :
    after ((ops (F := F)).drop 74) W (Proc.devRef .tc main_v135) = Cert.ReferenceIdeal.Read.val_main_v135 (F := F) x0 x1 x2 x3 x4 x5 x6 x7 x8 := by
  have e : (ops (F := F)).drop 74 = (nullary main_c_14 (constantI S_ 32 0#32) : HloOp τ sig (Elt F)) :: (ops (F := F)).drop 75 := rfl
  rw [e, after_cons]
  refine chain_75 _ x0 x1 x2 x3 x4 x5 x6 x7 x8 ?_ ?_ ?_ ?_ ?_ ?_ ?_ ?_ ?_ ?_ ?_ ?_ ?_ ?_ ?_ ?_
  · rw [nullary_result_ne]
    · exact h_main_arg0
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v21
    · decide
  · rw [nullary_result_ne]
    · exact h_main_v22
    · decide
  · rw [nullary_result_ne]
    · exact h_main_v36
    · decide
  · rw [nullary_result_ne]
    · exact h_main_v50
    · decide
  · rw [nullary_result_ne]
    · exact h_main_v55
    · decide
  · rw [nullary_result]; rfl

theorem chain_73 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v52 : W (Proc.devRef .tc main_v52) = (Cert.ReferenceIdeal.Read.val_main_v52 (F := F) x2))
    (h_main_v54 : W (Proc.devRef .tc main_v54) = (Cert.ReferenceIdeal.Read.val_main_v54 (F := F) x2)) :
    after ((ops (F := F)).drop 73) W (Proc.devRef .tc main_v135) = Cert.ReferenceIdeal.Read.val_main_v135 (F := F) x0 x1 x2 x3 x4 x5 x6 x7 x8 := by
  have e : (ops (F := F)).drop 73 = (ternary main_v52 main_v54 main_v1 main_v55 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) : HloOp τ sig (Elt F)) :: (ops (F := F)).drop 74 := rfl
  rw [e, after_cons]
  refine chain_74 _ x0 x1 x2 x3 x4 x5 x6 x7 x8 ?_ ?_ ?_ ?_ ?_ ?_ ?_ ?_ ?_ ?_ ?_ ?_ ?_ ?_ ?_
  · rw [ternary_result_ne]
    · exact h_main_arg0
    · decide
  · rw [ternary_result_ne]
    · exact h_main_arg2
    · decide
  · rw [ternary_result_ne]
    · exact h_main_arg3
    · decide
  · rw [ternary_result_ne]
    · exact h_main_arg4
    · decide
  · rw [ternary_result_ne]
    · exact h_main_arg5
    · decide
  · rw [ternary_result_ne]
    · exact h_main_arg6
    · decide
  · rw [ternary_result_ne]
    · exact h_main_arg7
    · decide
  · rw [ternary_result_ne]
    · exact h_main_arg8
    · decide
  · rw [ternary_result_ne]
    · exact h_main_v1
    · decide
  · rw [ternary_result_ne]
    · exact h_main_v3
    · decide
  · rw [ternary_result_ne]
    · exact h_main_v21
    · decide
  · rw [ternary_result_ne]
    · exact h_main_v22
    · decide
  · rw [ternary_result_ne]
    · exact h_main_v36
    · decide
  · rw [ternary_result_ne]
    · exact h_main_v50
    · decide
  · rw [ternary_result, h_main_v52, h_main_v54, h_main_v1]; rfl

theorem chain_72 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v52 : W (Proc.devRef .tc main_v52) = (Cert.ReferenceIdeal.Read.val_main_v52 (F := F) x2))
    (h_main_v53 : W (Proc.devRef .tc main_v53) = (Cert.ReferenceIdeal.Read.val_main_v53 (F := F))) :
    after ((ops (F := F)).drop 72) W (Proc.devRef .tc main_v135) = Cert.ReferenceIdeal.Read.val_main_v135 (F := F) x0 x1 x2 x3 x4 x5 x6 x7 x8 := by
  have e : (ops (F := F)).drop 72 = (binary main_v1 main_v53 main_v54 (addi : (⟨S262144, .i32⟩ : BufTy).Contents (Elt F) → (⟨S262144, .i32⟩ : BufTy).Contents (Elt F) → (⟨S262144, .i32⟩ : BufTy).Contents (Elt F)) : HloOp τ sig (Elt F)) :: (ops (F := F)).drop 73 := rfl
  rw [e, after_cons]
  refine chain_73 _ x0 x1 x2 x3 x4 x5 x6 x7 x8 ?_ ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v21
    · decide
  · rw [binary_result_ne]
    · exact h_main_v22
    · decide
  · rw [binary_result_ne]
    · exact h_main_v36
    · decide
  · rw [binary_result_ne]
    · exact h_main_v50
    · decide
  · rw [binary_result_ne]
    · exact h_main_v52
    · decide
  · rw [binary_result, h_main_v1, h_main_v53]; rfl

theorem chain_71 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v52 : W (Proc.devRef .tc main_v52) = (Cert.ReferenceIdeal.Read.val_main_v52 (F := F) x2))
    (h_main_c_13 : W (Proc.devRef .tc main_c_13) = (Cert.ReferenceIdeal.Read.val_main_c_13 (F := F))) :
    after ((ops (F := F)).drop 71) W (Proc.devRef .tc main_v135) = Cert.ReferenceIdeal.Read.val_main_v135 (F := F) x0 x1 x2 x3 x4 x5 x6 x7 x8 := by
  have e : (ops (F := F)).drop 71 = (unary main_c_13 main_v53 (broadcastInDim S262144 ![] bcast_S_S262144 : (⟨S_, .i32⟩ : BufTy).Contents (Elt F) → (⟨S262144, .i32⟩ : BufTy).Contents (Elt F)) : HloOp τ sig (Elt F)) :: (ops (F := F)).drop 72 := rfl
  rw [e, after_cons]
  refine chain_72 _ x0 x1 x2 x3 x4 x5 x6 x7 x8 ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v21
    · decide
  · rw [unary_result_ne]
    · exact h_main_v22
    · decide
  · rw [unary_result_ne]
    · exact h_main_v36
    · decide
  · rw [unary_result_ne]
    · exact h_main_v50
    · decide
  · rw [unary_result_ne]
    · exact h_main_v52
    · decide
  · rw [unary_result, h_main_c_13]; rfl

theorem chain_70 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v52 : W (Proc.devRef .tc main_v52) = (Cert.ReferenceIdeal.Read.val_main_v52 (F := F) x2)) :
    after ((ops (F := F)).drop 70) W (Proc.devRef .tc main_v135) = Cert.ReferenceIdeal.Read.val_main_v135 (F := F) x0 x1 x2 x3 x4 x5 x6 x7 x8 := by
  have e : (ops (F := F)).drop 70 = (nullary main_c_13 (constantI S_ 32 2048#32) : HloOp τ sig (Elt F)) :: (ops (F := F)).drop 71 := rfl
  rw [e, after_cons]
  refine chain_71 _ x0 x1 x2 x3 x4 x5 x6 x7 x8 ?_ ?_ ?_ ?_ ?_ ?_ ?_ ?_ ?_ ?_ ?_ ?_ ?_ ?_ ?_ ?_
  · rw [nullary_result_ne]
    · exact h_main_arg0
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v21
    · decide
  · rw [nullary_result_ne]
    · exact h_main_v22
    · decide
  · rw [nullary_result_ne]
    · exact h_main_v36
    · decide
  · rw [nullary_result_ne]
    · exact h_main_v50
    · decide
  · rw [nullary_result_ne]
    · exact h_main_v52
    · decide
  · rw [nullary_result]; rfl

theorem chain_69 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_v51 : W (Proc.devRef .tc main_v51) = (Cert.ReferenceIdeal.Read.val_main_v51 (F := F))) :
    after ((ops (F := F)).drop 69) W (Proc.devRef .tc main_v135) = Cert.ReferenceIdeal.Read.val_main_v135 (F := F) x0 x1 x2 x3 x4 x5 x6 x7 x8 := by
  have e : (ops (F := F)).drop 69 = (binary main_v1 main_v51 main_v52 (cmpi .slt : (⟨S262144, .i32⟩ : BufTy).Contents (Elt F) → (⟨S262144, .i32⟩ : BufTy).Contents (Elt F) → (⟨S262144, .i1⟩ : BufTy).Contents (Elt F)) : HloOp τ sig (Elt F)) :: (ops (F := F)).drop 70 := rfl
  rw [e, after_cons]
  refine chain_70 _ x0 x1 x2 x3 x4 x5 x6 x7 x8 ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v21
    · decide
  · rw [binary_result_ne]
    · exact h_main_v22
    · decide
  · rw [binary_result_ne]
    · exact h_main_v36
    · decide
  · rw [binary_result_ne]
    · exact h_main_v50
    · decide
  · rw [binary_result, h_main_v1, h_main_v51]; rfl

theorem chain_68 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2))
    (h_main_c_12 : W (Proc.devRef .tc main_c_12) = (Cert.ReferenceIdeal.Read.val_main_c_12 (F := F))) :
    after ((ops (F := F)).drop 68) W (Proc.devRef .tc main_v135) = Cert.ReferenceIdeal.Read.val_main_v135 (F := F) x0 x1 x2 x3 x4 x5 x6 x7 x8 := by
  have e : (ops (F := F)).drop 68 = (unary main_c_12 main_v51 (broadcastInDim S262144 ![] bcast_S_S262144 : (⟨S_, .i32⟩ : BufTy).Contents (Elt F) → (⟨S262144, .i32⟩ : BufTy).Contents (Elt F)) : HloOp τ sig (Elt F)) :: (ops (F := F)).drop 69 := rfl
  rw [e, after_cons]
  refine chain_69 _ x0 x1 x2 x3 x4 x5 x6 x7 x8 ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v21
    · decide
  · rw [unary_result_ne]
    · exact h_main_v22
    · decide
  · rw [unary_result_ne]
    · exact h_main_v36
    · decide
  · rw [unary_result_ne]
    · exact h_main_v50
    · decide
  · rw [unary_result, h_main_c_12]; rfl

theorem chain_67 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v50 : W (Proc.devRef .tc main_v50) = (Cert.ReferenceIdeal.Read.val_main_v50 (F := F) x1 x2)) :
    after ((ops (F := F)).drop 67) W (Proc.devRef .tc main_v135) = Cert.ReferenceIdeal.Read.val_main_v135 (F := F) x0 x1 x2 x3 x4 x5 x6 x7 x8 := by
  have e : (ops (F := F)).drop 67 = (nullary main_c_12 (constantI S_ 32 0#32) : HloOp τ sig (Elt F)) :: (ops (F := F)).drop 68 := rfl
  rw [e, after_cons]
  refine chain_68 _ x0 x1 x2 x3 x4 x5 x6 x7 x8 ?_ ?_ ?_ ?_ ?_ ?_ ?_ ?_ ?_ ?_ ?_ ?_ ?_ ?_ ?_
  · rw [nullary_result_ne]
    · exact h_main_arg0
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v21
    · decide
  · rw [nullary_result_ne]
    · exact h_main_v22
    · decide
  · rw [nullary_result_ne]
    · exact h_main_v36
    · decide
  · rw [nullary_result_ne]
    · exact h_main_v50
    · decide
  · rw [nullary_result]; rfl

theorem chain_66 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v49 : W (Proc.devRef .tc main_v49) = (Cert.ReferenceIdeal.Read.val_main_v49 (F := F) x2)) :
    after ((ops (F := F)).drop 66) W (Proc.devRef .tc main_v135) = Cert.ReferenceIdeal.Read.val_main_v135 (F := F) x0 x1 x2 x3 x4 x5 x6 x7 x8 := by
  have e : (ops (F := F)).drop 66 = (binary main_v4 main_v49 main_v50 ((fun x i => Host.gather gather_S2048x2048_S262144x2_S262144_n_01_n_n_01_1_11 x i) : (⟨S2048x2048, .f32⟩ : BufTy).Contents (Elt F) → (⟨S262144x2, .i32⟩ : BufTy).Contents (Elt F) → (⟨S262144, .f32⟩ : BufTy).Contents (Elt F)) : HloOp τ sig (Elt F)) :: (ops (F := F)).drop 67 := rfl
  rw [e, after_cons]
  refine chain_67 _ x0 x1 x2 x3 x4 x5 x6 x7 x8 ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v21
    · decide
  · rw [binary_result_ne]
    · exact h_main_v22
    · decide
  · rw [binary_result_ne]
    · exact h_main_v36
    · decide
  · rw [binary_result, h_main_v4, h_main_v49]; rfl

theorem chain_65 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v47 : W (Proc.devRef .tc main_v47) = (Cert.ReferenceIdeal.Read.val_main_v47 (F := F) x2))
    (h_main_v48 : W (Proc.devRef .tc main_v48) = (Cert.ReferenceIdeal.Read.val_main_v48 (F := F) x2)) :
    after ((ops (F := F)).drop 65) W (Proc.devRef .tc main_v135) = Cert.ReferenceIdeal.Read.val_main_v135 (F := F) x0 x1 x2 x3 x4 x5 x6 x7 x8 := by
  have e : (ops (F := F)).drop 65 = (binary main_v47 main_v48 main_v49 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)) : HloOp τ sig (Elt F)) :: (ops (F := F)).drop 66 := rfl
  rw [e, after_cons]
  refine chain_66 _ x0 x1 x2 x3 x4 x5 x6 x7 x8 ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result_ne]
    · exact h_main_v21
    · decide
  · rw [binary_result_ne]
    · exact h_main_v22
    · decide
  · rw [binary_result_ne]
    · exact h_main_v36
    · decide
  · rw [binary_result, h_main_v47, h_main_v48]; rfl

theorem chain_64 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v46 : W (Proc.devRef .tc main_v46) = (Cert.ReferenceIdeal.Read.val_main_v46 (F := F) x2))
    (h_main_v47 : W (Proc.devRef .tc main_v47) = (Cert.ReferenceIdeal.Read.val_main_v47 (F := F) x2)) :
    after ((ops (F := F)).drop 64) W (Proc.devRef .tc main_v135) = Cert.ReferenceIdeal.Read.val_main_v135 (F := F) x0 x1 x2 x3 x4 x5 x6 x7 x8 := by
  have e : (ops (F := F)).drop 64 = (unary main_v46 main_v48 (broadcastInDim S262144x1 ![0] bcast_S262144_S262144x1_0 : (⟨S262144, .i32⟩ : BufTy).Contents (Elt F) → (⟨S262144x1, .i32⟩ : BufTy).Contents (Elt F)) : HloOp τ sig (Elt F)) :: (ops (F := F)).drop 65 := rfl
  rw [e, after_cons]
  refine chain_65 _ x0 x1 x2 x3 x4 x5 x6 x7 x8 ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result_ne]
    · exact h_main_v21
    · decide
  · rw [unary_result_ne]
    · exact h_main_v22
    · decide
  · rw [unary_result_ne]
    · exact h_main_v36
    · decide
  · rw [unary_result_ne]
    · exact h_main_v47
    · decide
  · rw [unary_result, h_main_v46]; rfl

theorem chain_63 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v41 : W (Proc.devRef .tc main_v41) = (Cert.ReferenceIdeal.Read.val_main_v41 (F := F) x2))
    (h_main_v46 : W (Proc.devRef .tc main_v46) = (Cert.ReferenceIdeal.Read.val_main_v46 (F := F) x2)) :
    after ((ops (F := F)).drop 63) W (Proc.devRef .tc main_v135) = Cert.ReferenceIdeal.Read.val_main_v135 (F := F) x0 x1 x2 x3 x4 x5 x6 x7 x8 := by
  have e : (ops (F := F)).drop 63 = (unary main_v41 main_v47 (broadcastInDim S262144x1 ![0] bcast_S262144_S262144x1_0 : (⟨S262144, .i32⟩ : BufTy).Contents (Elt F) → (⟨S262144x1, .i32⟩ : BufTy).Contents (Elt F)) : HloOp τ sig (Elt F)) :: (ops (F := F)).drop 64 := rfl
  rw [e, after_cons]
  refine chain_64 _ x0 x1 x2 x3 x4 x5 x6 x7 x8 ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result_ne]
    · exact h_main_v21
    · decide
  · rw [unary_result_ne]
    · exact h_main_v22
    · decide
  · rw [unary_result_ne]
    · exact h_main_v36
    · decide
  · rw [unary_result_ne]
    · exact h_main_v46
    · decide
  · rw [unary_result, h_main_v41]; rfl

theorem chain_62 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v41 : W (Proc.devRef .tc main_v41) = (Cert.ReferenceIdeal.Read.val_main_v41 (F := F) x2))
    (h_main_v43 : W (Proc.devRef .tc main_v43) = (Cert.ReferenceIdeal.Read.val_main_v43 (F := F) x2))
    (h_main_v45 : W (Proc.devRef .tc main_v45) = (Cert.ReferenceIdeal.Read.val_main_v45 (F := F) x2)) :
    after ((ops (F := F)).drop 62) W (Proc.devRef .tc main_v135) = Cert.ReferenceIdeal.Read.val_main_v135 (F := F) x0 x1 x2 x3 x4 x5 x6 x7 x8 := by
  have e : (ops (F := F)).drop 62 = (ternary main_v43 main_v45 main_v3 main_v46 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) : HloOp τ sig (Elt F)) :: (ops (F := F)).drop 63 := rfl
  rw [e, after_cons]
  refine chain_63 _ x0 x1 x2 x3 x4 x5 x6 x7 x8 ?_ ?_ ?_ ?_ ?_ ?_ ?_ ?_ ?_ ?_ ?_ ?_ ?_ ?_ ?_ ?_
  · rw [ternary_result_ne]
    · exact h_main_arg0
    · decide
  · rw [ternary_result_ne]
    · exact h_main_arg2
    · decide
  · rw [ternary_result_ne]
    · exact h_main_arg3
    · decide
  · rw [ternary_result_ne]
    · exact h_main_arg4
    · decide
  · rw [ternary_result_ne]
    · exact h_main_arg5
    · decide
  · rw [ternary_result_ne]
    · exact h_main_arg6
    · decide
  · rw [ternary_result_ne]
    · exact h_main_arg7
    · decide
  · rw [ternary_result_ne]
    · exact h_main_arg8
    · decide
  · rw [ternary_result_ne]
    · exact h_main_v1
    · decide
  · rw [ternary_result_ne]
    · exact h_main_v3
    · decide
  · rw [ternary_result_ne]
    · exact h_main_v4
    · decide
  · rw [ternary_result_ne]
    · exact h_main_v21
    · decide
  · rw [ternary_result_ne]
    · exact h_main_v22
    · decide
  · rw [ternary_result_ne]
    · exact h_main_v36
    · decide
  · rw [ternary_result_ne]
    · exact h_main_v41
    · decide
  · rw [ternary_result, h_main_v43, h_main_v45, h_main_v3]; rfl

theorem chain_61 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v41 : W (Proc.devRef .tc main_v41) = (Cert.ReferenceIdeal.Read.val_main_v41 (F := F) x2))
    (h_main_v43 : W (Proc.devRef .tc main_v43) = (Cert.ReferenceIdeal.Read.val_main_v43 (F := F) x2))
    (h_main_v44 : W (Proc.devRef .tc main_v44) = (Cert.ReferenceIdeal.Read.val_main_v44 (F := F))) :
    after ((ops (F := F)).drop 61) W (Proc.devRef .tc main_v135) = Cert.ReferenceIdeal.Read.val_main_v135 (F := F) x0 x1 x2 x3 x4 x5 x6 x7 x8 := by
  have e : (ops (F := F)).drop 61 = (binary main_v3 main_v44 main_v45 (addi : (⟨S262144, .i32⟩ : BufTy).Contents (Elt F) → (⟨S262144, .i32⟩ : BufTy).Contents (Elt F) → (⟨S262144, .i32⟩ : BufTy).Contents (Elt F)) : HloOp τ sig (Elt F)) :: (ops (F := F)).drop 62 := rfl
  rw [e, after_cons]
  refine chain_62 _ x0 x1 x2 x3 x4 x5 x6 x7 x8 ?_ ?_ ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result_ne]
    · exact h_main_v21
    · decide
  · rw [binary_result_ne]
    · exact h_main_v22
    · decide
  · rw [binary_result_ne]
    · exact h_main_v36
    · decide
  · rw [binary_result_ne]
    · exact h_main_v41
    · decide
  · rw [binary_result_ne]
    · exact h_main_v43
    · decide
  · rw [binary_result, h_main_v3, h_main_v44]; rfl

theorem chain_60 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v41 : W (Proc.devRef .tc main_v41) = (Cert.ReferenceIdeal.Read.val_main_v41 (F := F) x2))
    (h_main_v43 : W (Proc.devRef .tc main_v43) = (Cert.ReferenceIdeal.Read.val_main_v43 (F := F) x2))
    (h_main_c_11 : W (Proc.devRef .tc main_c_11) = (Cert.ReferenceIdeal.Read.val_main_c_11 (F := F))) :
    after ((ops (F := F)).drop 60) W (Proc.devRef .tc main_v135) = Cert.ReferenceIdeal.Read.val_main_v135 (F := F) x0 x1 x2 x3 x4 x5 x6 x7 x8 := by
  have e : (ops (F := F)).drop 60 = (unary main_c_11 main_v44 (broadcastInDim S262144 ![] bcast_S_S262144 : (⟨S_, .i32⟩ : BufTy).Contents (Elt F) → (⟨S262144, .i32⟩ : BufTy).Contents (Elt F)) : HloOp τ sig (Elt F)) :: (ops (F := F)).drop 61 := rfl
  rw [e, after_cons]
  refine chain_61 _ x0 x1 x2 x3 x4 x5 x6 x7 x8 ?_ ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result_ne]
    · exact h_main_v21
    · decide
  · rw [unary_result_ne]
    · exact h_main_v22
    · decide
  · rw [unary_result_ne]
    · exact h_main_v36
    · decide
  · rw [unary_result_ne]
    · exact h_main_v41
    · decide
  · rw [unary_result_ne]
    · exact h_main_v43
    · decide
  · rw [unary_result, h_main_c_11]; rfl

theorem chain_59 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v41 : W (Proc.devRef .tc main_v41) = (Cert.ReferenceIdeal.Read.val_main_v41 (F := F) x2))
    (h_main_v43 : W (Proc.devRef .tc main_v43) = (Cert.ReferenceIdeal.Read.val_main_v43 (F := F) x2)) :
    after ((ops (F := F)).drop 59) W (Proc.devRef .tc main_v135) = Cert.ReferenceIdeal.Read.val_main_v135 (F := F) x0 x1 x2 x3 x4 x5 x6 x7 x8 := by
  have e : (ops (F := F)).drop 59 = (nullary main_c_11 (constantI S_ 32 2048#32) : HloOp τ sig (Elt F)) :: (ops (F := F)).drop 60 := rfl
  rw [e, after_cons]
  refine chain_60 _ x0 x1 x2 x3 x4 x5 x6 x7 x8 ?_ ?_ ?_ ?_ ?_ ?_ ?_ ?_ ?_ ?_ ?_ ?_ ?_ ?_ ?_ ?_ ?_
  · rw [nullary_result_ne]
    · exact h_main_arg0
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v4
    · decide
  · rw [nullary_result_ne]
    · exact h_main_v21
    · decide
  · rw [nullary_result_ne]
    · exact h_main_v22
    · decide
  · rw [nullary_result_ne]
    · exact h_main_v36
    · decide
  · rw [nullary_result_ne]
    · exact h_main_v41
    · decide
  · rw [nullary_result_ne]
    · exact h_main_v43
    · decide
  · rw [nullary_result]; rfl

theorem chain_58 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v41 : W (Proc.devRef .tc main_v41) = (Cert.ReferenceIdeal.Read.val_main_v41 (F := F) x2))
    (h_main_v42 : W (Proc.devRef .tc main_v42) = (Cert.ReferenceIdeal.Read.val_main_v42 (F := F))) :
    after ((ops (F := F)).drop 58) W (Proc.devRef .tc main_v135) = Cert.ReferenceIdeal.Read.val_main_v135 (F := F) x0 x1 x2 x3 x4 x5 x6 x7 x8 := by
  have e : (ops (F := F)).drop 58 = (binary main_v3 main_v42 main_v43 (cmpi .slt : (⟨S262144, .i32⟩ : BufTy).Contents (Elt F) → (⟨S262144, .i32⟩ : BufTy).Contents (Elt F) → (⟨S262144, .i1⟩ : BufTy).Contents (Elt F)) : HloOp τ sig (Elt F)) :: (ops (F := F)).drop 59 := rfl
  rw [e, after_cons]
  refine chain_59 _ x0 x1 x2 x3 x4 x5 x6 x7 x8 ?_ ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result_ne]
    · exact h_main_v21
    · decide
  · rw [binary_result_ne]
    · exact h_main_v22
    · decide
  · rw [binary_result_ne]
    · exact h_main_v36
    · decide
  · rw [binary_result_ne]
    · exact h_main_v41
    · decide
  · rw [binary_result, h_main_v3, h_main_v42]; rfl

theorem chain_57 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v41 : W (Proc.devRef .tc main_v41) = (Cert.ReferenceIdeal.Read.val_main_v41 (F := F) x2))
    (h_main_c_10 : W (Proc.devRef .tc main_c_10) = (Cert.ReferenceIdeal.Read.val_main_c_10 (F := F))) :
    after ((ops (F := F)).drop 57) W (Proc.devRef .tc main_v135) = Cert.ReferenceIdeal.Read.val_main_v135 (F := F) x0 x1 x2 x3 x4 x5 x6 x7 x8 := by
  have e : (ops (F := F)).drop 57 = (unary main_c_10 main_v42 (broadcastInDim S262144 ![] bcast_S_S262144 : (⟨S_, .i32⟩ : BufTy).Contents (Elt F) → (⟨S262144, .i32⟩ : BufTy).Contents (Elt F)) : HloOp τ sig (Elt F)) :: (ops (F := F)).drop 58 := rfl
  rw [e, after_cons]
  refine chain_58 _ x0 x1 x2 x3 x4 x5 x6 x7 x8 ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result_ne]
    · exact h_main_v21
    · decide
  · rw [unary_result_ne]
    · exact h_main_v22
    · decide
  · rw [unary_result_ne]
    · exact h_main_v36
    · decide
  · rw [unary_result_ne]
    · exact h_main_v41
    · decide
  · rw [unary_result, h_main_c_10]; rfl

theorem chain_56 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v41 : W (Proc.devRef .tc main_v41) = (Cert.ReferenceIdeal.Read.val_main_v41 (F := F) x2)) :
    after ((ops (F := F)).drop 56) W (Proc.devRef .tc main_v135) = Cert.ReferenceIdeal.Read.val_main_v135 (F := F) x0 x1 x2 x3 x4 x5 x6 x7 x8 := by
  have e : (ops (F := F)).drop 56 = (nullary main_c_10 (constantI S_ 32 0#32) : HloOp τ sig (Elt F)) :: (ops (F := F)).drop 57 := rfl
  rw [e, after_cons]
  refine chain_57 _ x0 x1 x2 x3 x4 x5 x6 x7 x8 ?_ ?_ ?_ ?_ ?_ ?_ ?_ ?_ ?_ ?_ ?_ ?_ ?_ ?_ ?_ ?_
  · rw [nullary_result_ne]
    · exact h_main_arg0
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v4
    · decide
  · rw [nullary_result_ne]
    · exact h_main_v21
    · decide
  · rw [nullary_result_ne]
    · exact h_main_v22
    · decide
  · rw [nullary_result_ne]
    · exact h_main_v36
    · decide
  · rw [nullary_result_ne]
    · exact h_main_v41
    · decide
  · rw [nullary_result]; rfl

theorem chain_55 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v38 : W (Proc.devRef .tc main_v38) = (Cert.ReferenceIdeal.Read.val_main_v38 (F := F) x2))
    (h_main_v40 : W (Proc.devRef .tc main_v40) = (Cert.ReferenceIdeal.Read.val_main_v40 (F := F) x2)) :
    after ((ops (F := F)).drop 55) W (Proc.devRef .tc main_v135) = Cert.ReferenceIdeal.Read.val_main_v135 (F := F) x0 x1 x2 x3 x4 x5 x6 x7 x8 := by
  have e : (ops (F := F)).drop 55 = (ternary main_v38 main_v40 main_v1 main_v41 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) : HloOp τ sig (Elt F)) :: (ops (F := F)).drop 56 := rfl
  rw [e, after_cons]
  refine chain_56 _ x0 x1 x2 x3 x4 x5 x6 x7 x8 ?_ ?_ ?_ ?_ ?_ ?_ ?_ ?_ ?_ ?_ ?_ ?_ ?_ ?_ ?_
  · rw [ternary_result_ne]
    · exact h_main_arg0
    · decide
  · rw [ternary_result_ne]
    · exact h_main_arg2
    · decide
  · rw [ternary_result_ne]
    · exact h_main_arg3
    · decide
  · rw [ternary_result_ne]
    · exact h_main_arg4
    · decide
  · rw [ternary_result_ne]
    · exact h_main_arg5
    · decide
  · rw [ternary_result_ne]
    · exact h_main_arg6
    · decide
  · rw [ternary_result_ne]
    · exact h_main_arg7
    · decide
  · rw [ternary_result_ne]
    · exact h_main_arg8
    · decide
  · rw [ternary_result_ne]
    · exact h_main_v1
    · decide
  · rw [ternary_result_ne]
    · exact h_main_v3
    · decide
  · rw [ternary_result_ne]
    · exact h_main_v4
    · decide
  · rw [ternary_result_ne]
    · exact h_main_v21
    · decide
  · rw [ternary_result_ne]
    · exact h_main_v22
    · decide
  · rw [ternary_result_ne]
    · exact h_main_v36
    · decide
  · rw [ternary_result, h_main_v38, h_main_v40, h_main_v1]; rfl

theorem chain_54 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v38 : W (Proc.devRef .tc main_v38) = (Cert.ReferenceIdeal.Read.val_main_v38 (F := F) x2))
    (h_main_v39 : W (Proc.devRef .tc main_v39) = (Cert.ReferenceIdeal.Read.val_main_v39 (F := F))) :
    after ((ops (F := F)).drop 54) W (Proc.devRef .tc main_v135) = Cert.ReferenceIdeal.Read.val_main_v135 (F := F) x0 x1 x2 x3 x4 x5 x6 x7 x8 := by
  have e : (ops (F := F)).drop 54 = (binary main_v1 main_v39 main_v40 (addi : (⟨S262144, .i32⟩ : BufTy).Contents (Elt F) → (⟨S262144, .i32⟩ : BufTy).Contents (Elt F) → (⟨S262144, .i32⟩ : BufTy).Contents (Elt F)) : HloOp τ sig (Elt F)) :: (ops (F := F)).drop 55 := rfl
  rw [e, after_cons]
  refine chain_55 _ x0 x1 x2 x3 x4 x5 x6 x7 x8 ?_ ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result_ne]
    · exact h_main_v21
    · decide
  · rw [binary_result_ne]
    · exact h_main_v22
    · decide
  · rw [binary_result_ne]
    · exact h_main_v36
    · decide
  · rw [binary_result_ne]
    · exact h_main_v38
    · decide
  · rw [binary_result, h_main_v1, h_main_v39]; rfl

theorem chain_53 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v38 : W (Proc.devRef .tc main_v38) = (Cert.ReferenceIdeal.Read.val_main_v38 (F := F) x2))
    (h_main_c_9 : W (Proc.devRef .tc main_c_9) = (Cert.ReferenceIdeal.Read.val_main_c_9 (F := F))) :
    after ((ops (F := F)).drop 53) W (Proc.devRef .tc main_v135) = Cert.ReferenceIdeal.Read.val_main_v135 (F := F) x0 x1 x2 x3 x4 x5 x6 x7 x8 := by
  have e : (ops (F := F)).drop 53 = (unary main_c_9 main_v39 (broadcastInDim S262144 ![] bcast_S_S262144 : (⟨S_, .i32⟩ : BufTy).Contents (Elt F) → (⟨S262144, .i32⟩ : BufTy).Contents (Elt F)) : HloOp τ sig (Elt F)) :: (ops (F := F)).drop 54 := rfl
  rw [e, after_cons]
  refine chain_54 _ x0 x1 x2 x3 x4 x5 x6 x7 x8 ?_ ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result_ne]
    · exact h_main_v21
    · decide
  · rw [unary_result_ne]
    · exact h_main_v22
    · decide
  · rw [unary_result_ne]
    · exact h_main_v36
    · decide
  · rw [unary_result_ne]
    · exact h_main_v38
    · decide
  · rw [unary_result, h_main_c_9]; rfl

theorem chain_52 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v38 : W (Proc.devRef .tc main_v38) = (Cert.ReferenceIdeal.Read.val_main_v38 (F := F) x2)) :
    after ((ops (F := F)).drop 52) W (Proc.devRef .tc main_v135) = Cert.ReferenceIdeal.Read.val_main_v135 (F := F) x0 x1 x2 x3 x4 x5 x6 x7 x8 := by
  have e : (ops (F := F)).drop 52 = (nullary main_c_9 (constantI S_ 32 2048#32) : HloOp τ sig (Elt F)) :: (ops (F := F)).drop 53 := rfl
  rw [e, after_cons]
  refine chain_53 _ x0 x1 x2 x3 x4 x5 x6 x7 x8 ?_ ?_ ?_ ?_ ?_ ?_ ?_ ?_ ?_ ?_ ?_ ?_ ?_ ?_ ?_ ?_
  · rw [nullary_result_ne]
    · exact h_main_arg0
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v4
    · decide
  · rw [nullary_result_ne]
    · exact h_main_v21
    · decide
  · rw [nullary_result_ne]
    · exact h_main_v22
    · decide
  · rw [nullary_result_ne]
    · exact h_main_v36
    · decide
  · rw [nullary_result_ne]
    · exact h_main_v38
    · decide
  · rw [nullary_result]; rfl

theorem chain_51 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_v37 : W (Proc.devRef .tc main_v37) = (Cert.ReferenceIdeal.Read.val_main_v37 (F := F))) :
    after ((ops (F := F)).drop 51) W (Proc.devRef .tc main_v135) = Cert.ReferenceIdeal.Read.val_main_v135 (F := F) x0 x1 x2 x3 x4 x5 x6 x7 x8 := by
  have e : (ops (F := F)).drop 51 = (binary main_v1 main_v37 main_v38 (cmpi .slt : (⟨S262144, .i32⟩ : BufTy).Contents (Elt F) → (⟨S262144, .i32⟩ : BufTy).Contents (Elt F) → (⟨S262144, .i1⟩ : BufTy).Contents (Elt F)) : HloOp τ sig (Elt F)) :: (ops (F := F)).drop 52 := rfl
  rw [e, after_cons]
  refine chain_52 _ x0 x1 x2 x3 x4 x5 x6 x7 x8 ?_ ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result_ne]
    · exact h_main_v21
    · decide
  · rw [binary_result_ne]
    · exact h_main_v22
    · decide
  · rw [binary_result_ne]
    · exact h_main_v36
    · decide
  · rw [binary_result, h_main_v1, h_main_v37]; rfl

theorem chain_50 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2))
    (h_main_c_8 : W (Proc.devRef .tc main_c_8) = (Cert.ReferenceIdeal.Read.val_main_c_8 (F := F))) :
    after ((ops (F := F)).drop 50) W (Proc.devRef .tc main_v135) = Cert.ReferenceIdeal.Read.val_main_v135 (F := F) x0 x1 x2 x3 x4 x5 x6 x7 x8 := by
  have e : (ops (F := F)).drop 50 = (unary main_c_8 main_v37 (broadcastInDim S262144 ![] bcast_S_S262144 : (⟨S_, .i32⟩ : BufTy).Contents (Elt F) → (⟨S262144, .i32⟩ : BufTy).Contents (Elt F)) : HloOp τ sig (Elt F)) :: (ops (F := F)).drop 51 := rfl
  rw [e, after_cons]
  refine chain_51 _ x0 x1 x2 x3 x4 x5 x6 x7 x8 ?_ ?_ ?_ ?_ ?_ ?_ ?_ ?_ ?_ ?_ ?_ ?_ ?_ ?_ ?_
  · rw [unary_result_ne]
    · exact h_main_arg0
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result_ne]
    · exact h_main_v21
    · decide
  · rw [unary_result_ne]
    · exact h_main_v22
    · decide
  · rw [unary_result_ne]
    · exact h_main_v36
    · decide
  · rw [unary_result, h_main_c_8]; rfl

theorem chain_49 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v36 : W (Proc.devRef .tc main_v36) = (Cert.ReferenceIdeal.Read.val_main_v36 (F := F) x1 x2)) :
    after ((ops (F := F)).drop 49) W (Proc.devRef .tc main_v135) = Cert.ReferenceIdeal.Read.val_main_v135 (F := F) x0 x1 x2 x3 x4 x5 x6 x7 x8 := by
  have e : (ops (F := F)).drop 49 = (nullary main_c_8 (constantI S_ 32 0#32) : HloOp τ sig (Elt F)) :: (ops (F := F)).drop 50 := rfl
  rw [e, after_cons]
  refine chain_50 _ x0 x1 x2 x3 x4 x5 x6 x7 x8 ?_ ?_ ?_ ?_ ?_ ?_ ?_ ?_ ?_ ?_ ?_ ?_ ?_ ?_ ?_
  · rw [nullary_result_ne]
    · exact h_main_arg0
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v4
    · decide
  · rw [nullary_result_ne]
    · exact h_main_v21
    · decide
  · rw [nullary_result_ne]
    · exact h_main_v22
    · decide
  · rw [nullary_result_ne]
    · exact h_main_v36
    · decide
  · rw [nullary_result]; rfl

theorem chain_48 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v35 : W (Proc.devRef .tc main_v35) = (Cert.ReferenceIdeal.Read.val_main_v35 (F := F) x2)) :
    after ((ops (F := F)).drop 48) W (Proc.devRef .tc main_v135) = Cert.ReferenceIdeal.Read.val_main_v135 (F := F) x0 x1 x2 x3 x4 x5 x6 x7 x8 := by
  have e : (ops (F := F)).drop 48 = (binary main_arg1 main_v35 main_v36 ((fun x i => Host.gather gather_S2048x2048_S262144x2_S262144_n_01_n_n_01_1_11 x i) : (⟨S2048x2048, .f32⟩ : BufTy).Contents (Elt F) → (⟨S262144x2, .i32⟩ : BufTy).Contents (Elt F) → (⟨S262144, .f32⟩ : BufTy).Contents (Elt F)) : HloOp τ sig (Elt F)) :: (ops (F := F)).drop 49 := rfl
  rw [e, after_cons]
  refine chain_49 _ x0 x1 x2 x3 x4 x5 x6 x7 x8 ?_ ?_ ?_ ?_ ?_ ?_ ?_ ?_ ?_ ?_ ?_ ?_ ?_ ?_
  · rw [binary_result_ne]
    · exact h_main_arg0
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result_ne]
    · exact h_main_v21
    · decide
  · rw [binary_result_ne]
    · exact h_main_v22
    · decide
  · rw [binary_result, h_main_arg1, h_main_v35]; rfl

theorem chain_47 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v33 : W (Proc.devRef .tc main_v33) = (Cert.ReferenceIdeal.Read.val_main_v33 (F := F) x2))
    (h_main_v34 : W (Proc.devRef .tc main_v34) = (Cert.ReferenceIdeal.Read.val_main_v34 (F := F) x2)) :
    after ((ops (F := F)).drop 47) W (Proc.devRef .tc main_v135) = Cert.ReferenceIdeal.Read.val_main_v135 (F := F) x0 x1 x2 x3 x4 x5 x6 x7 x8 := by
  have e : (ops (F := F)).drop 47 = (binary main_v33 main_v34 main_v35 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)) : HloOp τ sig (Elt F)) :: (ops (F := F)).drop 48 := rfl
  rw [e, after_cons]
  refine chain_48 _ x0 x1 x2 x3 x4 x5 x6 x7 x8 ?_ ?_ ?_ ?_ ?_ ?_ ?_ ?_ ?_ ?_ ?_ ?_ ?_ ?_ ?_
  · rw [binary_result_ne]
    · exact h_main_arg0
    · decide
  · rw [binary_result_ne]
    · exact h_main_arg1
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result_ne]
    · exact h_main_v21
    · decide
  · rw [binary_result_ne]
    · exact h_main_v22
    · decide
  · rw [binary_result, h_main_v33, h_main_v34]; rfl

theorem chain_46 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v32 : W (Proc.devRef .tc main_v32) = (Cert.ReferenceIdeal.Read.val_main_v32 (F := F) x2))
    (h_main_v33 : W (Proc.devRef .tc main_v33) = (Cert.ReferenceIdeal.Read.val_main_v33 (F := F) x2)) :
    after ((ops (F := F)).drop 46) W (Proc.devRef .tc main_v135) = Cert.ReferenceIdeal.Read.val_main_v135 (F := F) x0 x1 x2 x3 x4 x5 x6 x7 x8 := by
  have e : (ops (F := F)).drop 46 = (unary main_v32 main_v34 (broadcastInDim S262144x1 ![0] bcast_S262144_S262144x1_0 : (⟨S262144, .i32⟩ : BufTy).Contents (Elt F) → (⟨S262144x1, .i32⟩ : BufTy).Contents (Elt F)) : HloOp τ sig (Elt F)) :: (ops (F := F)).drop 47 := rfl
  rw [e, after_cons]
  refine chain_47 _ x0 x1 x2 x3 x4 x5 x6 x7 x8 ?_ ?_ ?_ ?_ ?_ ?_ ?_ ?_ ?_ ?_ ?_ ?_ ?_ ?_ ?_ ?_
  · rw [unary_result_ne]
    · exact h_main_arg0
    · decide
  · rw [unary_result_ne]
    · exact h_main_arg1
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result_ne]
    · exact h_main_v21
    · decide
  · rw [unary_result_ne]
    · exact h_main_v22
    · decide
  · rw [unary_result_ne]
    · exact h_main_v33
    · decide
  · rw [unary_result, h_main_v32]; rfl

theorem chain_45 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v27 : W (Proc.devRef .tc main_v27) = (Cert.ReferenceIdeal.Read.val_main_v27 (F := F) x2))
    (h_main_v32 : W (Proc.devRef .tc main_v32) = (Cert.ReferenceIdeal.Read.val_main_v32 (F := F) x2)) :
    after ((ops (F := F)).drop 45) W (Proc.devRef .tc main_v135) = Cert.ReferenceIdeal.Read.val_main_v135 (F := F) x0 x1 x2 x3 x4 x5 x6 x7 x8 := by
  have e : (ops (F := F)).drop 45 = (unary main_v27 main_v33 (broadcastInDim S262144x1 ![0] bcast_S262144_S262144x1_0 : (⟨S262144, .i32⟩ : BufTy).Contents (Elt F) → (⟨S262144x1, .i32⟩ : BufTy).Contents (Elt F)) : HloOp τ sig (Elt F)) :: (ops (F := F)).drop 46 := rfl
  rw [e, after_cons]
  refine chain_46 _ x0 x1 x2 x3 x4 x5 x6 x7 x8 ?_ ?_ ?_ ?_ ?_ ?_ ?_ ?_ ?_ ?_ ?_ ?_ ?_ ?_ ?_ ?_
  · rw [unary_result_ne]
    · exact h_main_arg0
    · decide
  · rw [unary_result_ne]
    · exact h_main_arg1
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result_ne]
    · exact h_main_v21
    · decide
  · rw [unary_result_ne]
    · exact h_main_v22
    · decide
  · rw [unary_result_ne]
    · exact h_main_v32
    · decide
  · rw [unary_result, h_main_v27]; rfl

theorem chain_44 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v27 : W (Proc.devRef .tc main_v27) = (Cert.ReferenceIdeal.Read.val_main_v27 (F := F) x2))
    (h_main_v29 : W (Proc.devRef .tc main_v29) = (Cert.ReferenceIdeal.Read.val_main_v29 (F := F) x2))
    (h_main_v31 : W (Proc.devRef .tc main_v31) = (Cert.ReferenceIdeal.Read.val_main_v31 (F := F) x2)) :
    after ((ops (F := F)).drop 44) W (Proc.devRef .tc main_v135) = Cert.ReferenceIdeal.Read.val_main_v135 (F := F) x0 x1 x2 x3 x4 x5 x6 x7 x8 := by
  have e : (ops (F := F)).drop 44 = (ternary main_v29 main_v31 main_v3 main_v32 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) : HloOp τ sig (Elt F)) :: (ops (F := F)).drop 45 := rfl
  rw [e, after_cons]
  refine chain_45 _ x0 x1 x2 x3 x4 x5 x6 x7 x8 ?_ ?_ ?_ ?_ ?_ ?_ ?_ ?_ ?_ ?_ ?_ ?_ ?_ ?_ ?_ ?_
  · rw [ternary_result_ne]
    · exact h_main_arg0
    · decide
  · rw [ternary_result_ne]
    · exact h_main_arg1
    · decide
  · rw [ternary_result_ne]
    · exact h_main_arg2
    · decide
  · rw [ternary_result_ne]
    · exact h_main_arg3
    · decide
  · rw [ternary_result_ne]
    · exact h_main_arg4
    · decide
  · rw [ternary_result_ne]
    · exact h_main_arg5
    · decide
  · rw [ternary_result_ne]
    · exact h_main_arg6
    · decide
  · rw [ternary_result_ne]
    · exact h_main_arg7
    · decide
  · rw [ternary_result_ne]
    · exact h_main_arg8
    · decide
  · rw [ternary_result_ne]
    · exact h_main_v1
    · decide
  · rw [ternary_result_ne]
    · exact h_main_v3
    · decide
  · rw [ternary_result_ne]
    · exact h_main_v4
    · decide
  · rw [ternary_result_ne]
    · exact h_main_v21
    · decide
  · rw [ternary_result_ne]
    · exact h_main_v22
    · decide
  · rw [ternary_result_ne]
    · exact h_main_v27
    · decide
  · rw [ternary_result, h_main_v29, h_main_v31, h_main_v3]; rfl

theorem chain_43 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v27 : W (Proc.devRef .tc main_v27) = (Cert.ReferenceIdeal.Read.val_main_v27 (F := F) x2))
    (h_main_v29 : W (Proc.devRef .tc main_v29) = (Cert.ReferenceIdeal.Read.val_main_v29 (F := F) x2))
    (h_main_v30 : W (Proc.devRef .tc main_v30) = (Cert.ReferenceIdeal.Read.val_main_v30 (F := F))) :
    after ((ops (F := F)).drop 43) W (Proc.devRef .tc main_v135) = Cert.ReferenceIdeal.Read.val_main_v135 (F := F) x0 x1 x2 x3 x4 x5 x6 x7 x8 := by
  have e : (ops (F := F)).drop 43 = (binary main_v3 main_v30 main_v31 (addi : (⟨S262144, .i32⟩ : BufTy).Contents (Elt F) → (⟨S262144, .i32⟩ : BufTy).Contents (Elt F) → (⟨S262144, .i32⟩ : BufTy).Contents (Elt F)) : HloOp τ sig (Elt F)) :: (ops (F := F)).drop 44 := rfl
  rw [e, after_cons]
  refine chain_44 _ x0 x1 x2 x3 x4 x5 x6 x7 x8 ?_ ?_ ?_ ?_ ?_ ?_ ?_ ?_ ?_ ?_ ?_ ?_ ?_ ?_ ?_ ?_ ?_
  · rw [binary_result_ne]
    · exact h_main_arg0
    · decide
  · rw [binary_result_ne]
    · exact h_main_arg1
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result_ne]
    · exact h_main_v21
    · decide
  · rw [binary_result_ne]
    · exact h_main_v22
    · decide
  · rw [binary_result_ne]
    · exact h_main_v27
    · decide
  · rw [binary_result_ne]
    · exact h_main_v29
    · decide
  · rw [binary_result, h_main_v3, h_main_v30]; rfl

theorem chain_42 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v27 : W (Proc.devRef .tc main_v27) = (Cert.ReferenceIdeal.Read.val_main_v27 (F := F) x2))
    (h_main_v29 : W (Proc.devRef .tc main_v29) = (Cert.ReferenceIdeal.Read.val_main_v29 (F := F) x2))
    (h_main_c_7 : W (Proc.devRef .tc main_c_7) = (Cert.ReferenceIdeal.Read.val_main_c_7 (F := F))) :
    after ((ops (F := F)).drop 42) W (Proc.devRef .tc main_v135) = Cert.ReferenceIdeal.Read.val_main_v135 (F := F) x0 x1 x2 x3 x4 x5 x6 x7 x8 := by
  have e : (ops (F := F)).drop 42 = (unary main_c_7 main_v30 (broadcastInDim S262144 ![] bcast_S_S262144 : (⟨S_, .i32⟩ : BufTy).Contents (Elt F) → (⟨S262144, .i32⟩ : BufTy).Contents (Elt F)) : HloOp τ sig (Elt F)) :: (ops (F := F)).drop 43 := rfl
  rw [e, after_cons]
  refine chain_43 _ x0 x1 x2 x3 x4 x5 x6 x7 x8 ?_ ?_ ?_ ?_ ?_ ?_ ?_ ?_ ?_ ?_ ?_ ?_ ?_ ?_ ?_ ?_ ?_
  · rw [unary_result_ne]
    · exact h_main_arg0
    · decide
  · rw [unary_result_ne]
    · exact h_main_arg1
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result_ne]
    · exact h_main_v21
    · decide
  · rw [unary_result_ne]
    · exact h_main_v22
    · decide
  · rw [unary_result_ne]
    · exact h_main_v27
    · decide
  · rw [unary_result_ne]
    · exact h_main_v29
    · decide
  · rw [unary_result, h_main_c_7]; rfl

theorem chain_41 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v27 : W (Proc.devRef .tc main_v27) = (Cert.ReferenceIdeal.Read.val_main_v27 (F := F) x2))
    (h_main_v29 : W (Proc.devRef .tc main_v29) = (Cert.ReferenceIdeal.Read.val_main_v29 (F := F) x2)) :
    after ((ops (F := F)).drop 41) W (Proc.devRef .tc main_v135) = Cert.ReferenceIdeal.Read.val_main_v135 (F := F) x0 x1 x2 x3 x4 x5 x6 x7 x8 := by
  have e : (ops (F := F)).drop 41 = (nullary main_c_7 (constantI S_ 32 2048#32) : HloOp τ sig (Elt F)) :: (ops (F := F)).drop 42 := rfl
  rw [e, after_cons]
  refine chain_42 _ x0 x1 x2 x3 x4 x5 x6 x7 x8 ?_ ?_ ?_ ?_ ?_ ?_ ?_ ?_ ?_ ?_ ?_ ?_ ?_ ?_ ?_ ?_ ?_
  · rw [nullary_result_ne]
    · exact h_main_arg0
    · decide
  · rw [nullary_result_ne]
    · exact h_main_arg1
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v4
    · decide
  · rw [nullary_result_ne]
    · exact h_main_v21
    · decide
  · rw [nullary_result_ne]
    · exact h_main_v22
    · decide
  · rw [nullary_result_ne]
    · exact h_main_v27
    · decide
  · rw [nullary_result_ne]
    · exact h_main_v29
    · decide
  · rw [nullary_result]; rfl

theorem chain_40 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v27 : W (Proc.devRef .tc main_v27) = (Cert.ReferenceIdeal.Read.val_main_v27 (F := F) x2))
    (h_main_v28 : W (Proc.devRef .tc main_v28) = (Cert.ReferenceIdeal.Read.val_main_v28 (F := F))) :
    after ((ops (F := F)).drop 40) W (Proc.devRef .tc main_v135) = Cert.ReferenceIdeal.Read.val_main_v135 (F := F) x0 x1 x2 x3 x4 x5 x6 x7 x8 := by
  have e : (ops (F := F)).drop 40 = (binary main_v3 main_v28 main_v29 (cmpi .slt : (⟨S262144, .i32⟩ : BufTy).Contents (Elt F) → (⟨S262144, .i32⟩ : BufTy).Contents (Elt F) → (⟨S262144, .i1⟩ : BufTy).Contents (Elt F)) : HloOp τ sig (Elt F)) :: (ops (F := F)).drop 41 := rfl
  rw [e, after_cons]
  refine chain_41 _ x0 x1 x2 x3 x4 x5 x6 x7 x8 ?_ ?_ ?_ ?_ ?_ ?_ ?_ ?_ ?_ ?_ ?_ ?_ ?_ ?_ ?_ ?_
  · rw [binary_result_ne]
    · exact h_main_arg0
    · decide
  · rw [binary_result_ne]
    · exact h_main_arg1
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result_ne]
    · exact h_main_v21
    · decide
  · rw [binary_result_ne]
    · exact h_main_v22
    · decide
  · rw [binary_result_ne]
    · exact h_main_v27
    · decide
  · rw [binary_result, h_main_v3, h_main_v28]; rfl

theorem chain_39 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v27 : W (Proc.devRef .tc main_v27) = (Cert.ReferenceIdeal.Read.val_main_v27 (F := F) x2))
    (h_main_c_6 : W (Proc.devRef .tc main_c_6) = (Cert.ReferenceIdeal.Read.val_main_c_6 (F := F))) :
    after ((ops (F := F)).drop 39) W (Proc.devRef .tc main_v135) = Cert.ReferenceIdeal.Read.val_main_v135 (F := F) x0 x1 x2 x3 x4 x5 x6 x7 x8 := by
  have e : (ops (F := F)).drop 39 = (unary main_c_6 main_v28 (broadcastInDim S262144 ![] bcast_S_S262144 : (⟨S_, .i32⟩ : BufTy).Contents (Elt F) → (⟨S262144, .i32⟩ : BufTy).Contents (Elt F)) : HloOp τ sig (Elt F)) :: (ops (F := F)).drop 40 := rfl
  rw [e, after_cons]
  refine chain_40 _ x0 x1 x2 x3 x4 x5 x6 x7 x8 ?_ ?_ ?_ ?_ ?_ ?_ ?_ ?_ ?_ ?_ ?_ ?_ ?_ ?_ ?_ ?_
  · rw [unary_result_ne]
    · exact h_main_arg0
    · decide
  · rw [unary_result_ne]
    · exact h_main_arg1
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result_ne]
    · exact h_main_v21
    · decide
  · rw [unary_result_ne]
    · exact h_main_v22
    · decide
  · rw [unary_result_ne]
    · exact h_main_v27
    · decide
  · rw [unary_result, h_main_c_6]; rfl

theorem chain_38 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v27 : W (Proc.devRef .tc main_v27) = (Cert.ReferenceIdeal.Read.val_main_v27 (F := F) x2)) :
    after ((ops (F := F)).drop 38) W (Proc.devRef .tc main_v135) = Cert.ReferenceIdeal.Read.val_main_v135 (F := F) x0 x1 x2 x3 x4 x5 x6 x7 x8 := by
  have e : (ops (F := F)).drop 38 = (nullary main_c_6 (constantI S_ 32 0#32) : HloOp τ sig (Elt F)) :: (ops (F := F)).drop 39 := rfl
  rw [e, after_cons]
  refine chain_39 _ x0 x1 x2 x3 x4 x5 x6 x7 x8 ?_ ?_ ?_ ?_ ?_ ?_ ?_ ?_ ?_ ?_ ?_ ?_ ?_ ?_ ?_ ?_
  · rw [nullary_result_ne]
    · exact h_main_arg0
    · decide
  · rw [nullary_result_ne]
    · exact h_main_arg1
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v4
    · decide
  · rw [nullary_result_ne]
    · exact h_main_v21
    · decide
  · rw [nullary_result_ne]
    · exact h_main_v22
    · decide
  · rw [nullary_result_ne]
    · exact h_main_v27
    · decide
  · rw [nullary_result]; rfl

theorem chain_37 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v24 : W (Proc.devRef .tc main_v24) = (Cert.ReferenceIdeal.Read.val_main_v24 (F := F) x2))
    (h_main_v26 : W (Proc.devRef .tc main_v26) = (Cert.ReferenceIdeal.Read.val_main_v26 (F := F) x2)) :
    after ((ops (F := F)).drop 37) W (Proc.devRef .tc main_v135) = Cert.ReferenceIdeal.Read.val_main_v135 (F := F) x0 x1 x2 x3 x4 x5 x6 x7 x8 := by
  have e : (ops (F := F)).drop 37 = (ternary main_v24 main_v26 main_v1 main_v27 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) : HloOp τ sig (Elt F)) :: (ops (F := F)).drop 38 := rfl
  rw [e, after_cons]
  refine chain_38 _ x0 x1 x2 x3 x4 x5 x6 x7 x8 ?_ ?_ ?_ ?_ ?_ ?_ ?_ ?_ ?_ ?_ ?_ ?_ ?_ ?_ ?_
  · rw [ternary_result_ne]
    · exact h_main_arg0
    · decide
  · rw [ternary_result_ne]
    · exact h_main_arg1
    · decide
  · rw [ternary_result_ne]
    · exact h_main_arg2
    · decide
  · rw [ternary_result_ne]
    · exact h_main_arg3
    · decide
  · rw [ternary_result_ne]
    · exact h_main_arg4
    · decide
  · rw [ternary_result_ne]
    · exact h_main_arg5
    · decide
  · rw [ternary_result_ne]
    · exact h_main_arg6
    · decide
  · rw [ternary_result_ne]
    · exact h_main_arg7
    · decide
  · rw [ternary_result_ne]
    · exact h_main_arg8
    · decide
  · rw [ternary_result_ne]
    · exact h_main_v1
    · decide
  · rw [ternary_result_ne]
    · exact h_main_v3
    · decide
  · rw [ternary_result_ne]
    · exact h_main_v4
    · decide
  · rw [ternary_result_ne]
    · exact h_main_v21
    · decide
  · rw [ternary_result_ne]
    · exact h_main_v22
    · decide
  · rw [ternary_result, h_main_v24, h_main_v26, h_main_v1]; rfl

theorem chain_36 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v24 : W (Proc.devRef .tc main_v24) = (Cert.ReferenceIdeal.Read.val_main_v24 (F := F) x2))
    (h_main_v25 : W (Proc.devRef .tc main_v25) = (Cert.ReferenceIdeal.Read.val_main_v25 (F := F))) :
    after ((ops (F := F)).drop 36) W (Proc.devRef .tc main_v135) = Cert.ReferenceIdeal.Read.val_main_v135 (F := F) x0 x1 x2 x3 x4 x5 x6 x7 x8 := by
  have e : (ops (F := F)).drop 36 = (binary main_v1 main_v25 main_v26 (addi : (⟨S262144, .i32⟩ : BufTy).Contents (Elt F) → (⟨S262144, .i32⟩ : BufTy).Contents (Elt F) → (⟨S262144, .i32⟩ : BufTy).Contents (Elt F)) : HloOp τ sig (Elt F)) :: (ops (F := F)).drop 37 := rfl
  rw [e, after_cons]
  refine chain_37 _ x0 x1 x2 x3 x4 x5 x6 x7 x8 ?_ ?_ ?_ ?_ ?_ ?_ ?_ ?_ ?_ ?_ ?_ ?_ ?_ ?_ ?_ ?_
  · rw [binary_result_ne]
    · exact h_main_arg0
    · decide
  · rw [binary_result_ne]
    · exact h_main_arg1
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result_ne]
    · exact h_main_v21
    · decide
  · rw [binary_result_ne]
    · exact h_main_v22
    · decide
  · rw [binary_result_ne]
    · exact h_main_v24
    · decide
  · rw [binary_result, h_main_v1, h_main_v25]; rfl

theorem chain_35 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v24 : W (Proc.devRef .tc main_v24) = (Cert.ReferenceIdeal.Read.val_main_v24 (F := F) x2))
    (h_main_c_5 : W (Proc.devRef .tc main_c_5) = (Cert.ReferenceIdeal.Read.val_main_c_5 (F := F))) :
    after ((ops (F := F)).drop 35) W (Proc.devRef .tc main_v135) = Cert.ReferenceIdeal.Read.val_main_v135 (F := F) x0 x1 x2 x3 x4 x5 x6 x7 x8 := by
  have e : (ops (F := F)).drop 35 = (unary main_c_5 main_v25 (broadcastInDim S262144 ![] bcast_S_S262144 : (⟨S_, .i32⟩ : BufTy).Contents (Elt F) → (⟨S262144, .i32⟩ : BufTy).Contents (Elt F)) : HloOp τ sig (Elt F)) :: (ops (F := F)).drop 36 := rfl
  rw [e, after_cons]
  refine chain_36 _ x0 x1 x2 x3 x4 x5 x6 x7 x8 ?_ ?_ ?_ ?_ ?_ ?_ ?_ ?_ ?_ ?_ ?_ ?_ ?_ ?_ ?_ ?_
  · rw [unary_result_ne]
    · exact h_main_arg0
    · decide
  · rw [unary_result_ne]
    · exact h_main_arg1
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result_ne]
    · exact h_main_v21
    · decide
  · rw [unary_result_ne]
    · exact h_main_v22
    · decide
  · rw [unary_result_ne]
    · exact h_main_v24
    · decide
  · rw [unary_result, h_main_c_5]; rfl

theorem chain_34 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v24 : W (Proc.devRef .tc main_v24) = (Cert.ReferenceIdeal.Read.val_main_v24 (F := F) x2)) :
    after ((ops (F := F)).drop 34) W (Proc.devRef .tc main_v135) = Cert.ReferenceIdeal.Read.val_main_v135 (F := F) x0 x1 x2 x3 x4 x5 x6 x7 x8 := by
  have e : (ops (F := F)).drop 34 = (nullary main_c_5 (constantI S_ 32 2048#32) : HloOp τ sig (Elt F)) :: (ops (F := F)).drop 35 := rfl
  rw [e, after_cons]
  refine chain_35 _ x0 x1 x2 x3 x4 x5 x6 x7 x8 ?_ ?_ ?_ ?_ ?_ ?_ ?_ ?_ ?_ ?_ ?_ ?_ ?_ ?_ ?_ ?_
  · rw [nullary_result_ne]
    · exact h_main_arg0
    · decide
  · rw [nullary_result_ne]
    · exact h_main_arg1
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v4
    · decide
  · rw [nullary_result_ne]
    · exact h_main_v21
    · decide
  · rw [nullary_result_ne]
    · exact h_main_v22
    · decide
  · rw [nullary_result_ne]
    · exact h_main_v24
    · decide
  · rw [nullary_result]; rfl

theorem chain_33 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_v23 : W (Proc.devRef .tc main_v23) = (Cert.ReferenceIdeal.Read.val_main_v23 (F := F))) :
    after ((ops (F := F)).drop 33) W (Proc.devRef .tc main_v135) = Cert.ReferenceIdeal.Read.val_main_v135 (F := F) x0 x1 x2 x3 x4 x5 x6 x7 x8 := by
  have e : (ops (F := F)).drop 33 = (binary main_v1 main_v23 main_v24 (cmpi .slt : (⟨S262144, .i32⟩ : BufTy).Contents (Elt F) → (⟨S262144, .i32⟩ : BufTy).Contents (Elt F) → (⟨S262144, .i1⟩ : BufTy).Contents (Elt F)) : HloOp τ sig (Elt F)) :: (ops (F := F)).drop 34 := rfl
  rw [e, after_cons]
  refine chain_34 _ x0 x1 x2 x3 x4 x5 x6 x7 x8 ?_ ?_ ?_ ?_ ?_ ?_ ?_ ?_ ?_ ?_ ?_ ?_ ?_ ?_ ?_
  · rw [binary_result_ne]
    · exact h_main_arg0
    · decide
  · rw [binary_result_ne]
    · exact h_main_arg1
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result_ne]
    · exact h_main_v21
    · decide
  · rw [binary_result_ne]
    · exact h_main_v22
    · decide
  · rw [binary_result, h_main_v1, h_main_v23]; rfl

theorem chain_32 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1))
    (h_main_c_4 : W (Proc.devRef .tc main_c_4) = (Cert.ReferenceIdeal.Read.val_main_c_4 (F := F))) :
    after ((ops (F := F)).drop 32) W (Proc.devRef .tc main_v135) = Cert.ReferenceIdeal.Read.val_main_v135 (F := F) x0 x1 x2 x3 x4 x5 x6 x7 x8 := by
  have e : (ops (F := F)).drop 32 = (unary main_c_4 main_v23 (broadcastInDim S262144 ![] bcast_S_S262144 : (⟨S_, .i32⟩ : BufTy).Contents (Elt F) → (⟨S262144, .i32⟩ : BufTy).Contents (Elt F)) : HloOp τ sig (Elt F)) :: (ops (F := F)).drop 33 := rfl
  rw [e, after_cons]
  refine chain_33 _ x0 x1 x2 x3 x4 x5 x6 x7 x8 ?_ ?_ ?_ ?_ ?_ ?_ ?_ ?_ ?_ ?_ ?_ ?_ ?_ ?_ ?_
  · rw [unary_result_ne]
    · exact h_main_arg0
    · decide
  · rw [unary_result_ne]
    · exact h_main_arg1
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result_ne]
    · exact h_main_v21
    · decide
  · rw [unary_result_ne]
    · exact h_main_v22
    · decide
  · rw [unary_result, h_main_c_4]; rfl

theorem chain_31 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v21 : W (Proc.devRef .tc main_v21) = (Cert.ReferenceIdeal.Read.val_main_v21 (F := F) x1))
    (h_main_v22 : W (Proc.devRef .tc main_v22) = (Cert.ReferenceIdeal.Read.val_main_v22 (F := F) x1)) :
    after ((ops (F := F)).drop 31) W (Proc.devRef .tc main_v135) = Cert.ReferenceIdeal.Read.val_main_v135 (F := F) x0 x1 x2 x3 x4 x5 x6 x7 x8 := by
  have e : (ops (F := F)).drop 31 = (nullary main_c_4 (constantI S_ 32 0#32) : HloOp τ sig (Elt F)) :: (ops (F := F)).drop 32 := rfl
  rw [e, after_cons]
  refine chain_32 _ x0 x1 x2 x3 x4 x5 x6 x7 x8 ?_ ?_ ?_ ?_ ?_ ?_ ?_ ?_ ?_ ?_ ?_ ?_ ?_ ?_ ?_
  · rw [nullary_result_ne]
    · exact h_main_arg0
    · decide
  · rw [nullary_result_ne]
    · exact h_main_arg1
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v4
    · decide
  · rw [nullary_result_ne]
    · exact h_main_v21
    · decide
  · rw [nullary_result_ne]
    · exact h_main_v22
    · decide
  · rw [nullary_result]; rfl

theorem chain_30 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v20 : W (Proc.devRef .tc main_v20) = (Cert.ReferenceIdeal.Read.val_main_v20 (F := F) x1))
    (h_main_v21 : W (Proc.devRef .tc main_v21) = (Cert.ReferenceIdeal.Read.val_main_v21 (F := F) x1)) :
    after ((ops (F := F)).drop 30) W (Proc.devRef .tc main_v135) = Cert.ReferenceIdeal.Read.val_main_v135 (F := F) x0 x1 x2 x3 x4 x5 x6 x7 x8 := by
  have e : (ops (F := F)).drop 30 = (binary main_v20 main_v20 main_v22 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)) : HloOp τ sig (Elt F)) :: (ops (F := F)).drop 31 := rfl
  rw [e, after_cons]
  refine chain_31 _ x0 x1 x2 x3 x4 x5 x6 x7 x8 ?_ ?_ ?_ ?_ ?_ ?_ ?_ ?_ ?_ ?_ ?_ ?_ ?_ ?_
  · rw [binary_result_ne]
    · exact h_main_arg0
    · decide
  · rw [binary_result_ne]
    · exact h_main_arg1
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result_ne]
    · exact h_main_v21
    · decide
  · rw [binary_result, h_main_v20]; rfl

theorem chain_29 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v20 : W (Proc.devRef .tc main_v20) = (Cert.ReferenceIdeal.Read.val_main_v20 (F := F) x1)) :
    after ((ops (F := F)).drop 29) W (Proc.devRef .tc main_v135) = Cert.ReferenceIdeal.Read.val_main_v135 (F := F) x0 x1 x2 x3 x4 x5 x6 x7 x8 := by
  have e : (ops (F := F)).drop 29 = (binary main_arg1 main_v20 main_v21 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)) : HloOp τ sig (Elt F)) :: (ops (F := F)).drop 30 := rfl
  rw [e, after_cons]
  refine chain_30 _ x0 x1 x2 x3 x4 x5 x6 x7 x8 ?_ ?_ ?_ ?_ ?_ ?_ ?_ ?_ ?_ ?_ ?_ ?_ ?_ ?_
  · rw [binary_result_ne]
    · exact h_main_arg0
    · decide
  · rw [binary_result_ne]
    · exact h_main_arg1
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result_ne]
    · exact h_main_v20
    · decide
  · rw [binary_result, h_main_arg1, h_main_v20]; rfl

theorem chain_28 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v19 : W (Proc.devRef .tc main_v19) = (Cert.ReferenceIdeal.Read.val_main_v19 (F := F) x1)) :
    after ((ops (F := F)).drop 28) W (Proc.devRef .tc main_v135) = Cert.ReferenceIdeal.Read.val_main_v135 (F := F) x0 x1 x2 x3 x4 x5 x6 x7 x8 := by
  have e : (ops (F := F)).drop 28 = (unary main_v19 main_v20 (id : (⟨S2048x2048, .f32⟩ : BufTy).Contents (Elt F) → (⟨S2048x2048, .f32⟩ : BufTy).Contents (Elt F)) : HloOp τ sig (Elt F)) :: (ops (F := F)).drop 29 := rfl
  rw [e, after_cons]
  refine chain_29 _ x0 x1 x2 x3 x4 x5 x6 x7 x8 ?_ ?_ ?_ ?_ ?_ ?_ ?_ ?_ ?_ ?_ ?_ ?_ ?_
  · rw [unary_result_ne]
    · exact h_main_arg0
    · decide
  · rw [unary_result_ne]
    · exact h_main_arg1
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result, h_main_v19]; rfl

theorem chain_27 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v18 : W (Proc.devRef .tc main_v18) = (Cert.ReferenceIdeal.Read.val_main_v18 (F := F) x1))
    (h_main_call0_v0 : W (Proc.devRef .tc main_call0_v0) = (Cert.ReferenceIdeal.Read.val_main_call0_v0 (F := F)))
    (h_main_call0_v1 : W (Proc.devRef .tc main_call0_v1) = (Cert.ReferenceIdeal.Read.val_main_call0_v1 (F := F))) :
    after ((ops (F := F)).drop 27) W (Proc.devRef .tc main_v135) = Cert.ReferenceIdeal.Read.val_main_v135 (F := F) x0 x1 x2 x3 x4 x5 x6 x7 x8 := by
  have e : (ops (F := F)).drop 27 = (ternary main_v18 main_call0_v0 main_call0_v1 main_v19 (select : (⟨S2048x2048, .i1⟩ : BufTy).Contents (Elt F) → (⟨S2048x2048, .f32⟩ : BufTy).Contents (Elt F) → (⟨S2048x2048, .f32⟩ : BufTy).Contents (Elt F) → (⟨S2048x2048, .f32⟩ : BufTy).Contents (Elt F)) : HloOp τ sig (Elt F)) :: (ops (F := F)).drop 28 := rfl
  rw [e, after_cons]
  refine chain_28 _ x0 x1 x2 x3 x4 x5 x6 x7 x8 ?_ ?_ ?_ ?_ ?_ ?_ ?_ ?_ ?_ ?_ ?_ ?_ ?_
  · rw [ternary_result_ne]
    · exact h_main_arg0
    · decide
  · rw [ternary_result_ne]
    · exact h_main_arg1
    · decide
  · rw [ternary_result_ne]
    · exact h_main_arg2
    · decide
  · rw [ternary_result_ne]
    · exact h_main_arg3
    · decide
  · rw [ternary_result_ne]
    · exact h_main_arg4
    · decide
  · rw [ternary_result_ne]
    · exact h_main_arg5
    · decide
  · rw [ternary_result_ne]
    · exact h_main_arg6
    · decide
  · rw [ternary_result_ne]
    · exact h_main_arg7
    · decide
  · rw [ternary_result_ne]
    · exact h_main_arg8
    · decide
  · rw [ternary_result_ne]
    · exact h_main_v1
    · decide
  · rw [ternary_result_ne]
    · exact h_main_v3
    · decide
  · rw [ternary_result_ne]
    · exact h_main_v4
    · decide
  · rw [ternary_result, h_main_v18, h_main_call0_v0, h_main_call0_v1]; rfl

theorem chain_26 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v18 : W (Proc.devRef .tc main_v18) = (Cert.ReferenceIdeal.Read.val_main_v18 (F := F) x1))
    (h_main_cst_3 : W (Proc.devRef .tc main_cst_3) = (Cert.ReferenceIdeal.Read.val_main_cst_3 (F := F)))
    (h_main_call0_v0 : W (Proc.devRef .tc main_call0_v0) = (Cert.ReferenceIdeal.Read.val_main_call0_v0 (F := F))) :
    after ((ops (F := F)).drop 26) W (Proc.devRef .tc main_v135) = Cert.ReferenceIdeal.Read.val_main_v135 (F := F) x0 x1 x2 x3 x4 x5 x6 x7 x8 := by
  have e : (ops (F := F)).drop 26 = (unary main_cst_3 main_call0_v1 (broadcastInDim S2048x2048 ![] bcast_S_S2048x2048 : (⟨S_, .f32⟩ : BufTy).Contents (Elt F) → (⟨S2048x2048, .f32⟩ : BufTy).Contents (Elt F)) : HloOp τ sig (Elt F)) :: (ops (F := F)).drop 27 := rfl
  rw [e, after_cons]
  refine chain_27 _ x0 x1 x2 x3 x4 x5 x6 x7 x8 ?_ ?_ ?_ ?_ ?_ ?_ ?_ ?_ ?_ ?_ ?_ ?_ ?_ ?_ ?_
  · rw [unary_result_ne]
    · exact h_main_arg0
    · decide
  · rw [unary_result_ne]
    · exact h_main_arg1
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result_ne]
    · exact h_main_v18
    · decide
  · rw [unary_result_ne]
    · exact h_main_call0_v0
    · decide
  · rw [unary_result, h_main_cst_3]; rfl

theorem chain_25 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v18 : W (Proc.devRef .tc main_v18) = (Cert.ReferenceIdeal.Read.val_main_v18 (F := F) x1))
    (h_main_cst_2 : W (Proc.devRef .tc main_cst_2) = (Cert.ReferenceIdeal.Read.val_main_cst_2 (F := F)))
    (h_main_cst_3 : W (Proc.devRef .tc main_cst_3) = (Cert.ReferenceIdeal.Read.val_main_cst_3 (F := F))) :
    after ((ops (F := F)).drop 25) W (Proc.devRef .tc main_v135) = Cert.ReferenceIdeal.Read.val_main_v135 (F := F) x0 x1 x2 x3 x4 x5 x6 x7 x8 := by
  have e : (ops (F := F)).drop 25 = (unary main_cst_2 main_call0_v0 (broadcastInDim S2048x2048 ![] bcast_S_S2048x2048 : (⟨S_, .f32⟩ : BufTy).Contents (Elt F) → (⟨S2048x2048, .f32⟩ : BufTy).Contents (Elt F)) : HloOp τ sig (Elt F)) :: (ops (F := F)).drop 26 := rfl
  rw [e, after_cons]
  refine chain_26 _ x0 x1 x2 x3 x4 x5 x6 x7 x8 ?_ ?_ ?_ ?_ ?_ ?_ ?_ ?_ ?_ ?_ ?_ ?_ ?_ ?_ ?_
  · rw [unary_result_ne]
    · exact h_main_arg0
    · decide
  · rw [unary_result_ne]
    · exact h_main_arg1
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result_ne]
    · exact h_main_v18
    · decide
  · rw [unary_result_ne]
    · exact h_main_cst_3
    · decide
  · rw [unary_result, h_main_cst_2]; rfl

theorem chain_24 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v18 : W (Proc.devRef .tc main_v18) = (Cert.ReferenceIdeal.Read.val_main_v18 (F := F) x1))
    (h_main_cst_2 : W (Proc.devRef .tc main_cst_2) = (Cert.ReferenceIdeal.Read.val_main_cst_2 (F := F))) :
    after ((ops (F := F)).drop 24) W (Proc.devRef .tc main_v135) = Cert.ReferenceIdeal.Read.val_main_v135 (F := F) x0 x1 x2 x3 x4 x5 x6 x7 x8 := by
  have e : (ops (F := F)).drop 24 = (nullary main_cst_3 (constant S_ .f32 0x00000000#32) : HloOp τ sig (Elt F)) :: (ops (F := F)).drop 25 := rfl
  rw [e, after_cons]
  refine chain_25 _ x0 x1 x2 x3 x4 x5 x6 x7 x8 ?_ ?_ ?_ ?_ ?_ ?_ ?_ ?_ ?_ ?_ ?_ ?_ ?_ ?_ ?_
  · rw [nullary_result_ne]
    · exact h_main_arg0
    · decide
  · rw [nullary_result_ne]
    · exact h_main_arg1
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v4
    · decide
  · rw [nullary_result_ne]
    · exact h_main_v18
    · decide
  · rw [nullary_result_ne]
    · exact h_main_cst_2
    · decide
  · rw [nullary_result]; rfl

theorem chain_23 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v18 : W (Proc.devRef .tc main_v18) = (Cert.ReferenceIdeal.Read.val_main_v18 (F := F) x1)) :
    after ((ops (F := F)).drop 23) W (Proc.devRef .tc main_v135) = Cert.ReferenceIdeal.Read.val_main_v135 (F := F) x0 x1 x2 x3 x4 x5 x6 x7 x8 := by
  have e : (ops (F := F)).drop 23 = (nullary main_cst_2 (constant S_ .f32 0x3F800000#32) : HloOp τ sig (Elt F)) :: (ops (F := F)).drop 24 := rfl
  rw [e, after_cons]
  refine chain_24 _ x0 x1 x2 x3 x4 x5 x6 x7 x8 ?_ ?_ ?_ ?_ ?_ ?_ ?_ ?_ ?_ ?_ ?_ ?_ ?_ ?_
  · rw [nullary_result_ne]
    · exact h_main_arg0
    · decide
  · rw [nullary_result_ne]
    · exact h_main_arg1
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v4
    · decide
  · rw [nullary_result_ne]
    · exact h_main_v18
    · decide
  · rw [nullary_result]; rfl

theorem chain_22 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v15 : W (Proc.devRef .tc main_v15) = (Cert.ReferenceIdeal.Read.val_main_v15 (F := F) x1))
    (h_main_v17 : W (Proc.devRef .tc main_v17) = (Cert.ReferenceIdeal.Read.val_main_v17 (F := F))) :
    after ((ops (F := F)).drop 22) W (Proc.devRef .tc main_v135) = Cert.ReferenceIdeal.Read.val_main_v135 (F := F) x0 x1 x2 x3 x4 x5 x6 x7 x8 := by
  have e : (ops (F := F)).drop 22 = (binary main_v15 main_v17 main_v18 (andi : (⟨S2048x2048, .i1⟩ : BufTy).Contents (Elt F) → (⟨S2048x2048, .i1⟩ : BufTy).Contents (Elt F) → (⟨S2048x2048, .i1⟩ : BufTy).Contents (Elt F)) : HloOp τ sig (Elt F)) :: (ops (F := F)).drop 23 := rfl
  rw [e, after_cons]
  refine chain_23 _ x0 x1 x2 x3 x4 x5 x6 x7 x8 ?_ ?_ ?_ ?_ ?_ ?_ ?_ ?_ ?_ ?_ ?_ ?_ ?_
  · rw [binary_result_ne]
    · exact h_main_arg0
    · decide
  · rw [binary_result_ne]
    · exact h_main_arg1
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result, h_main_v15, h_main_v17]; rfl

theorem chain_21 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v10 : W (Proc.devRef .tc main_v10) = (Cert.ReferenceIdeal.Read.val_main_v10 (F := F)))
    (h_main_v15 : W (Proc.devRef .tc main_v15) = (Cert.ReferenceIdeal.Read.val_main_v15 (F := F) x1))
    (h_main_v16 : W (Proc.devRef .tc main_v16) = (Cert.ReferenceIdeal.Read.val_main_v16 (F := F))) :
    after ((ops (F := F)).drop 21) W (Proc.devRef .tc main_v135) = Cert.ReferenceIdeal.Read.val_main_v135 (F := F) x0 x1 x2 x3 x4 x5 x6 x7 x8 := by
  have e : (ops (F := F)).drop 21 = (binary main_v10 main_v16 main_v17 (cmpf .oeq : (⟨S2048x2048, .f32⟩ : BufTy).Contents (Elt F) → (⟨S2048x2048, .f32⟩ : BufTy).Contents (Elt F) → (⟨S2048x2048, .i1⟩ : BufTy).Contents (Elt F)) : HloOp τ sig (Elt F)) :: (ops (F := F)).drop 22 := rfl
  rw [e, after_cons]
  refine chain_22 _ x0 x1 x2 x3 x4 x5 x6 x7 x8 ?_ ?_ ?_ ?_ ?_ ?_ ?_ ?_ ?_ ?_ ?_ ?_ ?_ ?_
  · rw [binary_result_ne]
    · exact h_main_arg0
    · decide
  · rw [binary_result_ne]
    · exact h_main_arg1
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result_ne]
    · exact h_main_v15
    · decide
  · rw [binary_result, h_main_v10, h_main_v16]; rfl

theorem chain_20 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v10 : W (Proc.devRef .tc main_v10) = (Cert.ReferenceIdeal.Read.val_main_v10 (F := F)))
    (h_main_v15 : W (Proc.devRef .tc main_v15) = (Cert.ReferenceIdeal.Read.val_main_v15 (F := F) x1))
    (h_main_cst_1 : W (Proc.devRef .tc main_cst_1) = (Cert.ReferenceIdeal.Read.val_main_cst_1 (F := F))) :
    after ((ops (F := F)).drop 20) W (Proc.devRef .tc main_v135) = Cert.ReferenceIdeal.Read.val_main_v135 (F := F) x0 x1 x2 x3 x4 x5 x6 x7 x8 := by
  have e : (ops (F := F)).drop 20 = (unary main_cst_1 main_v16 (broadcastInDim S2048x2048 ![] bcast_S_S2048x2048 : (⟨S_, .f32⟩ : BufTy).Contents (Elt F) → (⟨S2048x2048, .f32⟩ : BufTy).Contents (Elt F)) : HloOp τ sig (Elt F)) :: (ops (F := F)).drop 21 := rfl
  rw [e, after_cons]
  refine chain_21 _ x0 x1 x2 x3 x4 x5 x6 x7 x8 ?_ ?_ ?_ ?_ ?_ ?_ ?_ ?_ ?_ ?_ ?_ ?_ ?_ ?_ ?_
  · rw [unary_result_ne]
    · exact h_main_arg0
    · decide
  · rw [unary_result_ne]
    · exact h_main_arg1
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result_ne]
    · exact h_main_v10
    · decide
  · rw [unary_result_ne]
    · exact h_main_v15
    · decide
  · rw [unary_result, h_main_cst_1]; rfl

theorem chain_19 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v10 : W (Proc.devRef .tc main_v10) = (Cert.ReferenceIdeal.Read.val_main_v10 (F := F)))
    (h_main_v15 : W (Proc.devRef .tc main_v15) = (Cert.ReferenceIdeal.Read.val_main_v15 (F := F) x1)) :
    after ((ops (F := F)).drop 19) W (Proc.devRef .tc main_v135) = Cert.ReferenceIdeal.Read.val_main_v135 (F := F) x0 x1 x2 x3 x4 x5 x6 x7 x8 := by
  have e : (ops (F := F)).drop 19 = (nullary main_cst_1 (constant S_ .f32 0x00000000#32) : HloOp τ sig (Elt F)) :: (ops (F := F)).drop 20 := rfl
  rw [e, after_cons]
  refine chain_20 _ x0 x1 x2 x3 x4 x5 x6 x7 x8 ?_ ?_ ?_ ?_ ?_ ?_ ?_ ?_ ?_ ?_ ?_ ?_ ?_ ?_ ?_
  · rw [nullary_result_ne]
    · exact h_main_arg0
    · decide
  · rw [nullary_result_ne]
    · exact h_main_arg1
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v4
    · decide
  · rw [nullary_result_ne]
    · exact h_main_v10
    · decide
  · rw [nullary_result_ne]
    · exact h_main_v15
    · decide
  · rw [nullary_result]; rfl

theorem chain_18 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v10 : W (Proc.devRef .tc main_v10) = (Cert.ReferenceIdeal.Read.val_main_v10 (F := F)))
    (h_main_v12 : W (Proc.devRef .tc main_v12) = (Cert.ReferenceIdeal.Read.val_main_v12 (F := F) x1))
    (h_main_v14 : W (Proc.devRef .tc main_v14) = (Cert.ReferenceIdeal.Read.val_main_v14 (F := F) x1)) :
    after ((ops (F := F)).drop 18) W (Proc.devRef .tc main_v135) = Cert.ReferenceIdeal.Read.val_main_v135 (F := F) x0 x1 x2 x3 x4 x5 x6 x7 x8 := by
  have e : (ops (F := F)).drop 18 = (binary main_v12 main_v14 main_v15 (andi : (⟨S2048x2048, .i1⟩ : BufTy).Contents (Elt F) → (⟨S2048x2048, .i1⟩ : BufTy).Contents (Elt F) → (⟨S2048x2048, .i1⟩ : BufTy).Contents (Elt F)) : HloOp τ sig (Elt F)) :: (ops (F := F)).drop 19 := rfl
  rw [e, after_cons]
  refine chain_19 _ x0 x1 x2 x3 x4 x5 x6 x7 x8 ?_ ?_ ?_ ?_ ?_ ?_ ?_ ?_ ?_ ?_ ?_ ?_ ?_ ?_
  · rw [binary_result_ne]
    · exact h_main_arg0
    · decide
  · rw [binary_result_ne]
    · exact h_main_arg1
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result_ne]
    · exact h_main_v10
    · decide
  · rw [binary_result, h_main_v12, h_main_v14]; rfl

theorem chain_17 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v10 : W (Proc.devRef .tc main_v10) = (Cert.ReferenceIdeal.Read.val_main_v10 (F := F)))
    (h_main_v12 : W (Proc.devRef .tc main_v12) = (Cert.ReferenceIdeal.Read.val_main_v12 (F := F) x1))
    (h_main_v13 : W (Proc.devRef .tc main_v13) = (Cert.ReferenceIdeal.Read.val_main_v13 (F := F))) :
    after ((ops (F := F)).drop 17) W (Proc.devRef .tc main_v135) = Cert.ReferenceIdeal.Read.val_main_v135 (F := F) x0 x1 x2 x3 x4 x5 x6 x7 x8 := by
  have e : (ops (F := F)).drop 17 = (binary main_arg1 main_v13 main_v14 (cmpf .oeq : (⟨S2048x2048, .f32⟩ : BufTy).Contents (Elt F) → (⟨S2048x2048, .f32⟩ : BufTy).Contents (Elt F) → (⟨S2048x2048, .i1⟩ : BufTy).Contents (Elt F)) : HloOp τ sig (Elt F)) :: (ops (F := F)).drop 18 := rfl
  rw [e, after_cons]
  refine chain_18 _ x0 x1 x2 x3 x4 x5 x6 x7 x8 ?_ ?_ ?_ ?_ ?_ ?_ ?_ ?_ ?_ ?_ ?_ ?_ ?_ ?_ ?_
  · rw [binary_result_ne]
    · exact h_main_arg0
    · decide
  · rw [binary_result_ne]
    · exact h_main_arg1
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result_ne]
    · exact h_main_v10
    · decide
  · rw [binary_result_ne]
    · exact h_main_v12
    · decide
  · rw [binary_result, h_main_arg1, h_main_v13]; rfl

theorem chain_16 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v10 : W (Proc.devRef .tc main_v10) = (Cert.ReferenceIdeal.Read.val_main_v10 (F := F)))
    (h_main_v12 : W (Proc.devRef .tc main_v12) = (Cert.ReferenceIdeal.Read.val_main_v12 (F := F) x1))
    (h_main_cst_0 : W (Proc.devRef .tc main_cst_0) = (Cert.ReferenceIdeal.Read.val_main_cst_0 (F := F))) :
    after ((ops (F := F)).drop 16) W (Proc.devRef .tc main_v135) = Cert.ReferenceIdeal.Read.val_main_v135 (F := F) x0 x1 x2 x3 x4 x5 x6 x7 x8 := by
  have e : (ops (F := F)).drop 16 = (unary main_cst_0 main_v13 (broadcastInDim S2048x2048 ![] bcast_S_S2048x2048 : (⟨S_, .f32⟩ : BufTy).Contents (Elt F) → (⟨S2048x2048, .f32⟩ : BufTy).Contents (Elt F)) : HloOp τ sig (Elt F)) :: (ops (F := F)).drop 17 := rfl
  rw [e, after_cons]
  refine chain_17 _ x0 x1 x2 x3 x4 x5 x6 x7 x8 ?_ ?_ ?_ ?_ ?_ ?_ ?_ ?_ ?_ ?_ ?_ ?_ ?_ ?_ ?_
  · rw [unary_result_ne]
    · exact h_main_arg0
    · decide
  · rw [unary_result_ne]
    · exact h_main_arg1
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result_ne]
    · exact h_main_v10
    · decide
  · rw [unary_result_ne]
    · exact h_main_v12
    · decide
  · rw [unary_result, h_main_cst_0]; rfl

theorem chain_15 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v10 : W (Proc.devRef .tc main_v10) = (Cert.ReferenceIdeal.Read.val_main_v10 (F := F)))
    (h_main_v12 : W (Proc.devRef .tc main_v12) = (Cert.ReferenceIdeal.Read.val_main_v12 (F := F) x1)) :
    after ((ops (F := F)).drop 15) W (Proc.devRef .tc main_v135) = Cert.ReferenceIdeal.Read.val_main_v135 (F := F) x0 x1 x2 x3 x4 x5 x6 x7 x8 := by
  have e : (ops (F := F)).drop 15 = (nullary main_cst_0 (constant S_ .f32 0x00000000#32) : HloOp τ sig (Elt F)) :: (ops (F := F)).drop 16 := rfl
  rw [e, after_cons]
  refine chain_16 _ x0 x1 x2 x3 x4 x5 x6 x7 x8 ?_ ?_ ?_ ?_ ?_ ?_ ?_ ?_ ?_ ?_ ?_ ?_ ?_ ?_ ?_
  · rw [nullary_result_ne]
    · exact h_main_arg0
    · decide
  · rw [nullary_result_ne]
    · exact h_main_arg1
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v4
    · decide
  · rw [nullary_result_ne]
    · exact h_main_v10
    · decide
  · rw [nullary_result_ne]
    · exact h_main_v12
    · decide
  · rw [nullary_result]; rfl

theorem chain_14 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v10 : W (Proc.devRef .tc main_v10) = (Cert.ReferenceIdeal.Read.val_main_v10 (F := F)))
    (h_main_v11 : W (Proc.devRef .tc main_v11) = (Cert.ReferenceIdeal.Read.val_main_v11 (F := F))) :
    after ((ops (F := F)).drop 14) W (Proc.devRef .tc main_v135) = Cert.ReferenceIdeal.Read.val_main_v135 (F := F) x0 x1 x2 x3 x4 x5 x6 x7 x8 := by
  have e : (ops (F := F)).drop 14 = (binary main_v4 main_v11 main_v12 (cmpf .ogt : (⟨S2048x2048, .f32⟩ : BufTy).Contents (Elt F) → (⟨S2048x2048, .f32⟩ : BufTy).Contents (Elt F) → (⟨S2048x2048, .i1⟩ : BufTy).Contents (Elt F)) : HloOp τ sig (Elt F)) :: (ops (F := F)).drop 15 := rfl
  rw [e, after_cons]
  refine chain_15 _ x0 x1 x2 x3 x4 x5 x6 x7 x8 ?_ ?_ ?_ ?_ ?_ ?_ ?_ ?_ ?_ ?_ ?_ ?_ ?_ ?_
  · rw [binary_result_ne]
    · exact h_main_arg0
    · decide
  · rw [binary_result_ne]
    · exact h_main_arg1
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result_ne]
    · exact h_main_v10
    · decide
  · rw [binary_result, h_main_v4, h_main_v11]; rfl

theorem chain_13 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v10 : W (Proc.devRef .tc main_v10) = (Cert.ReferenceIdeal.Read.val_main_v10 (F := F)))
    (h_main_cst : W (Proc.devRef .tc main_cst) = (Cert.ReferenceIdeal.Read.val_main_cst (F := F))) :
    after ((ops (F := F)).drop 13) W (Proc.devRef .tc main_v135) = Cert.ReferenceIdeal.Read.val_main_v135 (F := F) x0 x1 x2 x3 x4 x5 x6 x7 x8 := by
  have e : (ops (F := F)).drop 13 = (unary main_cst main_v11 (broadcastInDim S2048x2048 ![] bcast_S_S2048x2048 : (⟨S_, .f32⟩ : BufTy).Contents (Elt F) → (⟨S2048x2048, .f32⟩ : BufTy).Contents (Elt F)) : HloOp τ sig (Elt F)) :: (ops (F := F)).drop 14 := rfl
  rw [e, after_cons]
  refine chain_14 _ x0 x1 x2 x3 x4 x5 x6 x7 x8 ?_ ?_ ?_ ?_ ?_ ?_ ?_ ?_ ?_ ?_ ?_ ?_ ?_ ?_
  · rw [unary_result_ne]
    · exact h_main_arg0
    · decide
  · rw [unary_result_ne]
    · exact h_main_arg1
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result_ne]
    · exact h_main_v10
    · decide
  · rw [unary_result, h_main_cst]; rfl

theorem chain_12 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v10 : W (Proc.devRef .tc main_v10) = (Cert.ReferenceIdeal.Read.val_main_v10 (F := F))) :
    after ((ops (F := F)).drop 12) W (Proc.devRef .tc main_v135) = Cert.ReferenceIdeal.Read.val_main_v135 (F := F) x0 x1 x2 x3 x4 x5 x6 x7 x8 := by
  have e : (ops (F := F)).drop 12 = (nullary main_cst (constant S_ .f32 0x00000000#32) : HloOp τ sig (Elt F)) :: (ops (F := F)).drop 13 := rfl
  rw [e, after_cons]
  refine chain_13 _ x0 x1 x2 x3 x4 x5 x6 x7 x8 ?_ ?_ ?_ ?_ ?_ ?_ ?_ ?_ ?_ ?_ ?_ ?_ ?_ ?_
  · rw [nullary_result_ne]
    · exact h_main_arg0
    · decide
  · rw [nullary_result_ne]
    · exact h_main_arg1
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v4
    · decide
  · rw [nullary_result_ne]
    · exact h_main_v10
    · decide
  · rw [nullary_result]; rfl

theorem chain_11 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v9 : W (Proc.devRef .tc main_v9) = (Cert.ReferenceIdeal.Read.val_main_v9 (F := F))) :
    after ((ops (F := F)).drop 11) W (Proc.devRef .tc main_v135) = Cert.ReferenceIdeal.Read.val_main_v135 (F := F) x0 x1 x2 x3 x4 x5 x6 x7 x8 := by
  have e : (ops (F := F)).drop 11 = (unary main_v9 main_v10 (uitofp .f32 : (⟨S2048x2048, .i1⟩ : BufTy).Contents (Elt F) → (⟨S2048x2048, .f32⟩ : BufTy).Contents (Elt F)) : HloOp τ sig (Elt F)) :: (ops (F := F)).drop 12 := rfl
  rw [e, after_cons]
  refine chain_12 _ x0 x1 x2 x3 x4 x5 x6 x7 x8 ?_ ?_ ?_ ?_ ?_ ?_ ?_ ?_ ?_ ?_ ?_ ?_ ?_
  · rw [unary_result_ne]
    · exact h_main_arg0
    · decide
  · rw [unary_result_ne]
    · exact h_main_arg1
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result, h_main_v9]; rfl

theorem chain_10 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v6 : W (Proc.devRef .tc main_v6) = (Cert.ReferenceIdeal.Read.val_main_v6 (F := F)))
    (h_main_v8 : W (Proc.devRef .tc main_v8) = (Cert.ReferenceIdeal.Read.val_main_v8 (F := F))) :
    after ((ops (F := F)).drop 10) W (Proc.devRef .tc main_v135) = Cert.ReferenceIdeal.Read.val_main_v135 (F := F) x0 x1 x2 x3 x4 x5 x6 x7 x8 := by
  have e : (ops (F := F)).drop 10 = (binary main_v8 main_v6 main_v9 (cmpi .eq : (⟨S2048x2048, .i32⟩ : BufTy).Contents (Elt F) → (⟨S2048x2048, .i32⟩ : BufTy).Contents (Elt F) → (⟨S2048x2048, .i1⟩ : BufTy).Contents (Elt F)) : HloOp τ sig (Elt F)) :: (ops (F := F)).drop 11 := rfl
  rw [e, after_cons]
  refine chain_11 _ x0 x1 x2 x3 x4 x5 x6 x7 x8 ?_ ?_ ?_ ?_ ?_ ?_ ?_ ?_ ?_ ?_ ?_ ?_ ?_
  · rw [binary_result_ne]
    · exact h_main_arg0
    · decide
  · rw [binary_result_ne]
    · exact h_main_arg1
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result, h_main_v8, h_main_v6]; rfl

theorem chain_9 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v5 : W (Proc.devRef .tc main_v5) = (Cert.ReferenceIdeal.Read.val_main_v5 (F := F)))
    (h_main_v6 : W (Proc.devRef .tc main_v6) = (Cert.ReferenceIdeal.Read.val_main_v6 (F := F)))
    (h_main_v7 : W (Proc.devRef .tc main_v7) = (Cert.ReferenceIdeal.Read.val_main_v7 (F := F))) :
    after ((ops (F := F)).drop 9) W (Proc.devRef .tc main_v135) = Cert.ReferenceIdeal.Read.val_main_v135 (F := F) x0 x1 x2 x3 x4 x5 x6 x7 x8 := by
  have e : (ops (F := F)).drop 9 = (binary main_v5 main_v7 main_v8 (addi : (⟨S2048x2048, .i32⟩ : BufTy).Contents (Elt F) → (⟨S2048x2048, .i32⟩ : BufTy).Contents (Elt F) → (⟨S2048x2048, .i32⟩ : BufTy).Contents (Elt F)) : HloOp τ sig (Elt F)) :: (ops (F := F)).drop 10 := rfl
  rw [e, after_cons]
  refine chain_10 _ x0 x1 x2 x3 x4 x5 x6 x7 x8 ?_ ?_ ?_ ?_ ?_ ?_ ?_ ?_ ?_ ?_ ?_ ?_ ?_ ?_
  · rw [binary_result_ne]
    · exact h_main_arg0
    · decide
  · rw [binary_result_ne]
    · exact h_main_arg1
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result_ne]
    · exact h_main_v4
    · decide
  · rw [binary_result_ne]
    · exact h_main_v6
    · decide
  · rw [binary_result, h_main_v5, h_main_v7]; rfl

theorem chain_8 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v5 : W (Proc.devRef .tc main_v5) = (Cert.ReferenceIdeal.Read.val_main_v5 (F := F)))
    (h_main_v6 : W (Proc.devRef .tc main_v6) = (Cert.ReferenceIdeal.Read.val_main_v6 (F := F)))
    (h_main_c : W (Proc.devRef .tc main_c) = (Cert.ReferenceIdeal.Read.val_main_c (F := F))) :
    after ((ops (F := F)).drop 8) W (Proc.devRef .tc main_v135) = Cert.ReferenceIdeal.Read.val_main_v135 (F := F) x0 x1 x2 x3 x4 x5 x6 x7 x8 := by
  have e : (ops (F := F)).drop 8 = (unary main_c main_v7 (broadcastInDim S2048x2048 ![] bcast_S_S2048x2048 : (⟨S_, .i32⟩ : BufTy).Contents (Elt F) → (⟨S2048x2048, .i32⟩ : BufTy).Contents (Elt F)) : HloOp τ sig (Elt F)) :: (ops (F := F)).drop 9 := rfl
  rw [e, after_cons]
  refine chain_9 _ x0 x1 x2 x3 x4 x5 x6 x7 x8 ?_ ?_ ?_ ?_ ?_ ?_ ?_ ?_ ?_ ?_ ?_ ?_ ?_ ?_ ?_
  · rw [unary_result_ne]
    · exact h_main_arg0
    · decide
  · rw [unary_result_ne]
    · exact h_main_arg1
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result_ne]
    · exact h_main_v3
    · decide
  · rw [unary_result_ne]
    · exact h_main_v4
    · decide
  · rw [unary_result_ne]
    · exact h_main_v5
    · decide
  · rw [unary_result_ne]
    · exact h_main_v6
    · decide
  · rw [unary_result, h_main_c]; rfl

theorem chain_7 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v5 : W (Proc.devRef .tc main_v5) = (Cert.ReferenceIdeal.Read.val_main_v5 (F := F)))
    (h_main_v6 : W (Proc.devRef .tc main_v6) = (Cert.ReferenceIdeal.Read.val_main_v6 (F := F))) :
    after ((ops (F := F)).drop 7) W (Proc.devRef .tc main_v135) = Cert.ReferenceIdeal.Read.val_main_v135 (F := F) x0 x1 x2 x3 x4 x5 x6 x7 x8 := by
  have e : (ops (F := F)).drop 7 = (nullary main_c (constantI S_ 32 0#32) : HloOp τ sig (Elt F)) :: (ops (F := F)).drop 8 := rfl
  rw [e, after_cons]
  refine chain_8 _ x0 x1 x2 x3 x4 x5 x6 x7 x8 ?_ ?_ ?_ ?_ ?_ ?_ ?_ ?_ ?_ ?_ ?_ ?_ ?_ ?_ ?_
  · rw [nullary_result_ne]
    · exact h_main_arg0
    · decide
  · rw [nullary_result_ne]
    · exact h_main_arg1
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v4
    · decide
  · rw [nullary_result_ne]
    · exact h_main_v5
    · decide
  · rw [nullary_result_ne]
    · exact h_main_v6
    · decide
  · rw [nullary_result]; rfl

theorem chain_6 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1))
    (h_main_v5 : W (Proc.devRef .tc main_v5) = (Cert.ReferenceIdeal.Read.val_main_v5 (F := F))) :
    after ((ops (F := F)).drop 6) W (Proc.devRef .tc main_v135) = Cert.ReferenceIdeal.Read.val_main_v135 (F := F) x0 x1 x2 x3 x4 x5 x6 x7 x8 := by
  have e : (ops (F := F)).drop 6 = (nullary main_v6 (iotaInDim S2048x2048 32 1) : HloOp τ sig (Elt F)) :: (ops (F := F)).drop 7 := rfl
  rw [e, after_cons]
  refine chain_7 _ x0 x1 x2 x3 x4 x5 x6 x7 x8 ?_ ?_ ?_ ?_ ?_ ?_ ?_ ?_ ?_ ?_ ?_ ?_ ?_ ?_
  · rw [nullary_result_ne]
    · exact h_main_arg0
    · decide
  · rw [nullary_result_ne]
    · exact h_main_arg1
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v4
    · decide
  · rw [nullary_result_ne]
    · exact h_main_v5
    · decide
  · rw [nullary_result]; rfl

theorem chain_5 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2))
    (h_main_v4 : W (Proc.devRef .tc main_v4) = (Cert.ReferenceIdeal.Read.val_main_v4 (F := F) x1)) :
    after ((ops (F := F)).drop 5) W (Proc.devRef .tc main_v135) = Cert.ReferenceIdeal.Read.val_main_v135 (F := F) x0 x1 x2 x3 x4 x5 x6 x7 x8 := by
  have e : (ops (F := F)).drop 5 = (nullary main_v5 (iotaInDim S2048x2048 32 0) : HloOp τ sig (Elt F)) :: (ops (F := F)).drop 6 := rfl
  rw [e, after_cons]
  refine chain_6 _ x0 x1 x2 x3 x4 x5 x6 x7 x8 ?_ ?_ ?_ ?_ ?_ ?_ ?_ ?_ ?_ ?_ ?_ ?_ ?_
  · rw [nullary_result_ne]
    · exact h_main_arg0
    · decide
  · rw [nullary_result_ne]
    · exact h_main_arg1
    · decide
  · rw [nullary_result_ne]
    · exact h_main_arg2
    · decide
  · rw [nullary_result_ne]
    · exact h_main_arg3
    · decide
  · rw [nullary_result_ne]
    · exact h_main_arg4
    · decide
  · rw [nullary_result_ne]
    · exact h_main_arg5
    · decide
  · rw [nullary_result_ne]
    · exact h_main_arg6
    · decide
  · rw [nullary_result_ne]
    · exact h_main_arg7
    · decide
  · rw [nullary_result_ne]
    · exact h_main_arg8
    · decide
  · rw [nullary_result_ne]
    · exact h_main_v1
    · decide
  · rw [nullary_result_ne]
    · exact h_main_v3
    · decide
  · rw [nullary_result_ne]
    · exact h_main_v4
    · decide
  · rw [nullary_result]; rfl

theorem chain_4 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v3 : W (Proc.devRef .tc main_v3) = (Cert.ReferenceIdeal.Read.val_main_v3 (F := F) x2)) :
    after ((ops (F := F)).drop 4) W (Proc.devRef .tc main_v135) = Cert.ReferenceIdeal.Read.val_main_v135 (F := F) x0 x1 x2 x3 x4 x5 x6 x7 x8 := by
  have e : (ops (F := F)).drop 4 = (binary main_arg1 main_arg1 main_v4 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)) : HloOp τ sig (Elt F)) :: (ops (F := F)).drop 5 := rfl
  rw [e, after_cons]
  refine chain_5 _ x0 x1 x2 x3 x4 x5 x6 x7 x8 ?_ ?_ ?_ ?_ ?_ ?_ ?_ ?_ ?_ ?_ ?_ ?_
  · rw [binary_result_ne]
    · exact h_main_arg0
    · decide
  · rw [binary_result_ne]
    · exact h_main_arg1
    · decide
  · rw [binary_result_ne]
    · exact h_main_arg2
    · decide
  · rw [binary_result_ne]
    · exact h_main_arg3
    · decide
  · rw [binary_result_ne]
    · exact h_main_arg4
    · decide
  · rw [binary_result_ne]
    · exact h_main_arg5
    · decide
  · rw [binary_result_ne]
    · exact h_main_arg6
    · decide
  · rw [binary_result_ne]
    · exact h_main_arg7
    · decide
  · rw [binary_result_ne]
    · exact h_main_arg8
    · decide
  · rw [binary_result_ne]
    · exact h_main_v1
    · decide
  · rw [binary_result_ne]
    · exact h_main_v3
    · decide
  · rw [binary_result, h_main_arg1]; rfl

theorem chain_3 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2))
    (h_main_v2 : W (Proc.devRef .tc main_v2) = (Cert.ReferenceIdeal.Read.val_main_v2 (F := F) x2)) :
    after ((ops (F := F)).drop 3) W (Proc.devRef .tc main_v135) = Cert.ReferenceIdeal.Read.val_main_v135 (F := F) x0 x1 x2 x3 x4 x5 x6 x7 x8 := by
  have e : (ops (F := F)).drop 3 = (reshape main_v2 main_v3 rfl shapeCasts_S1x262144_S262144 : HloOp τ sig (Elt F)) :: (ops (F := F)).drop 4 := rfl
  rw [e, after_cons]
  refine chain_4 _ x0 x1 x2 x3 x4 x5 x6 x7 x8 ?_ ?_ ?_ ?_ ?_ ?_ ?_ ?_ ?_ ?_ ?_
  · rw [reshape_result_ne]
    · exact h_main_arg0
    · decide
  · rw [reshape_result_ne]
    · exact h_main_arg1
    · decide
  · rw [reshape_result_ne]
    · exact h_main_arg2
    · decide
  · rw [reshape_result_ne]
    · exact h_main_arg3
    · decide
  · rw [reshape_result_ne]
    · exact h_main_arg4
    · decide
  · rw [reshape_result_ne]
    · exact h_main_arg5
    · decide
  · rw [reshape_result_ne]
    · exact h_main_arg6
    · decide
  · rw [reshape_result_ne]
    · exact h_main_arg7
    · decide
  · rw [reshape_result_ne]
    · exact h_main_arg8
    · decide
  · rw [reshape_result_ne]
    · exact h_main_v1
    · decide
  · rw [reshape_result, h_main_v2]; rfl

theorem chain_2 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v1 : W (Proc.devRef .tc main_v1) = (Cert.ReferenceIdeal.Read.val_main_v1 (F := F) x2)) :
    after ((ops (F := F)).drop 2) W (Proc.devRef .tc main_v135) = Cert.ReferenceIdeal.Read.val_main_v135 (F := F) x0 x1 x2 x3 x4 x5 x6 x7 x8 := by
  have e : (ops (F := F)).drop 2 = (unary main_arg2 main_v2 ((extractStridedSlice S1x262144 ![1, 0] · slices_S2x262144_S1x262144_1_0) : (⟨S2x262144, .i32⟩ : BufTy).Contents (Elt F) → (⟨S1x262144, .i32⟩ : BufTy).Contents (Elt F)) : HloOp τ sig (Elt F)) :: (ops (F := F)).drop 3 := rfl
  rw [e, after_cons]
  refine chain_3 _ x0 x1 x2 x3 x4 x5 x6 x7 x8 ?_ ?_ ?_ ?_ ?_ ?_ ?_ ?_ ?_ ?_ ?_
  · rw [unary_result_ne]
    · exact h_main_arg0
    · decide
  · rw [unary_result_ne]
    · exact h_main_arg1
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result_ne]
    · exact h_main_v1
    · decide
  · rw [unary_result, h_main_arg2]; rfl

theorem chain_1 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_v0 : W (Proc.devRef .tc main_v0) = (Cert.ReferenceIdeal.Read.val_main_v0 (F := F) x2)) :
    after ((ops (F := F)).drop 1) W (Proc.devRef .tc main_v135) = Cert.ReferenceIdeal.Read.val_main_v135 (F := F) x0 x1 x2 x3 x4 x5 x6 x7 x8 := by
  have e : (ops (F := F)).drop 1 = (reshape main_v0 main_v1 rfl shapeCasts_S1x262144_S262144 : HloOp τ sig (Elt F)) :: (ops (F := F)).drop 2 := rfl
  rw [e, after_cons]
  refine chain_2 _ x0 x1 x2 x3 x4 x5 x6 x7 x8 ?_ ?_ ?_ ?_ ?_ ?_ ?_ ?_ ?_ ?_
  · rw [reshape_result_ne]
    · exact h_main_arg0
    · decide
  · rw [reshape_result_ne]
    · exact h_main_arg1
    · decide
  · rw [reshape_result_ne]
    · exact h_main_arg2
    · decide
  · rw [reshape_result_ne]
    · exact h_main_arg3
    · decide
  · rw [reshape_result_ne]
    · exact h_main_arg4
    · decide
  · rw [reshape_result_ne]
    · exact h_main_arg5
    · decide
  · rw [reshape_result_ne]
    · exact h_main_arg6
    · decide
  · rw [reshape_result_ne]
    · exact h_main_arg7
    · decide
  · rw [reshape_result_ne]
    · exact h_main_arg8
    · decide
  · rw [reshape_result, h_main_v0]; rfl

theorem chain_0 (W : Valuation τ sig (Elt F)) (x0 : (⟨S2048x256, .f32⟩ : BufTy).Contents (Elt F)) (x1 : (⟨S2048x2048, .f32⟩ : BufTy).Contents (Elt F)) (x2 : (⟨S2x262144, .i32⟩ : BufTy).Contents (Elt F)) (x3 : (⟨S256x261, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S1x256, .f32⟩ : BufTy).Contents (Elt F)) (x8 : (⟨S1, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8) :
    after ((ops (F := F)).drop 0) W (Proc.devRef .tc main_v135) = Cert.ReferenceIdeal.Read.val_main_v135 (F := F) x0 x1 x2 x3 x4 x5 x6 x7 x8 := by
  have e : (ops (F := F)).drop 0 = (unary main_arg2 main_v0 ((extractStridedSlice S1x262144 ![0, 0] · slices_S2x262144_S1x262144_0_0) : (⟨S2x262144, .i32⟩ : BufTy).Contents (Elt F) → (⟨S1x262144, .i32⟩ : BufTy).Contents (Elt F)) : HloOp τ sig (Elt F)) :: (ops (F := F)).drop 1 := rfl
  rw [e, after_cons]
  refine chain_1 _ x0 x1 x2 x3 x4 x5 x6 x7 x8 ?_ ?_ ?_ ?_ ?_ ?_ ?_ ?_ ?_ ?_
  · rw [unary_result_ne]
    · exact h_main_arg0
    · decide
  · rw [unary_result_ne]
    · exact h_main_arg1
    · decide
  · rw [unary_result_ne]
    · exact h_main_arg2
    · decide
  · rw [unary_result_ne]
    · exact h_main_arg3
    · decide
  · rw [unary_result_ne]
    · exact h_main_arg4
    · decide
  · rw [unary_result_ne]
    · exact h_main_arg5
    · decide
  · rw [unary_result_ne]
    · exact h_main_arg6
    · decide
  · rw [unary_result_ne]
    · exact h_main_arg7
    · decide
  · rw [unary_result_ne]
    · exact h_main_arg8
    · decide
  · rw [unary_result, h_main_arg2]; rfl

/-- The fold of all the operations from the launch contents, read at the result buffer, is the last stage's value of the
    nine arguments' launch contents. -/
theorem peel_main_v135 (m : (ℓ : Loc nD τ sig) → Buf (Elt F) ℓ) (c : Dev nD) :
    after (ops (F := F)) (launchContents m c) (Proc.devRef .tc main_v135)
      = Cert.ReferenceIdeal.Read.val_main_v135 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  chain_0 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) rfl rfl rfl rfl rfl rfl rfl rfl rfl

end Cert.ReferenceIdeal.Value

end
-- ==== Proof.PreBinary.lean ====
/-
The precondition read back at the adjacency matrix.

The precondition is a conjunction: every float argument is finite, and — its last conjunct —
every entry of the adjacency matrix equals 0 or equals 1.  From the precondition holding, this
module extracts the last conjunct and reads it at an index: every entry of the adjacency
matrix, as an extended real, is 0 or 1.
-/
import proofs.«121678_j3599182594335_2_alg».proof.Pre_finite_inputs
import Idealize.ShloMosaic.PureOps.Ideal
import Idealize.ShloMosaic.Lib.ReduceAll
import Idealize.ShloMosaic.Lib.ValueIdx
import Idealize.ShloMosaic.Lib.IdealHost

namespace Cert.PreBinary

open Idealize.ShloMosaic Cert.Pre_finite_inputs

/-- The rank-0 shape has exactly one index. -/
instance : Subsingleton S_.Idx := ⟨fun a b => funext fun d => d.elim0⟩

/-- An "ordered equal" comparison of extended reals that came out true says the two are equal. -/
theorem eq_of_cmp_oeq {x y : EReal} (h : Ideal.cmp .oeq x y = 1#1) : x = y := by
  by_contra hne
  simp [Ideal.cmp, hne] at h

/-- Under the precondition every entry of the adjacency matrix is 0 or 1. -/
theorem binary_of_pre [Facts]
    (a0 : FVec Ideal S2048x256 .f32) (a1 : FVec Ideal S2048x2048 .f32) (a2 : IVec S2x262144 32)
    (a3 : FVec Ideal S256x261 .f32) (a4 : FVec Ideal S256 .f32) (a5 : FVec Ideal S256x256 .f32)
    (a6 : FVec Ideal S256 .f32) (a7 : FVec Ideal S1x256 .f32) (a8 : FVec Ideal S1 .f32)
    (h : fn (F := Ideal) a0 a1 a2 a3 a4 a5 a6 a7 a8 = (fun _ => 1#1)) (i : S2048x2048.Idx) :
    a1 i = 0 ∨ a1 i = 1 := by
  have h0 := congrFun h ValueIdx.ix0
  dsimp only [fn, fn_part1, fn_part2] at h0
  have h1 := (IntOp.andi_eq_one.1 h0).2
  have h2 := Host.reduce_andi_all _ _ _ _ _ h1 i
  rcases IntOp.ori_eq_one.1 h2 with hc | hc
  · left
    have hc' : Ideal.cmp .oeq (a1 i) (Ideal.ofBits .f32 0x00000000#32) = 1#1 := hc
    rw [eq_of_cmp_oeq hc', Ideal.ofBits_zero_f32]
  · right
    have hc' : Ideal.cmp .oeq (a1 i) (Ideal.ofBits .f32 0x3F800000#32) = 1#1 := hc
    rw [eq_of_cmp_oeq hc', Ideal.ofBits_one_f32]

end Cert.PreBinary
-- ==== Proof.Algebraic.lean ====
/-
  The fifth conjunct: the idealized kernel and the idealized reference, run from memories that agree on the nine
  arguments, end with equal results.

  The kernel's run ends with its result buffer holding the last boundary's contents of the fold through its host
  stretches and three regions; the reference's run ends with its result at the last stage of its operations applied to
  its own arguments, which are the kernel's.  Under the precondition every entry of the adjacency matrix is 0 or 1,
  and then the two arrays are equal entry by entry.
-/
import proofs.«121678_j3599182594335_2_alg».proof.Defs
import proofs.«121678_j3599182594335_2_alg».proof.Proof.BridgeEdge
import proofs.«121678_j3599182594335_2_alg».proof.Proof.RunArgs
import proofs.«121678_j3599182594335_2_alg».proof.Proof.ReadP
import proofs.«121678_j3599182594335_2_alg».proof.Proof.PreBinary

set_option maxRecDepth 16384

noncomputable section

namespace Cert.Proof

open Idealize.ShloMosaic Idealize.ShloMosaic.TcCoe Idealize.SL.Sem

theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' hpre hagree
  have hb : ∀ (c : Dev Cert.KernelIdeal.nD) (i : Cert.KernelIdeal.S2048x2048.Idx),
      Cert.Bridge.adjK m c i = 0 ∨ Cert.Bridge.adjK m c i = 1 :=
    fun c i => Cert.PreBinary.binary_of_pre _ _ _ _ _ _ _ _ _ (hpre c) i
  refine ⟨fun c => Cert.KernelIdeal.Fr.W13 m ρ c (Proc.devRef .tc Cert.KernelIdeal.main_v113),
    Cert.KernelIdeal.Fr.run_val (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v135_eq]
  obtain ⟨h0, h1, h2, h3, h4, h5, h6, h7, h8⟩ := hagree c
  rw [h0, h1, h2, h3, h4, h5, h6, h7, h8]
  exact (Cert.Bridge.result_eq m ρ c (hb c)).symm

end Cert.Proof

end
-- ==== Proof.lean ====
/-
  The certificate: a link-prediction head over per-edge structural features, as a kernel program of three regions
  against its plain reference.

  For a graph on 2048 nodes with adjacency matrix A and 262144 candidate edges (u, v), both programs compute five
  structural features per edge — A(u,v), (A A)(u,v), (A B)(u,v), (A B)(v,u), (B B)(u,v), with B the strict two-hop mask
  of A — join them to the product of the endpoints' feature rows, and apply a three-layer perceptron.  The kernel computes
  A A and B in its first region (cutting A A at one half where the reference cuts at zero), A B and B B in its second,
  and the perceptron in its third, with the first layer split into the product part and the zero-padded structural
  part.

  The three frames: each program runs to its end from any memory, faults nowhere and leaves its arguments as launched
  (the kernel through its fold over thirteen segments, at the word level and at the exact reals; the reference through
  its list of host operations).  The idealization rewrote nothing, so it preserves the kernel trivially.  The two
  idealized programs agree under the precondition that every float input is finite and every entry of A is 0 or 1:
  then A A has natural-number entries, the two cuts give one mask, and the split first layer is the joined one.
-/
import proofs.«121678_j3599182594335_2_alg».proof.Defs
import proofs.«121678_j3599182594335_2_alg».proof.Proof.Gen.Kernel
import proofs.«121678_j3599182594335_2_alg».proof.Proof.Gen.Kernel.Skeleton
import proofs.«121678_j3599182594335_2_alg».proof.Proof.Gen.Kernel.Launch
import proofs.«121678_j3599182594335_2_alg».proof.Proof.Gen.Kernel.Regions
import proofs.«121678_j3599182594335_2_alg».proof.Proof.Gen.Kernel.Points
import proofs.«121678_j3599182594335_2_alg».proof.Proof.Gen.KernelIdeal
import proofs.«121678_j3599182594335_2_alg».proof.Proof.Gen.KernelIdeal.Skeleton
import proofs.«121678_j3599182594335_2_alg».proof.Proof.Gen.KernelIdeal.Launch
import proofs.«121678_j3599182594335_2_alg».proof.Proof.Gen.KernelIdeal.Regions
import proofs.«121678_j3599182594335_2_alg».proof.Proof.Gen.KernelIdeal.Points
import proofs.«121678_j3599182594335_2_alg».proof.Proof.Gen.ReferenceIdeal
import proofs.«121678_j3599182594335_2_alg».proof.Proof.Gen.Pre_finite_inputs
import proofs.«121678_j3599182594335_2_alg».proof.Proof.FrameK
import proofs.«121678_j3599182594335_2_alg».proof.Proof.FrameKI
import proofs.«121678_j3599182594335_2_alg».proof.Proof.FrameRef
import proofs.«121678_j3599182594335_2_alg».proof.Proof.Algebraic
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    @Cert.Proof.frameK Cert.Kernel.Gen.facts Cert.Pre_finite_inputs.Gen.facts,
    @Cert.Proof.frameKI Cert.KernelIdeal.Gen.facts Cert.Pre_finite_inputs.Gen.facts,
    @Cert.Proof.frameRef Cert.ReferenceIdeal.Gen.facts Cert.Pre_finite_inputs.Gen.facts,
    trivial,
    @Cert.Proof.algebraic Cert.KernelIdeal.Gen.facts Cert.ReferenceIdeal.Gen.facts Cert.Pre_finite_inputs.Gen.facts⟩

end Cert.Proof

end
